-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v1)) (v2 : (c : Dev Cert.KernelIdeal.nD) → Buf (Elt Ideal) ((c.tc : Thread Cert.KernelIdeal.nD Cert.KernelIdeal.τ).loc Cert.KernelIdeal.main_v0_0)) (v3 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_v0_0) = v2 c
          ∧ r.2.mem ((c.tc : Thread Cert.KernelIdeal.nD Cert.KernelIdeal.τ).loc Cert.KernelIdeal.main_v0_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_v34) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256 : Shape := ⟨2, ![64, 256]⟩
abbrev S64x1024x256 : Shape := ⟨3, ![64, 1024, 256]⟩
abbrev S64x32000 : Shape := ⟨2, ![64, 32000]⟩
abbrev S64x128 : Shape := ⟨2, ![64, 128]⟩
abbrev S32000x64 : Shape := ⟨2, ![32000, 64]⟩
abbrev S256x64 : Shape := ⟨2, ![256, 64]⟩
abbrev S128x32000 : Shape := ⟨2, ![128, 32000]⟩
abbrev S256x32000 : Shape := ⟨2, ![256, 32000]⟩
abbrev S64x512 : Shape := ⟨2, ![64, 512]⟩
abbrev S128x512 : Shape := ⟨2, ![128, 512]⟩
abbrev S128x256 : Shape := ⟨2, ![128, 256]⟩
abbrev S1x1x256 : Shape := ⟨3, ![1, 1, 256]⟩
abbrev S_ : Shape := ⟨0, ![]⟩

class Facts : Prop where
  bcast_S_S64x256 : S_.BroadcastsInDim S64x256 (![] : Fin 0 → Fin S64x256.rank)
  reducesTo_S64x256_S_d0_1 : S64x256.ReducesTo [0, 1] S_
  h_S_ : 0 < S_.numel
  bcast_S_S64x1024x256 : S_.BroadcastsInDim S64x1024x256 (![] : Fin 0 → Fin S64x1024x256.rank)
  reducesTo_S64x1024x256_S_d0_1_2 : S64x1024x256.ReducesTo [0, 1, 2] S_
  bcast_S_S64x32000 : S_.BroadcastsInDim S64x32000 (![] : Fin 0 → Fin S64x32000.rank)
  reducesTo_S64x32000_S_d0_1 : S64x32000.ReducesTo [0, 1] S_
  bcast_S_S64x128 : S_.BroadcastsInDim S64x128 (![] : Fin 0 → Fin S64x128.rank)
  reducesTo_S64x128_S_d0_1 : S64x128.ReducesTo [0, 1] S_
  bcast_S_S32000x64 : S_.BroadcastsInDim S32000x64 (![] : Fin 0 → Fin S32000x64.rank)
  reducesTo_S32000x64_S_d0_1 : S32000x64.ReducesTo [0, 1] S_
  bcast_S_S256x64 : S_.BroadcastsInDim S256x64 (![] : Fin 0 → Fin S256x64.rank)
  reducesTo_S256x64_S_d0_1 : S256x64.ReducesTo [0, 1] S_
  bcast_S_S128x32000 : S_.BroadcastsInDim S128x32000 (![] : Fin 0 → Fin S128x32000.rank)
  reducesTo_S128x32000_S_d0_1 : S128x32000.ReducesTo [0, 1] S_
  bcast_S_S256x32000 : S_.BroadcastsInDim S256x32000 (![] : Fin 0 → Fin S256x32000.rank)
  reducesTo_S256x32000_S_d0_1 : S256x32000.ReducesTo [0, 1] S_
  bcast_S_S64x512 : S_.BroadcastsInDim S64x512 (![] : Fin 0 → Fin S64x512.rank)
  reducesTo_S64x512_S_d0_1 : S64x512.ReducesTo [0, 1] S_
  bcast_S_S128x512 : S_.BroadcastsInDim S128x512 (![] : Fin 0 → Fin S128x512.rank)
  reducesTo_S128x512_S_d0_1 : S128x512.ReducesTo [0, 1] S_
  bcast_S_S128x256 : S_.BroadcastsInDim S128x256 (![] : Fin 0 → Fin S128x256.rank)
  reducesTo_S128x256_S_d0_1 : S128x256.ReducesTo [0, 1] S_
  bcast_S_S1x1x256 : S_.BroadcastsInDim S1x1x256 (![] : Fin 0 → Fin S1x1x256.rank)
  reducesTo_S1x1x256_S_d0_1_2 : S1x1x256.ReducesTo [0, 1, 2] S_

variable [Facts]

def fn_part3 {F : FTy → Type} [FloatOps F] (main_arg11 : FVec F S128x256 .f32) (main_arg12 : FVec F S1x1x256 .f32) (main_v48 : IVec S_ 1) (main_v49 : FVec F S128x512 .f32) (main_v50 : FVec F S128x512 .f32) : IVec S_ 1 :=
  let main_v51 : IVec S128x512 1 := cmpf .olt main_v49 main_v50
  let main_c_19 : IVec S_ 1 := constantI S_ 1 1#1
  let main_v52 : IVec S_ 1 := (fun x v => Host.reduce IntOp.andi x v reducesTo_S128x512_S_d0_1 h_S_) main_v51 main_c_19
  let main_v53 : IVec S_ 1 := andi main_v48 main_v52
  let main_v54 : FVec F S128x256 .f32 := Host.absf main_arg11
  let main_cst_20 : FVec F S_ .f32 := constant S_ .f32 0x7F800000#32
  let main_v55 : FVec F S128x256 .f32 := broadcastInDim S128x256 ![] bcast_S_S128x256 main_cst_20
  let main_v56 : IVec S128x256 1 := cmpf .olt main_v54 main_v55
  let main_c_21 : IVec S_ 1 := constantI S_ 1 1#1
  let main_v57 : IVec S_ 1 := (fun x v => Host.reduce IntOp.andi x v reducesTo_S128x256_S_d0_1 h_S_) main_v56 main_c_21
  let main_v58 : IVec S_ 1 := andi main_v53 main_v57
  let main_v59 : FVec F S1x1x256 .f32 := Host.absf main_arg12
  let main_cst_22 : FVec F S_ .f32 := constant S_ .f32 0x7F800000#32
  let main_v60 : FVec F S1x1x256 .f32 := broadcastInDim S1x1x256 ![] bcast_S_S1x1x256 main_cst_22
  let main_v61 : IVec S1x1x256 1 := cmpf .olt main_v59 main_v60
  let main_c_23 : IVec S_ 1 := constantI S_ 1 1#1
  let main_v62 : IVec S_ 1 := (fun x v => Host.reduce IntOp.andi x v reducesTo_S1x1x256_S_d0_1_2 h_S_) main_v61 main_c_23
  let main_v63 : IVec S_ 1 := andi main_v58 main_v62
  main_v63

def fn_part2 {F : FTy → Type} [FloatOps F] (main_arg7 : FVec F S128x32000 .f32) (main_arg8 : FVec F S256x32000 .f32) (main_arg9 : FVec F S64x512 .f32) (main_arg10 : FVec F S128x512 .f32) (main_arg11 : FVec F S128x256 .f32) (main_arg12 : FVec F S1x1x256 .f32) (main_v33 : IVec S_ 1) : IVec S_ 1 :=
  let main_v34 : FVec F S128x32000 .f32 := Host.absf main_arg7
  let main_cst_12 : FVec F S_ .f32 := constant S_ .f32 0x7F800000#32
  let main_v35 : FVec F S128x32000 .f32 := broadcastInDim S128x32000 ![] bcast_S_S128x32000 main_cst_12
  let main_v36 : IVec S128x32000 1 := cmpf .olt main_v34 main_v35
  let main_c_13 : IVec S_ 1 := constantI S_ 1 1#1
  let main_v37 : IVec S_ 1 := (fun x v => Host.reduce IntOp.andi x v reducesTo_S128x32000_S_d0_1 h_S_) main_v36 main_c_13
  let main_v38 : IVec S_ 1 := andi main_v33 main_v37
  let main_v39 : FVec F S256x32000 .f32 := Host.absf main_arg8
  let main_cst_14 : FVec F S_ .f32 := constant S_ .f32 0x7F800000#32
  let main_v40 : FVec F S256x32000 .f32 := broadcastInDim S256x32000 ![] bcast_S_S256x32000 main_cst_14
  let main_v41 : IVec S256x32000 1 := cmpf .olt main_v39 main_v40
  let main_c_15 : IVec S_ 1 := constantI S_ 1 1#1
  let main_v42 : IVec S_ 1 := (fun x v => Host.reduce IntOp.andi x v reducesTo_S256x32000_S_d0_1 h_S_) main_v41 main_c_15
  let main_v43 : IVec S_ 1 := andi main_v38 main_v42
  let main_v44 : FVec F S64x512 .f32 := Host.absf main_arg9
  let main_cst_16 : FVec F S_ .f32 := constant S_ .f32 0x7F800000#32
  let main_v45 : FVec F S64x512 .f32 := broadcastInDim S64x512 ![] bcast_S_S64x512 main_cst_16
  let main_v46 : IVec S64x512 1 := cmpf .olt main_v44 main_v45
  let main_c_17 : IVec S_ 1 := constantI S_ 1 1#1
  let main_v47 : IVec S_ 1 := (fun x v => Host.reduce IntOp.andi x v reducesTo_S64x512_S_d0_1 h_S_) main_v46 main_c_17
  let main_v48 : IVec S_ 1 := andi main_v43 main_v47
  let main_v49 : FVec F S128x512 .f32 := Host.absf main_arg10
  let main_cst_18 : FVec F S_ .f32 := constant S_ .f32 0x7F800000#32
  let main_v50 : FVec F S128x512 .f32 := broadcastInDim S128x512 ![] bcast_S_S128x512 main_cst_18
  fn_part3 (F := F) main_arg11 main_arg12 main_v48 main_v49 main_v50

def fn_part1 {F : FTy → Type} [FloatOps F] (main_arg4 : FVec F S64x128 .f32) (main_arg5 : FVec F S32000x64 .f32) (main_arg6 : FVec F S256x64 .f32) (main_arg7 : FVec F S128x32000 .f32) (main_arg8 : FVec F S256x32000 .f32) (main_arg9 : FVec F S64x512 .f32) (main_arg10 : FVec F S128x512 .f32) (main_arg11 : FVec F S128x256 .f32) (main_arg12 : FVec F S1x1x256 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S32000x64 .f32 := Host.absf main_arg5
  let main_cst_8 : FVec F S_ .f32 := constant S_ .f32 0x7F800000#32
  let main_v25 : FVec F S32000x64 .f32 := broadcastInDim S32000x64 ![] bcast_S_S32000x64 main_cst_8
  let main_v26 : IVec S32000x64 1 := cmpf .olt main_v24 main_v25
  let main_c_9 : IVec S_ 1 := constantI S_ 1 1#1
  let main_v27 : IVec S_ 1 := (fun x v => Host.reduce IntOp.andi x v reducesTo_S32000x64_S_d0_1 h_S_) main_v26 main_c_9
  let main_v28 : IVec S_ 1 := andi main_v23 main_v27
  let main_v29 : FVec F S256x64 .f32 := Host.absf main_arg6
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S64x256 .f32) (main_arg1 : FVec F S64x1024x256 .f32) (main_arg2 : FVec F S64x32000 .f32) (main_arg3 : FVec F S64x128 .f32) (main_arg4 : FVec F S64x128 .f32) (main_arg5 : FVec F S32000x64 .f32) (main_arg6 : FVec F S256x64 .f32) (main_arg7 : FVec F S128x32000 .f32) (main_arg8 : FVec F S256x32000 .f32) (main_arg9 : FVec F S64x512 .f32) (main_arg10 : FVec F S128x512 .f32) (main_arg11 : FVec F S128x256 .f32) (main_arg12 : FVec F S1x1x256 .f32) : IVec S_ 1 :=
  let main_v0 : FVec F S64x256 .f32 := Host.absf main_arg0
  let main_cst : FVec F S_ .f32 := constant S_ .f32 0x7F800000#32
  let main_v1 : FVec F S64x256 .f32 := broadcastInDim S64x256 ![] bcast_S_S64x256 main_cst
  let main_v2 : IVec S64x256 1 := cmpf .olt main_v0 main_v1
  let main_c : IVec S_ 1 := constantI S_ 1 1#1
  let main_v3 : IVec S_ 1 := (fun x v => Host.reduce IntOp.andi x v reducesTo_S64x256_S_d0_1 h_S_) main_v2 main_c
  let main_v4 : FVec F S64x1024x256 .f32 := Host.absf main_arg1
  let main_cst_0 : FVec F S_ .f32 := constant S_ .f32 0x7F800000#32
  let main_v5 : FVec F S64x1024x256 .f32 := broadcastInDim S64x1024x256 ![] bcast_S_S64x1024x256 main_cst_0
  let main_v6 : IVec S64x1024x256 1 := cmpf .olt main_v4 main_v5
  let main_c_1 : IVec S_ 1 := constantI S_ 1 1#1
  let main_v7 : IVec S_ 1 := (fun x v => Host.reduce IntOp.andi x v reducesTo_S64x1024x256_S_d0_1_2 h_S_) main_v6 main_c_1
  let main_v8 : IVec S_ 1 := andi main_v3 main_v7
  let main_v9 : FVec F S64x32000 .f32 := Host.absf main_arg2
  let main_cst_2 : FVec F S_ .f32 := constant S_ .f32 0x7F800000#32
  let main_v10 : FVec F S64x32000 .f32 := broadcastInDim S64x32000 ![] bcast_S_S64x32000 main_cst_2
  let main_v11 : IVec S64x32000 1 := cmpf .olt main_v9 main_v10
  let main_c_3 : IVec S_ 1 := constantI S_ 1 1#1
  let main_v12 : IVec S_ 1 := (fun x v => Host.reduce IntOp.andi x v reducesTo_S64x32000_S_d0_1 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg4 main_arg5 main_arg6 main_arg7 main_arg8 main_arg9 main_arg10 main_arg11 main_arg12 main_v13 main_v16
-- ==== Kernel.lean ====
abbrev S64x256 : Shape := ⟨2, ![64, 256]⟩
abbrev S64x1024x256 : Shape := ⟨3, ![64, 1024, 256]⟩
abbrev S64x32000 : Shape := ⟨2, ![64, 32000]⟩
abbrev S64x128 : Shape := ⟨2, ![64, 128]⟩
abbrev S32000x64 : Shape := ⟨2, ![32000, 64]⟩
abbrev S256x64 : Shape := ⟨2, ![256, 64]⟩
abbrev S128x32000 : Shape := ⟨2, ![128, 32000]⟩
abbrev S256x32000 : Shape := ⟨2, ![256, 32000]⟩
abbrev S64x512 : Shape := ⟨2, ![64, 512]⟩
abbrev S128x512 : Shape := ⟨2, ![128, 512]⟩
abbrev S128x256 : Shape := ⟨2, ![128, 256]⟩
abbrev S1x1x256 : Shape := ⟨3, ![1, 1, 256]⟩
abbrev S64x6400 : Shape := ⟨2, ![64, 6400]⟩
abbrev S6400x64 : Shape := ⟨2, ![6400, 64]⟩
abbrev S64x64 : Shape := ⟨2, ![64, 64]⟩
abbrev S32x128x256 : Shape := ⟨3, ![32, 128, 256]⟩
abbrev S32x128 : Shape := ⟨2, ![32, 128]⟩
abbrev S32x256 : Shape := ⟨2, ![32, 256]⟩
abbrev S32x1x256 : Shape := ⟨3, ![32, 1, 256]⟩
abbrev S2x64x1 : Shape := ⟨3, ![2, 64, 1]⟩
abbrev S128x3200 : Shape := ⟨2, ![128, 3200]⟩
abbrev S256x3200 : Shape := ⟨2, ![256, 3200]⟩
abbrev S64x3200 : Shape := ⟨2, ![64, 3200]⟩
abbrev S1x64x1 : Shape := ⟨3, ![1, 64, 1]⟩
abbrev S64x1 : Shape := ⟨2, ![64, 1]⟩
abbrev S64 : Shape := ⟨1, ![64]⟩

abbrev nBuf : Space → Nat
  | .hbm => 24
  | .vmem => 39
  | .smem => 0
  | _ => 0

abbrev bufTy : (tb : Table) → Fin (tcTables nBuf tb) → BufTy
  | .hbm, ⟨0, _⟩ => ⟨S64x256, .f32⟩
  | .hbm, ⟨1, _⟩ => ⟨S64x1024x256, .f32⟩
  | .hbm, ⟨2, _⟩ => ⟨S64x32000, .f32⟩
  | .hbm, ⟨3, _⟩ => ⟨S64x128, .f32⟩
  | .hbm, ⟨4, _⟩ => ⟨S64x128, .f32⟩
  | .hbm, ⟨5, _⟩ => ⟨S32000x64, .f32⟩
  | .hbm, ⟨6, _⟩ => ⟨S256x64, .f32⟩
  | .hbm, ⟨7, _⟩ => ⟨S128x32000, .f32⟩
  | .hbm, ⟨8, _⟩ => ⟨S256x32000, .f32⟩
  | .hbm, ⟨9, _⟩ => ⟨S64x512, .f32⟩
  | .hbm, ⟨10, _⟩ => ⟨S128x512, .f32⟩
  | .hbm, ⟨11, _⟩ => ⟨S128x256, .f32⟩
  | .hbm, ⟨12, _⟩ => ⟨S1x1x256, .f32⟩
  | .hbm, ⟨13, _⟩ => ⟨S64x128, .f32⟩
  | .hbm, ⟨14, _⟩ => ⟨S64x128, .f32⟩
  | .hbm, ⟨15, _⟩ => ⟨S64x256, .f32⟩
  | .hbm, ⟨16, _⟩ => ⟨S64x32000, .f32⟩
  | .hbm, ⟨17, _⟩ => ⟨S2x64x1, .f32⟩
  | .hbm, ⟨18, _⟩ => ⟨S1x64x1, .f32⟩
  | .hbm, ⟨19, _⟩ => ⟨S64x1, .f32⟩
  | .hbm, ⟨20, _⟩ => ⟨S1x64x1, .f32⟩
  | .hbm, ⟨21, _⟩ => ⟨S64x1, .f32⟩
  | .hbm, ⟨22, _⟩ => ⟨S64x1, .f32⟩
  | .hbm, ⟨23, _⟩ => ⟨S64x32000, .f32⟩
  | .local _ .vmem, ⟨0, _⟩ => ⟨S64x6400, .f32⟩
  | .local _ .vmem, ⟨1, _⟩ => ⟨S64x6400, .f32⟩
  | .local _ .vmem, ⟨2, _⟩ => ⟨S6400x64, .f32⟩
  | .local _ .vmem, ⟨3, _⟩ => ⟨S6400x64, .f32⟩
  | .local _ .vmem, ⟨4, _⟩ => ⟨S64x256, .f32⟩
  | .local _ .vmem, ⟨5, _⟩ => ⟨S256x64, .f32⟩
  | .local _ .vmem, ⟨6, _⟩ => ⟨S64x128, .f32⟩
  | .local _ .vmem, ⟨7, _⟩ => ⟨S64x128, .f32⟩
  | .local _ .vmem, ⟨8, _⟩ => ⟨S64x512, .f32⟩
  | .local _ .vmem, ⟨9, _⟩ => ⟨S128x512, .f32⟩
  | .local _ .vmem, ⟨10, _⟩ => ⟨S64x128, .f32⟩
  | .local _ .vmem, ⟨11, _⟩ => ⟨S64x128, .f32⟩
  | .local _ .vmem, ⟨12, _⟩ => ⟨S64x64, .f32⟩
  | .local _ .vmem, ⟨13, _⟩ => ⟨S32x128x256, .f32⟩
  | .local _ .vmem, ⟨14, _⟩ => ⟨S32x128x256, .f32⟩
  | .local _ .vmem, ⟨15, _⟩ => ⟨S32x128, .f32⟩
  | .local _ .vmem, ⟨16, _⟩ => ⟨S32x128, .f32⟩
  | .local _ .vmem, ⟨17, _⟩ => ⟨S128x256, .f32⟩
  | .local _ .vmem, ⟨18, _⟩ => ⟨S1x1x256, .f32⟩
  | .local _ .vmem, ⟨19, _⟩ => ⟨S32x256, .f32⟩
  | .local _ .vmem, ⟨20, _⟩ => ⟨S32x256, .f32⟩
  | .local _ .vmem, ⟨21, _⟩ => ⟨S32x256, .f32⟩
  | .local _ .vmem, ⟨22, _⟩ => ⟨S32x256, .f32⟩
  | .local _ .vmem, ⟨23, _⟩ => ⟨S64x128, .f32⟩
  | .local _ .vmem, ⟨24, _⟩ => ⟨S64x256, .f32⟩
  | .local _ .vmem, ⟨25, _⟩ => ⟨S128x3200, .f32⟩
  | .local _ .vmem, ⟨26, _⟩ => ⟨S128x3200, .f32⟩
  | .local _ .vmem, ⟨27, _⟩ => ⟨S256x3200, .f32⟩
  | .local _ .vmem, ⟨28, _⟩ => ⟨S256x3200, .f32⟩
  | .local _ .vmem, ⟨29, _⟩ => ⟨S64x3200, .f32⟩
  | .local _ .vmem, ⟨30, _⟩ => ⟨S64x3200, .f32⟩
  | .local _ .vmem, ⟨31, _⟩ => ⟨S1x64x1, .f32⟩
  | .local _ .vmem, ⟨32, _⟩ => ⟨S1x64x1, .f32⟩
  | .local _ .vmem, ⟨33, _⟩ => ⟨S64x1, .f32⟩
  | .local _ .vmem, ⟨34, _⟩ => ⟨S64x6400, .f32⟩
  | .local _ .vmem, ⟨35, _⟩ => ⟨S64x6400, .f32⟩
  | .local _ .vmem, ⟨36, _⟩ => ⟨S64x1, .f32⟩
  | .local _ .vmem, ⟨37, _⟩ => ⟨S64x6400, .f32⟩
  | .local _ .vmem, ⟨38, _⟩ => ⟨S64x6400, .f32⟩
  | _, _ => ⟨S64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v1 : Ref sig .tc := ⟨.hbm, 15, rfl⟩
abbrev main_v2_0 : Ref sig .tc := ⟨.hbm, 16, rfl⟩
abbrev main_v2_1 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg4_1 : Ref sig .tc := ⟨.vmem, 20, rfl⟩
abbrev cc1_scratch0 : Ref sig .tc := ⟨.vmem, 21, rfl⟩
abbrev cc1_scratch1 : Ref sig .tc := ⟨.vmem, 22, rfl⟩
abbrev cc2_stg0_0 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg4_1 : Ref sig .tc := ⟨.vmem, 30, rfl⟩
abbrev cc2_stg5_0 : Ref sig .tc := ⟨.vmem, 31, rfl⟩
abbrev cc2_stg5_1 : Ref sig .tc := ⟨.vmem, 32, rfl⟩
abbrev cc2_scratch0 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg2_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem4_1 : DmaSem sig := 19
abbrev cc2_sem0_0 : DmaSem sig := 20
abbrev cc2_sem1_0 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem2_1 : DmaSem sig := 34

abbrev nD : Nat := 1
abbrev τ : Topo := Topo.v7x

variable {F : FTy → Type} [FloatOps F]

abbrev grid0 : Pipeline.Grid := ⟨1, ![5], ![false]⟩

def k0_cond2 (i : grid0.Coords) : BitVec 1 :=
  let arg0 : BitVec 32 := BitVec.ofNat 32 (i 0).val
  let c4_i32 : BitVec 32 := 4#32
  let v13 : BitVec 1 := Scalar.cmpi .eq arg0 c4_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x6400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨2, ![2, 8], ![false, false]⟩

def k1_cond2 (i : grid1.Coords) : BitVec 1 :=
  let arg1 : BitVec 32 := BitVec.ofNat 32 (i 1).val
  let c7_i32 : BitVec 32 := 7#32
  let v31 : BitVec 1 := Scalar.cmpi .eq arg1 c7_i32
  let v32 : BitVec 32 := Scalar.extui v31
  let c0_i32_20 : BitVec 32 := 0#32
  let v33 : BitVec 1 := Scalar.cmpi .ne v32 c0_i32_20
  v33

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S32x128x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S32x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S32x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![2, 5], ![false, false]⟩

def k2_cond2 (i : grid2.Coords) : BitVec 1 :=
  let arg1 : BitVec 32 := BitVec.ofNat 32 (i 1).val
  let c4_i32 : BitVec 32 := 4#32
  let v25 : BitVec 1 := Scalar.cmpi .eq arg1 c4_i32
  let v26 : BitVec 32 := Scalar.extui v25
  let c0_i32_16 : BitVec 32 := 0#32
  let v27 : BitVec 1 := Scalar.cmpi .ne v26 c0_i32_16
  v27

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![c0_i32.toNat, v1.toNat]

def cc2_transform_3 (i : grid2.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![c0_i32.toNat, v1.toNat]

def cc2_transform_4 (i : grid2.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![c0_i32.toNat, v1.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 1 → Memref sig .tc .vmem S64x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 1 → Memref sig .tc .vmem S64x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S128x3200 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S256x3200 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S64x3200 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x64x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S64x6400 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S64x6400 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x6400_S64x6400_0_0 : ∀ a, (![0, 0] : Fin 2 → Nat) a + S64x6400.size a ≤ S64x6400.size a
  h_S64x6400 : 0 < S64x6400.numel
  bitsLt_bf16_f32 : FTy.bits .bf16 < FTy.bits .f32
  inb_S6400x64_S6400x64_0_0 : ∀ a, (![0, 0] : Fin 2 → Nat) a + S6400x64.size a ≤ S6400x64.size a
  h_S6400x64 : 0 < S6400x64.numel
  inb_S64x256_S64x256_0_0 : ∀ a, (![0, 0] : Fin 2 → Nat) a + S64x256.size a ≤ S64x256.size a
  h_S64x256 : 0 < S64x256.numel
  inb_S256x64_S256x64_0_0 : ∀ a, (![0, 0] : Fin 2 → Nat) a + S256x64.size a ≤ S256x64.size a
  h_S256x64 : 0 < S256x64.numel
  inb_S64x512_S64x512_0_0 : ∀ a, (![0, 0] : Fin 2 → Nat) a + S64x512.size a ≤ S64x512.size a
  h_S64x512 : 0 < S64x512.numel
  inb_S64x128_S64x128_0_0 : ∀ a, (![0, 0] : Fin 2 → Nat) a + S64x128.size a ≤ S64x128.size a
  h_S64x128 : 0 < S64x128.numel
  inb_S128x512_S128x512_0_0 : ∀ a, (![0, 0] : Fin 2 → Nat) a + S128x512.size a ≤ S128x512.size a
  h_S128x512 : 0 < S128x512.numel
  slices_S64x512_o0_0_S64x128 : S64x512.Slices ![0, 0] S64x128
  slices_S64x512_o0_128_S64x128 : S64x512.Slices ![0, 128] S64x128
  slices_S64x512_o0_256_S64x128 : S64x512.Slices ![0, 256] S64x128
  slices_S64x512_o0_384_S64x128 : S64x512.Slices ![0, 384] S64x128
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S128x256_S128x256_0_0 : ∀ a, (![0, 0] : Fin 2 → Nat) a + S128x256.size a ≤ S128x256.size a
  h_S128x256 : 0 < S128x256.numel
  shapeCasts_S32x256_S32x1x256 : S32x256.ShapeCasts S32x1x256
  inb_S32x128x256_S32x128x256_0_0_0 : ∀ a, (![0, 0, 0] : Fin 3 → Nat) a + S32x128x256.size a ≤ S32x128x256.size a
  h_S32x128x256 : 0 < S32x128x256.numel
  inb_S1x1x256_S1x1x256_0_0_0 : ∀ a, (![0, 0, 0] : Fin 3 → Nat) a + S1x1x256.size a ≤ S1x1x256.size a
  h_S1x1x256 : 0 < S1x1x256.numel
  broadcasts_S32x1x256_S32x128x256 : S32x1x256.Broadcasts S32x128x256
  broadcasts_S1x1x256_S32x128x256 : S1x1x256.Broadcasts S32x128x256
  reduces_S32x128x256_S32x256 : S32x128x256.Reduces [1] S32x256
  inb_S64x1_S64x1_0_0 : ∀ a, (![0, 0] : Fin 2 → Nat) a + S64x1.size a ≤ S64x1.size a
  h_S64x1 : 0 < S64x1.numel
  shapeCasts_S64x1_S64x1 : S64x1.ShapeCasts S64x1
  shapeCasts_S64x128_S64x128 : S64x128.ShapeCasts S64x128
  inb_S128x3200_S128x3200_0_0 : ∀ a, (![0, 0] : Fin 2 → Nat) a + S128x3200.size a ≤ S128x3200.size a
  h_S128x3200 : 0 < S128x3200.numel
  shapeCasts_S64x256_S64x256 : S64x256.ShapeCasts S64x256
  inb_S256x3200_S256x3200_0_0 : ∀ a, (![0, 0] : Fin 2 → Nat) a + S256x3200.size a ≤ S256x3200.size a
  h_S256x3200 : 0 < S256x3200.numel
  inb_S64x3200_S64x3200_0_0 : ∀ a, (![0, 0] : Fin 2 → Nat) a + S64x3200.size a ≤ S64x3200.size a
  h_S64x3200 : 0 < S64x3200.numel
  reduces_S64x3200_S64 : S64x3200.Reduces [1] S64
  shapeCasts_S64_S64x1 : S64.ShapeCasts S64x1
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  slices_S2x64x1_S1x64x1_0_0_0 : S2x64x1.Slices ![0, 0, 0] S1x64x1
  slices_S2x64x1_S1x64x1_1_0_0 : S2x64x1.Slices ![1, 0, 0] S1x64x1
  shapeCasts_S64x6400_S64x6400 : S64x6400.ShapeCasts S64x6400
  broadcasts_S64x1_S64x6400 : S64x1.Broadcasts S64x6400
  dot_S64x6400_S6400x64_S64x64_1_0_0_1_n_n_wf : DotDims.WF S64x6400 S6400x64 S64x64 [1] [0] [0] [1] [] []
  dot_S64x256_S256x64_S64x64_1_0_0_1_n_n_wf : DotDims.WF S64x256 S256x64 S64x64 [1] [0] [0] [1] [] []
  dot_S64x64_S64x512_S64x512_1_0_0_1_n_n_wf : DotDims.WF S64x64 S64x512 S64x512 [1] [0] [0] [1] [] []
  dot_S64x128_S128x512_S64x512_1_0_0_1_n_n_wf : DotDims.WF S64x128 S128x512 S64x512 [1] [0] [0] [1] [] []
  dot_S32x128_S128x256_S32x256_1_0_0_1_n_n_wf : DotDims.WF S32x128 S128x256 S32x256 [1] [0] [0] [1] [] []
  dot_S64x128_S128x3200_S64x3200_1_0_0_1_n_n_wf : DotDims.WF S64x128 S128x3200 S64x3200 [1] [0] [0] [1] [] []
  dot_S64x256_S256x3200_S64x3200_1_0_0_1_n_n_wf : DotDims.WF S64x256 S256x3200 S64x3200 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x6400.size a ≤ S64x32000.size a
  hwx0_0 : ∀ i : grid0.Coords, EltTy.bits .f32 = 32 ∨ (Rect.block (s := S64x32000) S64x6400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x64.size a ≤ S32000x64.size a
  hwx0_1 : ∀ i : grid0.Coords, EltTy.bits .f32 = 32 ∨ (Rect.block (s := S32000x64) S6400x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .f32 = 32 ∨ (Rect.block (s := S256x64) S256x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x512.size a ≤ S64x512.size a
  hwx0_6 : ∀ i : grid0.Coords, EltTy.bits .f32 = 32 ∨ (Rect.block (s := S64x512) S64x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x512.size a ≤ S128x512.size a
  hwx0_7 : ∀ i : grid0.Coords, EltTy.bits .f32 = 32 ∨ (Rect.block (s := S128x512) S128x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x128.size a ≤ S64x128.size a
  hwx0_8 : ∀ i : grid0.Coords, EltTy.bits .f32 = 32 ∨ (Rect.block (s := S64x128) S64x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x128.size a ≤ S64x128.size a
  hwx0_9 : ∀ i : grid0.Coords, EltTy.bits .f32 = 32 ∨ (Rect.block (s := S64x128) S64x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x128x256.size a ≤ S64x1024x256.size a
  hwx1_0 : ∀ i : grid1.Coords, EltTy.bits .f32 = 32 ∨ (Rect.block (s := S64x1024x256) S32x128x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x128.size a ≤ S64x128.size a
  hwx1_1 : ∀ i : grid1.Coords, EltTy.bits .f32 = 32 ∨ (Rect.block (s := S64x128) S32x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1x256.size a ≤ S1x1x256.size a
  hwx1_3 : ∀ i : grid1.Coords, EltTy.bits .f32 = 32 ∨ (Rect.block (s := S1x1x256) S1x1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S32x256.size a ≤ S64x256.size a
  hwx1_4 : ∀ i : grid1.Coords, EltTy.bits .f32 = 32 ∨ (Rect.block (s := S64x256) S32x256.size (cc1_transform_4 i) (hinb1_4 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S64x128.size a ≤ S64x128.size a
  hwx2_0 : ∀ i : grid2.Coords, EltTy.bits .f32 = 32 ∨ (Rect.block (s := S64x128) S64x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x256.size a ≤ S64x256.size a
  hwx2_1 : ∀ i : grid2.Coords, EltTy.bits .f32 = 32 ∨ (Rect.block (s := S64x256) S64x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S128x3200.size a ≤ S128x32000.size a
  hwx2_2 : ∀ i : grid2.Coords, EltTy.bits .f32 = 32 ∨ (Rect.block (s := S128x32000) S128x3200.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x3200.size a ≤ S256x32000.size a
  hwx2_3 : ∀ i : grid2.Coords, EltTy.bits .f32 = 32 ∨ (Rect.block (s := S256x32000) S256x3200.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S64x3200.size a ≤ S64x32000.size a
  hwx2_4 : ∀ i : grid2.Coords, EltTy.bits .f32 = 32 ∨ (Rect.block (s := S64x32000) S64x3200.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x64x1.size a ≤ S2x64x1.size a
  hwx2_5 : ∀ i : grid2.Coords, EltTy.bits .f32 = 32 ∨ (Rect.block (s := S2x64x1) S1x64x1.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S64x6400.size a ≤ S64x32000.size a
  hwx3_0 : ∀ i : grid3.Coords, EltTy.bits .f32 = 32 ∨ (Rect.block (s := S64x32000) S64x6400.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x1.size a ≤ S64x1.size a
  hwx3_1 : ∀ i : grid3.Coords, EltTy.bits .f32 = 32 ∨ (Rect.block (s := S64x1) S64x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S64x6400.size a ≤ S64x32000.size a
  hwx3_2 : ∀ i : grid3.Coords, EltTy.bits .f32 = 32 ∨ (Rect.block (s := S64x32000) S64x6400.size (cc3_transform_2 i) (hinb3_2 i)).WholeWords (EltTy.packing .f32)

variable [Facts₀]

def dot_S64x6400_S6400x64_S64x64_1_0_0_1_n_n : DotDims S64x6400 S6400x64 S64x64 where
  lhsContracting := [1]
  rhsContracting := [0]
  lhsNonContracting := [0]
  rhsNonContracting := [1]
  lhsBatch := []
  rhsBatch := []
  wf := dot_S64x6400_S6400x64_S64x64_1_0_0_1_n_n_wf
def dot_S64x256_S256x64_S64x64_1_0_0_1_n_n : DotDims S64x256 S256x64 S64x64 where
  lhsContracting := [1]
  rhsContracting := [0]
  lhsNonContracting := [0]
  rhsNonContracting := [1]
  lhsBatch := []
  rhsBatch := []
  wf := dot_S64x256_S256x64_S64x64_1_0_0_1_n_n_wf
def dot_S64x64_S64x512_S64x512_1_0_0_1_n_n : DotDims S64x64 S64x512 S64x512 where
  lhsContracting := [1]
  rhsContracting := [0]
  lhsNonContracting := [0]
  rhsNonContracting := [1]
  lhsBatch := []
  rhsBatch := []
  wf := dot_S64x64_S64x512_S64x512_1_0_0_1_n_n_wf
def dot_S64x128_S128x512_S64x512_1_0_0_1_n_n : DotDims S64x128 S128x512 S64x512 where
  lhsContracting := [1]
  rhsContracting := [0]
  lhsNonContracting := [0]
  rhsNonContracting := [1]
  lhsBatch := []
  rhsBatch := []
  wf := dot_S64x128_S128x512_S64x512_1_0_0_1_n_n_wf
def dot_S32x128_S128x256_S32x256_1_0_0_1_n_n : DotDims S32x128 S128x256 S32x256 where
  lhsContracting := [1]
  rhsContracting := [0]
  lhsNonContracting := [0]
  rhsNonContracting := [1]
  lhsBatch := []
  rhsBatch := []
  wf := dot_S32x128_S128x256_S32x256_1_0_0_1_n_n_wf
def dot_S64x128_S128x3200_S64x3200_1_0_0_1_n_n : DotDims S64x128 S128x3200 S64x3200 where
  lhsContracting := [1]
  rhsContracting := [0]
  lhsNonContracting := [0]
  rhsNonContracting := [1]
  lhsBatch := []
  rhsBatch := []
  wf := dot_S64x128_S128x3200_S64x3200_1_0_0_1_n_n_wf
def dot_S64x256_S256x3200_S64x3200_1_0_0_1_n_n : DotDims S64x256 S256x3200 S64x3200 where
  lhsContracting := [1]
  rhsContracting := [0]
  lhsNonContracting := [0]
  rhsNonContracting := [1]
  lhsBatch := []
  rhsBatch := []
  wf := dot_S64x256_S256x3200_S64x3200_1_0_0_1_n_n_wf

abbrev win0_0 : Pipeline.Window sig grid0 :=
  Pipeline.Window.ofSpec (Memref.whole main_arg2) S64x6400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S6400x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S64x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S128x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0_0) S64x128.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0_1) S64x128.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | 9 => fun i => !(k0_cond2 i == 1#1) | ⟨_ + 10, h⟩ => absurd h (Nat.not_lt.2 (Nat.le_add_left _ _))

abbrev win1_0 : Pipeline.Window sig grid1 :=
  Pipeline.Window.ofSpec (Memref.whole main_arg1) S32x128x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S32x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S1x1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S32x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v0_0) S64x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v1) S64x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x3200.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S256x3200.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v2_0) S64x3200.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v2_1) S1x64x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

abbrev win3_0 : Pipeline.Window sig grid3 :=
  Pipeline.Window.ofSpec (Memref.whole main_v2_0) S64x6400.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v7) S64x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v8) S64x6400.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S64x256 : Shape := ⟨2, ![64, 256]⟩
abbrev S64x1024x256 : Shape := ⟨3, ![64, 1024, 256]⟩
abbrev S64x32000 : Shape := ⟨2, ![64, 32000]⟩
abbrev S64x128 : Shape := ⟨2, ![64, 128]⟩
abbrev S32000x64 : Shape := ⟨2, ![32000, 64]⟩
abbrev S256x64 : Shape := ⟨2, ![256, 64]⟩
abbrev S128x32000 : Shape := ⟨2, ![128, 32000]⟩
abbrev S256x32000 : Shape := ⟨2, ![256, 32000]⟩
abbrev S64x512 : Shape := ⟨2, ![64, 512]⟩
abbrev S128x512 : Shape := ⟨2, ![128, 512]⟩
abbrev S128x256 : Shape := ⟨2, ![128, 256]⟩
abbrev S1x1x256 : Shape := ⟨3, ![1, 1, 256]⟩
abbrev S64x64 : Shape := ⟨2, ![64, 64]⟩
abbrev S_ : Shape := ⟨0, ![]⟩
abbrev S64x1x256 : Shape := ⟨3, ![64, 1, 256]⟩
abbrev S64 : Shape := ⟨1, ![64]⟩
abbrev S64x1 : Shape := ⟨2, ![64, 1]⟩

abbrev nBuf : Space → Nat
  | .hbm => 102
  | .vmem => 0
  | .smem => 0
  | _ => 0

abbrev bufTy : (tb : Table) → Fin (tcTables nBuf tb) → BufTy
  | .hbm, ⟨0, _⟩ => ⟨S64x256, .f32⟩
  | .hbm, ⟨1, _⟩ => ⟨S64x1024x256, .f32⟩
  | .hbm, ⟨2, _⟩ => ⟨S64x32000, .f32⟩
  | .hbm, ⟨3, _⟩ => ⟨S64x128, .f32⟩
  | .hbm, ⟨4, _⟩ => ⟨S64x128, .f32⟩
  | .hbm, ⟨5, _⟩ => ⟨S32000x64, .f32⟩
  | .hbm, ⟨6, _⟩ => ⟨S256x64, .f32⟩
  | .hbm, ⟨7, _⟩ => ⟨S128x32000, .f32⟩
  | .hbm, ⟨8, _⟩ => ⟨S256x32000, .f32⟩
  | .hbm, ⟨9, _⟩ => ⟨S64x512, .f32⟩
  | .hbm, ⟨10, _⟩ => ⟨S128x512, .f32⟩
  | .hbm, ⟨11, _⟩ => ⟨S128x256, .f32⟩
  | .hbm, ⟨12, _⟩ => ⟨S1x1x256, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x512, .f32⟩
  | .hbm, ⟨17, _⟩ => ⟨S64x512, .f32⟩
  | .hbm, ⟨18, _⟩ => ⟨S64x512, .f32⟩
  | .hbm, ⟨19, _⟩ => ⟨S64x128, .f32⟩
  | .hbm, ⟨20, _⟩ => ⟨S64x128, .f32⟩
  | .hbm, ⟨21, _⟩ => ⟨S64x128, .f32⟩
  | .hbm, ⟨22, _⟩ => ⟨S64x128, .f32⟩
  | .hbm, ⟨23, _⟩ => ⟨S64x128, .f32⟩
  | .hbm, ⟨24, _⟩ => ⟨S64x128, .f32⟩
  | .hbm, ⟨25, _⟩ => ⟨S_, .f32⟩
  | .hbm, ⟨26, _⟩ => ⟨S64x128, .f32⟩
  | .hbm, ⟨27, _⟩ => ⟨S64x128, .f32⟩
  | .hbm, ⟨28, _⟩ => ⟨S_, .f32⟩
  | .hbm, ⟨29, _⟩ => ⟨S64x128, .f32⟩
  | .hbm, ⟨30, _⟩ => ⟨S64x128, .f32⟩
  | .hbm, ⟨31, _⟩ => ⟨S64x128, .f32⟩
  | .hbm, ⟨32, _⟩ => ⟨S64x128, .f32⟩
  | .hbm, ⟨33, _⟩ => ⟨S_, .f32⟩
  | .hbm, ⟨34, _⟩ => ⟨S64x128, .f32⟩
  | .hbm, ⟨35, _⟩ => ⟨S64x128, .f32⟩
  | .hbm, ⟨36, _⟩ => ⟨S_, .f32⟩
  | .hbm, ⟨37, _⟩ => ⟨S64x128, .f32⟩
  | .hbm, ⟨38, _⟩ => ⟨S64x128, .f32⟩
  | .hbm, ⟨39, _⟩ => ⟨S64x128, .f32⟩
  | .hbm, ⟨40, _⟩ => ⟨S64x128, .f32⟩
  | .hbm, ⟨41, _⟩ => ⟨S64x128, .f32⟩
  | .hbm, ⟨42, _⟩ => ⟨S_, .f32⟩
  | .hbm, ⟨43, _⟩ => ⟨S64x128, .f32⟩
  | .hbm, ⟨44, _⟩ => ⟨S64x128, .f32⟩
  | .hbm, ⟨45, _⟩ => ⟨S_, .f32⟩
  | .hbm, ⟨46, _⟩ => ⟨S64x128, .f32⟩
  | .hbm, ⟨47, _⟩ => ⟨S64x128, .f32⟩
  | .hbm, ⟨48, _⟩ => ⟨S64x128, .f32⟩
  | .hbm, ⟨49, _⟩ => ⟨S64x128, .f32⟩
  | .hbm, ⟨50, _⟩ => ⟨S64x128, .f32⟩
  | .hbm, ⟨51, _⟩ => ⟨S64x128, .f32⟩
  | .hbm, ⟨52, _⟩ => ⟨S64x128, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S64x128, .f32⟩
  | .hbm, ⟨57, _⟩ => ⟨S64x128, .f32⟩
  | .hbm, ⟨58, _⟩ => ⟨S_, .f32⟩
  | .hbm, ⟨59, _⟩ => ⟨S64x128, .f32⟩
  | .hbm, ⟨60, _⟩ => ⟨S64x128, .f32⟩
  | .hbm, ⟨61, _⟩ => ⟨S64x256, .f32⟩
  | .hbm, ⟨62, _⟩ => ⟨S64x1x256, .f32⟩
  | .hbm, ⟨63, _⟩ => ⟨S64x1024x256, .f32⟩
  | .hbm, ⟨64, _⟩ => ⟨S64x1024x256, .f32⟩
  | .hbm, ⟨65, _⟩ => ⟨S64x1024x256, .f32⟩
  | .hbm, ⟨66, _⟩ => ⟨S64x1024x256, .f32⟩
  | .hbm, ⟨67, _⟩ => ⟨S64x1024x256, .f32⟩
  | .hbm, ⟨68, _⟩ => ⟨S_, .f32⟩
  | .hbm, ⟨69, _⟩ => ⟨S64x256, .f32⟩
  | .hbm, ⟨70, _⟩ => ⟨S_, .f32⟩
  | .hbm, ⟨71, _⟩ => ⟨S64x256, .f32⟩
  | .hbm, ⟨72, _⟩ => ⟨S64x256, .f32⟩
  | .hbm, ⟨73, _⟩ => ⟨S64x1x256, .f32⟩
  | .hbm, ⟨74, _⟩ => ⟨S64x1024x256, .f32⟩
  | .hbm, ⟨75, _⟩ => ⟨S64x1024x256, .f32⟩
  | .hbm, ⟨76, _⟩ => ⟨S64x1024x256, .f32⟩
  | .hbm, ⟨77, _⟩ => ⟨S_, .f32⟩
  | .hbm, ⟨78, _⟩ => ⟨S64x256, .f32⟩
  | .hbm, ⟨79, _⟩ => ⟨S64x1x256, .f32⟩
  | .hbm, ⟨80, _⟩ => ⟨S64x1024x256, .f32⟩
  | .hbm, ⟨81, _⟩ => ⟨S64x1024x256, .f32⟩
  | .hbm, ⟨82, _⟩ => ⟨S64x1024x256, .f32⟩
  | .hbm, ⟨83, _⟩ => ⟨S_, .f32⟩
  | .hbm, ⟨84, _⟩ => ⟨S64x256, .f32⟩
  | .hbm, ⟨85, _⟩ => ⟨S64x32000, .f32⟩
  | .hbm, ⟨86, _⟩ => ⟨S64x32000, .f32⟩
  | .hbm, ⟨87, _⟩ => ⟨S64x32000, .f32⟩
  | .hbm, ⟨88, _⟩ => ⟨S_, .f32⟩
  | .hbm, ⟨89, _⟩ => ⟨S64, .f32⟩
  | .hbm, ⟨90, _⟩ => ⟨S_, .f32⟩
  | .hbm, ⟨91, _⟩ => ⟨S64, .f32⟩
  | .hbm, ⟨92, _⟩ => ⟨S64, .f32⟩
  | .hbm, ⟨93, _⟩ => ⟨S64x1, .f32⟩
  | .hbm, ⟨94, _⟩ => ⟨S64x32000, .f32⟩
  | .hbm, ⟨95, _⟩ => ⟨S64x32000, .f32⟩
  | .hbm, ⟨96, _⟩ => ⟨S64x32000, .f32⟩
  | .hbm, ⟨97, _⟩ => ⟨S_, .f32⟩
  | .hbm, ⟨98, _⟩ => ⟨S64, .f32⟩
  | .hbm, ⟨99, _⟩ => ⟨S64x1, .f32⟩
  | .hbm, ⟨100, _⟩ => ⟨S64x32000, .f32⟩
  | .hbm, ⟨101, _⟩ => ⟨S64x32000, .f32⟩
  | _, _ => ⟨S64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_5 : Ref sig .tc := ⟨.hbm, 53, rfl⟩
abbrev main_cst_6 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_7 : Ref sig .tc := ⟨.hbm, 68, rfl⟩
abbrev main_v42 : Ref sig .tc := ⟨.hbm, 69, rfl⟩
abbrev main_cst_8 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_9 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_10 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_11 : Ref sig .tc := ⟨.hbm, 88, rfl⟩
abbrev main_v58 : Ref sig .tc := ⟨.hbm, 89, rfl⟩
abbrev main_cst_12 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_13 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩

abbrev nD : Nat := 1
abbrev τ : Topo := Topo.v7x

variable {F : FTy → Type} [FloatOps F]

class Facts₀ : Prop where
  slices_S64x512_S64x128_0_0 : S64x512.Slices ![0, 0] S64x128
  slices_S64x512_S64x128_0_128 : S64x512.Slices ![0, 128] S64x128
  slices_S64x512_S64x128_0_256 : S64x512.Slices ![0, 256] S64x128
  slices_S64x512_S64x128_0_384 : S64x512.Slices ![0, 384] S64x128
  bcast_S_S64x128 : S_.BroadcastsInDim S64x128 (![] : Fin 0 → Fin S64x128.rank)
  bcast_S64x256_S64x1x256_0_2 : S64x256.BroadcastsInDim S64x1x256 (![0, 2] : Fin 2 → Fin S64x1x256.rank)
  bcast_S64x1x256_S64x1024x256_0_1_2 : S64x1x256.BroadcastsInDim S64x1024x256 (![0, 1, 2] : Fin 3 → Fin S64x1024x256.rank)
  bcast_S1x1x256_S64x1024x256_0_1_2 : S1x1x256.BroadcastsInDim S64x1024x256 (![0, 1, 2] : Fin 3 → Fin S64x1024x256.rank)
  reducesTo_S64x1024x256_S64x256_d1 : S64x1024x256.ReducesTo [1] S64x256
  h_S_ : 0 < S_.numel
  bcast_S_S64x256 : S_.BroadcastsInDim S64x256 (![] : Fin 0 → Fin S64x256.rank)
  reducesTo_S64x32000_S64_d1 : S64x32000.ReducesTo [1] S64
  bcast_S_S64 : S_.BroadcastsInDim S64 (![] : Fin 0 → Fin S64.rank)
  bcast_S64_S64x1_0 : S64.BroadcastsInDim S64x1 (![0] : Fin 1 → Fin S64x1.rank)
  bcast_S64x1_S64x32000_0_1 : S64x1.BroadcastsInDim S64x32000 (![0, 1] : Fin 2 → Fin S64x32000.rank)
  dot_S64x32000_S32000x64_S64x64_1_0_0_1_n_n_wf : DotDims.WF S64x32000 S32000x64 S64x64 [1] [0] [0] [1] [] []
  dot_S64x256_S256x64_S64x64_1_0_0_1_n_n_wf : DotDims.WF S64x256 S256x64 S64x64 [1] [0] [0] [1] [] []
  dot_S64x64_S64x512_S64x512_1_0_0_1_n_n_wf : DotDims.WF S64x64 S64x512 S64x512 [1] [0] [0] [1] [] []
  dot_S64x128_S128x512_S64x512_1_0_0_1_n_n_wf : DotDims.WF S64x128 S128x512 S64x512 [1] [0] [0] [1] [] []
  dot_S64x128_S128x256_S64x256_1_0_0_1_n_n_wf : DotDims.WF S64x128 S128x256 S64x256 [1] [0] [0] [1] [] []
  dot_S64x128_S128x32000_S64x32000_1_0_0_1_n_n_wf : DotDims.WF S64x128 S128x32000 S64x32000 [1] [0] [0] [1] [] []
  dot_S64x256_S256x32000_S64x32000_1_0_0_1_n_n_wf : DotDims.WF S64x256 S256x32000 S64x32000 [1] [0] [0] [1] [] []

variable [Facts₀]

def dot_S64x32000_S32000x64_S64x64_1_0_0_1_n_n : DotDims S64x32000 S32000x64 S64x64 where
  lhsContracting := [1]
  rhsContracting := [0]
  lhsNonContracting := [0]
  rhsNonContracting := [1]
  lhsBatch := []
  rhsBatch := []
  wf := dot_S64x32000_S32000x64_S64x64_1_0_0_1_n_n_wf
def dot_S64x256_S256x64_S64x64_1_0_0_1_n_n : DotDims S64x256 S256x64 S64x64 where
  lhsContracting := [1]
  rhsContracting := [0]
  lhsNonContracting := [0]
  rhsNonContracting := [1]
  lhsBatch := []
  rhsBatch := []
  wf := dot_S64x256_S256x64_S64x64_1_0_0_1_n_n_wf
def dot_S64x64_S64x512_S64x512_1_0_0_1_n_n : DotDims S64x64 S64x512 S64x512 where
  lhsContracting := [1]
  rhsContracting := [0]
  lhsNonContracting := [0]
  rhsNonContracting := [1]
  lhsBatch := []
  rhsBatch := []
  wf := dot_S64x64_S64x512_S64x512_1_0_0_1_n_n_wf
def dot_S64x128_S128x512_S64x512_1_0_0_1_n_n : DotDims S64x128 S128x512 S64x512 where
  lhsContracting := [1]
  rhsContracting := [0]
  lhsNonContracting := [0]
  rhsNonContracting := [1]
  lhsBatch := []
  rhsBatch := []
  wf := dot_S64x128_S128x512_S64x512_1_0_0_1_n_n_wf
def dot_S64x128_S128x256_S64x256_1_0_0_1_n_n : DotDims S64x128 S128x256 S64x256 where
  lhsContracting := [1]
  rhsContracting := [0]
  lhsNonContracting := [0]
  rhsNonContracting := [1]
  lhsBatch := []
  rhsBatch := []
  wf := dot_S64x128_S128x256_S64x256_1_0_0_1_n_n_wf
def dot_S64x128_S128x32000_S64x32000_1_0_0_1_n_n : DotDims S64x128 S128x32000 S64x32000 where
  lhsContracting := [1]
  rhsContracting := [0]
  lhsNonContracting := [0]
  rhsNonContracting := [1]
  lhsBatch := []
  rhsBatch := []
  wf := dot_S64x128_S128x32000_S64x32000_1_0_0_1_n_n_wf
def dot_S64x256_S256x32000_S64x32000_1_0_0_1_n_n : DotDims S64x256 S256x32000 S64x32000 where
  lhsContracting := [1]
  rhsContracting := [0]
  lhsNonContracting := [0]
  rhsNonContracting := [1]
  lhsBatch := []
  rhsBatch := []
  wf := dot_S64x256_S256x32000_S64x32000_1_0_0_1_n_n_wf

class Facts : Prop extends Facts₀ where

variable [Facts]
-- ==== Proof.Asm.lean ====
/-
  The run of the four-region program from the regions' halves.

  A region's half is its proof data at the buffer contents the region is entered with, its body obligation, and the
  two ends of its invariant.  Given the four halves (as hypotheses: this module mentions no kernel body), the program's
  buffer contents are followed from the launch memory through the five items of @main — region, region, region, five
  host operations, region — and every weakly fair execution ends with every unscoped buffer at the last contents.
-/
import proofs.«122264_j82798379533062_2_alg».proof.Proof.Gen.KernelIdeal.Launch
import proofs.«122264_j82798379533062_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Asm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A core's TensorCore buffers at some contents: what a region's half is stated at. -/
abbrev VT (F : FTy → Type) [FloatOps F] : Type := (c : Dev nD) → (b : Ref sig .tc) → Buf (Elt F) ((c : Thread nD τ).loc b)

/-- A valuation read at the TensorCore's references. -/
abbrev ofVal (W : Dev nD → Valuation τ sig (Elt F)) : VT F := fun c b => W c b

section Keep

/-- A region changes only the arrays of its OUTPUT windows: at any other reference the contents after the region
    are the contents before it (an input window's array is never written; a reference no window stages bypasses). -/
theorem keep {cfg : Cfg sig Λ₀} (c : Dev nD) (W : Valuation τ sig (Elt F))
    (dat : Dat τ (Elt F) Unit ℕ (UR sig nD τ) ℕ cfg c)
    (hA : ∀ w, dat.A w = W (Proc.devRef .tc (Pipeline.arrRef cfg.spec w)))
    (hinj : Function.Injective (Pipeline.arrRef cfg.spec))
    (b : Ref sig .tc) (hb : ∀ w, (cfg.win w).isOut = true → Pipeline.arrRef cfg.spec w ≠ b) :
    Pipeline.withArrays cfg.spec c W (fun w => dat.arrAt w cfg.N) (Proc.devRef .tc b) = W (Proc.devRef .tc b) := by
  by_cases h : ∃ w, Pipeline.arrRef cfg.spec w = b
  · obtain ⟨w, rfl⟩ := h
    rw [Pipeline.withArrays_arr cfg.spec hinj c W _ w]
    have hw : (cfg.win w).isOut = false := by
      cases hh : (cfg.win w).isOut
      · rfl
      · exact absurd rfl (hb w hh)
    rw [dat.arrAt_in w hw, hA]
  · exact Pipeline.withArrays_of_ne cfg.spec c W _ b fun w e => h ⟨w, e⟩

end Keep

/-! ## The buffer contents between the items of @main -/

section Contents

/-- Core `c`'s buffers at launch. -/
abbrev W0 (m : (ℓ : Loc nD τ sig) → Buf (Elt F) ℓ) : Dev nD → Valuation τ sig (Elt F) := fun c b => m (c, b)
/-- After region 0: its arrays at what its write-backs leave, every other buffer as before. -/
def W1 (dat0 : VT F → (c : Dev nD) → Dat τ (Elt F) Unit ℕ (UR sig nD τ) ℕ cfg0 c) (m : (ℓ : Loc nD τ sig) → Buf (Elt F) ℓ) (c : Dev nD) : Valuation τ sig (Elt F) :=
  Pipeline.withArrays spec0 c (W0 m c) fun w => (dat0 (ofVal (W0 m)) c).arrAt w cfg0.N
/-- After region 1. -/
def W2 (dat0 : VT F → (c : Dev nD) → Dat τ (Elt F) Unit ℕ (UR sig nD τ) ℕ cfg0 c) (dat1 : VT F → (c : Dev nD) → Dat τ (Elt F) Unit ℕ (UR sig nD τ) ℕ cfg1 c) (m : (ℓ : Loc nD τ sig) → Buf (Elt F) ℓ) (c : Dev nD) : Valuation τ sig (Elt F) :=
  Pipeline.withArrays spec1 c (W1 dat0 m c) fun w => (dat1 (ofVal (W1 dat0 m)) c).arrAt w cfg1.N
/-- After region 2. -/
def W3 (dat0 : VT F → (c : Dev nD) → Dat τ (Elt F) Unit ℕ (UR sig nD τ) ℕ cfg0 c) (dat1 : VT F → (c : Dev nD) → Dat τ (Elt F) Unit ℕ (UR sig nD τ) ℕ cfg1 c) (dat2 : VT F → (c : Dev nD) → Dat τ (Elt F) Unit ℕ (UR sig nD τ) ℕ cfg2 c) (m : (ℓ : Loc nD τ sig) → Buf (Elt F) ℓ) (c : Dev nD) : Valuation τ sig (Elt F) :=
  Pipeline.withArrays spec2 c (W2 dat0 dat1 m c) fun w => (dat2 (ofVal (W2 dat0 dat1 m)) c).arrAt w cfg2.N
/-- After the five host operations that add the two half sums. -/
abbrev W4 (dat0 : VT F → (c : Dev nD) → Dat τ (Elt F) Unit ℕ (UR sig nD τ) ℕ cfg0 c) (dat1 : VT F → (c : Dev nD) → Dat τ (Elt F) Unit ℕ (UR sig nD τ) ℕ cfg1 c) (dat2 : VT F → (c : Dev nD) → Dat τ (Elt F) Unit ℕ (UR sig nD τ) ℕ cfg2 c) (m : (ℓ : Loc nD τ sig) → Buf (Elt F) ℓ) (c : Dev nD) : Valuation τ sig (Elt F) :=
  StableHlo.after hostOps3 (W3 dat0 dat1 dat2 m c)
/-- After region 3. -/
def W5 (dat0 : VT F → (c : Dev nD) → Dat τ (Elt F) Unit ℕ (UR sig nD τ) ℕ cfg0 c) (dat1 : VT F → (c : Dev nD) → Dat τ (Elt F) Unit ℕ (UR sig nD τ) ℕ cfg1 c) (dat2 : VT F → (c : Dev nD) → Dat τ (Elt F) Unit ℕ (UR sig nD τ) ℕ cfg2 c) (dat3 : VT F → (c : Dev nD) → Dat τ (Elt F) Unit ℕ (UR sig nD τ) ℕ cfg3 c) (m : (ℓ : Loc nD τ sig) → Buf (Elt F) ℓ) (c : Dev nD) : Valuation τ sig (Elt F) :=
  Pipeline.withArrays spec3 c (W4 dat0 dat1 dat2 m c) fun w => (dat3 (ofVal (W4 dat0 dat1 dat2 m)) c).arrAt w cfg3.N

theorem hF0 (dat0 : VT F → (c : Dev nD) → Dat τ (Elt F) Unit ℕ (UR sig nD τ) ℕ cfg0 c) (m : (ℓ : Loc nD τ sig) → Buf (Elt F) ℓ) (c : Dev nD) (w : Fin cfg0.W) :
    (dat0 (ofVal (W0 m)) c).arrAt w cfg0.N = ofVal (W1 dat0 m) c (Pipeline.arrRef spec0 w) := by
  show _ = W1 dat0 m c (Proc.devRef .tc (Pipeline.arrRef spec0 w))
  unfold W1; exact (Pipeline.withArrays_arr spec0 launch0.win.arr_inj c (W0 m c) (fun w => (dat0 (ofVal (W0 m)) c).arrAt w cfg0.N) w).symm
theorem hrest0 (dat0 : VT F → (c : Dev nD) → Dat τ (Elt F) Unit ℕ (UR sig nD τ) ℕ cfg0 c) (m : (ℓ : Loc nD τ sig) → Buf (Elt F) ℓ) (c : Dev nD) :
    ∀ b, b ∉ Finset.univ.image (Pipeline.arrRef spec0) → ofVal (W1 dat0 m) c b = ofVal (W0 m) c b := fun b hb => by
  show W1 dat0 m c (Proc.devRef .tc b) = _
  unfold W1
  exact Pipeline.withArrays_of_ne spec0 c (W0 m c) (fun w => (dat0 (ofVal (W0 m)) c).arrAt w cfg0.N) b fun w e => hb (Finset.mem_image.mpr ⟨w, Finset.mem_univ _, e⟩)

theorem hF1 (dat0 : VT F → (c : Dev nD) → Dat τ (Elt F) Unit ℕ (UR sig nD τ) ℕ cfg0 c) (dat1 : VT F → (c : Dev nD) → Dat τ (Elt F) Unit ℕ (UR sig nD τ) ℕ cfg1 c) (m : (ℓ : Loc nD τ sig) → Buf (Elt F) ℓ) (c : Dev nD) (w : Fin cfg1.W) :
    (dat1 (ofVal (W1 dat0 m)) c).arrAt w cfg1.N = ofVal (W2 dat0 dat1 m) c (Pipeline.arrRef spec1 w) := by
  show _ = W2 dat0 dat1 m c (Proc.devRef .tc (Pipeline.arrRef spec1 w))
  unfold W2; exact (Pipeline.withArrays_arr spec1 launch1.win.arr_inj c (W1 dat0 m c) (fun w => (dat1 (ofVal (W1 dat0 m)) c).arrAt w cfg1.N) w).symm
theorem hrest1 (dat0 : VT F → (c : Dev nD) → Dat τ (Elt F) Unit ℕ (UR sig nD τ) ℕ cfg0 c) (dat1 : VT F → (c : Dev nD) → Dat τ (Elt F) Unit ℕ (UR sig nD τ) ℕ cfg1 c) (m : (ℓ : Loc nD τ sig) → Buf (Elt F) ℓ) (c : Dev nD) :
    ∀ b, b ∉ Finset.univ.image (Pipeline.arrRef spec1) → ofVal (W2 dat0 dat1 m) c b = ofVal (W1 dat0 m) c b := fun b hb => by
  show W2 dat0 dat1 m c (Proc.devRef .tc b) = _
  unfold W2
  exact Pipeline.withArrays_of_ne spec1 c (W1 dat0 m c) (fun w => (dat1 (ofVal (W1 dat0 m)) c).arrAt w cfg1.N) b fun w e => hb (Finset.mem_image.mpr ⟨w, Finset.mem_univ _, e⟩)

theorem hF2 (dat0 : VT F → (c : Dev nD) → Dat τ (Elt F) Unit ℕ (UR sig nD τ) ℕ cfg0 c) (dat1 : VT F → (c : Dev nD) → Dat τ (Elt F) Unit ℕ (UR sig nD τ) ℕ cfg1 c) (dat2 : VT F → (c : Dev nD) → Dat τ (Elt F) Unit ℕ (UR sig nD τ) ℕ cfg2 c) (m : (ℓ : Loc nD τ sig) → Buf (Elt F) ℓ) (c : Dev nD) (w : Fin cfg2.W) :
    (dat2 (ofVal (W2 dat0 dat1 m)) c).arrAt w cfg2.N = ofVal (W3 dat0 dat1 dat2 m) c (Pipeline.arrRef spec2 w) := by
  show _ = W3 dat0 dat1 dat2 m c (Proc.devRef .tc (Pipeline.arrRef spec2 w))
  unfold W3; exact (Pipeline.withArrays_arr spec2 launch2.win.arr_inj c (W2 dat0 dat1 m c) (fun w => (dat2 (ofVal (W2 dat0 dat1 m)) c).arrAt w cfg2.N) w).symm
theorem hrest2 (dat0 : VT F → (c : Dev nD) → Dat τ (Elt F) Unit ℕ (UR sig nD τ) ℕ cfg0 c) (dat1 : VT F → (c : Dev nD) → Dat τ (Elt F) Unit ℕ (UR sig nD τ) ℕ cfg1 c) (dat2 : VT F → (c : Dev nD) → Dat τ (Elt F) Unit ℕ (UR sig nD τ) ℕ cfg2 c) (m : (ℓ : Loc nD τ sig) → Buf (Elt F) ℓ) (c : Dev nD) :
    ∀ b, b ∉ Finset.univ.image (Pipeline.arrRef spec2) → ofVal (W3 dat0 dat1 dat2 m) c b = ofVal (W2 dat0 dat1 m) c b := fun b hb => by
  show W3 dat0 dat1 dat2 m c (Proc.devRef .tc b) = _
  unfold W3
  exact Pipeline.withArrays_of_ne spec2 c (W2 dat0 dat1 m c) (fun w => (dat2 (ofVal (W2 dat0 dat1 m)) c).arrAt w cfg2.N) b fun w e => hb (Finset.mem_image.mpr ⟨w, Finset.mem_univ _, e⟩)

theorem hF3 (dat0 : VT F → (c : Dev nD) → Dat τ (Elt F) Unit ℕ (UR sig nD τ) ℕ cfg0 c) (dat1 : VT F → (c : Dev nD) → Dat τ (Elt F) Unit ℕ (UR sig nD τ) ℕ cfg1 c) (dat2 : VT F → (c : Dev nD) → Dat τ (Elt F) Unit ℕ (UR sig nD τ) ℕ cfg2 c) (dat3 : VT F → (c : Dev nD) → Dat τ (Elt F) Unit ℕ (UR sig nD τ) ℕ cfg3 c) (m : (ℓ : Loc nD τ sig) → Buf (Elt F) ℓ) (c : Dev nD) (w : Fin cfg3.W) :
    (dat3 (ofVal (W4 dat0 dat1 dat2 m)) c).arrAt w cfg3.N = ofVal (W5 dat0 dat1 dat2 dat3 m) c (Pipeline.arrRef spec3 w) := by
  show _ = W5 dat0 dat1 dat2 dat3 m c (Proc.devRef .tc (Pipeline.arrRef spec3 w))
  unfold W5; exact (Pipeline.withArrays_arr spec3 launch3.win.arr_inj c (W4 dat0 dat1 dat2 m c) (fun w => (dat3 (ofVal (W4 dat0 dat1 dat2 m)) c).arrAt w cfg3.N) w).symm
theorem hrest3 (dat0 : VT F → (c : Dev nD) → Dat τ (Elt F) Unit ℕ (UR sig nD τ) ℕ cfg0 c) (dat1 : VT F → (c : Dev nD) → Dat τ (Elt F) Unit ℕ (UR sig nD τ) ℕ cfg1 c) (dat2 : VT F → (c : Dev nD) → Dat τ (Elt F) Unit ℕ (UR sig nD τ) ℕ cfg2 c) (dat3 : VT F → (c : Dev nD) → Dat τ (Elt F) Unit ℕ (UR sig nD τ) ℕ cfg3 c) (m : (ℓ : Loc nD τ sig) → Buf (Elt F) ℓ) (c : Dev nD) :
    ∀ b, b ∉ Finset.univ.image (Pipeline.arrRef spec3) → ofVal (W5 dat0 dat1 dat2 dat3 m) c b = ofVal (W4 dat0 dat1 dat2 m) c b := fun b hb => by
  show W5 dat0 dat1 dat2 dat3 m c (Proc.devRef .tc b) = _
  unfold W5
  exact Pipeline.withArrays_of_ne spec3 c (W4 dat0 dat1 dat2 m c) (fun w => (dat3 (ofVal (W4 dat0 dat1 dat2 m)) c).arrAt w cfg3.N) b fun w e => hb (Finset.mem_image.mpr ⟨w, Finset.mem_univ _, e⟩)

end Contents

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents. -/
def pdats (dat0 : VT F → (c : Dev nD) → Dat τ (Elt F) Unit ℕ (UR sig nD τ) ℕ cfg0 c) (dat1 : VT F → (c : Dev nD) → Dat τ (Elt F) Unit ℕ (UR sig nD τ) ℕ cfg1 c) (dat2 : VT F → (c : Dev nD) → Dat τ (Elt F) Unit ℕ (UR sig nD τ) ℕ cfg2 c) (dat3 : VT F → (c : Dev nD) → Dat τ (Elt F) Unit ℕ (UR sig nD τ) ℕ cfg3 c) (m : (ℓ : Loc nD τ sig) → Buf (Elt F) ℓ) : (p : Fin 4) → (c : Dev nD) → Dat τ (Elt F) Unit ℕ (UR sig nD τ) ℕ (Pipeline.pin (pcfgs (F := F)) adm p) c
  | ⟨0, _⟩ => fun c => dat0 (ofVal (W0 m)) c
  | ⟨1, _⟩ => fun c => dat1 (ofVal (W1 dat0 m)) c
  | ⟨2, _⟩ => fun c => dat2 (ofVal (W2 dat0 dat1 m)) c
  | ⟨3, _⟩ => fun c => dat3 (ofVal (W4 dat0 dat1 dat2 m)) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
/-- The last thread state without the `owes`. -/
abbrev Tₙ (dat0 : VT F → (c : Dev nD) → Dat τ (Elt F) Unit ℕ (UR sig nD τ) ℕ cfg0 c) (dat1 : VT F → (c : Dev nD) → Dat τ (Elt F) Unit ℕ (UR sig nD τ) ℕ cfg1 c) (dat2 : VT F → (c : Dev nD) → Dat τ (Elt F) Unit ℕ (UR sig nD τ) ℕ cfg2 c) (dat3 : VT F → (c : Dev nD) → Dat τ (Elt F) Unit ℕ (UR sig nD τ) ℕ cfg3 c) (m : (ℓ : Loc nD τ sig) → Buf (Elt F) ℓ) (c : Dev nD) : sProp 𝕄 :=
  iprop(StableHlo.held (c : Thread nD τ) (Pipeline.ucRefs τ sig) (W5 dat0 dat1 dat2 dat3 m c) ∗ ∃ r, prngReg c r)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

section Reads
variable (dat0 : VT F → (c : Dev nD) → Dat τ (Elt F) Unit ℕ (UR sig nD τ) ℕ cfg0 c) (dat1 : VT F → (c : Dev nD) → Dat τ (Elt F) Unit ℕ (UR sig nD τ) ℕ cfg1 c) (dat2 : VT F → (c : Dev nD) → Dat τ (Elt F) Unit ℕ (UR sig nD τ) ℕ cfg2 c) (dat3 : VT F → (c : Dev nD) → Dat τ (Elt F) Unit ℕ (UR sig nD τ) ℕ cfg3 c) (m : (ℓ : Loc nD τ sig) → Buf (Elt F) ℓ)
variable (A0 : ∀ (V : VT F) c w, (dat0 V c).A w = V c (Pipeline.arrRef spec0 w))
  (A1 : ∀ (V : VT F) c w, (dat1 V c).A w = V c (Pipeline.arrRef spec1 w))
  (A2 : ∀ (V : VT F) c w, (dat2 V c).A w = V c (Pipeline.arrRef spec2 w))
  (A3 : ∀ (V : VT F) c w, (dat3 V c).A w = V c (Pipeline.arrRef spec3 w))
include A0 A1 A2 A3

/-! ## Reading the last contents back -/

/-- Region 0 keeps every buffer that is not one of its two results. -/
theorem W1_keep (c : Dev nD) (b : Ref sig .tc) (hb : ∀ w, (cfg0.win w).isOut = true → Pipeline.arrRef cfg0.spec w ≠ b) :
    W1 dat0 m c (Proc.devRef .tc b) = W0 m c (Proc.devRef .tc b) := by
  unfold W1; exact keep c (W0 m c) (dat0 (ofVal (W0 m)) c) (fun w => A0 _ c w) launch0.win.arr_inj b hb
/-- Region 1 keeps every buffer but its result. -/
theorem W2_keep (c : Dev nD) (b : Ref sig .tc) (hb : ∀ w, (cfg1.win w).isOut = true → Pipeline.arrRef cfg1.spec w ≠ b) :
    W2 dat0 dat1 m c (Proc.devRef .tc b) = W1 dat0 m c (Proc.devRef .tc b) := by
  unfold W2; exact keep c (W1 dat0 m c) (dat1 (ofVal (W1 dat0 m)) c) (fun w => A1 _ c w) launch1.win.arr_inj b hb
/-- Region 2 keeps every buffer but its two results. -/
theorem W3_keep (c : Dev nD) (b : Ref sig .tc) (hb : ∀ w, (cfg2.win w).isOut = true → Pipeline.arrRef cfg2.spec w ≠ b) :
    W3 dat0 dat1 dat2 m c (Proc.devRef .tc b) = W2 dat0 dat1 m c (Proc.devRef .tc b) := by
  unfold W3; exact keep c (W2 dat0 dat1 m c) (dat2 (ofVal (W2 dat0 dat1 m)) c) (fun w => A2 _ c w) launch2.win.arr_inj b hb
/-- The five host operations write only their own five results. -/
theorem W4_keep (c : Dev nD) (b : Ref sig .tc) (hb : b ∉ hostOps3_W) :
    W4 dat0 dat1 dat2 m c (Proc.devRef .tc b) = W3 dat0 dat1 dat2 m c (Proc.devRef .tc b) :=
  StableHlo.after_of_writes_sub hostOps3 _ hostOps3_writes hb
/-- Region 3 keeps every buffer but its result. -/
theorem W5_keep (c : Dev nD) (b : Ref sig .tc) (hb : ∀ w, (cfg3.win w).isOut = true → Pipeline.arrRef cfg3.spec w ≠ b) :
    W5 dat0 dat1 dat2 dat3 m c (Proc.devRef .tc b) = W4 dat0 dat1 dat2 m c (Proc.devRef .tc b) := by
  unfold W5; exact keep c (W4 dat0 dat1 dat2 m c) (dat3 (ofVal (W4 dat0 dat1 dat2 m)) c) (fun w => A3 _ c w) launch3.win.arr_inj b hb

/-- A buffer no region writes and no host operation writes ends as launched. -/
theorem W5_launch (c : Dev nD) (b : Ref sig .tc)
    (h0 : ∀ w, (cfg0.win w).isOut = true → Pipeline.arrRef cfg0.spec w ≠ b) (h1 : ∀ w, (cfg1.win w).isOut = true → Pipeline.arrRef cfg1.spec w ≠ b)
    (h2 : ∀ w, (cfg2.win w).isOut = true → Pipeline.arrRef cfg2.spec w ≠ b) (hh : b ∉ hostOps3_W)
    (h3 : ∀ w, (cfg3.win w).isOut = true → Pipeline.arrRef cfg3.spec w ≠ b) :
    W5 dat0 dat1 dat2 dat3 m c (Proc.devRef .tc b) = m ((c : Thread nD τ).loc b) :=
  (W5_keep dat0 dat1 dat2 dat3 m A0 A1 A2 A3 c b h3).trans <| (W4_keep dat0 dat1 dat2 dat3 m A0 A1 A2 A3 c b hh).trans <| (W3_keep dat0 dat1 dat2 dat3 m A0 A1 A2 A3 c b h2).trans <|
    (W2_keep dat0 dat1 dat2 dat3 m A0 A1 A2 A3 c b h1).trans <| (W1_keep dat0 dat1 dat2 dat3 m A0 A1 A2 A3 c b h0).trans rfl

/-- The first result, O_t: what region 3's write-backs leave. -/
theorem W5_main_v8 (c : Dev nD) :
    W5 dat0 dat1 dat2 dat3 m c (Proc.devRef .tc main_v8) = (dat3 (ofVal (W4 dat0 dat1 dat2 m)) c).arrAt 2 cfg3.N := by
  unfold W5; exact Pipeline.withArrays_arr spec3 launch3.win.arr_inj c _ _ 2
/-- The second result, c_t: what region 1's write-backs leave, kept by everything after. -/
theorem W5_main_v1 (c : Dev nD) :
    W5 dat0 dat1 dat2 dat3 m c (Proc.devRef .tc main_v1) = (dat1 (ofVal (W1 dat0 m)) c).arrAt 4 cfg1.N :=
  (W5_keep dat0 dat1 dat2 dat3 m A0 A1 A2 A3 c main_v1 (by decide)).trans <| (W4_keep dat0 dat1 dat2 dat3 m A0 A1 A2 A3 c main_v1 (by decide)).trans <|
    (W3_keep dat0 dat1 dat2 dat3 m A0 A1 A2 A3 c main_v1 (by decide)).trans <| by
      unfold W2; exact Pipeline.withArrays_arr spec1 launch1.win.arr_inj c _ _ 4
/-- The third result, new_h: what region 0's write-back leaves in its window 8, kept by everything after. -/
theorem W5_main_v0_0 (c : Dev nD) :
    W5 dat0 dat1 dat2 dat3 m c (Proc.devRef .tc main_v0_0) = (dat0 (ofVal (W0 m)) c).arrAt 8 cfg0.N :=
  (W5_keep dat0 dat1 dat2 dat3 m A0 A1 A2 A3 c main_v0_0 (by decide)).trans <| (W4_keep dat0 dat1 dat2 dat3 m A0 A1 A2 A3 c main_v0_0 (by decide)).trans <|
    (W3_keep dat0 dat1 dat2 dat3 m A0 A1 A2 A3 c main_v0_0 (by decide)).trans <| (W2_keep dat0 dat1 dat2 dat3 m A0 A1 A2 A3 c main_v0_0 (by decide)).trans <| by
      unfold W1; exact Pipeline.withArrays_arr spec0 launch0.win.arr_inj c _ _ 8
/-- The fourth result, the clipped cell state: region 0's window 9. -/
theorem W5_main_v0_1 (c : Dev nD) :
    W5 dat0 dat1 dat2 dat3 m c (Proc.devRef .tc main_v0_1) = (dat0 (ofVal (W0 m)) c).arrAt 9 cfg0.N :=
  (W5_keep dat0 dat1 dat2 dat3 m A0 A1 A2 A3 c main_v0_1 (by decide)).trans <| (W4_keep dat0 dat1 dat2 dat3 m A0 A1 A2 A3 c main_v0_1 (by decide)).trans <|
    (W3_keep dat0 dat1 dat2 dat3 m A0 A1 A2 A3 c main_v0_1 (by decide)).trans <| (W2_keep dat0 dat1 dat2 dat3 m A0 A1 A2 A3 c main_v0_1 (by decide)).trans <| by
      unfold W1; exact Pipeline.withArrays_arr spec0 launch0.win.arr_inj c _ _ 9

end Reads

/-! ## The regions as segments -/

section Segs
variable (dat0 : VT F → (c : Dev nD) → Dat τ (Elt F) Unit ℕ (UR sig nD τ) ℕ cfg0 c) (dat1 : VT F → (c : Dev nD) → Dat τ (Elt F) Unit ℕ (UR sig nD τ) ℕ cfg1 c) (dat2 : VT F → (c : Dev nD) → Dat τ (Elt F) Unit ℕ (UR sig nD τ) ℕ cfg2 c) (dat3 : VT F → (c : Dev nD) → Dat τ (Elt F) Unit ℕ (UR sig nD τ) ℕ cfg3 c) (m : (ℓ : Loc nD τ sig) → Buf (Elt F) ℓ)
variable (A0 : ∀ (V : VT F) c w, (dat0 V c).A w = V c (Pipeline.arrRef spec0 w))
  (q0 : ∀ (V : VT F) c w, (dat0 V c).q w = fullShare) (o0 : ∀ (V : VT F) c t, (dat0 V c).owed t = 0) (rec0 : ∀ (V : VT F) c t, (dat0 V c).recorded t = Set.univ)
  (body0 : ∀ (V : VT F) c, BodyObligation (dat0 V c) (defs₀ (F := F)) Variants.none () Set.univ)
  (hin0 : ∀ (V : VT F) c, Pipeline.ΦA spec0 c ⊢ (dat0 V c).Φ 0)
  (hout0 : ∀ (V : VT F) c, (dat0 V c).Φ (Fin.last cfg0.N) ⊢ Pipeline.ΦA spec0 c)
  (A1 : ∀ (V : VT F) c w, (dat1 V c).A w = V c (Pipeline.arrRef spec1 w))
  (q1 : ∀ (V : VT F) c w, (dat1 V c).q w = fullShare) (o1 : ∀ (V : VT F) c t, (dat1 V c).owed t = 0) (rec1 : ∀ (V : VT F) c t, (dat1 V c).recorded t = Set.univ)
  (body1 : ∀ (V : VT F) c, BodyObligation (dat1 V c) (defs₀ (F := F)) Variants.none () Set.univ)
  (hin1 : ∀ (V : VT F) c, Pipeline.ΦA spec1 c ⊢ (dat1 V c).Φ 0)
  (hout1 : ∀ (V : VT F) c, (dat1 V c).Φ (Fin.last cfg1.N) ⊢ Pipeline.ΦA spec1 c)
  (A2 : ∀ (V : VT F) c w, (dat2 V c).A w = V c (Pipeline.arrRef spec2 w))
  (q2 : ∀ (V : VT F) c w, (dat2 V c).q w = fullShare) (o2 : ∀ (V : VT F) c t, (dat2 V c).owed t = 0) (rec2 : ∀ (V : VT F) c t, (dat2 V c).recorded t = Set.univ)
  (body2 : ∀ (V : VT F) c, BodyObligation (dat2 V c) (defs₀ (F := F)) Variants.none () Set.univ)
  (hin2 : ∀ (V : VT F) c, Pipeline.ΦA spec2 c ⊢ (dat2 V c).Φ 0)
  (hout2 : ∀ (V : VT F) c, (dat2 V c).Φ (Fin.last cfg2.N) ⊢ Pipeline.ΦA spec2 c)
  (A3 : ∀ (V : VT F) c w, (dat3 V c).A w = V c (Pipeline.arrRef spec3 w))
  (q3 : ∀ (V : VT F) c w, (dat3 V c).q w = fullShare) (o3 : ∀ (V : VT F) c t, (dat3 V c).owed t = 0) (rec3 : ∀ (V : VT F) c t, (dat3 V c).recorded t = Set.univ)
  (body3 : ∀ (V : VT F) c, BodyObligation (dat3 V c) (defs₀ (F := F)) Variants.none () Set.univ)
  (hin3 : ∀ (V : VT F) c, Pipeline.ΦA spec3 c ⊢ (dat3 V c).Φ 0)
  (hout3 : ∀ (V : VT F) c, (dat3 V c).Φ (Fin.last cfg3.N) ⊢ Pipeline.ΦA spec3 c)
include A0 q0 o0 rec0 body0 hin0 hout0 A1 q1 o1 rec1 body1 hin1 hout1 A2 q2 o2 rec2 body2 hin2 hout2 A3 q3 o3 rec3 body3 hin3 hout3

set_option backward.isDefEq.respectTransparency.types false in
/-- Region 0 over the thread state: entered with every unscoped buffer at the contents before it, left with them at the
    contents after it; its arrays split out of the unscoped buffers and put back; the generator register into the invariant
    and out; nothing owed; no semaphore of the kernel's own. -/
def reg0 : Pipeline.RegionSeg (pcfgs (F := F)) adm (pdats dat0 dat1 dat2 dat3 m) () defs₀ 𝒱₀ L lv 0 where
  win := launch0.win.to₀
  block_pos := launch0.block_pos
  stage_whole := launch0.stage_whole
  K := PEmpty
  osem k := k.elim
  ho := Pipeline.OwnSemFacts.none _
  hbody c := (body0 (ofVal (W0 m)) c).loose
  hwaits := Pipeline.hwaits_of_owed_zero _ _ _ _ L lv 0 fun c t => o0 (ofVal (W0 m)) c t
  pre c := iprop(StableHlo.held (c : Thread nD τ) (Pipeline.ucRefs τ sig) (W0 m c) ∗ R c)
  post c := iprop(StableHlo.held (c : Thread nD τ) (Pipeline.ucRefs τ sig) (W1 dat0 m c) ∗ R c)
  X c := iprop(∃ r, prngReg c r)
  Y c := iprop(∃ r, prngReg c r)
  Z c := Pipeline.unscopedRest (Ix := Unit) (Name := ℕ) (U := UR sig nD τ) (Lvl := ℕ) spec0 c (ofVal (W0 m) c)
  hentry c := by
    rw [Pipeline.ownSems0_none]
    have hsplit := Pipeline.arrays_of_unscopedBufs (p := 0) (pcfgs (F := F)) adm (pdats dat0 dat1 dat2 dat3 m) launch0.win launch0.arr_whole c
      ((pdats dat0 dat1 dat2 dat3 m 0 c).share_full fun w => q0 (ofVal (W0 m)) c w) (ofVal (W0 m) c) fun w => A0 (ofVal (W0 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; unfold Pipeline.Dat.bound
        rw [show (pdats dat0 dat1 dat2 dat3 m 0 c).recorded 0 = Set.univ from rec0 (ofVal (W0 m)) c 0]; exact fun _ _ => Or.inl trivial
      rw [show (pdats dat0 dat1 dat2 dat3 m 0 c).owed 0 = 0 from o0 (ofVal (W0 m)) c 0]
      iexact HO
    isplitl [Hp]; · iexact Hp
    iexact Hrest
  hin c := by
    refine BIBase.Entails.trans ?_ (hin0 (ofVal (W0 m)) c)
    unfold Pipeline.ΦA
    iintro ⟨Hp, -, Hr⟩
    isplitl [Hr]; · iexact Hr
    iexact Hp
  hout c := by
    rw [Pipeline.ownSems0_none]
    refine BIBase.Entails.trans (hout0 (ofVal (W0 m)) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats dat0 dat1 dat2 dat3 m) ((pdats dat0 dat1 dat2 dat3 m 0 c).share_full fun w => q0 (ofVal (W0 m)) c w)
      (ofVal (W0 m) c) (ofVal (W1 dat0 m) c) ((pdats dat0 dat1 dat2 dat3 m 0 c).arrAt · cfg0.N) (hF0 dat0 m c) (hrest0 dat0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats dat0 dat1 dat2 dat3 m 0 c).owed (Fin.last _) = 0 from o0 (ofVal (W0 m)) c _]
    iexact HO

set_option backward.isDefEq.respectTransparency.types false in
/-- Region 1 over the thread state: entered with every unscoped buffer at the contents before it, left with them at the
    contents after it; its arrays split out of the unscoped buffers and put back; the generator register into the invariant
    and out; nothing owed; no semaphore of the kernel's own. -/
def reg1 : Pipeline.RegionSeg (pcfgs (F := F)) adm (pdats dat0 dat1 dat2 dat3 m) () defs₀ 𝒱₀ L lv 1 where
  win := launch1.win.to₀
  block_pos := launch1.block_pos
  stage_whole := launch1.stage_whole
  K := PEmpty
  osem k := k.elim
  ho := Pipeline.OwnSemFacts.none _
  hbody c := (body1 (ofVal (W1 dat0 m)) c).loose
  hwaits := Pipeline.hwaits_of_owed_zero _ _ _ _ L lv 1 fun c t => o1 (ofVal (W1 dat0 m)) c t
  pre c := iprop(StableHlo.held (c : Thread nD τ) (Pipeline.ucRefs τ sig) (W1 dat0 m c) ∗ R c)
  post c := iprop(StableHlo.held (c : Thread nD τ) (Pipeline.ucRefs τ sig) (W2 dat0 dat1 m c) ∗ R c)
  X c := iprop(∃ r, prngReg c r)
  Y c := iprop(∃ r, prngReg c r)
  Z c := Pipeline.unscopedRest (Ix := Unit) (Name := ℕ) (U := UR sig nD τ) (Lvl := ℕ) spec1 c (ofVal (W1 dat0 m) c)
  hentry c := by
    rw [Pipeline.ownSems0_none]
    have hsplit := Pipeline.arrays_of_unscopedBufs (p := 1) (pcfgs (F := F)) adm (pdats dat0 dat1 dat2 dat3 m) launch1.win launch1.arr_whole c
      ((pdats dat0 dat1 dat2 dat3 m 1 c).share_full fun w => q1 (ofVal (W1 dat0 m)) c w) (ofVal (W1 dat0 m) c) fun w => A1 (ofVal (W1 dat0 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; unfold Pipeline.Dat.bound
        rw [show (pdats dat0 dat1 dat2 dat3 m 1 c).recorded 0 = Set.univ from rec1 (ofVal (W1 dat0 m)) c 0]; exact fun _ _ => Or.inl trivial
      rw [show (pdats dat0 dat1 dat2 dat3 m 1 c).owed 0 = 0 from o1 (ofVal (W1 dat0 m)) c 0]
      iexact HO
    isplitl [Hp]; · iexact Hp
    iexact Hrest
  hin c := by
    refine BIBase.Entails.trans ?_ (hin1 (ofVal (W1 dat0 m)) c)
    unfold Pipeline.ΦA
    iintro ⟨Hp, -, Hr⟩
    isplitl [Hr]; · iexact Hr
    iexact Hp
  hout c := by
    rw [Pipeline.ownSems0_none]
    refine BIBase.Entails.trans (hout1 (ofVal (W1 dat0 m)) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats dat0 dat1 dat2 dat3 m) ((pdats dat0 dat1 dat2 dat3 m 1 c).share_full fun w => q1 (ofVal (W1 dat0 m)) c w)
      (ofVal (W1 dat0 m) c) (ofVal (W2 dat0 dat1 m) c) ((pdats dat0 dat1 dat2 dat3 m 1 c).arrAt · cfg1.N) (hF1 dat0 dat1 m c) (hrest1 dat0 dat1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats dat0 dat1 dat2 dat3 m 1 c).owed (Fin.last _) = 0 from o1 (ofVal (W1 dat0 m)) c _]
    iexact HO

set_option backward.isDefEq.respectTransparency.types false in
/-- Region 2 over the thread state: entered with every unscoped buffer at the contents before it, left with them at the
    contents after it; its arrays split out of the unscoped buffers and put back; the generator register into the invariant
    and out; nothing owed; no semaphore of the kernel's own. -/
def reg2 : Pipeline.RegionSeg (pcfgs (F := F)) adm (pdats dat0 dat1 dat2 dat3 m) () defs₀ 𝒱₀ L lv 2 where
  win := launch2.win.to₀
  block_pos := launch2.block_pos
  stage_whole := launch2.stage_whole
  K := PEmpty
  osem k := k.elim
  ho := Pipeline.OwnSemFacts.none _
  hbody c := (body2 (ofVal (W2 dat0 dat1 m)) c).loose
  hwaits := Pipeline.hwaits_of_owed_zero _ _ _ _ L lv 2 fun c t => o2 (ofVal (W2 dat0 dat1 m)) c t
  pre c := iprop(StableHlo.held (c : Thread nD τ) (Pipeline.ucRefs τ sig) (W2 dat0 dat1 m c) ∗ R c)
  post c := iprop(StableHlo.held (c : Thread nD τ) (Pipeline.ucRefs τ sig) (W3 dat0 dat1 dat2 m c) ∗ R c)
  X c := iprop(∃ r, prngReg c r)
  Y c := iprop(∃ r, prngReg c r)
  Z c := Pipeline.unscopedRest (Ix := Unit) (Name := ℕ) (U := UR sig nD τ) (Lvl := ℕ) spec2 c (ofVal (W2 dat0 dat1 m) c)
  hentry c := by
    rw [Pipeline.ownSems0_none]
    have hsplit := Pipeline.arrays_of_unscopedBufs (p := 2) (pcfgs (F := F)) adm (pdats dat0 dat1 dat2 dat3 m) launch2.win launch2.arr_whole c
      ((pdats dat0 dat1 dat2 dat3 m 2 c).share_full fun w => q2 (ofVal (W2 dat0 dat1 m)) c w) (ofVal (W2 dat0 dat1 m) c) fun w => A2 (ofVal (W2 dat0 dat1 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; unfold Pipeline.Dat.bound
        rw [show (pdats dat0 dat1 dat2 dat3 m 2 c).recorded 0 = Set.univ from rec2 (ofVal (W2 dat0 dat1 m)) c 0]; exact fun _ _ => Or.inl trivial
      rw [show (pdats dat0 dat1 dat2 dat3 m 2 c).owed 0 = 0 from o2 (ofVal (W2 dat0 dat1 m)) c 0]
      iexact HO
    isplitl [Hp]; · iexact Hp
    iexact Hrest
  hin c := by
    refine BIBase.Entails.trans ?_ (hin2 (ofVal (W2 dat0 dat1 m)) c)
    unfold Pipeline.ΦA
    iintro ⟨Hp, -, Hr⟩
    isplitl [Hr]; · iexact Hr
    iexact Hp
  hout c := by
    rw [Pipeline.ownSems0_none]
    refine BIBase.Entails.trans (hout2 (ofVal (W2 dat0 dat1 m)) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats dat0 dat1 dat2 dat3 m) ((pdats dat0 dat1 dat2 dat3 m 2 c).share_full fun w => q2 (ofVal (W2 dat0 dat1 m)) c w)
      (ofVal (W2 dat0 dat1 m) c) (ofVal (W3 dat0 dat1 dat2 m) c) ((pdats dat0 dat1 dat2 dat3 m 2 c).arrAt · cfg2.N) (hF2 dat0 dat1 dat2 m c) (hrest2 dat0 dat1 dat2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats dat0 dat1 dat2 dat3 m 2 c).owed (Fin.last _) = 0 from o2 (ofVal (W2 dat0 dat1 m)) c _]
    iexact HO

set_option backward.isDefEq.respectTransparency.types false in
/-- Region 3 over the thread state: entered with every unscoped buffer at the contents before it, left with them at the
    contents after it; its arrays split out of the unscoped buffers and put back; the generator register into the invariant
    and out; nothing owed; no semaphore of the kernel's own. -/
def reg3 : Pipeline.RegionSeg (pcfgs (F := F)) adm (pdats dat0 dat1 dat2 dat3 m) () defs₀ 𝒱₀ L lv 3 where
  win := launch3.win.to₀
  block_pos := launch3.block_pos
  stage_whole := launch3.stage_whole
  K := PEmpty
  osem k := k.elim
  ho := Pipeline.OwnSemFacts.none _
  hbody c := (body3 (ofVal (W4 dat0 dat1 dat2 m)) c).loose
  hwaits := Pipeline.hwaits_of_owed_zero _ _ _ _ L lv 3 fun c t => o3 (ofVal (W4 dat0 dat1 dat2 m)) c t
  pre c := iprop(StableHlo.held (c : Thread nD τ) (Pipeline.ucRefs τ sig) (W4 dat0 dat1 dat2 m c) ∗ R c)
  post c := iprop(Tₙ dat0 dat1 dat2 dat3 m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (ofVal (W4 dat0 dat1 dat2 m) c)
  hentry c := by
    rw [Pipeline.ownSems0_none]
    have hsplit := Pipeline.arrays_of_unscopedBufs (p := 3) (pcfgs (F := F)) adm (pdats dat0 dat1 dat2 dat3 m) launch3.win launch3.arr_whole c
      ((pdats dat0 dat1 dat2 dat3 m 3 c).share_full fun w => q3 (ofVal (W4 dat0 dat1 dat2 m)) c w) (ofVal (W4 dat0 dat1 dat2 m) c) fun w => A3 (ofVal (W4 dat0 dat1 dat2 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; unfold Pipeline.Dat.bound
        rw [show (pdats dat0 dat1 dat2 dat3 m 3 c).recorded 0 = Set.univ from rec3 (ofVal (W4 dat0 dat1 dat2 m)) c 0]; exact fun _ _ => Or.inl trivial
      rw [show (pdats dat0 dat1 dat2 dat3 m 3 c).owed 0 = 0 from o3 (ofVal (W4 dat0 dat1 dat2 m)) c 0]
      iexact HO
    isplitl [Hp]; · iexact Hp
    iexact Hrest
  hin c := by
    refine BIBase.Entails.trans ?_ (hin3 (ofVal (W4 dat0 dat1 dat2 m)) c)
    unfold Pipeline.ΦA
    iintro ⟨Hp, -, Hr⟩
    isplitl [Hr]; · iexact Hr
    iexact Hp
  hout c := by
    rw [Pipeline.ownSems0_none]
    refine BIBase.Entails.trans (hout3 (ofVal (W4 dat0 dat1 dat2 m)) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats dat0 dat1 dat2 dat3 m) ((pdats dat0 dat1 dat2 dat3 m 3 c).share_full fun w => q3 (ofVal (W4 dat0 dat1 dat2 m)) c w)
      (ofVal (W4 dat0 dat1 dat2 m) c) (ofVal (W5 dat0 dat1 dat2 dat3 m) c) ((pdats dat0 dat1 dat2 dat3 m 3 c).arrAt · cfg3.N) (hF3 dat0 dat1 dat2 dat3 m c) (hrest3 dat0 dat1 dat2 dat3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W
    rw [show (pdats dat0 dat1 dat2 dat3 m 3 c).owed (Fin.last _) = 0 from o3 (ofVal (W4 dat0 dat1 dat2 m)) c _]
    iexact HO

/-- The five host operations between regions 2 and 3 as a segment, from the contents after region 2. -/
abbrev hseg3 : Pipeline.HostSeg (Name := ℕ) (U := UR sig nD τ) (pcfgs (F := F)) defs₀ 𝒱₀ L lv :=
  Pipeline.HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W3 dat0 dat1 dat2 m) R

/-- @main's five items in order. -/
abbrev segs : List (Pipeline.Seg (pcfgs (F := F)) adm (pdats dat0 dat1 dat2 dat3 m) () defs₀ 𝒱₀ L lv) :=
  [ .region (reg0 dat0 dat1 dat2 dat3 m A0 q0 o0 rec0 body0 hin0 hout0),
    .region (reg1 dat0 dat1 dat2 dat3 m A1 q1 o1 rec1 body1 hin1 hout1),
    .region (reg2 dat0 dat1 dat2 dat3 m A2 q2 o2 rec2 body2 hin2 hout2),
    .host (hseg3 dat0 dat1 dat2 m),
    .region (reg3 dat0 dat1 dat2 dat3 m A3 q3 o3 rec3 body3 hin3 hout3) ]

/-- @main is the run of the five items. -/
theorem main_run (c : Dev nD) : main (F := F) c = Pipeline.Seg.run (segs dat0 dat1 dat2 dat3 m A0 q0 o0 rec0 body0 hin0 hout0 A1 q1 o1 rec1 body1 hin1 hout1 A2 q2 o2 rec2 body2 hin2 hout2 A3 q3 o3 rec3 body3 hin3 hout3) :=
  (main_chain c).trans (by chain_rfl)

set_option backward.isDefEq.respectTransparency.types false in
/-- THE RUN. From any memory with zero counters, every weakly fair execution of @main on the TensorCores terminates,
    nothing faulting, and every final state has every unscoped buffer at the contents after region 3. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W5 dat0 dat1 dat2 dat3 m c b) :=
  Pipeline.θ_run_regions_kit (pcfgs (F := F)) adm (pdats dat0 dat1 dat2 dat3 m) () cellOf_inj emb₁ defs₀ 𝒱₀ L lv m ρ main (segs dat0 dat1 dat2 dat3 m A0 q0 o0 rec0 body0 hin0 hout0 A1 q1 o1 rec1 body1 hin1 hout1 A2 q2 o2 rec2 body2 hin2 hout2 A3 q3 o3 rec3 body3 hin3 hout3)
    (fun c Q => by rw [main_run dat0 dat1 dat2 dat3 m A0 q0 o0 rec0 body0 hin0 hout0 A1 q1 o1 rec1 body1 hin1 hout1 A2 q2 o2 rec2 body2 hin2 hout2 A3 q3 o3 rec3 body3 hin3 hout3 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ dat0 dat1 dat2 dat3 m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 dat0 dat1 dat2 dat3 m c b)
    (hfin := fun c s' => by
      iintro ⟨⟨Hh, -⟩, HSI⟩
      unfold StableHlo.held
      imodintro
      iapply (pointsTo_read_all (Pipeline.ucRefs τ sig) (fun b => (((c : Thread nD τ)).1, b)) (W5 dat0 dat1 dat2 dat3 m c) s')
      isplitl [Hh] <;> iassumption)
    (hQ := fun s h c => h c)

/-- THE VALUE RUN: every weakly fair execution terminates with the four results at what the regions' write-backs leave
    and the thirteen arguments as launched. -/
theorem value (ρ : Dev nD → PrngReg) : θ_run defs (onTc (τ := τ) (main (F := F))) ⟨m, fun _ => 0, ρ⟩ (fun r => ∀ c : Dev nD,
      r.2.mem ((c.tc : Thread nD τ).loc main_v8) = (dat3 (ofVal (W4 dat0 dat1 dat2 m)) c).arrAt 2 cfg3.N
      ∧ r.2.mem ((c.tc : Thread nD τ).loc main_v1) = (dat1 (ofVal (W1 dat0 m)) c).arrAt 4 cfg1.N
      ∧ r.2.mem ((c.tc : Thread nD τ).loc main_v0_0) = (dat0 (ofVal (W0 m)) c).arrAt 8 cfg0.N
      ∧ r.2.mem ((c.tc : Thread nD τ).loc main_v0_1) = (dat0 (ofVal (W0 m)) c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨
      (h c _ (mem_uc main_v8 (by decide))).trans (W5_main_v8 dat0 dat1 dat2 dat3 m A0 A1 A2 A3 c),
      (h c _ (mem_uc main_v1 (by decide))).trans (W5_main_v1 dat0 dat1 dat2 dat3 m A0 A1 A2 A3 c),
      (h c _ (mem_uc main_v0_0 (by decide))).trans (W5_main_v0_0 dat0 dat1 dat2 dat3 m A0 A1 A2 A3 c),
      (h c _ (mem_uc main_v0_1 (by decide))).trans (W5_main_v0_1 dat0 dat1 dat2 dat3 m A0 A1 A2 A3 c),
      (h c _ (mem_uc main_arg0 (by decide))).trans (W5_launch dat0 dat1 dat2 dat3 m A0 A1 A2 A3 c main_arg0 (by decide) (by decide) (by decide) (by decide) (by decide)),
      (h c _ (mem_uc main_arg1 (by decide))).trans (W5_launch dat0 dat1 dat2 dat3 m A0 A1 A2 A3 c main_arg1 (by decide) (by decide) (by decide) (by decide) (by decide)),
      (h c _ (mem_uc main_arg2 (by decide))).trans (W5_launch dat0 dat1 dat2 dat3 m A0 A1 A2 A3 c main_arg2 (by decide) (by decide) (by decide) (by decide) (by decide)),
      (h c _ (mem_uc main_arg3 (by decide))).trans (W5_launch dat0 dat1 dat2 dat3 m A0 A1 A2 A3 c main_arg3 (by decide) (by decide) (by decide) (by decide) (by decide)),
      (h c _ (mem_uc main_arg4 (by decide))).trans (W5_launch dat0 dat1 dat2 dat3 m A0 A1 A2 A3 c main_arg4 (by decide) (by decide) (by decide) (by decide) (by decide)),
      (h c _ (mem_uc main_arg5 (by decide))).trans (W5_launch dat0 dat1 dat2 dat3 m A0 A1 A2 A3 c main_arg5 (by decide) (by decide) (by decide) (by decide) (by decide)),
      (h c _ (mem_uc main_arg6 (by decide))).trans (W5_launch dat0 dat1 dat2 dat3 m A0 A1 A2 A3 c main_arg6 (by decide) (by decide) (by decide) (by decide) (by decide)),
      (h c _ (mem_uc main_arg7 (by decide))).trans (W5_launch dat0 dat1 dat2 dat3 m A0 A1 A2 A3 c main_arg7 (by decide) (by decide) (by decide) (by decide) (by decide)),
      (h c _ (mem_uc main_arg8 (by decide))).trans (W5_launch dat0 dat1 dat2 dat3 m A0 A1 A2 A3 c main_arg8 (by decide) (by decide) (by decide) (by decide) (by decide)),
      (h c _ (mem_uc main_arg9 (by decide))).trans (W5_launch dat0 dat1 dat2 dat3 m A0 A1 A2 A3 c main_arg9 (by decide) (by decide) (by decide) (by decide) (by decide)),
      (h c _ (mem_uc main_arg10 (by decide))).trans (W5_launch dat0 dat1 dat2 dat3 m A0 A1 A2 A3 c main_arg10 (by decide) (by decide) (by decide) (by decide) (by decide)),
      (h c _ (mem_uc main_arg11 (by decide))).trans (W5_launch dat0 dat1 dat2 dat3 m A0 A1 A2 A3 c main_arg11 (by decide) (by decide) (by decide) (by decide) (by decide)),
      (h c _ (mem_uc main_arg12 (by decide))).trans (W5_launch dat0 dat1 dat2 dat3 m A0 A1 A2 A3 c main_arg12 (by decide) (by decide) (by decide) (by decide) (by decide))⟩)
    (run dat0 dat1 dat2 dat3 m A0 q0 o0 rec0 body0 hin0 hout0 A1 q1 o1 rec1 body1 hin1 hout1 A2 q2 o2 rec2 body2 hin2 hout2 A3 q3 o3 rec3 body3 hin3 hout3 ρ)

/-- THE FRAME: every weakly fair execution terminates and the thirteen arguments end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => (h c).2.2.2.2) (value dat0 dat1 dat2 dat3 m A0 q0 o0 rec0 body0 hin0 hout0 A1 q1 o1 rec1 body1 hin1 hout1 A2 q2 o2 rec2 body2 hin2 hout2 A3 q3 o3 rec3 body3 hin3 hout3 ρ)

end Segs

end Cert.KernelIdeal.Asm

end
-- ==== Proof.AsmK.lean ====
/-
  The run of the four-region program from the regions' halves.

  A region's half is its proof data at the buffer contents the region is entered with, its body obligation, and the
  two ends of its invariant.  Given the four halves (as hypotheses: this module mentions no kernel body), the program's
  buffer contents are followed from the launch memory through the five items of @main — region, region, region, five
  host operations, region — and every weakly fair execution ends with every unscoped buffer at the last contents.
-/
import proofs.«122264_j82798379533062_2_alg».proof.Proof.Gen.Kernel.Launch
import proofs.«122264_j82798379533062_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Asm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A core's TensorCore buffers at some contents: what a region's half is stated at. -/
abbrev VT (F : FTy → Type) [FloatOps F] : Type := (c : Dev nD) → (b : Ref sig .tc) → Buf (Elt F) ((c : Thread nD τ).loc b)

/-- A valuation read at the TensorCore's references. -/
abbrev ofVal (W : Dev nD → Valuation τ sig (Elt F)) : VT F := fun c b => W c b

section Keep

/-- A region changes only the arrays of its OUTPUT windows: at any other reference the contents after the region
    are the contents before it (an input window's array is never written; a reference no window stages bypasses). -/
theorem keep {cfg : Cfg sig Λ₀} (c : Dev nD) (W : Valuation τ sig (Elt F))
    (dat : Dat τ (Elt F) Unit ℕ (UR sig nD τ) ℕ cfg c)
    (hA : ∀ w, dat.A w = W (Proc.devRef .tc (Pipeline.arrRef cfg.spec w)))
    (hinj : Function.Injective (Pipeline.arrRef cfg.spec))
    (b : Ref sig .tc) (hb : ∀ w, (cfg.win w).isOut = true → Pipeline.arrRef cfg.spec w ≠ b) :
    Pipeline.withArrays cfg.spec c W (fun w => dat.arrAt w cfg.N) (Proc.devRef .tc b) = W (Proc.devRef .tc b) := by
  by_cases h : ∃ w, Pipeline.arrRef cfg.spec w = b
  · obtain ⟨w, rfl⟩ := h
    rw [Pipeline.withArrays_arr cfg.spec hinj c W _ w]
    have hw : (cfg.win w).isOut = false := by
      cases hh : (cfg.win w).isOut
      · rfl
      · exact absurd rfl (hb w hh)
    rw [dat.arrAt_in w hw, hA]
  · exact Pipeline.withArrays_of_ne cfg.spec c W _ b fun w e => h ⟨w, e⟩

end Keep

/-! ## The buffer contents between the items of @main -/

section Contents

/-- Core `c`'s buffers at launch. -/
abbrev W0 (m : (ℓ : Loc nD τ sig) → Buf (Elt F) ℓ) : Dev nD → Valuation τ sig (Elt F) := fun c b => m (c, b)
/-- After region 0: its arrays at what its write-backs leave, every other buffer as before. -/
def W1 (dat0 : VT F → (c : Dev nD) → Dat τ (Elt F) Unit ℕ (UR sig nD τ) ℕ cfg0 c) (m : (ℓ : Loc nD τ sig) → Buf (Elt F) ℓ) (c : Dev nD) : Valuation τ sig (Elt F) :=
  Pipeline.withArrays spec0 c (W0 m c) fun w => (dat0 (ofVal (W0 m)) c).arrAt w cfg0.N
/-- After region 1. -/
def W2 (dat0 : VT F → (c : Dev nD) → Dat τ (Elt F) Unit ℕ (UR sig nD τ) ℕ cfg0 c) (dat1 : VT F → (c : Dev nD) → Dat τ (Elt F) Unit ℕ (UR sig nD τ) ℕ cfg1 c) (m : (ℓ : Loc nD τ sig) → Buf (Elt F) ℓ) (c : Dev nD) : Valuation τ sig (Elt F) :=
  Pipeline.withArrays spec1 c (W1 dat0 m c) fun w => (dat1 (ofVal (W1 dat0 m)) c).arrAt w cfg1.N
/-- After region 2. -/
def W3 (dat0 : VT F → (c : Dev nD) → Dat τ (Elt F) Unit ℕ (UR sig nD τ) ℕ cfg0 c) (dat1 : VT F → (c : Dev nD) → Dat τ (Elt F) Unit ℕ (UR sig nD τ) ℕ cfg1 c) (dat2 : VT F → (c : Dev nD) → Dat τ (Elt F) Unit ℕ (UR sig nD τ) ℕ cfg2 c) (m : (ℓ : Loc nD τ sig) → Buf (Elt F) ℓ) (c : Dev nD) : Valuation τ sig (Elt F) :=
  Pipeline.withArrays spec2 c (W2 dat0 dat1 m c) fun w => (dat2 (ofVal (W2 dat0 dat1 m)) c).arrAt w cfg2.N
/-- After the five host operations that add the two half sums. -/
abbrev W4 (dat0 : VT F → (c : Dev nD) → Dat τ (Elt F) Unit ℕ (UR sig nD τ) ℕ cfg0 c) (dat1 : VT F → (c : Dev nD) → Dat τ (Elt F) Unit ℕ (UR sig nD τ) ℕ cfg1 c) (dat2 : VT F → (c : Dev nD) → Dat τ (Elt F) Unit ℕ (UR sig nD τ) ℕ cfg2 c) (m : (ℓ : Loc nD τ sig) → Buf (Elt F) ℓ) (c : Dev nD) : Valuation τ sig (Elt F) :=
  StableHlo.after hostOps3 (W3 dat0 dat1 dat2 m c)
/-- After region 3. -/
def W5 (dat0 : VT F → (c : Dev nD) → Dat τ (Elt F) Unit ℕ (UR sig nD τ) ℕ cfg0 c) (dat1 : VT F → (c : Dev nD) → Dat τ (Elt F) Unit ℕ (UR sig nD τ) ℕ cfg1 c) (dat2 : VT F → (c : Dev nD) → Dat τ (Elt F) Unit ℕ (UR sig nD τ) ℕ cfg2 c) (dat3 : VT F → (c : Dev nD) → Dat τ (Elt F) Unit ℕ (UR sig nD τ) ℕ cfg3 c) (m : (ℓ : Loc nD τ sig) → Buf (Elt F) ℓ) (c : Dev nD) : Valuation τ sig (Elt F) :=
  Pipeline.withArrays spec3 c (W4 dat0 dat1 dat2 m c) fun w => (dat3 (ofVal (W4 dat0 dat1 dat2 m)) c).arrAt w cfg3.N

theorem hF0 (dat0 : VT F → (c : Dev nD) → Dat τ (Elt F) Unit ℕ (UR sig nD τ) ℕ cfg0 c) (m : (ℓ : Loc nD τ sig) → Buf (Elt F) ℓ) (c : Dev nD) (w : Fin cfg0.W) :
    (dat0 (ofVal (W0 m)) c).arrAt w cfg0.N = ofVal (W1 dat0 m) c (Pipeline.arrRef spec0 w) := by
  show _ = W1 dat0 m c (Proc.devRef .tc (Pipeline.arrRef spec0 w))
  unfold W1; exact (Pipeline.withArrays_arr spec0 launch0.win.arr_inj c (W0 m c) (fun w => (dat0 (ofVal (W0 m)) c).arrAt w cfg0.N) w).symm
theorem hrest0 (dat0 : VT F → (c : Dev nD) → Dat τ (Elt F) Unit ℕ (UR sig nD τ) ℕ cfg0 c) (m : (ℓ : Loc nD τ sig) → Buf (Elt F) ℓ) (c : Dev nD) :
    ∀ b, b ∉ Finset.univ.image (Pipeline.arrRef spec0) → ofVal (W1 dat0 m) c b = ofVal (W0 m) c b := fun b hb => by
  show W1 dat0 m c (Proc.devRef .tc b) = _
  unfold W1
  exact Pipeline.withArrays_of_ne spec0 c (W0 m c) (fun w => (dat0 (ofVal (W0 m)) c).arrAt w cfg0.N) b fun w e => hb (Finset.mem_image.mpr ⟨w, Finset.mem_univ _, e⟩)

theorem hF1 (dat0 : VT F → (c : Dev nD) → Dat τ (Elt F) Unit ℕ (UR sig nD τ) ℕ cfg0 c) (dat1 : VT F → (c : Dev nD) → Dat τ (Elt F) Unit ℕ (UR sig nD τ) ℕ cfg1 c) (m : (ℓ : Loc nD τ sig) → Buf (Elt F) ℓ) (c : Dev nD) (w : Fin cfg1.W) :
    (dat1 (ofVal (W1 dat0 m)) c).arrAt w cfg1.N = ofVal (W2 dat0 dat1 m) c (Pipeline.arrRef spec1 w) := by
  show _ = W2 dat0 dat1 m c (Proc.devRef .tc (Pipeline.arrRef spec1 w))
  unfold W2; exact (Pipeline.withArrays_arr spec1 launch1.win.arr_inj c (W1 dat0 m c) (fun w => (dat1 (ofVal (W1 dat0 m)) c).arrAt w cfg1.N) w).symm
theorem hrest1 (dat0 : VT F → (c : Dev nD) → Dat τ (Elt F) Unit ℕ (UR sig nD τ) ℕ cfg0 c) (dat1 : VT F → (c : Dev nD) → Dat τ (Elt F) Unit ℕ (UR sig nD τ) ℕ cfg1 c) (m : (ℓ : Loc nD τ sig) → Buf (Elt F) ℓ) (c : Dev nD) :
    ∀ b, b ∉ Finset.univ.image (Pipeline.arrRef spec1) → ofVal (W2 dat0 dat1 m) c b = ofVal (W1 dat0 m) c b := fun b hb => by
  show W2 dat0 dat1 m c (Proc.devRef .tc b) = _
  unfold W2
  exact Pipeline.withArrays_of_ne spec1 c (W1 dat0 m c) (fun w => (dat1 (ofVal (W1 dat0 m)) c).arrAt w cfg1.N) b fun w e => hb (Finset.mem_image.mpr ⟨w, Finset.mem_univ _, e⟩)

theorem hF2 (dat0 : VT F → (c : Dev nD) → Dat τ (Elt F) Unit ℕ (UR sig nD τ) ℕ cfg0 c) (dat1 : VT F → (c : Dev nD) → Dat τ (Elt F) Unit ℕ (UR sig nD τ) ℕ cfg1 c) (dat2 : VT F → (c : Dev nD) → Dat τ (Elt F) Unit ℕ (UR sig nD τ) ℕ cfg2 c) (m : (ℓ : Loc nD τ sig) → Buf (Elt F) ℓ) (c : Dev nD) (w : Fin cfg2.W) :
    (dat2 (ofVal (W2 dat0 dat1 m)) c).arrAt w cfg2.N = ofVal (W3 dat0 dat1 dat2 m) c (Pipeline.arrRef spec2 w) := by
  show _ = W3 dat0 dat1 dat2 m c (Proc.devRef .tc (Pipeline.arrRef spec2 w))
  unfold W3; exact (Pipeline.withArrays_arr spec2 launch2.win.arr_inj c (W2 dat0 dat1 m c) (fun w => (dat2 (ofVal (W2 dat0 dat1 m)) c).arrAt w cfg2.N) w).symm
theorem hrest2 (dat0 : VT F → (c : Dev nD) → Dat τ (Elt F) Unit ℕ (UR sig nD τ) ℕ cfg0 c) (dat1 : VT F → (c : Dev nD) → Dat τ (Elt F) Unit ℕ (UR sig nD τ) ℕ cfg1 c) (dat2 : VT F → (c : Dev nD) → Dat τ (Elt F) Unit ℕ (UR sig nD τ) ℕ cfg2 c) (m : (ℓ : Loc nD τ sig) → Buf (Elt F) ℓ) (c : Dev nD) :
    ∀ b, b ∉ Finset.univ.image (Pipeline.arrRef spec2) → ofVal (W3 dat0 dat1 dat2 m) c b = ofVal (W2 dat0 dat1 m) c b := fun b hb => by
  show W3 dat0 dat1 dat2 m c (Proc.devRef .tc b) = _
  unfold W3
  exact Pipeline.withArrays_of_ne spec2 c (W2 dat0 dat1 m c) (fun w => (dat2 (ofVal (W2 dat0 dat1 m)) c).arrAt w cfg2.N) b fun w e => hb (Finset.mem_image.mpr ⟨w, Finset.mem_univ _, e⟩)

theorem hF3 (dat0 : VT F → (c : Dev nD) → Dat τ (Elt F) Unit ℕ (UR sig nD τ) ℕ cfg0 c) (dat1 : VT F → (c : Dev nD) → Dat τ (Elt F) Unit ℕ (UR sig nD τ) ℕ cfg1 c) (dat2 : VT F → (c : Dev nD) → Dat τ (Elt F) Unit ℕ (UR sig nD τ) ℕ cfg2 c) (dat3 : VT F → (c : Dev nD) → Dat τ (Elt F) Unit ℕ (UR sig nD τ) ℕ cfg3 c) (m : (ℓ : Loc nD τ sig) → Buf (Elt F) ℓ) (c : Dev nD) (w : Fin cfg3.W) :
    (dat3 (ofVal (W4 dat0 dat1 dat2 m)) c).arrAt w cfg3.N = ofVal (W5 dat0 dat1 dat2 dat3 m) c (Pipeline.arrRef spec3 w) := by
  show _ = W5 dat0 dat1 dat2 dat3 m c (Proc.devRef .tc (Pipeline.arrRef spec3 w))
  unfold W5; exact (Pipeline.withArrays_arr spec3 launch3.win.arr_inj c (W4 dat0 dat1 dat2 m c) (fun w => (dat3 (ofVal (W4 dat0 dat1 dat2 m)) c).arrAt w cfg3.N) w).symm
theorem hrest3 (dat0 : VT F → (c : Dev nD) → Dat τ (Elt F) Unit ℕ (UR sig nD τ) ℕ cfg0 c) (dat1 : VT F → (c : Dev nD) → Dat τ (Elt F) Unit ℕ (UR sig nD τ) ℕ cfg1 c) (dat2 : VT F → (c : Dev nD) → Dat τ (Elt F) Unit ℕ (UR sig nD τ) ℕ cfg2 c) (dat3 : VT F → (c : Dev nD) → Dat τ (Elt F) Unit ℕ (UR sig nD τ) ℕ cfg3 c) (m : (ℓ : Loc nD τ sig) → Buf (Elt F) ℓ) (c : Dev nD) :
    ∀ b, b ∉ Finset.univ.image (Pipeline.arrRef spec3) → ofVal (W5 dat0 dat1 dat2 dat3 m) c b = ofVal (W4 dat0 dat1 dat2 m) c b := fun b hb => by
  show W5 dat0 dat1 dat2 dat3 m c (Proc.devRef .tc b) = _
  unfold W5
  exact Pipeline.withArrays_of_ne spec3 c (W4 dat0 dat1 dat2 m c) (fun w => (dat3 (ofVal (W4 dat0 dat1 dat2 m)) c).arrAt w cfg3.N) b fun w e => hb (Finset.mem_image.mpr ⟨w, Finset.mem_univ _, e⟩)

end Contents

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents. -/
def pdats (dat0 : VT F → (c : Dev nD) → Dat τ (Elt F) Unit ℕ (UR sig nD τ) ℕ cfg0 c) (dat1 : VT F → (c : Dev nD) → Dat τ (Elt F) Unit ℕ (UR sig nD τ) ℕ cfg1 c) (dat2 : VT F → (c : Dev nD) → Dat τ (Elt F) Unit ℕ (UR sig nD τ) ℕ cfg2 c) (dat3 : VT F → (c : Dev nD) → Dat τ (Elt F) Unit ℕ (UR sig nD τ) ℕ cfg3 c) (m : (ℓ : Loc nD τ sig) → Buf (Elt F) ℓ) : (p : Fin 4) → (c : Dev nD) → Dat τ (Elt F) Unit ℕ (UR sig nD τ) ℕ (Pipeline.pin (pcfgs (F := F)) adm p) c
  | ⟨0, _⟩ => fun c => dat0 (ofVal (W0 m)) c
  | ⟨1, _⟩ => fun c => dat1 (ofVal (W1 dat0 m)) c
  | ⟨2, _⟩ => fun c => dat2 (ofVal (W2 dat0 dat1 m)) c
  | ⟨3, _⟩ => fun c => dat3 (ofVal (W4 dat0 dat1 dat2 m)) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
/-- The last thread state without the `owes`. -/
abbrev Tₙ (dat0 : VT F → (c : Dev nD) → Dat τ (Elt F) Unit ℕ (UR sig nD τ) ℕ cfg0 c) (dat1 : VT F → (c : Dev nD) → Dat τ (Elt F) Unit ℕ (UR sig nD τ) ℕ cfg1 c) (dat2 : VT F → (c : Dev nD) → Dat τ (Elt F) Unit ℕ (UR sig nD τ) ℕ cfg2 c) (dat3 : VT F → (c : Dev nD) → Dat τ (Elt F) Unit ℕ (UR sig nD τ) ℕ cfg3 c) (m : (ℓ : Loc nD τ sig) → Buf (Elt F) ℓ) (c : Dev nD) : sProp 𝕄 :=
  iprop(StableHlo.held (c : Thread nD τ) (Pipeline.ucRefs τ sig) (W5 dat0 dat1 dat2 dat3 m c) ∗ ∃ r, prngReg c r)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

section Reads
variable (dat0 : VT F → (c : Dev nD) → Dat τ (Elt F) Unit ℕ (UR sig nD τ) ℕ cfg0 c) (dat1 : VT F → (c : Dev nD) → Dat τ (Elt F) Unit ℕ (UR sig nD τ) ℕ cfg1 c) (dat2 : VT F → (c : Dev nD) → Dat τ (Elt F) Unit ℕ (UR sig nD τ) ℕ cfg2 c) (dat3 : VT F → (c : Dev nD) → Dat τ (Elt F) Unit ℕ (UR sig nD τ) ℕ cfg3 c) (m : (ℓ : Loc nD τ sig) → Buf (Elt F) ℓ)
variable (A0 : ∀ (V : VT F) c w, (dat0 V c).A w = V c (Pipeline.arrRef spec0 w))
  (A1 : ∀ (V : VT F) c w, (dat1 V c).A w = V c (Pipeline.arrRef spec1 w))
  (A2 : ∀ (V : VT F) c w, (dat2 V c).A w = V c (Pipeline.arrRef spec2 w))
  (A3 : ∀ (V : VT F) c w, (dat3 V c).A w = V c (Pipeline.arrRef spec3 w))
include A0 A1 A2 A3

/-! ## Reading the last contents back -/

/-- Region 0 keeps every buffer that is not one of its two results. -/
theorem W1_keep (c : Dev nD) (b : Ref sig .tc) (hb : ∀ w, (cfg0.win w).isOut = true → Pipeline.arrRef cfg0.spec w ≠ b) :
    W1 dat0 m c (Proc.devRef .tc b) = W0 m c (Proc.devRef .tc b) := by
  unfold W1; exact keep c (W0 m c) (dat0 (ofVal (W0 m)) c) (fun w => A0 _ c w) launch0.win.arr_inj b hb
/-- Region 1 keeps every buffer but its result. -/
theorem W2_keep (c : Dev nD) (b : Ref sig .tc) (hb : ∀ w, (cfg1.win w).isOut = true → Pipeline.arrRef cfg1.spec w ≠ b) :
    W2 dat0 dat1 m c (Proc.devRef .tc b) = W1 dat0 m c (Proc.devRef .tc b) := by
  unfold W2; exact keep c (W1 dat0 m c) (dat1 (ofVal (W1 dat0 m)) c) (fun w => A1 _ c w) launch1.win.arr_inj b hb
/-- Region 2 keeps every buffer but its two results. -/
theorem W3_keep (c : Dev nD) (b : Ref sig .tc) (hb : ∀ w, (cfg2.win w).isOut = true → Pipeline.arrRef cfg2.spec w ≠ b) :
    W3 dat0 dat1 dat2 m c (Proc.devRef .tc b) = W2 dat0 dat1 m c (Proc.devRef .tc b) := by
  unfold W3; exact keep c (W2 dat0 dat1 m c) (dat2 (ofVal (W2 dat0 dat1 m)) c) (fun w => A2 _ c w) launch2.win.arr_inj b hb
/-- The five host operations write only their own five results. -/
theorem W4_keep (c : Dev nD) (b : Ref sig .tc) (hb : b ∉ hostOps3_W) :
    W4 dat0 dat1 dat2 m c (Proc.devRef .tc b) = W3 dat0 dat1 dat2 m c (Proc.devRef .tc b) :=
  StableHlo.after_of_writes_sub hostOps3 _ hostOps3_writes hb
/-- Region 3 keeps every buffer but its result. -/
theorem W5_keep (c : Dev nD) (b : Ref sig .tc) (hb : ∀ w, (cfg3.win w).isOut = true → Pipeline.arrRef cfg3.spec w ≠ b) :
    W5 dat0 dat1 dat2 dat3 m c (Proc.devRef .tc b) = W4 dat0 dat1 dat2 m c (Proc.devRef .tc b) := by
  unfold W5; exact keep c (W4 dat0 dat1 dat2 m c) (dat3 (ofVal (W4 dat0 dat1 dat2 m)) c) (fun w => A3 _ c w) launch3.win.arr_inj b hb

/-- A buffer no region writes and no host operation writes ends as launched. -/
theorem W5_launch (c : Dev nD) (b : Ref sig .tc)
    (h0 : ∀ w, (cfg0.win w).isOut = true → Pipeline.arrRef cfg0.spec w ≠ b) (h1 : ∀ w, (cfg1.win w).isOut = true → Pipeline.arrRef cfg1.spec w ≠ b)
    (h2 : ∀ w, (cfg2.win w).isOut = true → Pipeline.arrRef cfg2.spec w ≠ b) (hh : b ∉ hostOps3_W)
    (h3 : ∀ w, (cfg3.win w).isOut = true → Pipeline.arrRef cfg3.spec w ≠ b) :
    W5 dat0 dat1 dat2 dat3 m c (Proc.devRef .tc b) = m ((c : Thread nD τ).loc b) :=
  (W5_keep dat0 dat1 dat2 dat3 m A0 A1 A2 A3 c b h3).trans <| (W4_keep dat0 dat1 dat2 dat3 m A0 A1 A2 A3 c b hh).trans <| (W3_keep dat0 dat1 dat2 dat3 m A0 A1 A2 A3 c b h2).trans <|
    (W2_keep dat0 dat1 dat2 dat3 m A0 A1 A2 A3 c b h1).trans <| (W1_keep dat0 dat1 dat2 dat3 m A0 A1 A2 A3 c b h0).trans rfl

/-- The first result, O_t: what region 3's write-backs leave. -/
theorem W5_main_v8 (c : Dev nD) :
    W5 dat0 dat1 dat2 dat3 m c (Proc.devRef .tc main_v8) = (dat3 (ofVal (W4 dat0 dat1 dat2 m)) c).arrAt 2 cfg3.N := by
  unfold W5; exact Pipeline.withArrays_arr spec3 launch3.win.arr_inj c _ _ 2
/-- The second result, c_t: what region 1's write-backs leave, kept by everything after. -/
theorem W5_main_v1 (c : Dev nD) :
    W5 dat0 dat1 dat2 dat3 m c (Proc.devRef .tc main_v1) = (dat1 (ofVal (W1 dat0 m)) c).arrAt 4 cfg1.N :=
  (W5_keep dat0 dat1 dat2 dat3 m A0 A1 A2 A3 c main_v1 (by decide)).trans <| (W4_keep dat0 dat1 dat2 dat3 m A0 A1 A2 A3 c main_v1 (by decide)).trans <|
    (W3_keep dat0 dat1 dat2 dat3 m A0 A1 A2 A3 c main_v1 (by decide)).trans <| by
      unfold W2; exact Pipeline.withArrays_arr spec1 launch1.win.arr_inj c _ _ 4
/-- The third result, new_h: what region 0's write-back leaves in its window 8, kept by everything after. -/
theorem W5_main_v0_0 (c : Dev nD) :
    W5 dat0 dat1 dat2 dat3 m c (Proc.devRef .tc main_v0_0) = (dat0 (ofVal (W0 m)) c).arrAt 8 cfg0.N :=
  (W5_keep dat0 dat1 dat2 dat3 m A0 A1 A2 A3 c main_v0_0 (by decide)).trans <| (W4_keep dat0 dat1 dat2 dat3 m A0 A1 A2 A3 c main_v0_0 (by decide)).trans <|
    (W3_keep dat0 dat1 dat2 dat3 m A0 A1 A2 A3 c main_v0_0 (by decide)).trans <| (W2_keep dat0 dat1 dat2 dat3 m A0 A1 A2 A3 c main_v0_0 (by decide)).trans <| by
      unfold W1; exact Pipeline.withArrays_arr spec0 launch0.win.arr_inj c _ _ 8
/-- The fourth result, the clipped cell state: region 0's window 9. -/
theorem W5_main_v0_1 (c : Dev nD) :
    W5 dat0 dat1 dat2 dat3 m c (Proc.devRef .tc main_v0_1) = (dat0 (ofVal (W0 m)) c).arrAt 9 cfg0.N :=
  (W5_keep dat0 dat1 dat2 dat3 m A0 A1 A2 A3 c main_v0_1 (by decide)).trans <| (W4_keep dat0 dat1 dat2 dat3 m A0 A1 A2 A3 c main_v0_1 (by decide)).trans <|
    (W3_keep dat0 dat1 dat2 dat3 m A0 A1 A2 A3 c main_v0_1 (by decide)).trans <| (W2_keep dat0 dat1 dat2 dat3 m A0 A1 A2 A3 c main_v0_1 (by decide)).trans <| by
      unfold W1; exact Pipeline.withArrays_arr spec0 launch0.win.arr_inj c _ _ 9

end Reads

/-! ## The regions as segments -/

section Segs
variable (dat0 : VT F → (c : Dev nD) → Dat τ (Elt F) Unit ℕ (UR sig nD τ) ℕ cfg0 c) (dat1 : VT F → (c : Dev nD) → Dat τ (Elt F) Unit ℕ (UR sig nD τ) ℕ cfg1 c) (dat2 : VT F → (c : Dev nD) → Dat τ (Elt F) Unit ℕ (UR sig nD τ) ℕ cfg2 c) (dat3 : VT F → (c : Dev nD) → Dat τ (Elt F) Unit ℕ (UR sig nD τ) ℕ cfg3 c) (m : (ℓ : Loc nD τ sig) → Buf (Elt F) ℓ)
variable (A0 : ∀ (V : VT F) c w, (dat0 V c).A w = V c (Pipeline.arrRef spec0 w))
  (q0 : ∀ (V : VT F) c w, (dat0 V c).q w = fullShare) (o0 : ∀ (V : VT F) c t, (dat0 V c).owed t = 0) (rec0 : ∀ (V : VT F) c t, (dat0 V c).recorded t = Set.univ)
  (body0 : ∀ (V : VT F) c, BodyObligation (dat0 V c) (defs₀ (F := F)) Variants.none () Set.univ)
  (hin0 : ∀ (V : VT F) c, Pipeline.ΦA spec0 c ⊢ (dat0 V c).Φ 0)
  (hout0 : ∀ (V : VT F) c, (dat0 V c).Φ (Fin.last cfg0.N) ⊢ Pipeline.ΦA spec0 c)
  (A1 : ∀ (V : VT F) c w, (dat1 V c).A w = V c (Pipeline.arrRef spec1 w))
  (q1 : ∀ (V : VT F) c w, (dat1 V c).q w = fullShare) (o1 : ∀ (V : VT F) c t, (dat1 V c).owed t = 0) (rec1 : ∀ (V : VT F) c t, (dat1 V c).recorded t = Set.univ)
  (body1 : ∀ (V : VT F) c, BodyObligation (dat1 V c) (defs₀ (F := F)) Variants.none () Set.univ)
  (hin1 : ∀ (V : VT F) c, Pipeline.ΦA spec1 c ⊢ (dat1 V c).Φ 0)
  (hout1 : ∀ (V : VT F) c, (dat1 V c).Φ (Fin.last cfg1.N) ⊢ Pipeline.ΦA spec1 c)
  (A2 : ∀ (V : VT F) c w, (dat2 V c).A w = V c (Pipeline.arrRef spec2 w))
  (q2 : ∀ (V : VT F) c w, (dat2 V c).q w = fullShare) (o2 : ∀ (V : VT F) c t, (dat2 V c).owed t = 0) (rec2 : ∀ (V : VT F) c t, (dat2 V c).recorded t = Set.univ)
  (body2 : ∀ (V : VT F) c, BodyObligation (dat2 V c) (defs₀ (F := F)) Variants.none () Set.univ)
  (hin2 : ∀ (V : VT F) c, Pipeline.ΦA spec2 c ⊢ (dat2 V c).Φ 0)
  (hout2 : ∀ (V : VT F) c, (dat2 V c).Φ (Fin.last cfg2.N) ⊢ Pipeline.ΦA spec2 c)
  (A3 : ∀ (V : VT F) c w, (dat3 V c).A w = V c (Pipeline.arrRef spec3 w))
  (q3 : ∀ (V : VT F) c w, (dat3 V c).q w = fullShare) (o3 : ∀ (V : VT F) c t, (dat3 V c).owed t = 0) (rec3 : ∀ (V : VT F) c t, (dat3 V c).recorded t = Set.univ)
  (body3 : ∀ (V : VT F) c, BodyObligation (dat3 V c) (defs₀ (F := F)) Variants.none () Set.univ)
  (hin3 : ∀ (V : VT F) c, Pipeline.ΦA spec3 c ⊢ (dat3 V c).Φ 0)
  (hout3 : ∀ (V : VT F) c, (dat3 V c).Φ (Fin.last cfg3.N) ⊢ Pipeline.ΦA spec3 c)
include A0 q0 o0 rec0 body0 hin0 hout0 A1 q1 o1 rec1 body1 hin1 hout1 A2 q2 o2 rec2 body2 hin2 hout2 A3 q3 o3 rec3 body3 hin3 hout3

set_option backward.isDefEq.respectTransparency.types false in
/-- Region 0 over the thread state: entered with every unscoped buffer at the contents before it, left with them at the
    contents after it; its arrays split out of the unscoped buffers and put back; the generator register into the invariant
    and out; nothing owed; no semaphore of the kernel's own. -/
def reg0 : Pipeline.RegionSeg (pcfgs (F := F)) adm (pdats dat0 dat1 dat2 dat3 m) () defs₀ 𝒱₀ L lv 0 where
  win := launch0.win.to₀
  block_pos := launch0.block_pos
  stage_whole := launch0.stage_whole
  K := PEmpty
  osem k := k.elim
  ho := Pipeline.OwnSemFacts.none _
  hbody c := (body0 (ofVal (W0 m)) c).loose
  hwaits := Pipeline.hwaits_of_owed_zero _ _ _ _ L lv 0 fun c t => o0 (ofVal (W0 m)) c t
  pre c := iprop(StableHlo.held (c : Thread nD τ) (Pipeline.ucRefs τ sig) (W0 m c) ∗ R c)
  post c := iprop(StableHlo.held (c : Thread nD τ) (Pipeline.ucRefs τ sig) (W1 dat0 m c) ∗ R c)
  X c := iprop(∃ r, prngReg c r)
  Y c := iprop(∃ r, prngReg c r)
  Z c := Pipeline.unscopedRest (Ix := Unit) (Name := ℕ) (U := UR sig nD τ) (Lvl := ℕ) spec0 c (ofVal (W0 m) c)
  hentry c := by
    rw [Pipeline.ownSems0_none]
    have hsplit := Pipeline.arrays_of_unscopedBufs (p := 0) (pcfgs (F := F)) adm (pdats dat0 dat1 dat2 dat3 m) launch0.win launch0.arr_whole c
      ((pdats dat0 dat1 dat2 dat3 m 0 c).share_full fun w => q0 (ofVal (W0 m)) c w) (ofVal (W0 m) c) fun w => A0 (ofVal (W0 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; unfold Pipeline.Dat.bound
        rw [show (pdats dat0 dat1 dat2 dat3 m 0 c).recorded 0 = Set.univ from rec0 (ofVal (W0 m)) c 0]; exact fun _ _ => Or.inl trivial
      rw [show (pdats dat0 dat1 dat2 dat3 m 0 c).owed 0 = 0 from o0 (ofVal (W0 m)) c 0]
      iexact HO
    isplitl [Hp]; · iexact Hp
    iexact Hrest
  hin c := by
    refine BIBase.Entails.trans ?_ (hin0 (ofVal (W0 m)) c)
    unfold Pipeline.ΦA
    iintro ⟨Hp, -, Hr⟩
    isplitl [Hr]; · iexact Hr
    iexact Hp
  hout c := by
    rw [Pipeline.ownSems0_none]
    refine BIBase.Entails.trans (hout0 (ofVal (W0 m)) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats dat0 dat1 dat2 dat3 m) ((pdats dat0 dat1 dat2 dat3 m 0 c).share_full fun w => q0 (ofVal (W0 m)) c w)
      (ofVal (W0 m) c) (ofVal (W1 dat0 m) c) ((pdats dat0 dat1 dat2 dat3 m 0 c).arrAt · cfg0.N) (hF0 dat0 m c) (hrest0 dat0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats dat0 dat1 dat2 dat3 m 0 c).owed (Fin.last _) = 0 from o0 (ofVal (W0 m)) c _]
    iexact HO

set_option backward.isDefEq.respectTransparency.types false in
/-- Region 1 over the thread state: entered with every unscoped buffer at the contents before it, left with them at the
    contents after it; its arrays split out of the unscoped buffers and put back; the generator register into the invariant
    and out; nothing owed; no semaphore of the kernel's own. -/
def reg1 : Pipeline.RegionSeg (pcfgs (F := F)) adm (pdats dat0 dat1 dat2 dat3 m) () defs₀ 𝒱₀ L lv 1 where
  win := launch1.win.to₀
  block_pos := launch1.block_pos
  stage_whole := launch1.stage_whole
  K := PEmpty
  osem k := k.elim
  ho := Pipeline.OwnSemFacts.none _
  hbody c := (body1 (ofVal (W1 dat0 m)) c).loose
  hwaits := Pipeline.hwaits_of_owed_zero _ _ _ _ L lv 1 fun c t => o1 (ofVal (W1 dat0 m)) c t
  pre c := iprop(StableHlo.held (c : Thread nD τ) (Pipeline.ucRefs τ sig) (W1 dat0 m c) ∗ R c)
  post c := iprop(StableHlo.held (c : Thread nD τ) (Pipeline.ucRefs τ sig) (W2 dat0 dat1 m c) ∗ R c)
  X c := iprop(∃ r, prngReg c r)
  Y c := iprop(∃ r, prngReg c r)
  Z c := Pipeline.unscopedRest (Ix := Unit) (Name := ℕ) (U := UR sig nD τ) (Lvl := ℕ) spec1 c (ofVal (W1 dat0 m) c)
  hentry c := by
    rw [Pipeline.ownSems0_none]
    have hsplit := Pipeline.arrays_of_unscopedBufs (p := 1) (pcfgs (F := F)) adm (pdats dat0 dat1 dat2 dat3 m) launch1.win launch1.arr_whole c
      ((pdats dat0 dat1 dat2 dat3 m 1 c).share_full fun w => q1 (ofVal (W1 dat0 m)) c w) (ofVal (W1 dat0 m) c) fun w => A1 (ofVal (W1 dat0 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; unfold Pipeline.Dat.bound
        rw [show (pdats dat0 dat1 dat2 dat3 m 1 c).recorded 0 = Set.univ from rec1 (ofVal (W1 dat0 m)) c 0]; exact fun _ _ => Or.inl trivial
      rw [show (pdats dat0 dat1 dat2 dat3 m 1 c).owed 0 = 0 from o1 (ofVal (W1 dat0 m)) c 0]
      iexact HO
    isplitl [Hp]; · iexact Hp
    iexact Hrest
  hin c := by
    refine BIBase.Entails.trans ?_ (hin1 (ofVal (W1 dat0 m)) c)
    unfold Pipeline.ΦA
    iintro ⟨Hp, -, Hr⟩
    isplitl [Hr]; · iexact Hr
    iexact Hp
  hout c := by
    rw [Pipeline.ownSems0_none]
    refine BIBase.Entails.trans (hout1 (ofVal (W1 dat0 m)) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats dat0 dat1 dat2 dat3 m) ((pdats dat0 dat1 dat2 dat3 m 1 c).share_full fun w => q1 (ofVal (W1 dat0 m)) c w)
      (ofVal (W1 dat0 m) c) (ofVal (W2 dat0 dat1 m) c) ((pdats dat0 dat1 dat2 dat3 m 1 c).arrAt · cfg1.N) (hF1 dat0 dat1 m c) (hrest1 dat0 dat1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats dat0 dat1 dat2 dat3 m 1 c).owed (Fin.last _) = 0 from o1 (ofVal (W1 dat0 m)) c _]
    iexact HO

set_option backward.isDefEq.respectTransparency.types false in
/-- Region 2 over the thread state: entered with every unscoped buffer at the contents before it, left with them at the
    contents after it; its arrays split out of the unscoped buffers and put back; the generator register into the invariant
    and out; nothing owed; no semaphore of the kernel's own. -/
def reg2 : Pipeline.RegionSeg (pcfgs (F := F)) adm (pdats dat0 dat1 dat2 dat3 m) () defs₀ 𝒱₀ L lv 2 where
  win := launch2.win.to₀
  block_pos := launch2.block_pos
  stage_whole := launch2.stage_whole
  K := PEmpty
  osem k := k.elim
  ho := Pipeline.OwnSemFacts.none _
  hbody c := (body2 (ofVal (W2 dat0 dat1 m)) c).loose
  hwaits := Pipeline.hwaits_of_owed_zero _ _ _ _ L lv 2 fun c t => o2 (ofVal (W2 dat0 dat1 m)) c t
  pre c := iprop(StableHlo.held (c : Thread nD τ) (Pipeline.ucRefs τ sig) (W2 dat0 dat1 m c) ∗ R c)
  post c := iprop(StableHlo.held (c : Thread nD τ) (Pipeline.ucRefs τ sig) (W3 dat0 dat1 dat2 m c) ∗ R c)
  X c := iprop(∃ r, prngReg c r)
  Y c := iprop(∃ r, prngReg c r)
  Z c := Pipeline.unscopedRest (Ix := Unit) (Name := ℕ) (U := UR sig nD τ) (Lvl := ℕ) spec2 c (ofVal (W2 dat0 dat1 m) c)
  hentry c := by
    rw [Pipeline.ownSems0_none]
    have hsplit := Pipeline.arrays_of_unscopedBufs (p := 2) (pcfgs (F := F)) adm (pdats dat0 dat1 dat2 dat3 m) launch2.win launch2.arr_whole c
      ((pdats dat0 dat1 dat2 dat3 m 2 c).share_full fun w => q2 (ofVal (W2 dat0 dat1 m)) c w) (ofVal (W2 dat0 dat1 m) c) fun w => A2 (ofVal (W2 dat0 dat1 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; unfold Pipeline.Dat.bound
        rw [show (pdats dat0 dat1 dat2 dat3 m 2 c).recorded 0 = Set.univ from rec2 (ofVal (W2 dat0 dat1 m)) c 0]; exact fun _ _ => Or.inl trivial
      rw [show (pdats dat0 dat1 dat2 dat3 m 2 c).owed 0 = 0 from o2 (ofVal (W2 dat0 dat1 m)) c 0]
      iexact HO
    isplitl [Hp]; · iexact Hp
    iexact Hrest
  hin c := by
    refine BIBase.Entails.trans ?_ (hin2 (ofVal (W2 dat0 dat1 m)) c)
    unfold Pipeline.ΦA
    iintro ⟨Hp, -, Hr⟩
    isplitl [Hr]; · iexact Hr
    iexact Hp
  hout c := by
    rw [Pipeline.ownSems0_none]
    refine BIBase.Entails.trans (hout2 (ofVal (W2 dat0 dat1 m)) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats dat0 dat1 dat2 dat3 m) ((pdats dat0 dat1 dat2 dat3 m 2 c).share_full fun w => q2 (ofVal (W2 dat0 dat1 m)) c w)
      (ofVal (W2 dat0 dat1 m) c) (ofVal (W3 dat0 dat1 dat2 m) c) ((pdats dat0 dat1 dat2 dat3 m 2 c).arrAt · cfg2.N) (hF2 dat0 dat1 dat2 m c) (hrest2 dat0 dat1 dat2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats dat0 dat1 dat2 dat3 m 2 c).owed (Fin.last _) = 0 from o2 (ofVal (W2 dat0 dat1 m)) c _]
    iexact HO

set_option backward.isDefEq.respectTransparency.types false in
/-- Region 3 over the thread state: entered with every unscoped buffer at the contents before it, left with them at the
    contents after it; its arrays split out of the unscoped buffers and put back; the generator register into the invariant
    and out; nothing owed; no semaphore of the kernel's own. -/
def reg3 : Pipeline.RegionSeg (pcfgs (F := F)) adm (pdats dat0 dat1 dat2 dat3 m) () defs₀ 𝒱₀ L lv 3 where
  win := launch3.win.to₀
  block_pos := launch3.block_pos
  stage_whole := launch3.stage_whole
  K := PEmpty
  osem k := k.elim
  ho := Pipeline.OwnSemFacts.none _
  hbody c := (body3 (ofVal (W4 dat0 dat1 dat2 m)) c).loose
  hwaits := Pipeline.hwaits_of_owed_zero _ _ _ _ L lv 3 fun c t => o3 (ofVal (W4 dat0 dat1 dat2 m)) c t
  pre c := iprop(StableHlo.held (c : Thread nD τ) (Pipeline.ucRefs τ sig) (W4 dat0 dat1 dat2 m c) ∗ R c)
  post c := iprop(Tₙ dat0 dat1 dat2 dat3 m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (ofVal (W4 dat0 dat1 dat2 m) c)
  hentry c := by
    rw [Pipeline.ownSems0_none]
    have hsplit := Pipeline.arrays_of_unscopedBufs (p := 3) (pcfgs (F := F)) adm (pdats dat0 dat1 dat2 dat3 m) launch3.win launch3.arr_whole c
      ((pdats dat0 dat1 dat2 dat3 m 3 c).share_full fun w => q3 (ofVal (W4 dat0 dat1 dat2 m)) c w) (ofVal (W4 dat0 dat1 dat2 m) c) fun w => A3 (ofVal (W4 dat0 dat1 dat2 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; unfold Pipeline.Dat.bound
        rw [show (pdats dat0 dat1 dat2 dat3 m 3 c).recorded 0 = Set.univ from rec3 (ofVal (W4 dat0 dat1 dat2 m)) c 0]; exact fun _ _ => Or.inl trivial
      rw [show (pdats dat0 dat1 dat2 dat3 m 3 c).owed 0 = 0 from o3 (ofVal (W4 dat0 dat1 dat2 m)) c 0]
      iexact HO
    isplitl [Hp]; · iexact Hp
    iexact Hrest
  hin c := by
    refine BIBase.Entails.trans ?_ (hin3 (ofVal (W4 dat0 dat1 dat2 m)) c)
    unfold Pipeline.ΦA
    iintro ⟨Hp, -, Hr⟩
    isplitl [Hr]; · iexact Hr
    iexact Hp
  hout c := by
    rw [Pipeline.ownSems0_none]
    refine BIBase.Entails.trans (hout3 (ofVal (W4 dat0 dat1 dat2 m)) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats dat0 dat1 dat2 dat3 m) ((pdats dat0 dat1 dat2 dat3 m 3 c).share_full fun w => q3 (ofVal (W4 dat0 dat1 dat2 m)) c w)
      (ofVal (W4 dat0 dat1 dat2 m) c) (ofVal (W5 dat0 dat1 dat2 dat3 m) c) ((pdats dat0 dat1 dat2 dat3 m 3 c).arrAt · cfg3.N) (hF3 dat0 dat1 dat2 dat3 m c) (hrest3 dat0 dat1 dat2 dat3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W
    rw [show (pdats dat0 dat1 dat2 dat3 m 3 c).owed (Fin.last _) = 0 from o3 (ofVal (W4 dat0 dat1 dat2 m)) c _]
    iexact HO

/-- The five host operations between regions 2 and 3 as a segment, from the contents after region 2. -/
abbrev hseg3 : Pipeline.HostSeg (Name := ℕ) (U := UR sig nD τ) (pcfgs (F := F)) defs₀ 𝒱₀ L lv :=
  Pipeline.HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W3 dat0 dat1 dat2 m) R

/-- @main's five items in order. -/
abbrev segs : List (Pipeline.Seg (pcfgs (F := F)) adm (pdats dat0 dat1 dat2 dat3 m) () defs₀ 𝒱₀ L lv) :=
  [ .region (reg0 dat0 dat1 dat2 dat3 m A0 q0 o0 rec0 body0 hin0 hout0),
    .region (reg1 dat0 dat1 dat2 dat3 m A1 q1 o1 rec1 body1 hin1 hout1),
    .region (reg2 dat0 dat1 dat2 dat3 m A2 q2 o2 rec2 body2 hin2 hout2),
    .host (hseg3 dat0 dat1 dat2 m),
    .region (reg3 dat0 dat1 dat2 dat3 m A3 q3 o3 rec3 body3 hin3 hout3) ]

/-- @main is the run of the five items. -/
theorem main_run (c : Dev nD) : main (F := F) c = Pipeline.Seg.run (segs dat0 dat1 dat2 dat3 m A0 q0 o0 rec0 body0 hin0 hout0 A1 q1 o1 rec1 body1 hin1 hout1 A2 q2 o2 rec2 body2 hin2 hout2 A3 q3 o3 rec3 body3 hin3 hout3) :=
  (main_chain c).trans (by chain_rfl)

set_option backward.isDefEq.respectTransparency.types false in
/-- THE RUN. From any memory with zero counters, every weakly fair execution of @main on the TensorCores terminates,
    nothing faulting, and every final state has every unscoped buffer at the contents after region 3. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W5 dat0 dat1 dat2 dat3 m c b) :=
  Pipeline.θ_run_regions_kit (pcfgs (F := F)) adm (pdats dat0 dat1 dat2 dat3 m) () cellOf_inj emb₁ defs₀ 𝒱₀ L lv m ρ main (segs dat0 dat1 dat2 dat3 m A0 q0 o0 rec0 body0 hin0 hout0 A1 q1 o1 rec1 body1 hin1 hout1 A2 q2 o2 rec2 body2 hin2 hout2 A3 q3 o3 rec3 body3 hin3 hout3)
    (fun c Q => by rw [main_run dat0 dat1 dat2 dat3 m A0 q0 o0 rec0 body0 hin0 hout0 A1 q1 o1 rec1 body1 hin1 hout1 A2 q2 o2 rec2 body2 hin2 hout2 A3 q3 o3 rec3 body3 hin3 hout3 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ dat0 dat1 dat2 dat3 m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 dat0 dat1 dat2 dat3 m c b)
    (hfin := fun c s' => by
      iintro ⟨⟨Hh, -⟩, HSI⟩
      unfold StableHlo.held
      imodintro
      iapply (pointsTo_read_all (Pipeline.ucRefs τ sig) (fun b => (((c : Thread nD τ)).1, b)) (W5 dat0 dat1 dat2 dat3 m c) s')
      isplitl [Hh] <;> iassumption)
    (hQ := fun s h c => h c)

/-- THE VALUE RUN: every weakly fair execution terminates with the four results at what the regions' write-backs leave
    and the thirteen arguments as launched. -/
theorem value (ρ : Dev nD → PrngReg) : θ_run defs (onTc (τ := τ) (main (F := F))) ⟨m, fun _ => 0, ρ⟩ (fun r => ∀ c : Dev nD,
      r.2.mem ((c.tc : Thread nD τ).loc main_v8) = (dat3 (ofVal (W4 dat0 dat1 dat2 m)) c).arrAt 2 cfg3.N
      ∧ r.2.mem ((c.tc : Thread nD τ).loc main_v1) = (dat1 (ofVal (W1 dat0 m)) c).arrAt 4 cfg1.N
      ∧ r.2.mem ((c.tc : Thread nD τ).loc main_v0_0) = (dat0 (ofVal (W0 m)) c).arrAt 8 cfg0.N
      ∧ r.2.mem ((c.tc : Thread nD τ).loc main_v0_1) = (dat0 (ofVal (W0 m)) c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨
      (h c _ (mem_uc main_v8 (by decide))).trans (W5_main_v8 dat0 dat1 dat2 dat3 m A0 A1 A2 A3 c),
      (h c _ (mem_uc main_v1 (by decide))).trans (W5_main_v1 dat0 dat1 dat2 dat3 m A0 A1 A2 A3 c),
      (h c _ (mem_uc main_v0_0 (by decide))).trans (W5_main_v0_0 dat0 dat1 dat2 dat3 m A0 A1 A2 A3 c),
      (h c _ (mem_uc main_v0_1 (by decide))).trans (W5_main_v0_1 dat0 dat1 dat2 dat3 m A0 A1 A2 A3 c),
      (h c _ (mem_uc main_arg0 (by decide))).trans (W5_launch dat0 dat1 dat2 dat3 m A0 A1 A2 A3 c main_arg0 (by decide) (by decide) (by decide) (by decide) (by decide)),
      (h c _ (mem_uc main_arg1 (by decide))).trans (W5_launch dat0 dat1 dat2 dat3 m A0 A1 A2 A3 c main_arg1 (by decide) (by decide) (by decide) (by decide) (by decide)),
      (h c _ (mem_uc main_arg2 (by decide))).trans (W5_launch dat0 dat1 dat2 dat3 m A0 A1 A2 A3 c main_arg2 (by decide) (by decide) (by decide) (by decide) (by decide)),
      (h c _ (mem_uc main_arg3 (by decide))).trans (W5_launch dat0 dat1 dat2 dat3 m A0 A1 A2 A3 c main_arg3 (by decide) (by decide) (by decide) (by decide) (by decide)),
      (h c _ (mem_uc main_arg4 (by decide))).trans (W5_launch dat0 dat1 dat2 dat3 m A0 A1 A2 A3 c main_arg4 (by decide) (by decide) (by decide) (by decide) (by decide)),
      (h c _ (mem_uc main_arg5 (by decide))).trans (W5_launch dat0 dat1 dat2 dat3 m A0 A1 A2 A3 c main_arg5 (by decide) (by decide) (by decide) (by decide) (by decide)),
      (h c _ (mem_uc main_arg6 (by decide))).trans (W5_launch dat0 dat1 dat2 dat3 m A0 A1 A2 A3 c main_arg6 (by decide) (by decide) (by decide) (by decide) (by decide)),
      (h c _ (mem_uc main_arg7 (by decide))).trans (W5_launch dat0 dat1 dat2 dat3 m A0 A1 A2 A3 c main_arg7 (by decide) (by decide) (by decide) (by decide) (by decide)),
      (h c _ (mem_uc main_arg8 (by decide))).trans (W5_launch dat0 dat1 dat2 dat3 m A0 A1 A2 A3 c main_arg8 (by decide) (by decide) (by decide) (by decide) (by decide)),
      (h c _ (mem_uc main_arg9 (by decide))).trans (W5_launch dat0 dat1 dat2 dat3 m A0 A1 A2 A3 c main_arg9 (by decide) (by decide) (by decide) (by decide) (by decide)),
      (h c _ (mem_uc main_arg10 (by decide))).trans (W5_launch dat0 dat1 dat2 dat3 m A0 A1 A2 A3 c main_arg10 (by decide) (by decide) (by decide) (by decide) (by decide)),
      (h c _ (mem_uc main_arg11 (by decide))).trans (W5_launch dat0 dat1 dat2 dat3 m A0 A1 A2 A3 c main_arg11 (by decide) (by decide) (by decide) (by decide) (by decide)),
      (h c _ (mem_uc main_arg12 (by decide))).trans (W5_launch dat0 dat1 dat2 dat3 m A0 A1 A2 A3 c main_arg12 (by decide) (by decide) (by decide) (by decide) (by decide))⟩)
    (run dat0 dat1 dat2 dat3 m A0 q0 o0 rec0 body0 hin0 hout0 A1 q1 o1 rec1 body1 hin1 hout1 A2 q2 o2 rec2 body2 hin2 hout2 A3 q3 o3 rec3 body3 hin3 hout3 ρ)

/-- THE FRAME: every weakly fair execution terminates and the thirteen arguments end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => (h c).2.2.2.2) (value dat0 dat1 dat2 dat3 m A0 q0 o0 rec0 body0 hin0 hout0 A1 q1 o1 rec1 body1 hin1 hout1 A2 q2 o2 rec2 body2 hin2 hout2 A3 q3 o3 rec3 body3 hin3 hout3 ρ)

end Segs

end Cert.Kernel.Asm

end
-- ==== Proof.R0.lean ====
import proofs.«122264_j82798379533062_2_alg».proof.Proof.Gen.KernelIdeal.Launch
import proofs.«122264_j82798379533062_2_alg».proof.Proof.Gen.KernelIdeal.Skeleton
import proofs.«122264_j82798379533062_2_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic
set_option maxRecDepth 16384
noncomputable section
namespace Cert.KernelIdeal.R0
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- The first branch's condition: the grid coordinate is 0. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 5 = 0 :=
  (by decide +kernel : ∀ t : Fin grid0.N, cond0_0 (grid0.coords t) ↔ t.val % 5 = 0)
/-- The second branch's condition: the grid coordinate is 4. -/
abbrev cond0_1 (i : grid0.Coords) : Prop := k0_cond2 i = 1#1
theorem hcond0_1 : ∀ t : Fin cfg0.N, cond0_1 (grid0.coords t) ↔ t.val % 5 = 4 :=
  (by decide +kernel : ∀ t : Fin grid0.N, cond0_1 (grid0.coords t) ↔ t.val % 5 = 4)

theorem hz2 : (![0, 0] : Fin 2 → Nat) = fun _ => 0 := funext fun a => by fin_cases a <;> rfl

set_option maxHeartbeats 1000000 in
theorem runB (c : Dev nD) (E : Set ℕ) (i : grid0.Coords) (arg1 : Memref sig .tc .vmem S64x6400 .f32) (harg1 : arg1.IsWhole) (arg2 : Memref sig .tc .vmem S6400x64 .f32) (harg2 : arg2.IsWhole) (arg3 : Memref sig .tc .vmem S64x256 .f32) (harg3 : arg3.IsWhole) (arg4 : Memref sig .tc .vmem S256x64 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S128x512 .f32) (harg8 : arg8.IsWhole) (arg9 : Memref sig .tc .vmem S64x128 .f32) (harg9 : arg9.IsWhole) (arg10 : Memref sig .tc .vmem S64x128 .f32) (harg10 : arg10.IsWhole) (arg11 : Memref sig .tc .vmem S64x64 .f32) (harg11 : arg11.IsWhole)
    (hc0 : ¬cond0_0 i) (hc1 : ¬cond0_1 i)
    (x0 : Vec F S64x6400 .f32) (x1 : Vec F S6400x64 .f32) (xs : Vec F S64x64 .f32) (K : PUnit → sProp 𝕄) :
    iprop(owns (c : Thread nD τ) arg1 fullShare x0 ∗ owns (c : Thread nD τ) arg2 fullShare x1 ∗ owns (c : Thread nD τ) arg11 fullShare xs
        ∗ (iprop(owns (c : Thread nD τ) arg1 fullShare x0 ∗ owns (c : Thread nD τ) arg2 fullShare x1 ∗ owns (c : Thread nD τ) arg11 fullShare (k0_pay2 xs x0 x1)) -∗ K ⟨⟩))
      ⊢ wp frame (wpE (defs₀ (F := F)) Variants.none c none) E (cc0__proj_lstm_kernel i arg1 harg1 arg2 harg2 arg3 harg3 arg4 harg4 arg5 harg5 arg6 harg6 arg7 harg7 arg8 harg8 arg9 harg9 arg10 harg10 arg11 harg11) K := by
  simp only [cc0__proj_lstm_kernel_eq_skeleton]; unfold cc0__proj_lstm_kernel_skel
  unfold owns
  iintro ⟨⟨%f0, %hf0, H0⟩, ⟨%f1, %hf1, H1⟩, ⟨%fs, %hfs, HS⟩, Hk⟩
  subst hf0 hf1 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_eq_canon _ _ _ (fun y => ⟨_, List.mem_cons_self, View.mem_set_unit_zero hz2 inb_S64x64_S64x64_0_0 y⟩), View.canon_unit_zero hz2]
  simp only [View.readAt_eq_ld, View.ld_unit_zero (S := S64x64) hz2, View.ld_unit_zero (S := S64x6400) hz2, View.ld_unit_zero (S := S6400x64) hz2, View.ld_unit_zero (S := S64x256) hz2, View.ld_unit_zero (S := S256x64) hz2, View.ld_unit_zero (S := S64x128) hz2, View.ld_unit_zero (S := S64x512) hz2, View.ld_unit_zero (S := S128x512) hz2]

set_option maxHeartbeats 1000000 in
theorem runA (c : Dev nD) (E : Set ℕ) (i : grid0.Coords) (arg1 : Memref sig .tc .vmem S64x6400 .f32) (harg1 : arg1.IsWhole) (arg2 : Memref sig .tc .vmem S6400x64 .f32) (harg2 : arg2.IsWhole) (arg3 : Memref sig .tc .vmem S64x256 .f32) (harg3 : arg3.IsWhole) (arg4 : Memref sig .tc .vmem S256x64 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S128x512 .f32) (harg8 : arg8.IsWhole) (arg9 : Memref sig .tc .vmem S64x128 .f32) (harg9 : arg9.IsWhole) (arg10 : Memref sig .tc .vmem S64x128 .f32) (harg10 : arg10.IsWhole) (arg11 : Memref sig .tc .vmem S64x64 .f32) (harg11 : arg11.IsWhole)
    (hc0 : cond0_0 i) (hc1 : ¬cond0_1 i)
    (x0 : Vec F S64x6400 .f32) (x1 : Vec F S6400x64 .f32) (K : PUnit → sProp 𝕄) :
    iprop(owns (c : Thread nD τ) arg1 fullShare x0 ∗ owns (c : Thread nD τ) arg2 fullShare x1 ∗ (∃ d, owns (c : Thread nD τ) arg11 fullShare d)
        ∗ (iprop(owns (c : Thread nD τ) arg1 fullShare x0 ∗ owns (c : Thread nD τ) arg2 fullShare x1 ∗ owns (c : Thread nD τ) arg11 fullShare (k0_pay2 k0_pay1 x0 x1)) -∗ K ⟨⟩))
      ⊢ wp frame (wpE (defs₀ (F := F)) Variants.none c none) E (cc0__proj_lstm_kernel i arg1 harg1 arg2 harg2 arg3 harg3 arg4 harg4 arg5 harg5 arg6 harg6 arg7 harg7 arg8 harg8 arg9 harg9 arg10 harg10 arg11 harg11) K := by
  simp only [cc0__proj_lstm_kernel_eq_skeleton]; unfold cc0__proj_lstm_kernel_skel
  unfold owns
  iintro ⟨⟨%f0, %hf0, H0⟩, ⟨%f1, %hf1, H1⟩, ⟨%ds, %fs, -, HS⟩, Hk⟩
  subst hf0 hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [View.read_writes_eq_canon _ _ _ (fun y => ⟨_, List.mem_cons_self, View.mem_set_unit_zero hz2 inb_S64x64_S64x64_0_0 y⟩), View.canon_cons_unit_zero hz2]
  simp only [View.readAt_eq_ld, View.ld_unit_zero (S := S64x64) hz2, View.ld_unit_zero (S := S64x6400) hz2, View.ld_unit_zero (S := S6400x64) hz2, View.ld_unit_zero (S := S64x256) hz2, View.ld_unit_zero (S := S256x64) hz2, View.ld_unit_zero (S := S64x128) hz2, View.ld_unit_zero (S := S64x512) hz2, View.ld_unit_zero (S := S128x512) hz2, View.readCov_unit_zero (S := S64x64) _ hz2]

set_option maxHeartbeats 2000000 in
theorem runC (c : Dev nD) (E : Set ℕ) (i : grid0.Coords) (arg1 : Memref sig .tc .vmem S64x6400 .f32) (harg1 : arg1.IsWhole) (arg2 : Memref sig .tc .vmem S6400x64 .f32) (harg2 : arg2.IsWhole) (arg3 : Memref sig .tc .vmem S64x256 .f32) (harg3 : arg3.IsWhole) (arg4 : Memref sig .tc .vmem S256x64 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S128x512 .f32) (harg8 : arg8.IsWhole) (arg9 : Memref sig .tc .vmem S64x128 .f32) (harg9 : arg9.IsWhole) (arg10 : Memref sig .tc .vmem S64x128 .f32) (harg10 : arg10.IsWhole) (arg11 : Memref sig .tc .vmem S64x64 .f32) (harg11 : arg11.IsWhole)
    (hc0 : ¬cond0_0 i) (hc1 : cond0_1 i)
    (x0 : Vec F S64x6400 .f32) (x1 : Vec F S6400x64 .f32) (x2 : Vec F S64x256 .f32) (x3 : Vec F S256x64 .f32) (x4 : Vec F S64x128 .f32) (x5 : Vec F S64x128 .f32) (x6 : Vec F S64x512 .f32) (x7 : Vec F S128x512 .f32) (xs : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d) ∗ owns (c : Thread nD τ) arg11 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (k0_pay5 (k0_pay2 xs x0 x1) x2 x3 x6 x4 x7 x5) ∗ owns (c : Thread nD τ) arg10 fullShare (k0_pay6 (k0_pay2 xs x0 x1) x2 x3 x6 x4 x7 x5) ∗ owns (c : Thread nD τ) arg11 fullShare (k0_pay2 xs x0 x1)) -∗ K ⟨⟩))
      ⊢ wp frame (wpE (defs₀ (F := F)) Variants.none c none) E (cc0__proj_lstm_kernel i arg1 harg1 arg2 harg2 arg3 harg3 arg4 harg4 arg5 harg5 arg6 harg6 arg7 harg7 arg8 harg8 arg9 harg9 arg10 harg10 arg11 harg11) K := by
  simp only [cc0__proj_lstm_kernel_eq_skeleton]; unfold cc0__proj_lstm_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs, %hfs, HS⟩, Hk⟩
  subst hf0 hf1 hf2 hf3 hf4 hf5 hf6 hf7 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    sl_unfold_run_names
    rw [View.read_writes_eq_canon _ _ _ (fun y => ⟨_, List.mem_cons_self, View.mem_set_unit_zero hz2 inb_S64x128_S64x128_0_0 y⟩), View.canon_unit_zero hz2]
    simp only [View.readAt_eq_ld, View.ld_unit_zero (S := S64x64) hz2, View.ld_unit_zero (S := S64x6400) hz2, View.ld_unit_zero (S := S6400x64) hz2, View.ld_unit_zero (S := S64x256) hz2, View.ld_unit_zero (S := S256x64) hz2, View.ld_unit_zero (S := S64x128) hz2, View.ld_unit_zero (S := S64x512) hz2, View.ld_unit_zero (S := S128x512) hz2, View.readCov_unit_zero (S := S64x64) _ hz2]
  isplitl [H9]
  · iexists _; isplitr
    swap; · iexact H9
    ipureintro
    sl_unfold_run_names
    rw [View.read_writes_eq_canon _ _ _ (fun y => ⟨_, List.mem_cons_self, View.mem_set_unit_zero hz2 inb_S64x128_S64x128_0_0 y⟩), View.canon_unit_zero hz2]
    simp only [View.readAt_eq_ld, View.ld_unit_zero (S := S64x64) hz2, View.ld_unit_zero (S := S64x6400) hz2, View.ld_unit_zero (S := S6400x64) hz2, View.ld_unit_zero (S := S64x256) hz2, View.ld_unit_zero (S := S256x64) hz2, View.ld_unit_zero (S := S64x128) hz2, View.ld_unit_zero (S := S64x512) hz2, View.ld_unit_zero (S := S128x512) hz2, View.readCov_unit_zero (S := S64x64) _ hz2]
  iexists _; isplitr
  swap; · iexact HS
  ipureintro
  sl_unfold_run_names
  rw [View.read_writes_eq_canon _ _ _ (fun y => ⟨_, List.mem_cons_self, View.mem_set_unit_zero hz2 inb_S64x64_S64x64_0_0 y⟩), View.canon_unit_zero hz2]
  simp only [View.readAt_eq_ld, View.ld_unit_zero (S := S64x64) hz2, View.ld_unit_zero (S := S64x6400) hz2, View.ld_unit_zero (S := S6400x64) hz2, View.ld_unit_zero (S := S64x256) hz2, View.ld_unit_zero (S := S256x64) hz2, View.ld_unit_zero (S := S64x128) hz2, View.ld_unit_zero (S := S64x512) hz2, View.ld_unit_zero (S := S128x512) hz2]

-- the TensorCore's buffer contents when the region is entered: a parameter
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof
    data whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not, for any proof
    data whose array is `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not, for any proof
    data whose array is `V`'s and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not, for any proof
    data whose array is `V`'s and whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## Where the two outputs are idle -/

theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
theorem liveAt0_9 : ∀ t : Fin cfg0.N, cond0_1 (grid0.coords t) → cfg0.idle 9 (grid0.coords t) = false := by decide +kernel

/-! ## The carried accumulator -/

/-- What the scratch accumulator holds after the body at position `n`: zero plus the tile products of the points
    up to `n`, as the body computes them (the first point adds to the zero fill, a later one to what the point
    before left). -/
def scr (c : Dev nD) : (n : ℕ) → n < cfg0.N → Vec F S64x64 .f32
  | 0, hn => k0_pay2 k0_pay1 (iblk V c 0 ⟨0, hn⟩) (iblk V c 1 ⟨0, hn⟩)
  | n + 1, hn => k0_pay2 (scr c n (Nat.lt_of_succ_lt hn)) (iblk V c 0 ⟨n + 1, hn⟩) (iblk V c 1 ⟨n + 1, hn⟩)

theorem scr_zero (c : Dev nD) (t : Fin cfg0.N) (h0 : t.val = 0) :
    scr V c t.val t.isLt = k0_pay2 k0_pay1 (iblk V c 0 t) (iblk V c 1 t) := by
  obtain ⟨n, hn⟩ := t
  cases n with
  | zero => rfl
  | succ n => exact absurd h0 (Nat.succ_ne_zero n)

theorem scr_pos (c : Dev nD) (t : Fin cfg0.N) (h0 : t.val ≠ 0) :
    scr V c t.val t.isLt = k0_pay2 (scr V c (t.val - 1) (Nat.lt_of_le_of_lt (Nat.sub_le _ _) t.isLt)) (iblk V c 0 t) (iblk V c 1 t) := by
  obtain ⟨n, hn⟩ := t
  cases n with
  | zero => exact absurd rfl h0
  | succ n => rfl

/-! ## The region invariant -/

/-- Before the first point the class's invariant (every scoped buffer that is no staging buffer at anything, the
    generator register at some state); afterwards the accumulator at what the point before left, the other such
    buffers unopened, the register at some state. -/
def PhiS (c : Dev nD) : (n : ℕ) → n ≤ cfg0.N → sProp 𝕄
  | 0, _ => Pipeline.ΦA spec0 c
  | n + 1, hn => iprop(iprop(owns (c : Thread nD τ) (Memref.whole cc0_scratch0) fullShare (scr V c n hn) ∗ Pipeline.scopedRestBut (Ix := Unit) (Name := ℕ) (U := UR sig nD τ) (Lvl := ℕ) (Val := Elt F) spec0 c [cc0_scratch0]) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) (Memref.whole cc0_scratch0) fullShare (scr V c n hn) ∗ Pipeline.scopedRestBut (Ix := Unit) (Name := ℕ) (U := UR sig nD τ) (Lvl := ℕ) (Val := Elt F) spec0 c [cc0_scratch0]) ∗ (∃ r, prngReg c r)) := rfl

theorem PhiS_pos (c : Dev nD) (n : ℕ) (h : n ≤ cfg0.N) (hz : n ≠ 0) :
    PhiS V c n h = iprop(iprop(owns (c : Thread nD τ) (Memref.whole cc0_scratch0) fullShare (scr V c (n - 1) (by omega)) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- The class's invariant with the accumulator's buffer split off as a memref owned at some contents. -/
theorem PhiA0_eq (c : Dev nD) :
    (Pipeline.ΦA spec0 c : sProp 𝕄)
      = iprop(iprop((∃ d, owns (c : Thread nD τ) (Memref.whole cc0_scratch0) fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [owns_whole]; try rfl

/-! ## The pipeline's proof data -/

/-- The proof data on core `c`: the arrays as the region finds them; after the body each input's buffer at its
    block, the two outputs' at the cell's results computed from the accumulator after this point and the whole
    inputs (consulted at the last point only: before it the outputs are idle and not written back); the invariant
    `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => k0_pay5 (scr V c t.val t.isLt) (iblk V c 2 t) (iblk V c 3 t) (iblk V c 6 t) (iblk V c 4 t) (iblk V c 7 t) (iblk V c 5 t)
    | ⟨9, _⟩ => k0_pay6 (scr V c t.val t.isLt) (iblk V c 2 t) (iblk V c 3 t) (iblk V c 6 t) (iblk V c 4 t) (iblk V c 7 t) (iblk V c 5 t)
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem q_eq (c : Dev nD) (w : Fin cfg0.W) : (dat V c).q w = fullShare := rfl
theorem owed_eq (c : Dev nD) (t : Fin (cfg0.N + 1)) : (dat V c).owed t = 0 := rfl
theorem rec_eq (c : Dev nD) (t : Fin (cfg0.N + 1)) : (dat V c).recorded t = Set.univ := rfl

theorem PhiS_castSucc (c : Dev nD) (t : Fin cfg0.N) :
    (dat V c).Φ t.castSucc = PhiS V c t.val (Nat.le_of_lt t.isLt) := by
  dsimp only [dat]; simp only [Fin.coe_castSucc]

theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = iblk V c 2 t := by dsimp only [dat]
theorem after0_3 (c : Dev nD) (t : Fin cfg0.N) : (dat V c).after 3 t = iblk V c 3 t := by dsimp only [dat]
theorem after0_4 (c : Dev nD) (t : Fin cfg0.N) : (dat V c).after 4 t = iblk V c 4 t := by dsimp only [dat]
theorem after0_5 (c : Dev nD) (t : Fin cfg0.N) : (dat V c).after 5 t = iblk V c 5 t := by dsimp only [dat]
theorem after0_6 (c : Dev nD) (t : Fin cfg0.N) : (dat V c).after 6 t = iblk V c 6 t := by dsimp only [dat]
theorem after0_7 (c : Dev nD) (t : Fin cfg0.N) : (dat V c).after 7 t = iblk V c 7 t := by dsimp only [dat]
theorem after0_8 (c : Dev nD) (t : Fin cfg0.N) : (dat V c).after 8 t = k0_pay5 (scr V c t.val t.isLt) (iblk V c 2 t) (iblk V c 3 t) (iblk V c 6 t) (iblk V c 4 t) (iblk V c 7 t) (iblk V c 5 t) := by dsimp only [dat]
theorem after0_9 (c : Dev nD) (t : Fin cfg0.N) : (dat V c).after 9 t = k0_pay6 (scr V c t.val t.isLt) (iblk V c 2 t) (iblk V c 3 t) (iblk V c 6 t) (iblk V c 4 t) (iblk V c 7 t) (iblk V c 5 t) := by dsimp only [dat]

theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d
theorem before0_2 (c : Dev nD) (t : Fin cfg0.N) (d) : (dat V c).before 2 t d = iblk V c 2 t :=
  before0_2_of V (dat V c) (A_eq V c 2) (after0_2 V c) t d
theorem before0_3 (c : Dev nD) (t : Fin cfg0.N) (d) : (dat V c).before 3 t d = iblk V c 3 t :=
  before0_3_of V (dat V c) (A_eq V c 3) (after0_3 V c) t d
theorem before0_4 (c : Dev nD) (t : Fin cfg0.N) (d) : (dat V c).before 4 t d = iblk V c 4 t :=
  before0_4_of V (dat V c) (A_eq V c 4) (after0_4 V c) t d
theorem before0_5 (c : Dev nD) (t : Fin cfg0.N) (d) : (dat V c).before 5 t d = iblk V c 5 t :=
  before0_5_of V (dat V c) (A_eq V c 5) (after0_5 V c) t d
theorem before0_6 (c : Dev nD) (t : Fin cfg0.N) (d) : (dat V c).before 6 t d = iblk V c 6 t :=
  before0_6_of V (dat V c) (A_eq V c 6) (after0_6 V c) t d
theorem before0_7 (c : Dev nD) (t : Fin cfg0.N) (d) : (dat V c).before 7 t d = iblk V c 7 t :=
  before0_7_of V (dat V c) (A_eq V c 7) (after0_7 V c) t d

/-! ## The body obligation, at a generic point -/

theorem liveIn0_0 : ∀ t : Fin cfg0.N, cfg0.idle 0 (grid0.coords t) = false := fun _ => rfl
theorem liveIn0_1 : ∀ t : Fin cfg0.N, cfg0.idle 1 (grid0.coords t) = false := fun _ => rfl
theorem liveIn0_2 : ∀ t : Fin cfg0.N, cfg0.idle 2 (grid0.coords t) = false := fun _ => rfl
theorem liveIn0_3 : ∀ t : Fin cfg0.N, cfg0.idle 3 (grid0.coords t) = false := fun _ => rfl
theorem liveIn0_4 : ∀ t : Fin cfg0.N, cfg0.idle 4 (grid0.coords t) = false := fun _ => rfl
theorem liveIn0_5 : ∀ t : Fin cfg0.N, cfg0.idle 5 (grid0.coords t) = false := fun _ => rfl
theorem liveIn0_6 : ∀ t : Fin cfg0.N, cfg0.idle 6 (grid0.coords t) = false := fun _ => rfl
theorem liveIn0_7 : ∀ t : Fin cfg0.N, cfg0.idle 7 (grid0.coords t) = false := fun _ => rfl

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t)

set_option maxHeartbeats 4800000 in
/-- The body at any point. The inputs' buffers hold their blocks; the position determines the case: at the first
    point the accumulator is zeroed and the first tile product added, at a later point the product is added to what
    the point before left, and at the last point the cell's results are also stored into the two outputs (elsewhere
    idle: handed back as found). The invariant hands over the accumulator and takes it back at this point's value. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5, before0_6, before0_7]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (st0_0 t) fullShare ((dat V c).after 0 t) from by
    unfold Dat.leavesExact; rw [liveIn0_0 t], after0_0]
  rw [show (dat V c).leavesExact 1 t = owns (c : Thread nD τ) (st0_1 t) fullShare ((dat V c).after 1 t) from by
    unfold Dat.leavesExact; rw [liveIn0_1 t], after0_1]
  rw [show (dat V c).leavesExact 2 t = owns (c : Thread nD τ) (st0_2 t) fullShare ((dat V c).after 2 t) from by
    unfold Dat.leavesExact; rw [liveIn0_2 t], after0_2]
  rw [show (dat V c).leavesExact 3 t = owns (c : Thread nD τ) (st0_3 t) fullShare ((dat V c).after 3 t) from by
    unfold Dat.leavesExact; rw [liveIn0_3 t], after0_3]
  rw [show (dat V c).leavesExact 4 t = owns (c : Thread nD τ) (st0_4 t) fullShare ((dat V c).after 4 t) from by
    unfold Dat.leavesExact; rw [liveIn0_4 t], after0_4]
  rw [show (dat V c).leavesExact 5 t = owns (c : Thread nD τ) (st0_5 t) fullShare ((dat V c).after 5 t) from by
    unfold Dat.leavesExact; rw [liveIn0_5 t], after0_5]
  rw [show (dat V c).leavesExact 6 t = owns (c : Thread nD τ) (st0_6 t) fullShare ((dat V c).after 6 t) from by
    unfold Dat.leavesExact; rw [liveIn0_6 t], after0_6]
  rw [show (dat V c).leavesExact 7 t = owns (c : Thread nD τ) (st0_7 t) fullShare ((dat V c).after 7 t) from by
    unfold Dat.leavesExact; rw [liveIn0_7 t], after0_7]
  have hN : t.val < 5 := lt_of_lt_of_eq t.isLt (show cfg0.N = 5 from N_0)
  by_cases h1 : t.val % 5 = 4
  · by_cases h0 : t.val % 5 = 0
    · exfalso; omega
    · have hz : t.val ≠ 0 := by omega
      rw [show (dat V c).leavesExact 8 t = owns (c : Thread nD τ) (st0_8 t) fullShare ((dat V c).after 8 t) from by
        unfold Dat.leavesExact; rw [liveAt0_8 t ((hcond0_1 t).mpr h1)], after0_8]
      rw [show (dat V c).leavesExact 9 t = owns (c : Thread nD τ) (st0_9 t) fullShare ((dat V c).after 9 t) from by
        unfold Dat.leavesExact; rw [liveAt0_9 t ((hcond0_1 t).mpr h1)], after0_9]
      rw [scr_pos V c t hz]
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (runC c Set.univ (grid0.coords t) _ _ _ _ _ _ _ _ _ _ _ _ _ _ _ _ _ _ _ _ _ _ (fun h => h0 ((hcond0_0 t).mp h)) ((hcond0_1 t).mpr h1) (iblk V c 0 t) (iblk V c 1 t) (iblk V c 2 t) (iblk V c 3 t) (iblk V c 4 t) (iblk V c 5 t) (iblk V c 6 t) (iblk V c 7 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS]; · iexact HS
      iintro ⟨H0, H1, H2, H3, H4, H5, H6, H7, H8, H9, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
  · by_cases h0 : t.val % 5 = 0
    · have hz : t.val = 0 := by omega
      rw [Dat.leavesExact_idle (dat V c) 8 t (idleAt0_8 t (fun h => h1 ((hcond0_1 t).mp h))) (noFlush0_8 t (fun h => h1 ((hcond0_1 t).mp h)))]
      rw [Dat.leavesExact_idle (dat V c) 9 t (idleAt0_9 t (fun h => h1 ((hcond0_1 t).mp h))) (noFlush0_9 t (fun h => h1 ((hcond0_1 t).mp h)))]
      rw [scr_zero V c t hz]
      rw [PhiS_castSucc V c t, PhiS_zero V c _ _ hz, PhiA0_eq]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (runA c Set.univ (grid0.coords t) _ _ _ _ _ _ _ _ _ _ _ _ _ _ _ _ _ _ _ _ _ _ ((hcond0_0 t).mpr h0) (fun h => h1 ((hcond0_1 t).mp h)) (iblk V c 0 t) (iblk V c 1 t) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9
    · have hz : t.val ≠ 0 := by omega
      rw [Dat.leavesExact_idle (dat V c) 8 t (idleAt0_8 t (fun h => h1 ((hcond0_1 t).mp h))) (noFlush0_8 t (fun h => h1 ((hcond0_1 t).mp h)))]
      rw [Dat.leavesExact_idle (dat V c) 9 t (idleAt0_9 t (fun h => h1 ((hcond0_1 t).mp h))) (noFlush0_9 t (fun h => h1 ((hcond0_1 t).mp h)))]
      rw [scr_pos V c t hz]
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (runB c Set.univ (grid0.coords t) _ _ _ _ _ _ _ _ _ _ _ _ _ _ _ _ _ _ _ _ _ _ (fun h => h0 ((hcond0_0 t).mp h)) (fun h => h1 ((hcond0_1 t).mp h)) (iblk V c 0 t) (iblk V c 1 t) _ _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9

/-- The body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives the class's back: the accumulator's named contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA0_eq]
  iintro ⟨⟨HS, HR⟩, Hg⟩
  isplitl [HS HR]
  · isplitl [HS]; · iexists _; iexact HS
    iexact HR
  iexact Hg

/-- The same after the last point. -/
theorem hout (c : Dev nD) : (dat V c).Φ (Fin.last cfg0.N) ⊢ Pipeline.ΦA spec0 c :=
  Phi_out V c _ (by rw [Fin.val_last]; have : cfg0.N = 5 := N_0; omega)

end Cert.KernelIdeal.R0
end
-- ==== Proof.R1.lean ====
import proofs.«122264_j82798379533062_2_alg».proof.Proof.Gen.KernelIdeal.Launch
import proofs.«122264_j82798379533062_2_alg».proof.Proof.Gen.KernelIdeal.Skeleton
import proofs.«122264_j82798379533062_2_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic
set_option maxRecDepth 16384
noncomputable section
namespace Cert.KernelIdeal.R1
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-! ## The body's two conditions, decided over the grid -/

/-- The condition of the body's first conditional (the accumulators are zeroed), from the grid coordinates. -/
abbrev cond1 (i : grid1.Coords) : Prop := (Scalar.cmpi .ne (Scalar.extui (Scalar.cmpi .eq (BitVec.ofNat 32 (i 1).val) 0#32)) 0#32) = 1#1
/-- The condition of the body's second conditional (the quotient is stored). -/
abbrev cond2 (i : grid1.Coords) : Prop := k1_cond2 i = 1#1

/-- The first holds at the points ≡ 0 (mod 8): the first point of each batch half's run over the time tiles. -/
theorem hcond1 : ∀ t : Fin cfg1.N, cond1 (grid1.coords t) ↔ t.val % 8 = 0 :=
  (by decide +kernel : ∀ t : Fin grid1.N, cond1 (grid1.coords t) ↔ t.val % 8 = 0)
/-- The second holds at the points ≡ 7 (mod 8): the last point of each run. -/
theorem hcond2 : ∀ t : Fin cfg1.N, cond2 (grid1.coords t) ↔ t.val % 8 = 7 :=
  (by decide +kernel : ∀ t : Fin grid1.N, cond2 (grid1.coords t) ↔ t.val % 8 = 7)

/-! ## Whole-buffer accesses -/

theorem hz2 : (![0, 0] : Fin 2 → Nat) = fun _ => 0 := funext fun a => by fin_cases a <;> rfl
theorem hz3 : (![0, 0, 0] : Fin 3 → Nat) = fun _ => 0 := funext fun a => by fin_cases a <;> rfl

/-- A load through the whole-shape rectangle at zero offsets reads the view's contents. -/
theorem readAt_whole {sp : Space} {S : Shape} {e : EltTy} (v : View sig .tc sp S e) {off : Fin S.rank → Nat}
    (h : off = fun _ => 0) (inb : ∀ a, off a + S.size a ≤ S.size a) (f : v.ty.Contents (Elt F)) :
    v.readAt (Elt F) (Rect.unit off S.size inb).toLoadRect f = v.read (Elt F) f :=
  (View.readAt_eq_ld v f _).trans (View.ld_unit_zero h inb _)

/-- One store through it, last, covers the shape. -/
theorem cover_whole {S : Shape} {e : EltTy} {off : Fin S.rank → Nat} (h : off = fun _ => 0)
    (inb : ∀ a, off a + S.size a ≤ S.size a) (w : S.Idx → Elt F e) (L : List (View.Piece (Elt F) S e)) (y : S.Idx) :
    ∃ pc ∈ ((⟨Rect.unit off S.size inb, w⟩ : View.Piece (Elt F) S e) :: L), y ∈ pc.1.set :=
  ⟨_, List.mem_cons_self, View.mem_set_unit_zero h inb y⟩

/-- What a view reads after stores the last of which is through the whole-shape rectangle: that store's payload. -/
theorem read_writes_whole {sp : Space} {S : Shape} {e : EltTy} (v : View sig .tc sp S e) {off : Fin S.rank → Nat}
    (h : off = fun _ => 0) (inb : ∀ a, off a + S.size a ≤ S.size a) (f : v.ty.Contents (Elt F)) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (cover_whole h inb w L)).trans (View.canon_cons_unit_zero h inb w L)

/-! ## The body's run, case by case -/

set_option maxHeartbeats 1000000 in
/-- A point in the middle of a run (neither conditional taken): the two accumulators each take this tile's term;
    the output's buffer is handed back untouched. -/
theorem run_B (c : Dev nD) (E : Set ℕ) (i : grid1.Coords)
    (arg2 : Memref sig .tc .vmem S32x128x256 .f32) (harg2 : arg2.IsWhole) (arg3 : Memref sig .tc .vmem S32x128 .f32) (harg3 : arg3.IsWhole)
    (arg4 : Memref sig .tc .vmem S128x256 .f32) (harg4 : arg4.IsWhole) (arg5 : Memref sig .tc .vmem S1x1x256 .f32) (harg5 : arg5.IsWhole)
    (arg6 : Memref sig .tc .vmem S32x256 .f32) (harg6 : arg6.IsWhole) (arg7 : Memref sig .tc .vmem S32x256 .f32) (harg7 : arg7.IsWhole)
    (arg8 : Memref sig .tc .vmem S32x256 .f32) (harg8 : arg8.IsWhole)
    (hc1 : ¬cond1 i) (hc2 : ¬cond2 i)
    (x0 : Vec F S32x128x256 .f32) (x1 : Vec F S32x128 .f32) (x2 : Vec F S128x256 .f32) (x3 : Vec F S1x1x256 .f32)
    (xo a s : Vec F S32x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo
        ∗ owns (c : Thread nD τ) arg7 fullShare a ∗ owns (c : Thread nD τ) arg8 fullShare s
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo
            ∗ owns (c : Thread nD τ) arg7 fullShare (k1_pay6 x1 x2 x0 x3 a) ∗ owns (c : Thread nD τ) arg8 fullShare (k1_pay5 x1 x2 x0 x3 s)) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  simp only [k1_part1_eq_skeleton]
  unfold owns
  iintro ⟨⟨%f0, %hf0, H0⟩, ⟨%f1, %hf1, H1⟩, ⟨%f2, %hf2, H2⟩, ⟨%f3, %hf3, H3⟩, ⟨%fo, %hfo, HO⟩, ⟨%fa, %hfa, HA⟩, ⟨%fs, %hfs, HS⟩, Hk⟩
  subst hf0 hf1 hf2 hf3 hfo hfa hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HO]
  · iexists fo; isplitr; · ipureintro; rfl
    iexact HO
  isplitl [HA]
  · iexists _; isplitr
    swap; · iexact HA
    ipureintro
    rw [read_writes_whole _ hz2, readAt_whole _ hz2, readAt_whole _ hz2, readAt_whole _ hz3, readAt_whole _ hz3, readAt_whole _ hz2]
  iexists _; isplitr
  swap; · iexact HS
  ipureintro
  rw [read_writes_whole _ hz2, readAt_whole _ hz2, readAt_whole _ hz2, readAt_whole _ hz3, readAt_whole _ hz3, readAt_whole _ hz2]

set_option maxHeartbeats 1000000 in
/-- The first point of a run (the first conditional taken, the second not): the accumulators are zeroed, then each takes
    this tile's term; the output's buffer is handed back untouched. -/
theorem run_A (c : Dev nD) (E : Set ℕ) (i : grid1.Coords)
    (arg2 : Memref sig .tc .vmem S32x128x256 .f32) (harg2 : arg2.IsWhole) (arg3 : Memref sig .tc .vmem S32x128 .f32) (harg3 : arg3.IsWhole)
    (arg4 : Memref sig .tc .vmem S128x256 .f32) (harg4 : arg4.IsWhole) (arg5 : Memref sig .tc .vmem S1x1x256 .f32) (harg5 : arg5.IsWhole)
    (arg6 : Memref sig .tc .vmem S32x256 .f32) (harg6 : arg6.IsWhole) (arg7 : Memref sig .tc .vmem S32x256 .f32) (harg7 : arg7.IsWhole)
    (arg8 : Memref sig .tc .vmem S32x256 .f32) (harg8 : arg8.IsWhole)
    (hc1 : cond1 i) (hc2 : ¬cond2 i)
    (x0 : Vec F S32x128x256 .f32) (x1 : Vec F S32x128 .f32) (x2 : Vec F S128x256 .f32) (x3 : Vec F S1x1x256 .f32)
    (xo : Vec F S32x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo
            ∗ owns (c : Thread nD τ) arg7 fullShare (k1_pay6 x1 x2 x0 x3 k1_pay2) ∗ owns (c : Thread nD τ) arg8 fullShare (k1_pay5 x1 x2 x0 x3 k1_pay3)) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  simp only [k1_part1_eq_skeleton]
  unfold owns
  iintro ⟨⟨%f0, %hf0, H0⟩, ⟨%f1, %hf1, H1⟩, ⟨%f2, %hf2, H2⟩, ⟨%f3, %hf3, H3⟩, ⟨%fo, %hfo, HO⟩, ⟨%da, %fa, -, HA⟩, ⟨%ds, %fs, -, HS⟩, Hk⟩
  subst hf0 hf1 hf2 hf3 hfo
  sl_exec (disch := first | exact hc1 | exact hc2)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HO]
  · iexists fo; isplitr; · ipureintro; rfl
    iexact HO
  isplitl [HA]
  · iexists _; isplitr
    swap; · iexact HA
    ipureintro
    rw [read_writes_whole _ hz2, View.readCov_unit_zero _ hz2, readAt_whole _ hz2, readAt_whole _ hz2, readAt_whole _ hz3, readAt_whole _ hz3]
  iexists _; isplitr
  swap; · iexact HS
  ipureintro
  rw [read_writes_whole _ hz2, View.readCov_unit_zero _ hz2, readAt_whole _ hz2, readAt_whole _ hz2, readAt_whole _ hz3, readAt_whole _ hz3]

set_option maxHeartbeats 1000000 in
/-- The last point of a run (the first conditional not taken, the second taken): the accumulators each take this tile's
    term, and the output's buffer is stored their quotient. -/
theorem run_C (c : Dev nD) (E : Set ℕ) (i : grid1.Coords)
    (arg2 : Memref sig .tc .vmem S32x128x256 .f32) (harg2 : arg2.IsWhole) (arg3 : Memref sig .tc .vmem S32x128 .f32) (harg3 : arg3.IsWhole)
    (arg4 : Memref sig .tc .vmem S128x256 .f32) (harg4 : arg4.IsWhole) (arg5 : Memref sig .tc .vmem S1x1x256 .f32) (harg5 : arg5.IsWhole)
    (arg6 : Memref sig .tc .vmem S32x256 .f32) (harg6 : arg6.IsWhole) (arg7 : Memref sig .tc .vmem S32x256 .f32) (harg7 : arg7.IsWhole)
    (arg8 : Memref sig .tc .vmem S32x256 .f32) (harg8 : arg8.IsWhole)
    (hc1 : ¬cond1 i) (hc2 : cond2 i)
    (x0 : Vec F S32x128x256 .f32) (x1 : Vec F S32x128 .f32) (x2 : Vec F S128x256 .f32) (x3 : Vec F S1x1x256 .f32)
    (a s : Vec F S32x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ owns (c : Thread nD τ) arg7 fullShare a ∗ owns (c : Thread nD τ) arg8 fullShare s
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare (k1_pay1 (k1_pay6 x1 x2 x0 x3 a) (k1_pay5 x1 x2 x0 x3 s))
            ∗ owns (c : Thread nD τ) arg7 fullShare (k1_pay6 x1 x2 x0 x3 a) ∗ owns (c : Thread nD τ) arg8 fullShare (k1_pay5 x1 x2 x0 x3 s)) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  simp only [k1_part1_eq_skeleton]
  unfold owns
  iintro ⟨⟨%f0, %hf0, H0⟩, ⟨%f1, %hf1, H1⟩, ⟨%f2, %hf2, H2⟩, ⟨%f3, %hf3, H3⟩, ⟨%dO, %fo, -, HO⟩, ⟨%fa, %hfa, HA⟩, ⟨%fs, %hfs, HS⟩, Hk⟩
  subst hf0 hf1 hf2 hf3 hfa hfs
  sl_exec (disch := first | exact hc1 | exact hc2)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HO]
  · iexists _; isplitr
    swap; · iexact HO
    ipureintro
    rw [read_writes_whole _ hz2, View.readCov_unit_zero _ hz2, View.readCov_unit_zero _ hz2]
    rw [readAt_whole _ hz2, readAt_whole _ hz2, readAt_whole _ hz3, readAt_whole _ hz3, readAt_whole _ hz2, readAt_whole _ hz2]
  isplitl [HA]
  · iexists _; isplitr
    swap; · iexact HA
    ipureintro
    rw [read_writes_whole _ hz2, readAt_whole _ hz2, readAt_whole _ hz2, readAt_whole _ hz3, readAt_whole _ hz3, readAt_whole _ hz2]
  iexists _; isplitr
  swap; · iexact HS
  ipureintro
  rw [read_writes_whole _ hz2, readAt_whole _ hz2, readAt_whole _ hz2, readAt_whole _ hz3, readAt_whole _ hz3, readAt_whole _ hz2]

/-! ## The windows' blocks -/

-- the TensorCore's buffer contents when the region is entered: a parameter
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is the entry contents and whose body leaves the block in place. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the entry contents and whose body leaves the block in place. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the entry contents and whose body leaves the block in place. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is the entry contents and whose body leaves the block in place. -/
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## Where the output window is idle -/

theorem liveAt_0 : ∀ t : Fin cfg1.N, cfg1.idle 0 (grid1.coords t) = false := by decide +kernel
theorem liveAt_1 : ∀ t : Fin cfg1.N, cfg1.idle 1 (grid1.coords t) = false := by decide +kernel
theorem liveAt_2 : ∀ t : Fin cfg1.N, cfg1.idle 2 (grid1.coords t) = false := by decide +kernel
theorem liveAt_3 : ∀ t : Fin cfg1.N, cfg1.idle 3 (grid1.coords t) = false := by decide +kernel
/-- Where the quotient is not stored the output window is idle, -/
theorem idleAt_4 : ∀ t : Fin cfg1.N, ¬cond2 (grid1.coords t) → cfg1.idle 4 (grid1.coords t) = true := by decide +kernel
/-- and its block is not written back; -/
theorem noFlush_4 : ∀ t : Fin cfg1.N, ¬cond2 (grid1.coords t) → (cfg1.win 4).flush t = false := by decide +kernel
/-- where it is stored the window is live. -/
theorem liveAt_4 : ∀ t : Fin cfg1.N, cond2 (grid1.coords t) → cfg1.idle 4 (grid1.coords t) = false := by decide +kernel

/-! ## The staging and scratch memrefs -/

abbrev ms0 (t : Fin cfg1.N) : Memref sig .tc .vmem S32x128x256 .f32 := win1_0.stage (cfg1.slots t 0)
abbrev ms1 (t : Fin cfg1.N) : Memref sig .tc .vmem S32x128 .f32 := win1_1.stage (cfg1.slots t 1)
abbrev ms2 (t : Fin cfg1.N) : Memref sig .tc .vmem S128x256 .f32 := win1_2.stage (cfg1.slots t 2)
abbrev ms3 (t : Fin cfg1.N) : Memref sig .tc .vmem S1x1x256 .f32 := win1_3.stage (cfg1.slots t 3)
abbrev ms4 (t : Fin cfg1.N) : Memref sig .tc .vmem S32x256 .f32 := win1_4.stage (cfg1.slots t 4)
/-- The weighted-sum accumulator, -/
abbrev scA : Memref sig .tc .vmem S32x256 .f32 := Memref.whole cc1_scratch0
/-- and the weight-sum accumulator: whole scoped buffers of the kernel's own, passed beside the windows. -/
abbrev scS : Memref sig .tc .vmem S32x256 .f32 := Memref.whole cc1_scratch1

/-- The region's entry invariant with the two accumulators as memrefs owned at some contents and the other scoped
    buffers unopened. -/
theorem PhiA_eq (c : Dev nD) :
    (Pipeline.ΦA spec1 c : sProp 𝕄)
      = iprop(iprop(iprop((∃ d, owns (c : Thread nD τ) scA fullShare d) ∗ (∃ d, owns (c : Thread nD τ) scS fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA; rw [scopedRest1_split]; simp only [scA, scS, owns_whole]; rfl

/-! ## What the accumulators hold after each point -/

/-- THE ACCUMULATION. What the two accumulators (the weighted sum, then the weight sum) hold after the body at position
    `n`: at the first point of a run over the time tiles, this tile's term added to zero; at the others, added to what
    the point before left. -/
def scr (c : Dev nD) : (n : ℕ) → n < cfg1.N → Vec F S32x256 .f32 × Vec F S32x256 .f32
  | 0, hn => (k1_pay6 (iblk V c 1 ⟨0, hn⟩) (iblk V c 2 ⟨0, hn⟩) (iblk V c 0 ⟨0, hn⟩) (iblk V c 3 ⟨0, hn⟩) k1_pay2,
              k1_pay5 (iblk V c 1 ⟨0, hn⟩) (iblk V c 2 ⟨0, hn⟩) (iblk V c 0 ⟨0, hn⟩) (iblk V c 3 ⟨0, hn⟩) k1_pay3)
  | n + 1, hn =>
    if (n + 1) % 8 = 0 then
      (k1_pay6 (iblk V c 1 ⟨n + 1, hn⟩) (iblk V c 2 ⟨n + 1, hn⟩) (iblk V c 0 ⟨n + 1, hn⟩) (iblk V c 3 ⟨n + 1, hn⟩) k1_pay2,
       k1_pay5 (iblk V c 1 ⟨n + 1, hn⟩) (iblk V c 2 ⟨n + 1, hn⟩) (iblk V c 0 ⟨n + 1, hn⟩) (iblk V c 3 ⟨n + 1, hn⟩) k1_pay3)
    else
      (k1_pay6 (iblk V c 1 ⟨n + 1, hn⟩) (iblk V c 2 ⟨n + 1, hn⟩) (iblk V c 0 ⟨n + 1, hn⟩) (iblk V c 3 ⟨n + 1, hn⟩) (scr c n (Nat.lt_of_succ_lt hn)).1,
       k1_pay5 (iblk V c 1 ⟨n + 1, hn⟩) (iblk V c 2 ⟨n + 1, hn⟩) (iblk V c 0 ⟨n + 1, hn⟩) (iblk V c 3 ⟨n + 1, hn⟩) (scr c n (Nat.lt_of_succ_lt hn)).2)

/-- At the first point of a run: over zero. -/
theorem scr_first (c : Dev nD) (t : Fin cfg1.N) (h0 : t.val % 8 = 0) :
    scr V c t.val t.isLt = (k1_pay6 (iblk V c 1 t) (iblk V c 2 t) (iblk V c 0 t) (iblk V c 3 t) k1_pay2,
                            k1_pay5 (iblk V c 1 t) (iblk V c 2 t) (iblk V c 0 t) (iblk V c 3 t) k1_pay3) := by
  obtain ⟨n, hn⟩ := t
  cases n with
  | zero => rfl
  | succ n => exact if_pos h0

/-- At a later point: over what the point before left. -/
theorem scr_next (c : Dev nD) (t : Fin cfg1.N) (h0 : ¬t.val % 8 = 0) :
    scr V c t.val t.isLt
      = (k1_pay6 (iblk V c 1 t) (iblk V c 2 t) (iblk V c 0 t) (iblk V c 3 t) (scr V c (t.val - 1) (Nat.lt_of_le_of_lt (Nat.sub_le _ _) t.isLt)).1,
         k1_pay5 (iblk V c 1 t) (iblk V c 2 t) (iblk V c 0 t) (iblk V c 3 t) (scr V c (t.val - 1) (Nat.lt_of_le_of_lt (Nat.sub_le _ _) t.isLt)).2) := by
  obtain ⟨n, hn⟩ := t
  cases n with
  | zero => exact absurd (Nat.zero_mod _) h0
  | succ n => exact if_neg h0

/-- The region invariant before position `n`: before the first point the entry invariant (every scratch at anything);
    afterwards the two accumulators at what the point before left, the other scoped buffers unopened, and the
    random-number register at some state. -/
def PhiS (c : Dev nD) : (n : ℕ) → n ≤ cfg1.N → sProp 𝕄
  | 0, _ => Pipeline.ΦA spec1 c
  | n + 1, hn => iprop(iprop(owns (c : Thread nD τ) scA fullShare (scr V c n hn).1 ∗ owns (c : Thread nD τ) scS fullShare (scr V c n hn).2)
      ∗ Pipeline.scopedRestBut (Ix := Unit) (Name := ℕ) (U := UR sig nD τ) (Lvl := ℕ) (Val := Elt F) spec1 c [cc1_scratch0, cc1_scratch1]
      ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scA fullShare (scr V c n hn).1 ∗ owns (c : Thread nD τ) scS fullShare (scr V c n hn).2)
      ∗ Pipeline.scopedRestBut (Ix := Unit) (Name := ℕ) (U := UR sig nD τ) (Lvl := ℕ) (Val := Elt F) spec1 c [cc1_scratch0, cc1_scratch1]
      ∗ (∃ r, prngReg c r)) := rfl

theorem PhiS_pos (c : Dev nD) (n : ℕ) (h : n ≤ cfg1.N) (hz : n ≠ 0) :
    PhiS V c n h = iprop(iprop(owns (c : Thread nD τ) scA fullShare (scr V c (n - 1) (by omega)).1 ∗ owns (c : Thread nD τ) scS fullShare (scr V c (n - 1) (by omega)).2)
      ∗ Pipeline.scopedRestBut (Ix := Unit) (Name := ℕ) (U := UR sig nD τ) (Lvl := ℕ) (Val := Elt F) spec1 c [cc1_scratch0, cc1_scratch1]
      ∗ (∃ r, prngReg c r)) := by
  cases n with
  | zero => exact absurd rfl hz
  | succ n => rfl

/-! ## The pipeline's proof data -/

/-- The proof data of this pipeline on core `c`: the arrays as the region finds them; after the body at point `t` each
    input's buffer at its block and the output's at the quotient of the two accumulators there (read only where it is
    stored, at the last point of each run); the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => k1_pay1 (scr V c t.val t.isLt).1 (scr V c t.val t.isLt).2
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem q_eq (c : Dev nD) (w : Fin cfg1.W) : (dat V c).q w = fullShare := rfl
theorem owed_eq (c : Dev nD) (t : Fin (cfg1.N + 1)) : (dat V c).owed t = 0 := rfl
theorem rec_eq (c : Dev nD) (t : Fin (cfg1.N + 1)) : (dat V c).recorded t = Set.univ := rfl

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) :
    (dat V c).after 4 t = k1_pay1 (scr V c t.val t.isLt).1 (scr V c t.val t.isLt).2 := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d

theorem leaves_0 (c : Dev nD) (t : Fin cfg1.N) :
    (dat V c).leavesExact 0 t = owns (c : Thread nD τ) (ms0 t) fullShare (iblk V c 0 t) := by
  unfold Dat.leavesExact; rw [liveAt_0 t, after_0]
theorem leaves_1 (c : Dev nD) (t : Fin cfg1.N) :
    (dat V c).leavesExact 1 t = owns (c : Thread nD τ) (ms1 t) fullShare (iblk V c 1 t) := by
  unfold Dat.leavesExact; rw [liveAt_1 t, after_1]
theorem leaves_2 (c : Dev nD) (t : Fin cfg1.N) :
    (dat V c).leavesExact 2 t = owns (c : Thread nD τ) (ms2 t) fullShare (iblk V c 2 t) := by
  unfold Dat.leavesExact; rw [liveAt_2 t, after_2]
theorem leaves_3 (c : Dev nD) (t : Fin cfg1.N) :
    (dat V c).leavesExact 3 t = owns (c : Thread nD τ) (ms3 t) fullShare (iblk V c 3 t) := by
  unfold Dat.leavesExact; rw [liveAt_3 t, after_3]

/-! ## The body obligation, at a generic point -/

/-- What the body is called with at point `t` (the windows one by one), -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4000000 in
/-- The body at any point: the inputs' memrefs hold their blocks; the closed forms say which case the point is in; the
    invariant hands the body the accumulators at what the point before left (at anything at the first point) and takes
    them back at this point's contents; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).owesAt () t.succ = (dat V c).owesAt () t.castSucc from rfl]
  rw [show (dat V c).Φ t.succ = PhiS V c (t.val + 1) t.isLt from rfl, PhiS_succ]
  rw [leaves_0, leaves_1, leaves_2, leaves_3]
  have hN : t.val < 16 := lt_of_lt_of_eq t.isLt (show cfg1.N = 16 from N_1)
  by_cases h0 : t.val % 8 = 0
  · have h7 : ¬t.val % 8 = 7 := by omega
    rw [Dat.leavesExact_idle (dat V c) 4 t (idleAt_4 t (fun h => h7 ((hcond2 t).mp h))) (noFlush_4 t (fun h => h7 ((hcond2 t).mp h)))]
    rw [scr_first V c t h0]
    by_cases hz : t.val = 0
    · rw [PhiS_castSucc V c t, PhiS_zero V c _ _ hz, PhiA_eq]
      iintro ⟨⟨⟨⟨HA, HS⟩, HR⟩, Hg⟩, Ho, ⟨%d0, H0⟩, ⟨%d1, H1⟩, ⟨%d2, H2⟩, ⟨%d3, H3⟩, ⟨%d4, H4⟩⟩
      iapply (run_A c Set.univ (grid1.coords t) _ _ _ _ _ _ _ _ _ _ _ _ _ _ ((hcond1 t).mpr h0) (fun h => h7 ((hcond2 t).mp h)) (iblk V c 0 t) (iblk V c 1 t) (iblk V c 2 t) (iblk V c 3 t) _ _)
      isplitl [H0]; · iexact H0
      isplitl [H1]; · iexact H1
      isplitl [H2]; · iexact H2
      isplitl [H3]; · iexact H3
      isplitl [H4]; · iexact H4
      isplitl [HA]; · iexact HA
      isplitl [HS]; · iexact HS
      iintro ⟨H0, H1, H2, H3, H4, HA, HS⟩
      isplitl [HA HS HR Hg]
      · isplitl [HA HS]
        · isplitl [HA]; · iexact HA
          iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨HA, HS⟩, HR, Hg⟩, Ho, ⟨%d0, H0⟩, ⟨%d1, H1⟩, ⟨%d2, H2⟩, ⟨%d3, H3⟩, ⟨%d4, H4⟩⟩
      iapply (run_A c Set.univ (grid1.coords t) _ _ _ _ _ _ _ _ _ _ _ _ _ _ ((hcond1 t).mpr h0) (fun h => h7 ((hcond2 t).mp h)) (iblk V c 0 t) (iblk V c 1 t) (iblk V c 2 t) (iblk V c 3 t) _ _)
      isplitl [H0]; · iexact H0
      isplitl [H1]; · iexact H1
      isplitl [H2]; · iexact H2
      isplitl [H3]; · iexact H3
      isplitl [H4]; · iexact H4
      isplitl [HA]; · iexists _; iexact HA
      isplitl [HS]; · iexists _; iexact HS
      iintro ⟨H0, H1, H2, H3, H4, HA, HS⟩
      isplitl [HA HS HR Hg]
      · isplitl [HA HS]
        · isplitl [HA]; · iexact HA
          iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    rw [scr_next V c t h0]
    rw [PhiS_castSucc V c t, PhiS_pos V c _ _ hz]
    by_cases h7 : t.val % 8 = 7
    · rw [show (dat V c).leavesExact 4 t = owns (c : Thread nD τ) (ms4 t) fullShare ((dat V c).after 4 t) from by
        unfold Dat.leavesExact; rw [liveAt_4 t ((hcond2 t).mpr h7)], after_4, scr_next V c t h0]
      iintro ⟨⟨⟨HA, HS⟩, HR, Hg⟩, Ho, ⟨%d0, H0⟩, ⟨%d1, H1⟩, ⟨%d2, H2⟩, ⟨%d3, H3⟩, ⟨%d4, H4⟩⟩
      iapply (run_C c Set.univ (grid1.coords t) _ _ _ _ _ _ _ _ _ _ _ _ _ _ (fun h => h0 ((hcond1 t).mp h)) ((hcond2 t).mpr h7) (iblk V c 0 t) (iblk V c 1 t) (iblk V c 2 t) (iblk V c 3 t) _ _ _)
      isplitl [H0]; · iexact H0
      isplitl [H1]; · iexact H1
      isplitl [H2]; · iexact H2
      isplitl [H3]; · iexact H3
      isplitl [H4]; · iexists _; iexact H4
      isplitl [HA]; · iexact HA
      isplitl [HS]; · iexact HS
      iintro ⟨H0, H1, H2, H3, H4, HA, HS⟩
      isplitl [HA HS HR Hg]
      · isplitl [HA HS]
        · isplitl [HA]; · iexact HA
          iexact HS
        isplitl [HR]; · iexact HR
        iexact Hg
      isplitl [Ho]; · iexact Ho
      isplitl [H0]; · iexact H0
      isplitl [H1]; · iexact H1
      isplitl [H2]; · iexact H2
      isplitl [H3]; · iexact H3
      iexact H4
    · rw [Dat.leavesExact_idle (dat V c) 4 t (idleAt_4 t (fun h => h7 ((hcond2 t).mp h))) (noFlush_4 t (fun h => h7 ((hcond2 t).mp h)))]
      iintro ⟨⟨⟨HA, HS⟩, HR, Hg⟩, Ho, ⟨%d0, H0⟩, ⟨%d1, H1⟩, ⟨%d2, H2⟩, ⟨%d3, H3⟩, ⟨%d4, H4⟩⟩
      iapply (run_B c Set.univ (grid1.coords t) _ _ _ _ _ _ _ _ _ _ _ _ _ _ (fun h => h0 ((hcond1 t).mp h)) (fun h => h7 ((hcond2 t).mp h)) (iblk V c 0 t) (iblk V c 1 t) (iblk V c 2 t) (iblk V c 3 t) _ _ _ _)
      isplitl [H0]; · iexact H0
      isplitl [H1]; · iexact H1
      isplitl [H2]; · iexact H2
      isplitl [H3]; · iexact H3
      isplitl [H4]; · iexact H4
      isplitl [HA]; · iexact HA
      isplitl [HS]; · iexact HS
      iintro ⟨H0, H1, H2, H3, H4, HA, HS⟩
      isplitl [HA HS HR Hg]
      · isplitl [HA HS]
        · isplitl [HA]; · iexact HA
          iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4

/-- The body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]

/-- After any point but the first the invariant gives the entry invariant back: the accumulators' named contents are
    forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨HA, HS⟩, HR, Hg⟩
  isplitl [HA HS HR]
  · isplitl [HA HS]
    · isplitl [HA]; · iexists _; iexact HA
      iexists _; iexact HS
    iexact HR
  iexact Hg

/-- The same after the last point. -/
theorem hout (c : Dev nD) : (dat V c).Φ (Fin.last cfg1.N) ⊢ Pipeline.ΦA spec1 c :=
  Phi_out V c _ (by rw [Fin.val_last]; have : cfg1.N = 16 := N_1; omega)

end Cert.KernelIdeal.R1
end
-- ==== Proof.R2.lean ====
import proofs.«122264_j82798379533062_2_alg».proof.Proof.Gen.KernelIdeal.Launch
import proofs.«122264_j82798379533062_2_alg».proof.Proof.Gen.KernelIdeal.Skeleton
import proofs.«122264_j82798379533062_2_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic
set_option maxRecDepth 16384

/-! # Region 2: the output-logit stage (exponentials of the logits, block by block, and their row sums per half)

The grid is (2 halves) × (5 column blocks). At each point the body stores the block of exponentials; a [64,1]
accumulator, zeroed at the first block of a half, collects the row sums; at the last block of a half the accumulator
is stored as that half's sums. Everything here is generic in the float interpretation. -/

noncomputable section
namespace Cert.KernelIdeal.R2
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- The body's first condition (zero-fill of the accumulator), from the grid coordinates. -/
abbrev cond1 (i : grid2.Coords) : Prop := (Scalar.cmpi .ne (Scalar.extui (Scalar.cmpi .eq (BitVec.ofNat 32 (i 1).val) 0#32)) 0#32) = 1#1
/-- It holds exactly at the first point of each half. -/
theorem hcond1 : ∀ t : Fin cfg2.N, cond1 (grid2.coords t) ↔ t.val % 5 = 0 :=
  (by decide +kernel : ∀ t : Fin grid2.N, cond1 (grid2.coords t) ↔ t.val % 5 = 0)
/-- The body's second condition (the half's sum is stored). -/
abbrev cond2 (i : grid2.Coords) : Prop := k2_cond2 i = 1#1
/-- It holds exactly at the last point of each half. -/
theorem hcond2 : ∀ t : Fin cfg2.N, cond2 (grid2.coords t) ↔ t.val % 5 = 4 :=
  (by decide +kernel : ∀ t : Fin grid2.N, cond2 (grid2.coords t) ↔ t.val % 5 = 4)

theorem idle5_of : ∀ t : Fin cfg2.N, ¬cond2 (grid2.coords t) → cfg2.idle 5 (grid2.coords t) = true := by decide +kernel
theorem live5_of : ∀ t : Fin cfg2.N, cond2 (grid2.coords t) → cfg2.idle 5 (grid2.coords t) = false := by decide +kernel
theorem noFlush5_of : ∀ t : Fin cfg2.N, ¬cond2 (grid2.coords t) → (cfg2.win 5).flush t = false := by decide +kernel

theorem hz2 : (![0, 0] : Fin 2 → ℕ) = fun _ => 0 := funext fun a => by fin_cases a <;> rfl
theorem hz3 : (![0, 0, 0] : Fin 3 → ℕ) = fun _ => 0 := funext fun a => by fin_cases a <;> rfl

abbrev r0 : Rect S64x128 := Rect.unit (s := S64x128) ![0, 0] S64x128.size inb_S64x128_S64x128_0_0
abbrev r1 : Rect S64x256 := Rect.unit (s := S64x256) ![0, 0] S64x256.size inb_S64x256_S64x256_0_0
abbrev r2 : Rect S128x3200 := Rect.unit (s := S128x3200) ![0, 0] S128x3200.size inb_S128x3200_S128x3200_0_0
abbrev r3 : Rect S256x3200 := Rect.unit (s := S256x3200) ![0, 0] S256x3200.size inb_S256x3200_S256x3200_0_0
abbrev r4 : Rect S64x3200 := Rect.unit (s := S64x3200) ![0, 0] S64x3200.size inb_S64x3200_S64x3200_0_0
abbrev r5 : Rect S1x64x1 := Rect.unit (s := S1x64x1) ![0, 0, 0] S1x64x1.size inb_S1x64x1_S1x64x1_0_0_0
abbrev rs : Rect S64x1 := Rect.unit (s := S64x1) ![0, 0] S64x1.size inb_S64x1_S64x1_0_0

/-- A load of a whole buffer through the unit rectangle at offset zero reads the buffer. -/
theorem rd0 {sg : RefSig} {κ : Kind} {sp : Space} (v : View sg κ sp S64x128 .f32) (f : v.ty.Contents (Elt F)) :
    v.readAt (Elt F) r0.toLoadRect f = v.read (Elt F) f := View.ld_unit_zero (S := S64x128) hz2 _ _
theorem rd1 {sg : RefSig} {κ : Kind} {sp : Space} (v : View sg κ sp S64x256 .f32) (f : v.ty.Contents (Elt F)) :
    v.readAt (Elt F) r1.toLoadRect f = v.read (Elt F) f := View.ld_unit_zero (S := S64x256) hz2 _ _
theorem rd2 {sg : RefSig} {κ : Kind} {sp : Space} (v : View sg κ sp S128x3200 .f32) (f : v.ty.Contents (Elt F)) :
    v.readAt (Elt F) r2.toLoadRect f = v.read (Elt F) f := View.ld_unit_zero (S := S128x3200) hz2 _ _
theorem rd3 {sg : RefSig} {κ : Kind} {sp : Space} (v : View sg κ sp S256x3200 .f32) (f : v.ty.Contents (Elt F)) :
    v.readAt (Elt F) r3.toLoadRect f = v.read (Elt F) f := View.ld_unit_zero (S := S256x3200) hz2 _ _
theorem rdS {sg : RefSig} {κ : Kind} {sp : Space} (v : View sg κ sp S64x1 .f32) (f : v.ty.Contents (Elt F)) :
    v.readAt (Elt F) rs.toLoadRect f = v.read (Elt F) f := View.ld_unit_zero (S := S64x1) hz2 _ _

/-- The last store through the whole-buffer rectangle covers the buffer, whatever was stored before. -/
theorem cover4 (p : Vec F S64x3200 .f32) (L : List (View.Piece (Elt F) S64x3200 .f32)) (y : S64x3200.Idx) :
    ∃ pc ∈ ((⟨r4, p⟩ : View.Piece (Elt F) S64x3200 .f32) :: L), y ∈ pc.1.set :=
  ⟨⟨r4, p⟩, List.mem_cons_self, View.mem_set_unit_zero (S := S64x3200) hz2 inb_S64x3200_S64x3200_0_0 y⟩
theorem cover5 (p : Vec F S1x64x1 .f32) (L : List (View.Piece (Elt F) S1x64x1 .f32)) (y : S1x64x1.Idx) :
    ∃ pc ∈ ((⟨r5, p⟩ : View.Piece (Elt F) S1x64x1 .f32) :: L), y ∈ pc.1.set :=
  ⟨⟨r5, p⟩, List.mem_cons_self, View.mem_set_unit_zero (S := S1x64x1) hz3 inb_S1x64x1_S1x64x1_0_0_0 y⟩
theorem coverS (p : Vec F S64x1 .f32) (L : List (View.Piece (Elt F) S64x1 .f32)) (y : S64x1.Idx) :
    ∃ pc ∈ ((⟨rs, p⟩ : View.Piece (Elt F) S64x1 .f32) :: L), y ∈ pc.1.set :=
  ⟨⟨rs, p⟩, List.mem_cons_self, View.mem_set_unit_zero (S := S64x1) hz2 inb_S64x1_S64x1_0_0 y⟩
/-- What a view reads after stores the last of which went through the whole-buffer rectangle: that store's payload. -/
theorem read4 {sg : RefSig} {κ : Kind} {sp : Space} (v : View sg κ sp S64x3200 .f32) (f : v.ty.Contents (Elt F)) (p : Vec F S64x3200 .f32)
    (L : List (View.Piece (Elt F) S64x3200 .f32)) : v.read (Elt F) (v.writes (Elt F) f ((⟨r4, p⟩ : View.Piece (Elt F) S64x3200 .f32) :: L)) = p :=
  (View.read_writes_eq_canon v f _ (cover4 p L)).trans (View.canon_cons_unit_zero (S := S64x3200) hz2 inb_S64x3200_S64x3200_0_0 p L)
theorem read5 {sg : RefSig} {κ : Kind} {sp : Space} (v : View sg κ sp S1x64x1 .f32) (f : v.ty.Contents (Elt F)) (p : Vec F S1x64x1 .f32)
    (L : List (View.Piece (Elt F) S1x64x1 .f32)) : v.read (Elt F) (v.writes (Elt F) f ((⟨r5, p⟩ : View.Piece (Elt F) S1x64x1 .f32) :: L)) = p :=
  (View.read_writes_eq_canon v f _ (cover5 p L)).trans (View.canon_cons_unit_zero (S := S1x64x1) hz3 inb_S1x64x1_S1x64x1_0_0_0 p L)
theorem readS {sg : RefSig} {κ : Kind} {sp : Space} (v : View sg κ sp S64x1 .f32) (f : v.ty.Contents (Elt F)) (p : Vec F S64x1 .f32)
    (L : List (View.Piece (Elt F) S64x1 .f32)) : v.read (Elt F) (v.writes (Elt F) f ((⟨rs, p⟩ : View.Piece (Elt F) S64x1 .f32) :: L)) = p :=
  (View.read_writes_eq_canon v f _ (coverS p L)).trans (View.canon_cons_unit_zero (S := S64x1) hz2 inb_S64x1_S64x1_0_0 p L)
/-- A load through the whole-buffer rectangle after one store through it reads that store's payload. -/
theorem rcS {sg : RefSig} {κ : Kind} {sp : Space} (v : View sg κ sp S64x1 .f32) (p : Vec F S64x1 .f32) :
    v.readCov [(⟨rs, p⟩ : View.Piece (Elt F) S64x1 .f32)] rs.toLoadRect = p :=
  View.readCov_unit_zero (S := S64x1) v hz2 inb_S64x1_S64x1_0_0 p

set_option maxHeartbeats 1000000 in
/-- The body at a first point of a half (the accumulator zero-filled, then this point's row sums added; the half's sum
    not stored): the inputs' buffers as found, the exponentials' buffer at this point's block of exponentials, the
    half-sum window's buffer untouched, the accumulator at zero plus this point's row sums. -/
theorem runA (c : Dev nD) (E : Set ℕ) (i : grid2.Coords)
    (arg2 : Memref sig .tc .vmem S64x128 .f32) (harg2 : arg2.IsWhole) (arg3 : Memref sig .tc .vmem S64x256 .f32) (harg3 : arg3.IsWhole)
    (arg4 : Memref sig .tc .vmem S128x3200 .f32) (harg4 : arg4.IsWhole) (arg5 : Memref sig .tc .vmem S256x3200 .f32) (harg5 : arg5.IsWhole)
    (arg6 : Memref sig .tc .vmem S64x3200 .f32) (harg6 : arg6.IsWhole) (arg7 : Memref sig .tc .vmem S1x64x1 .f32) (harg7 : arg7.IsWhole)
    (arg8 : Memref sig .tc .vmem S64x1 .f32) (harg8 : arg8.IsWhole) (hc1 : cond1 i) (hc2 : ¬cond2 i)
    (x0 : Vec F S64x128 .f32) (x1 : Vec F S64x256 .f32) (x2 : Vec F S128x3200 .f32) (x3 : Vec F S256x3200 .f32) (xi5 : Vec F S1x64x1 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xi5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k2_pay2 x0 x2 x1 x3)
            ∗ owns (c : Thread nD τ) arg7 fullShare xi5
            ∗ owns (c : Thread nD τ) arg8 fullShare (k2_pay3 x0 x2 x1 x3 (k2_pay1 (F := F)))) -∗ K ⟨⟩))
      ⊢ wp frame (wpE (defs₀ (F := F)) Variants.none c none) E (cc2__out_kernel i arg2 harg2 arg3 harg3 arg4 harg4 arg5 harg5 arg6 harg6 arg7 harg7 arg8 harg8) K := by
  simp only [cc2__out_kernel_eq_skeleton]; unfold cc2__out_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds, %fs, -, HS⟩, Hk⟩
  subst hf0; subst hf1; subst hf2; subst hf3; subst hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    refine (read4 _ _ _ _).trans ?_
    rw [rd0, rd1, rd2, rd3]
  isplitl [H5]
  · iexists f5; isplitr; · ipureintro; rfl
    iexact H5
  iexists _; isplitr
  swap; · iexact HS
  ipureintro
  sl_unfold_run_names
  refine (readS _ _ _ _).trans ?_
  rw [rd0, rd1, rd2, rd3, rcS]

set_option maxHeartbeats 1000000 in
/-- The body at an inner point of a half (neither condition): as above, the accumulator at what it held plus this
    point's row sums. -/
theorem runB (c : Dev nD) (E : Set ℕ) (i : grid2.Coords)
    (arg2 : Memref sig .tc .vmem S64x128 .f32) (harg2 : arg2.IsWhole) (arg3 : Memref sig .tc .vmem S64x256 .f32) (harg3 : arg3.IsWhole)
    (arg4 : Memref sig .tc .vmem S128x3200 .f32) (harg4 : arg4.IsWhole) (arg5 : Memref sig .tc .vmem S256x3200 .f32) (harg5 : arg5.IsWhole)
    (arg6 : Memref sig .tc .vmem S64x3200 .f32) (harg6 : arg6.IsWhole) (arg7 : Memref sig .tc .vmem S1x64x1 .f32) (harg7 : arg7.IsWhole)
    (arg8 : Memref sig .tc .vmem S64x1 .f32) (harg8 : arg8.IsWhole) (hc1 : ¬cond1 i) (hc2 : ¬cond2 i)
    (x0 : Vec F S64x128 .f32) (x1 : Vec F S64x256 .f32) (x2 : Vec F S128x3200 .f32) (x3 : Vec F S256x3200 .f32) (xi5 : Vec F S1x64x1 .f32)
    (xs : Vec F S64x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xi5
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k2_pay2 x0 x2 x1 x3)
            ∗ owns (c : Thread nD τ) arg7 fullShare xi5
            ∗ owns (c : Thread nD τ) arg8 fullShare (k2_pay3 x0 x2 x1 x3 xs)) -∗ K ⟨⟩))
      ⊢ wp frame (wpE (defs₀ (F := F)) Variants.none c none) E (cc2__out_kernel i arg2 harg2 arg3 harg3 arg4 harg4 arg5 harg5 arg6 harg6 arg7 harg7 arg8 harg8) K := by
  simp only [cc2__out_kernel_eq_skeleton]; unfold cc2__out_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs, %hfs, HS⟩, Hk⟩
  subst hf0; subst hf1; subst hf2; subst hf3; subst hf5; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    refine (read4 _ _ _ _).trans ?_
    rw [rd0, rd1, rd2, rd3]
  isplitl [H5]
  · iexists f5; isplitr; · ipureintro; rfl
    iexact H5
  iexists _; isplitr
  swap; · iexact HS
  ipureintro
  sl_unfold_run_names
  refine (readS _ _ _ _).trans ?_
  rw [rd0, rd1, rd2, rd3, rdS]

set_option maxHeartbeats 1000000 in
/-- The body at the last point of a half (the second condition): as at an inner point, and the half-sum window's
    buffer at the accumulator's new contents, recast. -/
theorem runC (c : Dev nD) (E : Set ℕ) (i : grid2.Coords)
    (arg2 : Memref sig .tc .vmem S64x128 .f32) (harg2 : arg2.IsWhole) (arg3 : Memref sig .tc .vmem S64x256 .f32) (harg3 : arg3.IsWhole)
    (arg4 : Memref sig .tc .vmem S128x3200 .f32) (harg4 : arg4.IsWhole) (arg5 : Memref sig .tc .vmem S256x3200 .f32) (harg5 : arg5.IsWhole)
    (arg6 : Memref sig .tc .vmem S64x3200 .f32) (harg6 : arg6.IsWhole) (arg7 : Memref sig .tc .vmem S1x64x1 .f32) (harg7 : arg7.IsWhole)
    (arg8 : Memref sig .tc .vmem S64x1 .f32) (harg8 : arg8.IsWhole) (hc1 : ¬cond1 i) (hc2 : cond2 i)
    (x0 : Vec F S64x128 .f32) (x1 : Vec F S64x256 .f32) (x2 : Vec F S128x3200 .f32) (x3 : Vec F S256x3200 .f32)
    (xs : Vec F S64x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k2_pay2 x0 x2 x1 x3)
            ∗ owns (c : Thread nD τ) arg7 fullShare (k2_pay4 (k2_pay3 x0 x2 x1 x3 xs))
            ∗ owns (c : Thread nD τ) arg8 fullShare (k2_pay3 x0 x2 x1 x3 xs)) -∗ K ⟨⟩))
      ⊢ wp frame (wpE (defs₀ (F := F)) Variants.none c none) E (cc2__out_kernel i arg2 harg2 arg3 harg3 arg4 harg4 arg5 harg5 arg6 harg6 arg7 harg7 arg8 harg8) K := by
  simp only [cc2__out_kernel_eq_skeleton]; unfold cc2__out_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs, %hfs, HS⟩, Hk⟩
  subst hf0; subst hf1; subst hf2; subst hf3; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    refine (read4 _ _ _ _).trans ?_
    rw [rd0, rd1, rd2, rd3]
  isplitl [H5]
  · iexists _; isplitr
    swap; · iexact H5
    ipureintro
    sl_unfold_run_names
    refine (read5 _ _ _ _).trans ?_
    rw [rcS, rd0, rd1, rd2, rd3, rdS]
  iexists _; isplitr
  swap; · iexact HS
  ipureintro
  sl_unfold_run_names
  refine (readS _ _ _ _).trans ?_
  rw [rd0, rd1, rd2, rd3, rdS]

-- the TensorCore's buffer contents when the region is entered: a PARAMETER
variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof
    data whose array is the entry contents and whose body leaves the block in place. -/
theorem before0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What the body leaves, point by point -/

/-- The block of exponentials the body stores at point `t`, from the input blocks there. -/
def expBlk (c : Dev nD) (t : Fin cfg2.N) : Vec F S64x3200 .f32 :=
  k2_pay2 (iblk V c 0 t) (iblk V c 2 t) (iblk V c 1 t) (iblk V c 3 t)

/-- One step of the accumulation: the accumulator's contents `xs` plus the row sums of point `t`'s exponentials. -/
def accStep (c : Dev nD) (t : Fin cfg2.N) (xs : Vec F S64x1 .f32) : Vec F S64x1 .f32 :=
  k2_pay3 (iblk V c 0 t) (iblk V c 2 t) (iblk V c 1 t) (iblk V c 3 t) xs

/-- The accumulator after the body at position `n`: restarted from zero at the first point of each half, carried on
    from the point before otherwise. -/
def scrAt (c : Dev nD) : (n : ℕ) → n < cfg2.N → Vec F S64x1 .f32
  | 0, hn => accStep V c ⟨0, hn⟩ (k2_pay1 (F := F))
  | n + 1, hn => accStep V c ⟨n + 1, hn⟩ (if (n + 1) % 5 = 0 then (k2_pay1 (F := F)) else scrAt c n (Nat.lt_of_succ_lt hn))

/-- At the first point of a half the accumulation restarts. -/
theorem scrAt_first (c : Dev nD) (t : Fin cfg2.N) (h0 : t.val % 5 = 0) :
    scrAt V c t.val t.isLt = accStep V c t (k2_pay1 (F := F)) := by
  obtain ⟨n, hn⟩ := t
  cases n with
  | zero => rfl
  | succ n => show accStep V c ⟨n + 1, hn⟩ (if (n + 1) % 5 = 0 then _ else _) = _; rw [if_pos h0]

/-- At any other point it goes on from what the point before left. -/
theorem scrAt_next (c : Dev nD) (t : Fin cfg2.N) (h0 : ¬t.val % 5 = 0) :
    scrAt V c t.val t.isLt = accStep V c t (scrAt V c (t.val - 1) (Nat.lt_of_le_of_lt (Nat.sub_le _ _) t.isLt)) := by
  obtain ⟨n, hn⟩ := t
  cases n with
  | zero => exact absurd (Nat.zero_mod _) h0
  | succ n => show accStep V c ⟨n + 1, hn⟩ (if (n + 1) % 5 = 0 then _ else _) = _; rw [if_neg h0]; rfl

/-! ## The invariant -/

/-- The scratch operand: a whole scoped buffer of the kernel's own. -/
abbrev scM : Memref sig .tc .vmem S64x1 .f32 := Memref.whole cc2_scratch0

/-- The region invariant before position `n`: before the first point the class's (every scoped buffer that is no
    staging buffer at anything, the generator register at some state); afterwards the accumulator at what the point
    before left in it, the other such buffers at anything, and the generator register at some state. -/
def PhiS (c : Dev nD) : (n : ℕ) → n ≤ cfg2.N → sProp 𝕄
  | 0, _ => Pipeline.ΦA spec2 c
  | n + 1, hn => iprop(iprop(owns (c : Thread nD τ) scM fullShare (scrAt V c n hn)
      ∗ Pipeline.scopedRestBut (Ix := Unit) (Name := ℕ) (U := UR sig nD τ) (Lvl := ℕ) (Val := Elt F) spec2 c [cc2_scratch0]) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(owns (c : Thread nD τ) scM fullShare (scrAt V c n hn)
      ∗ Pipeline.scopedRestBut (Ix := Unit) (Name := ℕ) (U := UR sig nD τ) (Lvl := ℕ) (Val := Elt F) spec2 c [cc2_scratch0]) ∗ (∃ r, prngReg c r)) := rfl

theorem PhiS_pos (c : Dev nD) (n : ℕ) (h : n ≤ cfg2.N) (hz : n ≠ 0) :
    PhiS V c n h = iprop(iprop(owns (c : Thread nD τ) scM fullShare (scrAt V c (n - 1) (by omega))
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- The class's invariant with the accumulator split off as a memref owned at some contents. -/
theorem PhiA_eq (c : Dev nD) :
    (Pipeline.ΦA spec2 c : sProp 𝕄)
      = iprop(iprop((∃ d, owns (c : Thread nD τ) scM fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM, owns_whole]; try rfl

/-! ## The pipeline's proof data -/

/-- The proof data of the pipeline on core `c`: the arrays as the region finds them; after the body at point `t`
    each input's buffer at its block, the exponentials' buffer at that point's block of exponentials, the half-sum
    window's buffer at the accumulator's contents recast (consulted only where the body stores it); the invariant
    `PhiS`; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => expBlk V c t
    | ⟨5, _⟩ => k2_pay4 (scrAt V c t.val t.isLt)
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]
theorem q_eq (c : Dev nD) (w : Fin cfg2.W) : (dat V c).q w = fullShare := rfl
theorem owed_eq (c : Dev nD) (t : Fin (cfg2.N + 1)) : (dat V c).owed t = 0 := rfl
theorem rec_eq (c : Dev nD) (t : Fin (cfg2.N + 1)) : (dat V c).recorded t = Set.univ := rfl

theorem PhiS_castSucc (c : Dev nD) (t : Fin cfg2.N) :
    (dat V c).Φ t.castSucc = PhiS V c t.val (Nat.le_of_lt t.isLt) := by
  dsimp only [dat]; simp only [Fin.coe_castSucc]

theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = iblk V c 2 t := by dsimp only [dat]
theorem after3 (c : Dev nD) (t : Fin cfg2.N) : (dat V c).after 3 t = iblk V c 3 t := by dsimp only [dat]
theorem after4 (c : Dev nD) (t : Fin cfg2.N) : (dat V c).after 4 t = expBlk V c t := by dsimp only [dat]
theorem after5 (c : Dev nD) (t : Fin cfg2.N) : (dat V c).after 5 t = k2_pay4 (scrAt V c t.val t.isLt) := by dsimp only [dat]

theorem before0 (c : Dev nD) (t : Fin cfg2.N) (d) : (dat V c).before 0 t d = iblk V c 0 t :=
  before0_of V (dat V c) (A_eq V c 0) (after0 V c) t d
theorem before1 (c : Dev nD) (t : Fin cfg2.N) (d) : (dat V c).before 1 t d = iblk V c 1 t :=
  before1_of V (dat V c) (A_eq V c 1) (after1 V c) t d
theorem before2 (c : Dev nD) (t : Fin cfg2.N) (d) : (dat V c).before 2 t d = iblk V c 2 t :=
  before2_of V (dat V c) (A_eq V c 2) (after2 V c) t d
theorem before3 (c : Dev nD) (t : Fin cfg2.N) (d) : (dat V c).before 3 t d = iblk V c 3 t :=
  before3_of V (dat V c) (A_eq V c 3) (after3 V c) t d

/-- A window never idle hands its buffer back at what the body leaves. -/
theorem lv0 (c : Dev nD) (t : Fin cfg2.N) : (dat V c).leavesExact 0 t = owns (c : Thread nD τ) (st2_0 t) fullShare (iblk V c 0 t) := by
  rw [← after0 V c t]
theorem lv1 (c : Dev nD) (t : Fin cfg2.N) : (dat V c).leavesExact 1 t = owns (c : Thread nD τ) (st2_1 t) fullShare (iblk V c 1 t) := by
  rw [← after1 V c t]
theorem lv2 (c : Dev nD) (t : Fin cfg2.N) : (dat V c).leavesExact 2 t = owns (c : Thread nD τ) (st2_2 t) fullShare (iblk V c 2 t) := by
  rw [← after2 V c t]
theorem lv3 (c : Dev nD) (t : Fin cfg2.N) : (dat V c).leavesExact 3 t = owns (c : Thread nD τ) (st2_3 t) fullShare (iblk V c 3 t) := by
  rw [← after3 V c t]
theorem lv4 (c : Dev nD) (t : Fin cfg2.N) : (dat V c).leavesExact 4 t = owns (c : Thread nD τ) (st2_4 t) fullShare (expBlk V c t) := by
  rw [← after4 V c t]
/-- The half-sum window hands its buffer back at what the body stored where the body stores it, -/
theorem lv5_live (c : Dev nD) (t : Fin cfg2.N) (h : cond2 (grid2.coords t)) :
    (dat V c).leavesExact 5 t = owns (c : Thread nD τ) (st2_5 t) fullShare (k2_pay4 (scrAt V c t.val t.isLt)) := by
  rw [← after5 V c t]; unfold Dat.leavesExact; rw [live5_of t h]
/-- and untouched elsewhere. -/
theorem lv5_idle (c : Dev nD) (t : Fin cfg2.N) (h : ¬cond2 (grid2.coords t)) :
    (dat V c).leavesExact 5 t = iprop(∃ d, owns (c : Thread nD τ) (st2_5 t) fullShare ((dat V c).before 5 t d)) :=
  Dat.leavesExact_idle (dat V c) 5 t (idle5_of t h) (noFlush5_of t h)

/-! ## The body obligation, at a generic point -/

/-- What the body is called with at point `t` (the windows one by one), -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d)))

/-- and what it returns. -/
def bodyPost (c : Dev nD) (t : Fin cfg2.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t ∗ (dat V c).leavesExact 5 t)

set_option maxHeartbeats 4800000 in
/-- The body at any point: the inputs' buffers hold their blocks; the closed forms of the two conditions say which of
    the three cases the point is in; the invariant hands the body the accumulator at what the point before left (at
    anything before the first point) and takes it back at this point's contents; the core owes nothing throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1, before2, before3]
  rw [show (dat V c).owesAt () t.succ = (dat V c).owesAt () t.castSucc from rfl]
  rw [show (dat V c).Φ t.succ = PhiS V c (t.val + 1) t.isLt from rfl, PhiS_succ]
  rw [lv0, lv1, lv2, lv3, lv4]
  have hN : t.val < 10 := lt_of_lt_of_eq t.isLt (show cfg2.N = 10 from N_2)
  by_cases h0 : t.val % 5 = 0
  · have h4 : ¬t.val % 5 = 4 := by omega
    have hc1 : cond1 (grid2.coords t) := (hcond1 t).mpr h0
    have hc2 : ¬cond2 (grid2.coords t) := fun h => h4 ((hcond2 t).mp h)
    rw [lv5_idle V c t hc2, scrAt_first V c t h0]
    unfold expBlk accStep
    by_cases hz : t.val = 0
    · rw [PhiS_castSucc V c t, PhiS_zero V c _ _ hz, PhiA_eq]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply (runA c Set.univ (grid2.coords t) _ _ _ _ _ _ _ _ _ _ _ _ _ _ hc1 hc2 (iblk V c 0 t) (iblk V c 1 t) (iblk V c 2 t) (iblk V c 3 t) ((dat V c).before 5 t d5) _)
      isplitl [H0]; · iexact H0
      isplitl [H1]; · iexact H1
      isplitl [H2]; · iexact H2
      isplitl [H3]; · iexact H3
      isplitl [H4]; · iexists _; iexact H4
      isplitl [H5]; · iexact H5
      isplitl [HS]; · iexact HS
      iintro ⟨H0, H1, H2, H3, H4, H5, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5
    · rw [PhiS_castSucc V c t, PhiS_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply (runA c Set.univ (grid2.coords t) _ _ _ _ _ _ _ _ _ _ _ _ _ _ hc1 hc2 (iblk V c 0 t) (iblk V c 1 t) (iblk V c 2 t) (iblk V c 3 t) ((dat V c).before 5 t d5) _)
      isplitl [H0]; · iexact H0
      isplitl [H1]; · iexact H1
      isplitl [H2]; · iexact H2
      isplitl [H3]; · iexact H3
      isplitl [H4]; · iexists _; iexact H4
      isplitl [H5]; · iexact H5
      isplitl [HS]; · iexists _; iexact HS
      iintro ⟨H0, H1, H2, H3, H4, H5, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5
  · have hz : t.val ≠ 0 := fun h => h0 (by rw [h])
    have hc1 : ¬cond1 (grid2.coords t) := fun h => h0 ((hcond1 t).mp h)
    by_cases h4 : t.val % 5 = 4
    · have hc2 : cond2 (grid2.coords t) := (hcond2 t).mpr h4
      rw [lv5_live V c t hc2, scrAt_next V c t h0]
      unfold expBlk accStep
      rw [PhiS_castSucc V c t, PhiS_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply (runC c Set.univ (grid2.coords t) _ _ _ _ _ _ _ _ _ _ _ _ _ _ hc1 hc2 (iblk V c 0 t) (iblk V c 1 t) (iblk V c 2 t) (iblk V c 3 t) (scrAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [H5]; · iexists _; iexact H5
      isplitl [HS]; · iexact HS
      iintro ⟨H0, H1, H2, H3, H4, H5, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc2 : ¬cond2 (grid2.coords t) := fun h => h4 ((hcond2 t).mp h)
      rw [lv5_idle V c t hc2, scrAt_next V c t h0]
      unfold expBlk accStep
      rw [PhiS_castSucc V c t, PhiS_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply (runB c Set.univ (grid2.coords t) _ _ _ _ _ _ _ _ _ _ _ _ _ _ hc1 hc2 (iblk V c 0 t) (iblk V c 1 t) (iblk V c 2 t) (iblk V c 3 t) ((dat V c).before 5 t d5) (scrAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [H5]; · iexact H5
      isplitl [HS]; · iexact HS
      iintro ⟨H0, H1, H2, H3, H4, H5, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5

/-- The body's obligation at every point of the grid. -/
theorem body_obligation (c : Dev nD) : BodyObligation (dat (F := F) V c) (defs₀ (F := F)) Variants.none () Set.univ := fun t => by
  rw [bigSep_W2, bigSep_W2]
  exact sound_body V c t

/-- What the launch hands the region is the invariant before the first point. -/
theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After any point the invariant gives the class's back: the accumulator's named contents are forgotten. -/
theorem Phi_out (c : Dev nD) (t : Fin (cfg2.N + 1)) (ht : t.val ≠ 0) : (dat V c).Φ t ⊢ Pipeline.ΦA spec2 c := by
  rw [show (dat V c).Φ t = PhiS V c t.val (Nat.le_of_lt_succ t.isLt) from rfl, PhiS_pos V c _ _ ht, PhiA_eq]
  iintro ⟨⟨HS, Hr⟩, Hg⟩
  isplitl [HS Hr]
  · isplitl [HS]
    · iexists _; iexact HS
    iexact Hr
  iexact Hg

/-- The same after the last point. -/
theorem hout (c : Dev nD) : (dat V c).Φ (Fin.last cfg2.N) ⊢ Pipeline.ΦA spec2 c :=
  Phi_out V c _ (by rw [Fin.val_last]; have : cfg2.N = 10 := N_2; omega)

end Cert.KernelIdeal.R2
end
-- ==== Proof.R3.lean ====
import proofs.«122264_j82798379533062_2_alg».proof.Proof.Gen.KernelIdeal.Launch
import proofs.«122264_j82798379533062_2_alg».proof.Proof.Gen.KernelIdeal.Skeleton
import proofs.«122264_j82798379533062_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

/-! # Region 3: the normalising kernel, at the buffer contents the region is entered with

The fourth kernel divides each block of the unnormalised exponentials, row by row, by the row's total.
It runs over 5 grid points. Window 0 is the [64, 6400] block (0, k) of the exponentials, fetched at every
point; window 1 is the whole [64, 1] column of row totals, fetched at the first point only and left in
place afterwards; window 2 is the [64, 6400] block (0, k) of the result, stored whole at every point and
written back there. The kernel carries nothing from one point to the next, so the invariant between
points is the constant one: the scoped buffers that are no window's and the generator register, untouched.

Everything here is generic in the float interpretation. -/

set_option maxRecDepth 16384

noncomputable section

namespace Cert.KernelIdeal.R3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! ## The windows' blocks -/

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (a new block at every point) holds its block at every point, for any proof data whose array
    is the entry contents and whose body leaves the block in place. -/
theorem before_0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1 (the whole column, brought in at the first point only) holds its block at every point: at a
    point where it is not fetched its block index has not moved, and the body left the block in place. -/
theorem before_1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole [64, 6400] buffer as a rectangle. -/
abbrev r_blk : Rect S64x6400 := Rect.unit (s := S64x6400) ![0, 0] S64x6400.size inb_S64x6400_S64x6400_0_0
/-- The whole [64, 1] buffer as a rectangle. -/
abbrev r_col : Rect S64x1 := Rect.unit (s := S64x1) ![0, 0] S64x1.size inb_S64x1_S64x1_0_0

/-! ## What the body leaves in the output window's buffer -/

/-- Window 2's buffer after the body, from the two input blocks: its single whole-buffer store, the quotient of the
    block by the broadcast column. -/
def out_2 (x0 : Vec F S64x6400 .f32) (x1 : Vec F S64x1 .f32) : Vec F S64x6400 .f32 :=
  View.canon [⟨r_blk, k3_pay1 (View.ld x0 r_blk) (View.ld x1 r_col)⟩]

/-- The single store is of the whole buffer, so it covers it. -/
theorem cover_2 (p0 : Vec F S64x6400 .f32) (y : S64x6400.Idx) :
    ∃ pc ∈ ([⟨r_blk, p0⟩] : List (View.Piece (Elt F) S64x6400 .f32)), y ∈ pc.1.set :=
  View.cover_of_tiled [⟨r_blk, p0⟩] S64x6400.size (by rfl) y

/-! ## The body's triple -/

set_option maxHeartbeats 1000000 in
/-- The kernel body on whole staging memrefs — the two inputs' at read contents `x0`, `x1`, the output's at anything —
    runs to the continuation holding the inputs' as they were and the output's at `out_2 x0 x1`. -/
theorem sound_kernel (c : Dev nD) (E : Set ℕ) (i : grid3.Coords)
    (arg1 : Memref sig .tc .vmem S64x6400 .f32) (harg1 : arg1.IsWhole) (arg2 : Memref sig .tc .vmem S64x1 .f32) (harg2 : arg2.IsWhole)
    (arg3 : Memref sig .tc .vmem S64x6400 .f32) (harg3 : arg3.IsWhole)
    (x0 : Vec F S64x6400 .f32) (x1 : Vec F S64x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out_2 x0 x1)) -∗ K ⟨⟩))
      ⊢ wp frame (wpE (defs₀ (F := F)) Variants.none c none) E (cc3__norm_kernel i arg1 harg1 arg2 harg2 arg3 harg3) K := by
  simp only [cc3__norm_kernel_eq_skeleton]; unfold cc3__norm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_2 _)

/-! ## The pipeline's proof data -/

/-- The proof data of the pipeline on core `c`: the arrays as the region finds them; after the body at point `t` each
    input's buffer at its block and the output's at `out_2` of the input blocks; the invariant constant (the scoped
    buffers that are no window's and the generator register, untouched); nothing owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => out_2 (iblk V c 0 t) (iblk V c 1 t)
  Φ _ := Pipeline.ΦA spec3 c
  q _ := fullShare
  owed _ := 0

/-- The proof data's arrays are the region-entry contents. -/
theorem A_eq (c : Dev nD) (w : Fin cfg3.W) : (dat V c).A w = V c (Pipeline.arrRef spec3 w) := by
  dsimp only [dat]

theorem q_eq (c : Dev nD) (w : Fin cfg3.W) : (dat V c).q w = fullShare := rfl
theorem owed_eq (c : Dev nD) (t) : (dat V c).owed t = 0 := rfl
theorem Φ_eq (c : Dev nD) (t) : (dat V c).Φ t = Pipeline.ΦA spec3 c := rfl
theorem rec_eq (c : Dev nD) (t) : (dat V c).recorded t = Set.univ := rfl

/-- What the body leaves, window by window. -/
theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = out_2 (iblk V c 0 t) (iblk V c 1 t) := by dsimp only [dat]

/-- Each input's current staging buffer holds its block at every point, fetched there or not. -/
theorem before_0 (c : Dev nD) (t : Fin cfg3.N) (d) : (dat V c).before 0 t d = iblk V c 0 t :=
  before_0_of V (dat V c) (A_eq V c 0) (after_0 V c) t d
theorem before_1 (c : Dev nD) (t : Fin cfg3.N) (d) : (dat V c).before 1 t d = iblk V c 1 t :=
  before_1_of V (dat V c) (A_eq V c 1) (after_1 V c) t d

/-! ## The body obligation, at a generic point -/

/-- What the body is called with at point `t`, the windows one by one, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d)))

/-- and what it returns. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t))

/-- The body at any point: the inputs' memrefs hold their blocks, so `sound_kernel` applies; the invariant and the
    core's debts pass through unread. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's specification at every point, in the form the pipeline's soundness theorem takes: the windows conjoined. -/
theorem body_obligation (c : Dev nD) : BodyObligation (dat (F := F) V c) (defs₀ (F := F)) Variants.none () Set.univ := fun t => by
  rw [bigSep_W3, bigSep_W3]
  exact sound_body V c t

/-! ## Entering and leaving -/

/-- The constant invariant is what the region is entered with, -/
theorem hin (c : Dev nD) : Pipeline.ΦA spec3 c ⊢ (dat V c).Φ 0 := by
  rw [Φ_eq]

/-- and what it is left with. -/
theorem hout (c : Dev nD) : (dat V c).Φ (Fin.last cfg3.N) ⊢ Pipeline.ΦA spec3 c := by
  rw [Φ_eq]

end Cert.KernelIdeal.R3

end
-- ==== Proof.R0K.lean ====
import proofs.«122264_j82798379533062_2_alg».proof.Proof.Gen.Kernel.Launch
import proofs.«122264_j82798379533062_2_alg».proof.Proof.Gen.Kernel.Skeleton
import proofs.«122264_j82798379533062_2_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic
set_option maxRecDepth 16384
noncomputable section
namespace Cert.Kernel.R0
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- The first branch's condition: the grid coordinate is 0. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 5 = 0 :=
  (by decide +kernel : ∀ t : Fin grid0.N, cond0_0 (grid0.coords t) ↔ t.val % 5 = 0)
/-- The second branch's condition: the grid coordinate is 4. -/
abbrev cond0_1 (i : grid0.Coords) : Prop := k0_cond2 i = 1#1
theorem hcond0_1 : ∀ t : Fin cfg0.N, cond0_1 (grid0.coords t) ↔ t.val % 5 = 4 :=
  (by decide +kernel : ∀ t : Fin grid0.N, cond0_1 (grid0.coords t) ↔ t.val % 5 = 4)

theorem hz2 : (![0, 0] : Fin 2 → Nat) = fun _ => 0 := funext fun a => by fin_cases a <;> rfl

set_option maxHeartbeats 1000000 in
theorem runB (c : Dev nD) (E : Set ℕ) (i : grid0.Coords) (arg1 : Memref sig .tc .vmem S64x6400 .f32) (harg1 : arg1.IsWhole) (arg2 : Memref sig .tc .vmem S6400x64 .f32) (harg2 : arg2.IsWhole) (arg3 : Memref sig .tc .vmem S64x256 .f32) (harg3 : arg3.IsWhole) (arg4 : Memref sig .tc .vmem S256x64 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S128x512 .f32) (harg8 : arg8.IsWhole) (arg9 : Memref sig .tc .vmem S64x128 .f32) (harg9 : arg9.IsWhole) (arg10 : Memref sig .tc .vmem S64x128 .f32) (harg10 : arg10.IsWhole) (arg11 : Memref sig .tc .vmem S64x64 .f32) (harg11 : arg11.IsWhole)
    (hc0 : ¬cond0_0 i) (hc1 : ¬cond0_1 i)
    (x0 : Vec F S64x6400 .f32) (x1 : Vec F S6400x64 .f32) (xs : Vec F S64x64 .f32) (K : PUnit → sProp 𝕄) :
    iprop(owns (c : Thread nD τ) arg1 fullShare x0 ∗ owns (c : Thread nD τ) arg2 fullShare x1 ∗ owns (c : Thread nD τ) arg11 fullShare xs
        ∗ (iprop(owns (c : Thread nD τ) arg1 fullShare x0 ∗ owns (c : Thread nD τ) arg2 fullShare x1 ∗ owns (c : Thread nD τ) arg11 fullShare (k0_pay2 xs x0 x1)) -∗ K ⟨⟩))
      ⊢ wp frame (wpE (defs₀ (F := F)) Variants.none c none) E (cc0__proj_lstm_kernel i arg1 harg1 arg2 harg2 arg3 harg3 arg4 harg4 arg5 harg5 arg6 harg6 arg7 harg7 arg8 harg8 arg9 harg9 arg10 harg10 arg11 harg11) K := by
  simp only [cc0__proj_lstm_kernel_eq_skeleton]; unfold cc0__proj_lstm_kernel_skel
  unfold owns
  iintro ⟨⟨%f0, %hf0, H0⟩, ⟨%f1, %hf1, H1⟩, ⟨%fs, %hfs, HS⟩, Hk⟩
  subst hf0 hf1 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_eq_canon _ _ _ (fun y => ⟨_, List.mem_cons_self, View.mem_set_unit_zero hz2 inb_S64x64_S64x64_0_0 y⟩), View.canon_unit_zero hz2]
  simp only [View.readAt_eq_ld, View.ld_unit_zero (S := S64x64) hz2, View.ld_unit_zero (S := S64x6400) hz2, View.ld_unit_zero (S := S6400x64) hz2, View.ld_unit_zero (S := S64x256) hz2, View.ld_unit_zero (S := S256x64) hz2, View.ld_unit_zero (S := S64x128) hz2, View.ld_unit_zero (S := S64x512) hz2, View.ld_unit_zero (S := S128x512) hz2]

set_option maxHeartbeats 1000000 in
theorem runA (c : Dev nD) (E : Set ℕ) (i : grid0.Coords) (arg1 : Memref sig .tc .vmem S64x6400 .f32) (harg1 : arg1.IsWhole) (arg2 : Memref sig .tc .vmem S6400x64 .f32) (harg2 : arg2.IsWhole) (arg3 : Memref sig .tc .vmem S64x256 .f32) (harg3 : arg3.IsWhole) (arg4 : Memref sig .tc .vmem S256x64 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S128x512 .f32) (harg8 : arg8.IsWhole) (arg9 : Memref sig .tc .vmem S64x128 .f32) (harg9 : arg9.IsWhole) (arg10 : Memref sig .tc .vmem S64x128 .f32) (harg10 : arg10.IsWhole) (arg11 : Memref sig .tc .vmem S64x64 .f32) (harg11 : arg11.IsWhole)
    (hc0 : cond0_0 i) (hc1 : ¬cond0_1 i)
    (x0 : Vec F S64x6400 .f32) (x1 : Vec F S6400x64 .f32) (K : PUnit → sProp 𝕄) :
    iprop(owns (c : Thread nD τ) arg1 fullShare x0 ∗ owns (c : Thread nD τ) arg2 fullShare x1 ∗ (∃ d, owns (c : Thread nD τ) arg11 fullShare d)
        ∗ (iprop(owns (c : Thread nD τ) arg1 fullShare x0 ∗ owns (c : Thread nD τ) arg2 fullShare x1 ∗ owns (c : Thread nD τ) arg11 fullShare (k0_pay2 k0_pay1 x0 x1)) -∗ K ⟨⟩))
      ⊢ wp frame (wpE (defs₀ (F := F)) Variants.none c none) E (cc0__proj_lstm_kernel i arg1 harg1 arg2 harg2 arg3 harg3 arg4 harg4 arg5 harg5 arg6 harg6 arg7 harg7 arg8 harg8 arg9 harg9 arg10 harg10 arg11 harg11) K := by
  simp only [cc0__proj_lstm_kernel_eq_skeleton]; unfold cc0__proj_lstm_kernel_skel
  unfold owns
  iintro ⟨⟨%f0, %hf0, H0⟩, ⟨%f1, %hf1, H1⟩, ⟨%ds, %fs, -, HS⟩, Hk⟩
  subst hf0 hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [View.read_writes_eq_canon _ _ _ (fun y => ⟨_, List.mem_cons_self, View.mem_set_unit_zero hz2 inb_S64x64_S64x64_0_0 y⟩), View.canon_cons_unit_zero hz2]
  simp only [View.readAt_eq_ld, View.ld_unit_zero (S := S64x64) hz2, View.ld_unit_zero (S := S64x6400) hz2, View.ld_unit_zero (S := S6400x64) hz2, View.ld_unit_zero (S := S64x256) hz2, View.ld_unit_zero (S := S256x64) hz2, View.ld_unit_zero (S := S64x128) hz2, View.ld_unit_zero (S := S64x512) hz2, View.ld_unit_zero (S := S128x512) hz2, View.readCov_unit_zero (S := S64x64) _ hz2]

set_option maxHeartbeats 2000000 in
theorem runC (c : Dev nD) (E : Set ℕ) (i : grid0.Coords) (arg1 : Memref sig .tc .vmem S64x6400 .f32) (harg1 : arg1.IsWhole) (arg2 : Memref sig .tc .vmem S6400x64 .f32) (harg2 : arg2.IsWhole) (arg3 : Memref sig .tc .vmem S64x256 .f32) (harg3 : arg3.IsWhole) (arg4 : Memref sig .tc .vmem S256x64 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S128x512 .f32) (harg8 : arg8.IsWhole) (arg9 : Memref sig .tc .vmem S64x128 .f32) (harg9 : arg9.IsWhole) (arg10 : Memref sig .tc .vmem S64x128 .f32) (harg10 : arg10.IsWhole) (arg11 : Memref sig .tc .vmem S64x64 .f32) (harg11 : arg11.IsWhole)
    (hc0 : ¬cond0_0 i) (hc1 : cond0_1 i)
    (x0 : Vec F S64x6400 .f32) (x1 : Vec F S6400x64 .f32) (x2 : Vec F S64x256 .f32) (x3 : Vec F S256x64 .f32) (x4 : Vec F S64x128 .f32) (x5 : Vec F S64x128 .f32) (x6 : Vec F S64x512 .f32) (x7 : Vec F S128x512 .f32) (xs : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d) ∗ owns (c : Thread nD τ) arg11 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (k0_pay5 (k0_pay2 xs x0 x1) x2 x3 x6 x4 x7 x5) ∗ owns (c : Thread nD τ) arg10 fullShare (k0_pay6 (k0_pay2 xs x0 x1) x2 x3 x6 x4 x7 x5) ∗ owns (c : Thread nD τ) arg11 fullShare (k0_pay2 xs x0 x1)) -∗ K ⟨⟩))
      ⊢ wp frame (wpE (defs₀ (F := F)) Variants.none c none) E (cc0__proj_lstm_kernel i arg1 harg1 arg2 harg2 arg3 harg3 arg4 harg4 arg5 harg5 arg6 harg6 arg7 harg7 arg8 harg8 arg9 harg9 arg10 harg10 arg11 harg11) K := by
  simp only [cc0__proj_lstm_kernel_eq_skeleton]; unfold cc0__proj_lstm_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs, %hfs, HS⟩, Hk⟩
  subst hf0 hf1 hf2 hf3 hf4 hf5 hf6 hf7 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    sl_unfold_run_names
    rw [View.read_writes_eq_canon _ _ _ (fun y => ⟨_, List.mem_cons_self, View.mem_set_unit_zero hz2 inb_S64x128_S64x128_0_0 y⟩), View.canon_unit_zero hz2]
    simp only [View.readAt_eq_ld, View.ld_unit_zero (S := S64x64) hz2, View.ld_unit_zero (S := S64x6400) hz2, View.ld_unit_zero (S := S6400x64) hz2, View.ld_unit_zero (S := S64x256) hz2, View.ld_unit_zero (S := S256x64) hz2, View.ld_unit_zero (S := S64x128) hz2, View.ld_unit_zero (S := S64x512) hz2, View.ld_unit_zero (S := S128x512) hz2, View.readCov_unit_zero (S := S64x64) _ hz2]
  isplitl [H9]
  · iexists _; isplitr
    swap; · iexact H9
    ipureintro
    sl_unfold_run_names
    rw [View.read_writes_eq_canon _ _ _ (fun y => ⟨_, List.mem_cons_self, View.mem_set_unit_zero hz2 inb_S64x128_S64x128_0_0 y⟩), View.canon_unit_zero hz2]
    simp only [View.readAt_eq_ld, View.ld_unit_zero (S := S64x64) hz2, View.ld_unit_zero (S := S64x6400) hz2, View.ld_unit_zero (S := S6400x64) hz2, View.ld_unit_zero (S := S64x256) hz2, View.ld_unit_zero (S := S256x64) hz2, View.ld_unit_zero (S := S64x128) hz2, View.ld_unit_zero (S := S64x512) hz2, View.ld_unit_zero (S := S128x512) hz2, View.readCov_unit_zero (S := S64x64) _ hz2]
  iexists _; isplitr
  swap; · iexact HS
  ipureintro
  sl_unfold_run_names
  rw [View.read_writes_eq_canon _ _ _ (fun y => ⟨_, List.mem_cons_self, View.mem_set_unit_zero hz2 inb_S64x64_S64x64_0_0 y⟩), View.canon_unit_zero hz2]
  simp only [View.readAt_eq_ld, View.ld_unit_zero (S := S64x64) hz2, View.ld_unit_zero (S := S64x6400) hz2, View.ld_unit_zero (S := S6400x64) hz2, View.ld_unit_zero (S := S64x256) hz2, View.ld_unit_zero (S := S256x64) hz2, View.ld_unit_zero (S := S64x128) hz2, View.ld_unit_zero (S := S64x512) hz2, View.ld_unit_zero (S := S128x512) hz2]

-- the TensorCore's buffer contents when the region is entered: a parameter
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof
    data whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not, for any proof
    data whose array is `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not, for any proof
    data whose array is `V`'s and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not, for any proof
    data whose array is `V`'s and whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## Where the two outputs are idle -/

theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
theorem liveAt0_9 : ∀ t : Fin cfg0.N, cond0_1 (grid0.coords t) → cfg0.idle 9 (grid0.coords t) = false := by decide +kernel

/-! ## The carried accumulator -/

/-- What the scratch accumulator holds after the body at position `n`: zero plus the tile products of the points
    up to `n`, as the body computes them (the first point adds to the zero fill, a later one to what the point
    before left). -/
def scr (c : Dev nD) : (n : ℕ) → n < cfg0.N → Vec F S64x64 .f32
  | 0, hn => k0_pay2 k0_pay1 (iblk V c 0 ⟨0, hn⟩) (iblk V c 1 ⟨0, hn⟩)
  | n + 1, hn => k0_pay2 (scr c n (Nat.lt_of_succ_lt hn)) (iblk V c 0 ⟨n + 1, hn⟩) (iblk V c 1 ⟨n + 1, hn⟩)

theorem scr_zero (c : Dev nD) (t : Fin cfg0.N) (h0 : t.val = 0) :
    scr V c t.val t.isLt = k0_pay2 k0_pay1 (iblk V c 0 t) (iblk V c 1 t) := by
  obtain ⟨n, hn⟩ := t
  cases n with
  | zero => rfl
  | succ n => exact absurd h0 (Nat.succ_ne_zero n)

theorem scr_pos (c : Dev nD) (t : Fin cfg0.N) (h0 : t.val ≠ 0) :
    scr V c t.val t.isLt = k0_pay2 (scr V c (t.val - 1) (Nat.lt_of_le_of_lt (Nat.sub_le _ _) t.isLt)) (iblk V c 0 t) (iblk V c 1 t) := by
  obtain ⟨n, hn⟩ := t
  cases n with
  | zero => exact absurd rfl h0
  | succ n => rfl

/-! ## The region invariant -/

/-- Before the first point the class's invariant (every scoped buffer that is no staging buffer at anything, the
    generator register at some state); afterwards the accumulator at what the point before left, the other such
    buffers unopened, the register at some state. -/
def PhiS (c : Dev nD) : (n : ℕ) → n ≤ cfg0.N → sProp 𝕄
  | 0, _ => Pipeline.ΦA spec0 c
  | n + 1, hn => iprop(iprop(owns (c : Thread nD τ) (Memref.whole cc0_scratch0) fullShare (scr V c n hn) ∗ Pipeline.scopedRestBut (Ix := Unit) (Name := ℕ) (U := UR sig nD τ) (Lvl := ℕ) (Val := Elt F) spec0 c [cc0_scratch0]) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) (Memref.whole cc0_scratch0) fullShare (scr V c n hn) ∗ Pipeline.scopedRestBut (Ix := Unit) (Name := ℕ) (U := UR sig nD τ) (Lvl := ℕ) (Val := Elt F) spec0 c [cc0_scratch0]) ∗ (∃ r, prngReg c r)) := rfl

theorem PhiS_pos (c : Dev nD) (n : ℕ) (h : n ≤ cfg0.N) (hz : n ≠ 0) :
    PhiS V c n h = iprop(iprop(owns (c : Thread nD τ) (Memref.whole cc0_scratch0) fullShare (scr V c (n - 1) (by omega)) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- The class's invariant with the accumulator's buffer split off as a memref owned at some contents. -/
theorem PhiA0_eq (c : Dev nD) :
    (Pipeline.ΦA spec0 c : sProp 𝕄)
      = iprop(iprop((∃ d, owns (c : Thread nD τ) (Memref.whole cc0_scratch0) fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [owns_whole]; try rfl

/-! ## The pipeline's proof data -/

/-- The proof data on core `c`: the arrays as the region finds them; after the body each input's buffer at its
    block, the two outputs' at the cell's results computed from the accumulator after this point and the whole
    inputs (consulted at the last point only: before it the outputs are idle and not written back); the invariant
    `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => k0_pay5 (scr V c t.val t.isLt) (iblk V c 2 t) (iblk V c 3 t) (iblk V c 6 t) (iblk V c 4 t) (iblk V c 7 t) (iblk V c 5 t)
    | ⟨9, _⟩ => k0_pay6 (scr V c t.val t.isLt) (iblk V c 2 t) (iblk V c 3 t) (iblk V c 6 t) (iblk V c 4 t) (iblk V c 7 t) (iblk V c 5 t)
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem q_eq (c : Dev nD) (w : Fin cfg0.W) : (dat V c).q w = fullShare := rfl
theorem owed_eq (c : Dev nD) (t : Fin (cfg0.N + 1)) : (dat V c).owed t = 0 := rfl
theorem rec_eq (c : Dev nD) (t : Fin (cfg0.N + 1)) : (dat V c).recorded t = Set.univ := rfl

theorem PhiS_castSucc (c : Dev nD) (t : Fin cfg0.N) :
    (dat V c).Φ t.castSucc = PhiS V c t.val (Nat.le_of_lt t.isLt) := by
  dsimp only [dat]; simp only [Fin.coe_castSucc]

theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = iblk V c 2 t := by dsimp only [dat]
theorem after0_3 (c : Dev nD) (t : Fin cfg0.N) : (dat V c).after 3 t = iblk V c 3 t := by dsimp only [dat]
theorem after0_4 (c : Dev nD) (t : Fin cfg0.N) : (dat V c).after 4 t = iblk V c 4 t := by dsimp only [dat]
theorem after0_5 (c : Dev nD) (t : Fin cfg0.N) : (dat V c).after 5 t = iblk V c 5 t := by dsimp only [dat]
theorem after0_6 (c : Dev nD) (t : Fin cfg0.N) : (dat V c).after 6 t = iblk V c 6 t := by dsimp only [dat]
theorem after0_7 (c : Dev nD) (t : Fin cfg0.N) : (dat V c).after 7 t = iblk V c 7 t := by dsimp only [dat]
theorem after0_8 (c : Dev nD) (t : Fin cfg0.N) : (dat V c).after 8 t = k0_pay5 (scr V c t.val t.isLt) (iblk V c 2 t) (iblk V c 3 t) (iblk V c 6 t) (iblk V c 4 t) (iblk V c 7 t) (iblk V c 5 t) := by dsimp only [dat]
theorem after0_9 (c : Dev nD) (t : Fin cfg0.N) : (dat V c).after 9 t = k0_pay6 (scr V c t.val t.isLt) (iblk V c 2 t) (iblk V c 3 t) (iblk V c 6 t) (iblk V c 4 t) (iblk V c 7 t) (iblk V c 5 t) := by dsimp only [dat]

theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d
theorem before0_2 (c : Dev nD) (t : Fin cfg0.N) (d) : (dat V c).before 2 t d = iblk V c 2 t :=
  before0_2_of V (dat V c) (A_eq V c 2) (after0_2 V c) t d
theorem before0_3 (c : Dev nD) (t : Fin cfg0.N) (d) : (dat V c).before 3 t d = iblk V c 3 t :=
  before0_3_of V (dat V c) (A_eq V c 3) (after0_3 V c) t d
theorem before0_4 (c : Dev nD) (t : Fin cfg0.N) (d) : (dat V c).before 4 t d = iblk V c 4 t :=
  before0_4_of V (dat V c) (A_eq V c 4) (after0_4 V c) t d
theorem before0_5 (c : Dev nD) (t : Fin cfg0.N) (d) : (dat V c).before 5 t d = iblk V c 5 t :=
  before0_5_of V (dat V c) (A_eq V c 5) (after0_5 V c) t d
theorem before0_6 (c : Dev nD) (t : Fin cfg0.N) (d) : (dat V c).before 6 t d = iblk V c 6 t :=
  before0_6_of V (dat V c) (A_eq V c 6) (after0_6 V c) t d
theorem before0_7 (c : Dev nD) (t : Fin cfg0.N) (d) : (dat V c).before 7 t d = iblk V c 7 t :=
  before0_7_of V (dat V c) (A_eq V c 7) (after0_7 V c) t d

/-! ## The body obligation, at a generic point -/

theorem liveIn0_0 : ∀ t : Fin cfg0.N, cfg0.idle 0 (grid0.coords t) = false := fun _ => rfl
theorem liveIn0_1 : ∀ t : Fin cfg0.N, cfg0.idle 1 (grid0.coords t) = false := fun _ => rfl
theorem liveIn0_2 : ∀ t : Fin cfg0.N, cfg0.idle 2 (grid0.coords t) = false := fun _ => rfl
theorem liveIn0_3 : ∀ t : Fin cfg0.N, cfg0.idle 3 (grid0.coords t) = false := fun _ => rfl
theorem liveIn0_4 : ∀ t : Fin cfg0.N, cfg0.idle 4 (grid0.coords t) = false := fun _ => rfl
theorem liveIn0_5 : ∀ t : Fin cfg0.N, cfg0.idle 5 (grid0.coords t) = false := fun _ => rfl
theorem liveIn0_6 : ∀ t : Fin cfg0.N, cfg0.idle 6 (grid0.coords t) = false := fun _ => rfl
theorem liveIn0_7 : ∀ t : Fin cfg0.N, cfg0.idle 7 (grid0.coords t) = false := fun _ => rfl

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t)

set_option maxHeartbeats 4800000 in
/-- The body at any point. The inputs' buffers hold their blocks; the position determines the case: at the first
    point the accumulator is zeroed and the first tile product added, at a later point the product is added to what
    the point before left, and at the last point the cell's results are also stored into the two outputs (elsewhere
    idle: handed back as found). The invariant hands over the accumulator and takes it back at this point's value. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5, before0_6, before0_7]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (st0_0 t) fullShare ((dat V c).after 0 t) from by
    unfold Dat.leavesExact; rw [liveIn0_0 t], after0_0]
  rw [show (dat V c).leavesExact 1 t = owns (c : Thread nD τ) (st0_1 t) fullShare ((dat V c).after 1 t) from by
    unfold Dat.leavesExact; rw [liveIn0_1 t], after0_1]
  rw [show (dat V c).leavesExact 2 t = owns (c : Thread nD τ) (st0_2 t) fullShare ((dat V c).after 2 t) from by
    unfold Dat.leavesExact; rw [liveIn0_2 t], after0_2]
  rw [show (dat V c).leavesExact 3 t = owns (c : Thread nD τ) (st0_3 t) fullShare ((dat V c).after 3 t) from by
    unfold Dat.leavesExact; rw [liveIn0_3 t], after0_3]
  rw [show (dat V c).leavesExact 4 t = owns (c : Thread nD τ) (st0_4 t) fullShare ((dat V c).after 4 t) from by
    unfold Dat.leavesExact; rw [liveIn0_4 t], after0_4]
  rw [show (dat V c).leavesExact 5 t = owns (c : Thread nD τ) (st0_5 t) fullShare ((dat V c).after 5 t) from by
    unfold Dat.leavesExact; rw [liveIn0_5 t], after0_5]
  rw [show (dat V c).leavesExact 6 t = owns (c : Thread nD τ) (st0_6 t) fullShare ((dat V c).after 6 t) from by
    unfold Dat.leavesExact; rw [liveIn0_6 t], after0_6]
  rw [show (dat V c).leavesExact 7 t = owns (c : Thread nD τ) (st0_7 t) fullShare ((dat V c).after 7 t) from by
    unfold Dat.leavesExact; rw [liveIn0_7 t], after0_7]
  have hN : t.val < 5 := lt_of_lt_of_eq t.isLt (show cfg0.N = 5 from N_0)
  by_cases h1 : t.val % 5 = 4
  · by_cases h0 : t.val % 5 = 0
    · exfalso; omega
    · have hz : t.val ≠ 0 := by omega
      rw [show (dat V c).leavesExact 8 t = owns (c : Thread nD τ) (st0_8 t) fullShare ((dat V c).after 8 t) from by
        unfold Dat.leavesExact; rw [liveAt0_8 t ((hcond0_1 t).mpr h1)], after0_8]
      rw [show (dat V c).leavesExact 9 t = owns (c : Thread nD τ) (st0_9 t) fullShare ((dat V c).after 9 t) from by
        unfold Dat.leavesExact; rw [liveAt0_9 t ((hcond0_1 t).mpr h1)], after0_9]
      rw [scr_pos V c t hz]
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (runC c Set.univ (grid0.coords t) _ _ _ _ _ _ _ _ _ _ _ _ _ _ _ _ _ _ _ _ _ _ (fun h => h0 ((hcond0_0 t).mp h)) ((hcond0_1 t).mpr h1) (iblk V c 0 t) (iblk V c 1 t) (iblk V c 2 t) (iblk V c 3 t) (iblk V c 4 t) (iblk V c 5 t) (iblk V c 6 t) (iblk V c 7 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS]; · iexact HS
      iintro ⟨H0, H1, H2, H3, H4, H5, H6, H7, H8, H9, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
  · by_cases h0 : t.val % 5 = 0
    · have hz : t.val = 0 := by omega
      rw [Dat.leavesExact_idle (dat V c) 8 t (idleAt0_8 t (fun h => h1 ((hcond0_1 t).mp h))) (noFlush0_8 t (fun h => h1 ((hcond0_1 t).mp h)))]
      rw [Dat.leavesExact_idle (dat V c) 9 t (idleAt0_9 t (fun h => h1 ((hcond0_1 t).mp h))) (noFlush0_9 t (fun h => h1 ((hcond0_1 t).mp h)))]
      rw [scr_zero V c t hz]
      rw [PhiS_castSucc V c t, PhiS_zero V c _ _ hz, PhiA0_eq]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (runA c Set.univ (grid0.coords t) _ _ _ _ _ _ _ _ _ _ _ _ _ _ _ _ _ _ _ _ _ _ ((hcond0_0 t).mpr h0) (fun h => h1 ((hcond0_1 t).mp h)) (iblk V c 0 t) (iblk V c 1 t) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9
    · have hz : t.val ≠ 0 := by omega
      rw [Dat.leavesExact_idle (dat V c) 8 t (idleAt0_8 t (fun h => h1 ((hcond0_1 t).mp h))) (noFlush0_8 t (fun h => h1 ((hcond0_1 t).mp h)))]
      rw [Dat.leavesExact_idle (dat V c) 9 t (idleAt0_9 t (fun h => h1 ((hcond0_1 t).mp h))) (noFlush0_9 t (fun h => h1 ((hcond0_1 t).mp h)))]
      rw [scr_pos V c t hz]
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (runB c Set.univ (grid0.coords t) _ _ _ _ _ _ _ _ _ _ _ _ _ _ _ _ _ _ _ _ _ _ (fun h => h0 ((hcond0_0 t).mp h)) (fun h => h1 ((hcond0_1 t).mp h)) (iblk V c 0 t) (iblk V c 1 t) _ _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9

/-- The body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives the class's back: the accumulator's named contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA0_eq]
  iintro ⟨⟨HS, HR⟩, Hg⟩
  isplitl [HS HR]
  · isplitl [HS]; · iexists _; iexact HS
    iexact HR
  iexact Hg

/-- The same after the last point. -/
theorem hout (c : Dev nD) : (dat V c).Φ (Fin.last cfg0.N) ⊢ Pipeline.ΦA spec0 c :=
  Phi_out V c _ (by rw [Fin.val_last]; have : cfg0.N = 5 := N_0; omega)

end Cert.Kernel.R0
end
-- ==== Proof.R1K.lean ====
import proofs.«122264_j82798379533062_2_alg».proof.Proof.Gen.Kernel.Launch
import proofs.«122264_j82798379533062_2_alg».proof.Proof.Gen.Kernel.Skeleton
import proofs.«122264_j82798379533062_2_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic
set_option maxRecDepth 16384
noncomputable section
namespace Cert.Kernel.R1
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-! ## The body's two conditions, decided over the grid -/

/-- The condition of the body's first conditional (the accumulators are zeroed), from the grid coordinates. -/
abbrev cond1 (i : grid1.Coords) : Prop := (Scalar.cmpi .ne (Scalar.extui (Scalar.cmpi .eq (BitVec.ofNat 32 (i 1).val) 0#32)) 0#32) = 1#1
/-- The condition of the body's second conditional (the quotient is stored). -/
abbrev cond2 (i : grid1.Coords) : Prop := k1_cond2 i = 1#1

/-- The first holds at the points ≡ 0 (mod 8): the first point of each batch half's run over the time tiles. -/
theorem hcond1 : ∀ t : Fin cfg1.N, cond1 (grid1.coords t) ↔ t.val % 8 = 0 :=
  (by decide +kernel : ∀ t : Fin grid1.N, cond1 (grid1.coords t) ↔ t.val % 8 = 0)
/-- The second holds at the points ≡ 7 (mod 8): the last point of each run. -/
theorem hcond2 : ∀ t : Fin cfg1.N, cond2 (grid1.coords t) ↔ t.val % 8 = 7 :=
  (by decide +kernel : ∀ t : Fin grid1.N, cond2 (grid1.coords t) ↔ t.val % 8 = 7)

/-! ## Whole-buffer accesses -/

theorem hz2 : (![0, 0] : Fin 2 → Nat) = fun _ => 0 := funext fun a => by fin_cases a <;> rfl
theorem hz3 : (![0, 0, 0] : Fin 3 → Nat) = fun _ => 0 := funext fun a => by fin_cases a <;> rfl

/-- A load through the whole-shape rectangle at zero offsets reads the view's contents. -/
theorem readAt_whole {sp : Space} {S : Shape} {e : EltTy} (v : View sig .tc sp S e) {off : Fin S.rank → Nat}
    (h : off = fun _ => 0) (inb : ∀ a, off a + S.size a ≤ S.size a) (f : v.ty.Contents (Elt F)) :
    v.readAt (Elt F) (Rect.unit off S.size inb).toLoadRect f = v.read (Elt F) f :=
  (View.readAt_eq_ld v f _).trans (View.ld_unit_zero h inb _)

/-- One store through it, last, covers the shape. -/
theorem cover_whole {S : Shape} {e : EltTy} {off : Fin S.rank → Nat} (h : off = fun _ => 0)
    (inb : ∀ a, off a + S.size a ≤ S.size a) (w : S.Idx → Elt F e) (L : List (View.Piece (Elt F) S e)) (y : S.Idx) :
    ∃ pc ∈ ((⟨Rect.unit off S.size inb, w⟩ : View.Piece (Elt F) S e) :: L), y ∈ pc.1.set :=
  ⟨_, List.mem_cons_self, View.mem_set_unit_zero h inb y⟩

/-- What a view reads after stores the last of which is through the whole-shape rectangle: that store's payload. -/
theorem read_writes_whole {sp : Space} {S : Shape} {e : EltTy} (v : View sig .tc sp S e) {off : Fin S.rank → Nat}
    (h : off = fun _ => 0) (inb : ∀ a, off a + S.size a ≤ S.size a) (f : v.ty.Contents (Elt F)) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (cover_whole h inb w L)).trans (View.canon_cons_unit_zero h inb w L)

/-! ## The body's run, case by case -/

set_option maxHeartbeats 1000000 in
/-- A point in the middle of a run (neither conditional taken): the two accumulators each take this tile's term;
    the output's buffer is handed back untouched. -/
theorem run_B (c : Dev nD) (E : Set ℕ) (i : grid1.Coords)
    (arg2 : Memref sig .tc .vmem S32x128x256 .f32) (harg2 : arg2.IsWhole) (arg3 : Memref sig .tc .vmem S32x128 .f32) (harg3 : arg3.IsWhole)
    (arg4 : Memref sig .tc .vmem S128x256 .f32) (harg4 : arg4.IsWhole) (arg5 : Memref sig .tc .vmem S1x1x256 .f32) (harg5 : arg5.IsWhole)
    (arg6 : Memref sig .tc .vmem S32x256 .f32) (harg6 : arg6.IsWhole) (arg7 : Memref sig .tc .vmem S32x256 .f32) (harg7 : arg7.IsWhole)
    (arg8 : Memref sig .tc .vmem S32x256 .f32) (harg8 : arg8.IsWhole)
    (hc1 : ¬cond1 i) (hc2 : ¬cond2 i)
    (x0 : Vec F S32x128x256 .f32) (x1 : Vec F S32x128 .f32) (x2 : Vec F S128x256 .f32) (x3 : Vec F S1x1x256 .f32)
    (xo a s : Vec F S32x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo
        ∗ owns (c : Thread nD τ) arg7 fullShare a ∗ owns (c : Thread nD τ) arg8 fullShare s
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo
            ∗ owns (c : Thread nD τ) arg7 fullShare (k1_pay6 x1 x2 x0 x3 a) ∗ owns (c : Thread nD τ) arg8 fullShare (k1_pay5 x1 x2 x0 x3 s)) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  simp only [k1_part1_eq_skeleton]
  unfold owns
  iintro ⟨⟨%f0, %hf0, H0⟩, ⟨%f1, %hf1, H1⟩, ⟨%f2, %hf2, H2⟩, ⟨%f3, %hf3, H3⟩, ⟨%fo, %hfo, HO⟩, ⟨%fa, %hfa, HA⟩, ⟨%fs, %hfs, HS⟩, Hk⟩
  subst hf0 hf1 hf2 hf3 hfo hfa hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HO]
  · iexists fo; isplitr; · ipureintro; rfl
    iexact HO
  isplitl [HA]
  · iexists _; isplitr
    swap; · iexact HA
    ipureintro
    rw [read_writes_whole _ hz2, readAt_whole _ hz2, readAt_whole _ hz2, readAt_whole _ hz3, readAt_whole _ hz3, readAt_whole _ hz2]
  iexists _; isplitr
  swap; · iexact HS
  ipureintro
  rw [read_writes_whole _ hz2, readAt_whole _ hz2, readAt_whole _ hz2, readAt_whole _ hz3, readAt_whole _ hz3, readAt_whole _ hz2]

set_option maxHeartbeats 1000000 in
/-- The first point of a run (the first conditional taken, the second not): the accumulators are zeroed, then each takes
    this tile's term; the output's buffer is handed back untouched. -/
theorem run_A (c : Dev nD) (E : Set ℕ) (i : grid1.Coords)
    (arg2 : Memref sig .tc .vmem S32x128x256 .f32) (harg2 : arg2.IsWhole) (arg3 : Memref sig .tc .vmem S32x128 .f32) (harg3 : arg3.IsWhole)
    (arg4 : Memref sig .tc .vmem S128x256 .f32) (harg4 : arg4.IsWhole) (arg5 : Memref sig .tc .vmem S1x1x256 .f32) (harg5 : arg5.IsWhole)
    (arg6 : Memref sig .tc .vmem S32x256 .f32) (harg6 : arg6.IsWhole) (arg7 : Memref sig .tc .vmem S32x256 .f32) (harg7 : arg7.IsWhole)
    (arg8 : Memref sig .tc .vmem S32x256 .f32) (harg8 : arg8.IsWhole)
    (hc1 : cond1 i) (hc2 : ¬cond2 i)
    (x0 : Vec F S32x128x256 .f32) (x1 : Vec F S32x128 .f32) (x2 : Vec F S128x256 .f32) (x3 : Vec F S1x1x256 .f32)
    (xo : Vec F S32x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo
            ∗ owns (c : Thread nD τ) arg7 fullShare (k1_pay6 x1 x2 x0 x3 k1_pay2) ∗ owns (c : Thread nD τ) arg8 fullShare (k1_pay5 x1 x2 x0 x3 k1_pay3)) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  simp only [k1_part1_eq_skeleton]
  unfold owns
  iintro ⟨⟨%f0, %hf0, H0⟩, ⟨%f1, %hf1, H1⟩, ⟨%f2, %hf2, H2⟩, ⟨%f3, %hf3, H3⟩, ⟨%fo, %hfo, HO⟩, ⟨%da, %fa, -, HA⟩, ⟨%ds, %fs, -, HS⟩, Hk⟩
  subst hf0 hf1 hf2 hf3 hfo
  sl_exec (disch := first | exact hc1 | exact hc2)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HO]
  · iexists fo; isplitr; · ipureintro; rfl
    iexact HO
  isplitl [HA]
  · iexists _; isplitr
    swap; · iexact HA
    ipureintro
    rw [read_writes_whole _ hz2, View.readCov_unit_zero _ hz2, readAt_whole _ hz2, readAt_whole _ hz2, readAt_whole _ hz3, readAt_whole _ hz3]
  iexists _; isplitr
  swap; · iexact HS
  ipureintro
  rw [read_writes_whole _ hz2, View.readCov_unit_zero _ hz2, readAt_whole _ hz2, readAt_whole _ hz2, readAt_whole _ hz3, readAt_whole _ hz3]

set_option maxHeartbeats 1000000 in
/-- The last point of a run (the first conditional not taken, the second taken): the accumulators each take this tile's
    term, and the output's buffer is stored their quotient. -/
theorem run_C (c : Dev nD) (E : Set ℕ) (i : grid1.Coords)
    (arg2 : Memref sig .tc .vmem S32x128x256 .f32) (harg2 : arg2.IsWhole) (arg3 : Memref sig .tc .vmem S32x128 .f32) (harg3 : arg3.IsWhole)
    (arg4 : Memref sig .tc .vmem S128x256 .f32) (harg4 : arg4.IsWhole) (arg5 : Memref sig .tc .vmem S1x1x256 .f32) (harg5 : arg5.IsWhole)
    (arg6 : Memref sig .tc .vmem S32x256 .f32) (harg6 : arg6.IsWhole) (arg7 : Memref sig .tc .vmem S32x256 .f32) (harg7 : arg7.IsWhole)
    (arg8 : Memref sig .tc .vmem S32x256 .f32) (harg8 : arg8.IsWhole)
    (hc1 : ¬cond1 i) (hc2 : cond2 i)
    (x0 : Vec F S32x128x256 .f32) (x1 : Vec F S32x128 .f32) (x2 : Vec F S128x256 .f32) (x3 : Vec F S1x1x256 .f32)
    (a s : Vec F S32x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ owns (c : Thread nD τ) arg7 fullShare a ∗ owns (c : Thread nD τ) arg8 fullShare s
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare (k1_pay1 (k1_pay6 x1 x2 x0 x3 a) (k1_pay5 x1 x2 x0 x3 s))
            ∗ owns (c : Thread nD τ) arg7 fullShare (k1_pay6 x1 x2 x0 x3 a) ∗ owns (c : Thread nD τ) arg8 fullShare (k1_pay5 x1 x2 x0 x3 s)) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  simp only [k1_part1_eq_skeleton]
  unfold owns
  iintro ⟨⟨%f0, %hf0, H0⟩, ⟨%f1, %hf1, H1⟩, ⟨%f2, %hf2, H2⟩, ⟨%f3, %hf3, H3⟩, ⟨%dO, %fo, -, HO⟩, ⟨%fa, %hfa, HA⟩, ⟨%fs, %hfs, HS⟩, Hk⟩
  subst hf0 hf1 hf2 hf3 hfa hfs
  sl_exec (disch := first | exact hc1 | exact hc2)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HO]
  · iexists _; isplitr
    swap; · iexact HO
    ipureintro
    rw [read_writes_whole _ hz2, View.readCov_unit_zero _ hz2, View.readCov_unit_zero _ hz2]
    rw [readAt_whole _ hz2, readAt_whole _ hz2, readAt_whole _ hz3, readAt_whole _ hz3, readAt_whole _ hz2, readAt_whole _ hz2]
  isplitl [HA]
  · iexists _; isplitr
    swap; · iexact HA
    ipureintro
    rw [read_writes_whole _ hz2, readAt_whole _ hz2, readAt_whole _ hz2, readAt_whole _ hz3, readAt_whole _ hz3, readAt_whole _ hz2]
  iexists _; isplitr
  swap; · iexact HS
  ipureintro
  rw [read_writes_whole _ hz2, readAt_whole _ hz2, readAt_whole _ hz2, readAt_whole _ hz3, readAt_whole _ hz3, readAt_whole _ hz2]

/-! ## The windows' blocks -/

-- the TensorCore's buffer contents when the region is entered: a parameter
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is the entry contents and whose body leaves the block in place. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the entry contents and whose body leaves the block in place. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the entry contents and whose body leaves the block in place. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is the entry contents and whose body leaves the block in place. -/
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## Where the output window is idle -/

theorem liveAt_0 : ∀ t : Fin cfg1.N, cfg1.idle 0 (grid1.coords t) = false := by decide +kernel
theorem liveAt_1 : ∀ t : Fin cfg1.N, cfg1.idle 1 (grid1.coords t) = false := by decide +kernel
theorem liveAt_2 : ∀ t : Fin cfg1.N, cfg1.idle 2 (grid1.coords t) = false := by decide +kernel
theorem liveAt_3 : ∀ t : Fin cfg1.N, cfg1.idle 3 (grid1.coords t) = false := by decide +kernel
/-- Where the quotient is not stored the output window is idle, -/
theorem idleAt_4 : ∀ t : Fin cfg1.N, ¬cond2 (grid1.coords t) → cfg1.idle 4 (grid1.coords t) = true := by decide +kernel
/-- and its block is not written back; -/
theorem noFlush_4 : ∀ t : Fin cfg1.N, ¬cond2 (grid1.coords t) → (cfg1.win 4).flush t = false := by decide +kernel
/-- where it is stored the window is live. -/
theorem liveAt_4 : ∀ t : Fin cfg1.N, cond2 (grid1.coords t) → cfg1.idle 4 (grid1.coords t) = false := by decide +kernel

/-! ## The staging and scratch memrefs -/

abbrev ms0 (t : Fin cfg1.N) : Memref sig .tc .vmem S32x128x256 .f32 := win1_0.stage (cfg1.slots t 0)
abbrev ms1 (t : Fin cfg1.N) : Memref sig .tc .vmem S32x128 .f32 := win1_1.stage (cfg1.slots t 1)
abbrev ms2 (t : Fin cfg1.N) : Memref sig .tc .vmem S128x256 .f32 := win1_2.stage (cfg1.slots t 2)
abbrev ms3 (t : Fin cfg1.N) : Memref sig .tc .vmem S1x1x256 .f32 := win1_3.stage (cfg1.slots t 3)
abbrev ms4 (t : Fin cfg1.N) : Memref sig .tc .vmem S32x256 .f32 := win1_4.stage (cfg1.slots t 4)
/-- The weighted-sum accumulator, -/
abbrev scA : Memref sig .tc .vmem S32x256 .f32 := Memref.whole cc1_scratch0
/-- and the weight-sum accumulator: whole scoped buffers of the kernel's own, passed beside the windows. -/
abbrev scS : Memref sig .tc .vmem S32x256 .f32 := Memref.whole cc1_scratch1

/-- The region's entry invariant with the two accumulators as memrefs owned at some contents and the other scoped
    buffers unopened. -/
theorem PhiA_eq (c : Dev nD) :
    (Pipeline.ΦA spec1 c : sProp 𝕄)
      = iprop(iprop(iprop((∃ d, owns (c : Thread nD τ) scA fullShare d) ∗ (∃ d, owns (c : Thread nD τ) scS fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA; rw [scopedRest1_split]; simp only [scA, scS, owns_whole]; rfl

/-! ## What the accumulators hold after each point -/

/-- THE ACCUMULATION. What the two accumulators (the weighted sum, then the weight sum) hold after the body at position
    `n`: at the first point of a run over the time tiles, this tile's term added to zero; at the others, added to what
    the point before left. -/
def scr (c : Dev nD) : (n : ℕ) → n < cfg1.N → Vec F S32x256 .f32 × Vec F S32x256 .f32
  | 0, hn => (k1_pay6 (iblk V c 1 ⟨0, hn⟩) (iblk V c 2 ⟨0, hn⟩) (iblk V c 0 ⟨0, hn⟩) (iblk V c 3 ⟨0, hn⟩) k1_pay2,
              k1_pay5 (iblk V c 1 ⟨0, hn⟩) (iblk V c 2 ⟨0, hn⟩) (iblk V c 0 ⟨0, hn⟩) (iblk V c 3 ⟨0, hn⟩) k1_pay3)
  | n + 1, hn =>
    if (n + 1) % 8 = 0 then
      (k1_pay6 (iblk V c 1 ⟨n + 1, hn⟩) (iblk V c 2 ⟨n + 1, hn⟩) (iblk V c 0 ⟨n + 1, hn⟩) (iblk V c 3 ⟨n + 1, hn⟩) k1_pay2,
       k1_pay5 (iblk V c 1 ⟨n + 1, hn⟩) (iblk V c 2 ⟨n + 1, hn⟩) (iblk V c 0 ⟨n + 1, hn⟩) (iblk V c 3 ⟨n + 1, hn⟩) k1_pay3)
    else
      (k1_pay6 (iblk V c 1 ⟨n + 1, hn⟩) (iblk V c 2 ⟨n + 1, hn⟩) (iblk V c 0 ⟨n + 1, hn⟩) (iblk V c 3 ⟨n + 1, hn⟩) (scr c n (Nat.lt_of_succ_lt hn)).1,
       k1_pay5 (iblk V c 1 ⟨n + 1, hn⟩) (iblk V c 2 ⟨n + 1, hn⟩) (iblk V c 0 ⟨n + 1, hn⟩) (iblk V c 3 ⟨n + 1, hn⟩) (scr c n (Nat.lt_of_succ_lt hn)).2)

/-- At the first point of a run: over zero. -/
theorem scr_first (c : Dev nD) (t : Fin cfg1.N) (h0 : t.val % 8 = 0) :
    scr V c t.val t.isLt = (k1_pay6 (iblk V c 1 t) (iblk V c 2 t) (iblk V c 0 t) (iblk V c 3 t) k1_pay2,
                            k1_pay5 (iblk V c 1 t) (iblk V c 2 t) (iblk V c 0 t) (iblk V c 3 t) k1_pay3) := by
  obtain ⟨n, hn⟩ := t
  cases n with
  | zero => rfl
  | succ n => exact if_pos h0

/-- At a later point: over what the point before left. -/
theorem scr_next (c : Dev nD) (t : Fin cfg1.N) (h0 : ¬t.val % 8 = 0) :
    scr V c t.val t.isLt
      = (k1_pay6 (iblk V c 1 t) (iblk V c 2 t) (iblk V c 0 t) (iblk V c 3 t) (scr V c (t.val - 1) (Nat.lt_of_le_of_lt (Nat.sub_le _ _) t.isLt)).1,
         k1_pay5 (iblk V c 1 t) (iblk V c 2 t) (iblk V c 0 t) (iblk V c 3 t) (scr V c (t.val - 1) (Nat.lt_of_le_of_lt (Nat.sub_le _ _) t.isLt)).2) := by
  obtain ⟨n, hn⟩ := t
  cases n with
  | zero => exact absurd (Nat.zero_mod _) h0
  | succ n => exact if_neg h0

/-- The region invariant before position `n`: before the first point the entry invariant (every scratch at anything);
    afterwards the two accumulators at what the point before left, the other scoped buffers unopened, and the
    random-number register at some state. -/
def PhiS (c : Dev nD) : (n : ℕ) → n ≤ cfg1.N → sProp 𝕄
  | 0, _ => Pipeline.ΦA spec1 c
  | n + 1, hn => iprop(iprop(owns (c : Thread nD τ) scA fullShare (scr V c n hn).1 ∗ owns (c : Thread nD τ) scS fullShare (scr V c n hn).2)
      ∗ Pipeline.scopedRestBut (Ix := Unit) (Name := ℕ) (U := UR sig nD τ) (Lvl := ℕ) (Val := Elt F) spec1 c [cc1_scratch0, cc1_scratch1]
      ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scA fullShare (scr V c n hn).1 ∗ owns (c : Thread nD τ) scS fullShare (scr V c n hn).2)
      ∗ Pipeline.scopedRestBut (Ix := Unit) (Name := ℕ) (U := UR sig nD τ) (Lvl := ℕ) (Val := Elt F) spec1 c [cc1_scratch0, cc1_scratch1]
      ∗ (∃ r, prngReg c r)) := rfl

theorem PhiS_pos (c : Dev nD) (n : ℕ) (h : n ≤ cfg1.N) (hz : n ≠ 0) :
    PhiS V c n h = iprop(iprop(owns (c : Thread nD τ) scA fullShare (scr V c (n - 1) (by omega)).1 ∗ owns (c : Thread nD τ) scS fullShare (scr V c (n - 1) (by omega)).2)
      ∗ Pipeline.scopedRestBut (Ix := Unit) (Name := ℕ) (U := UR sig nD τ) (Lvl := ℕ) (Val := Elt F) spec1 c [cc1_scratch0, cc1_scratch1]
      ∗ (∃ r, prngReg c r)) := by
  cases n with
  | zero => exact absurd rfl hz
  | succ n => rfl

/-! ## The pipeline's proof data -/

/-- The proof data of this pipeline on core `c`: the arrays as the region finds them; after the body at point `t` each
    input's buffer at its block and the output's at the quotient of the two accumulators there (read only where it is
    stored, at the last point of each run); the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => k1_pay1 (scr V c t.val t.isLt).1 (scr V c t.val t.isLt).2
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem q_eq (c : Dev nD) (w : Fin cfg1.W) : (dat V c).q w = fullShare := rfl
theorem owed_eq (c : Dev nD) (t : Fin (cfg1.N + 1)) : (dat V c).owed t = 0 := rfl
theorem rec_eq (c : Dev nD) (t : Fin (cfg1.N + 1)) : (dat V c).recorded t = Set.univ := rfl

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) :
    (dat V c).after 4 t = k1_pay1 (scr V c t.val t.isLt).1 (scr V c t.val t.isLt).2 := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d

theorem leaves_0 (c : Dev nD) (t : Fin cfg1.N) :
    (dat V c).leavesExact 0 t = owns (c : Thread nD τ) (ms0 t) fullShare (iblk V c 0 t) := by
  unfold Dat.leavesExact; rw [liveAt_0 t, after_0]
theorem leaves_1 (c : Dev nD) (t : Fin cfg1.N) :
    (dat V c).leavesExact 1 t = owns (c : Thread nD τ) (ms1 t) fullShare (iblk V c 1 t) := by
  unfold Dat.leavesExact; rw [liveAt_1 t, after_1]
theorem leaves_2 (c : Dev nD) (t : Fin cfg1.N) :
    (dat V c).leavesExact 2 t = owns (c : Thread nD τ) (ms2 t) fullShare (iblk V c 2 t) := by
  unfold Dat.leavesExact; rw [liveAt_2 t, after_2]
theorem leaves_3 (c : Dev nD) (t : Fin cfg1.N) :
    (dat V c).leavesExact 3 t = owns (c : Thread nD τ) (ms3 t) fullShare (iblk V c 3 t) := by
  unfold Dat.leavesExact; rw [liveAt_3 t, after_3]

/-! ## The body obligation, at a generic point -/

/-- What the body is called with at point `t` (the windows one by one), -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4000000 in
/-- The body at any point: the inputs' memrefs hold their blocks; the closed forms say which case the point is in; the
    invariant hands the body the accumulators at what the point before left (at anything at the first point) and takes
    them back at this point's contents; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).owesAt () t.succ = (dat V c).owesAt () t.castSucc from rfl]
  rw [show (dat V c).Φ t.succ = PhiS V c (t.val + 1) t.isLt from rfl, PhiS_succ]
  rw [leaves_0, leaves_1, leaves_2, leaves_3]
  have hN : t.val < 16 := lt_of_lt_of_eq t.isLt (show cfg1.N = 16 from N_1)
  by_cases h0 : t.val % 8 = 0
  · have h7 : ¬t.val % 8 = 7 := by omega
    rw [Dat.leavesExact_idle (dat V c) 4 t (idleAt_4 t (fun h => h7 ((hcond2 t).mp h))) (noFlush_4 t (fun h => h7 ((hcond2 t).mp h)))]
    rw [scr_first V c t h0]
    by_cases hz : t.val = 0
    · rw [PhiS_castSucc V c t, PhiS_zero V c _ _ hz, PhiA_eq]
      iintro ⟨⟨⟨⟨HA, HS⟩, HR⟩, Hg⟩, Ho, ⟨%d0, H0⟩, ⟨%d1, H1⟩, ⟨%d2, H2⟩, ⟨%d3, H3⟩, ⟨%d4, H4⟩⟩
      iapply (run_A c Set.univ (grid1.coords t) _ _ _ _ _ _ _ _ _ _ _ _ _ _ ((hcond1 t).mpr h0) (fun h => h7 ((hcond2 t).mp h)) (iblk V c 0 t) (iblk V c 1 t) (iblk V c 2 t) (iblk V c 3 t) _ _)
      isplitl [H0]; · iexact H0
      isplitl [H1]; · iexact H1
      isplitl [H2]; · iexact H2
      isplitl [H3]; · iexact H3
      isplitl [H4]; · iexact H4
      isplitl [HA]; · iexact HA
      isplitl [HS]; · iexact HS
      iintro ⟨H0, H1, H2, H3, H4, HA, HS⟩
      isplitl [HA HS HR Hg]
      · isplitl [HA HS]
        · isplitl [HA]; · iexact HA
          iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨HA, HS⟩, HR, Hg⟩, Ho, ⟨%d0, H0⟩, ⟨%d1, H1⟩, ⟨%d2, H2⟩, ⟨%d3, H3⟩, ⟨%d4, H4⟩⟩
      iapply (run_A c Set.univ (grid1.coords t) _ _ _ _ _ _ _ _ _ _ _ _ _ _ ((hcond1 t).mpr h0) (fun h => h7 ((hcond2 t).mp h)) (iblk V c 0 t) (iblk V c 1 t) (iblk V c 2 t) (iblk V c 3 t) _ _)
      isplitl [H0]; · iexact H0
      isplitl [H1]; · iexact H1
      isplitl [H2]; · iexact H2
      isplitl [H3]; · iexact H3
      isplitl [H4]; · iexact H4
      isplitl [HA]; · iexists _; iexact HA
      isplitl [HS]; · iexists _; iexact HS
      iintro ⟨H0, H1, H2, H3, H4, HA, HS⟩
      isplitl [HA HS HR Hg]
      · isplitl [HA HS]
        · isplitl [HA]; · iexact HA
          iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    rw [scr_next V c t h0]
    rw [PhiS_castSucc V c t, PhiS_pos V c _ _ hz]
    by_cases h7 : t.val % 8 = 7
    · rw [show (dat V c).leavesExact 4 t = owns (c : Thread nD τ) (ms4 t) fullShare ((dat V c).after 4 t) from by
        unfold Dat.leavesExact; rw [liveAt_4 t ((hcond2 t).mpr h7)], after_4, scr_next V c t h0]
      iintro ⟨⟨⟨HA, HS⟩, HR, Hg⟩, Ho, ⟨%d0, H0⟩, ⟨%d1, H1⟩, ⟨%d2, H2⟩, ⟨%d3, H3⟩, ⟨%d4, H4⟩⟩
      iapply (run_C c Set.univ (grid1.coords t) _ _ _ _ _ _ _ _ _ _ _ _ _ _ (fun h => h0 ((hcond1 t).mp h)) ((hcond2 t).mpr h7) (iblk V c 0 t) (iblk V c 1 t) (iblk V c 2 t) (iblk V c 3 t) _ _ _)
      isplitl [H0]; · iexact H0
      isplitl [H1]; · iexact H1
      isplitl [H2]; · iexact H2
      isplitl [H3]; · iexact H3
      isplitl [H4]; · iexists _; iexact H4
      isplitl [HA]; · iexact HA
      isplitl [HS]; · iexact HS
      iintro ⟨H0, H1, H2, H3, H4, HA, HS⟩
      isplitl [HA HS HR Hg]
      · isplitl [HA HS]
        · isplitl [HA]; · iexact HA
          iexact HS
        isplitl [HR]; · iexact HR
        iexact Hg
      isplitl [Ho]; · iexact Ho
      isplitl [H0]; · iexact H0
      isplitl [H1]; · iexact H1
      isplitl [H2]; · iexact H2
      isplitl [H3]; · iexact H3
      iexact H4
    · rw [Dat.leavesExact_idle (dat V c) 4 t (idleAt_4 t (fun h => h7 ((hcond2 t).mp h))) (noFlush_4 t (fun h => h7 ((hcond2 t).mp h)))]
      iintro ⟨⟨⟨HA, HS⟩, HR, Hg⟩, Ho, ⟨%d0, H0⟩, ⟨%d1, H1⟩, ⟨%d2, H2⟩, ⟨%d3, H3⟩, ⟨%d4, H4⟩⟩
      iapply (run_B c Set.univ (grid1.coords t) _ _ _ _ _ _ _ _ _ _ _ _ _ _ (fun h => h0 ((hcond1 t).mp h)) (fun h => h7 ((hcond2 t).mp h)) (iblk V c 0 t) (iblk V c 1 t) (iblk V c 2 t) (iblk V c 3 t) _ _ _ _)
      isplitl [H0]; · iexact H0
      isplitl [H1]; · iexact H1
      isplitl [H2]; · iexact H2
      isplitl [H3]; · iexact H3
      isplitl [H4]; · iexact H4
      isplitl [HA]; · iexact HA
      isplitl [HS]; · iexact HS
      iintro ⟨H0, H1, H2, H3, H4, HA, HS⟩
      isplitl [HA HS HR Hg]
      · isplitl [HA HS]
        · isplitl [HA]; · iexact HA
          iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4

/-- The body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]

/-- After any point but the first the invariant gives the entry invariant back: the accumulators' named contents are
    forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨HA, HS⟩, HR, Hg⟩
  isplitl [HA HS HR]
  · isplitl [HA HS]
    · isplitl [HA]; · iexists _; iexact HA
      iexists _; iexact HS
    iexact HR
  iexact Hg

/-- The same after the last point. -/
theorem hout (c : Dev nD) : (dat V c).Φ (Fin.last cfg1.N) ⊢ Pipeline.ΦA spec1 c :=
  Phi_out V c _ (by rw [Fin.val_last]; have : cfg1.N = 16 := N_1; omega)

end Cert.Kernel.R1
end
-- ==== Proof.R2K.lean ====
import proofs.«122264_j82798379533062_2_alg».proof.Proof.Gen.Kernel.Launch
import proofs.«122264_j82798379533062_2_alg».proof.Proof.Gen.Kernel.Skeleton
import proofs.«122264_j82798379533062_2_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic
set_option maxRecDepth 16384

/-! # Region 2: the output-logit stage (exponentials of the logits, block by block, and their row sums per half)

The grid is (2 halves) × (5 column blocks). At each point the body stores the block of exponentials; a [64,1]
accumulator, zeroed at the first block of a half, collects the row sums; at the last block of a half the accumulator
is stored as that half's sums. Everything here is generic in the float interpretation. -/

noncomputable section
namespace Cert.Kernel.R2
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- The body's first condition (zero-fill of the accumulator), from the grid coordinates. -/
abbrev cond1 (i : grid2.Coords) : Prop := (Scalar.cmpi .ne (Scalar.extui (Scalar.cmpi .eq (BitVec.ofNat 32 (i 1).val) 0#32)) 0#32) = 1#1
/-- It holds exactly at the first point of each half. -/
theorem hcond1 : ∀ t : Fin cfg2.N, cond1 (grid2.coords t) ↔ t.val % 5 = 0 :=
  (by decide +kernel : ∀ t : Fin grid2.N, cond1 (grid2.coords t) ↔ t.val % 5 = 0)
/-- The body's second condition (the half's sum is stored). -/
abbrev cond2 (i : grid2.Coords) : Prop := k2_cond2 i = 1#1
/-- It holds exactly at the last point of each half. -/
theorem hcond2 : ∀ t : Fin cfg2.N, cond2 (grid2.coords t) ↔ t.val % 5 = 4 :=
  (by decide +kernel : ∀ t : Fin grid2.N, cond2 (grid2.coords t) ↔ t.val % 5 = 4)

theorem idle5_of : ∀ t : Fin cfg2.N, ¬cond2 (grid2.coords t) → cfg2.idle 5 (grid2.coords t) = true := by decide +kernel
theorem live5_of : ∀ t : Fin cfg2.N, cond2 (grid2.coords t) → cfg2.idle 5 (grid2.coords t) = false := by decide +kernel
theorem noFlush5_of : ∀ t : Fin cfg2.N, ¬cond2 (grid2.coords t) → (cfg2.win 5).flush t = false := by decide +kernel

theorem hz2 : (![0, 0] : Fin 2 → ℕ) = fun _ => 0 := funext fun a => by fin_cases a <;> rfl
theorem hz3 : (![0, 0, 0] : Fin 3 → ℕ) = fun _ => 0 := funext fun a => by fin_cases a <;> rfl

abbrev r0 : Rect S64x128 := Rect.unit (s := S64x128) ![0, 0] S64x128.size inb_S64x128_S64x128_0_0
abbrev r1 : Rect S64x256 := Rect.unit (s := S64x256) ![0, 0] S64x256.size inb_S64x256_S64x256_0_0
abbrev r2 : Rect S128x3200 := Rect.unit (s := S128x3200) ![0, 0] S128x3200.size inb_S128x3200_S128x3200_0_0
abbrev r3 : Rect S256x3200 := Rect.unit (s := S256x3200) ![0, 0] S256x3200.size inb_S256x3200_S256x3200_0_0
abbrev r4 : Rect S64x3200 := Rect.unit (s := S64x3200) ![0, 0] S64x3200.size inb_S64x3200_S64x3200_0_0
abbrev r5 : Rect S1x64x1 := Rect.unit (s := S1x64x1) ![0, 0, 0] S1x64x1.size inb_S1x64x1_S1x64x1_0_0_0
abbrev rs : Rect S64x1 := Rect.unit (s := S64x1) ![0, 0] S64x1.size inb_S64x1_S64x1_0_0

/-- A load of a whole buffer through the unit rectangle at offset zero reads the buffer. -/
theorem rd0 {sg : RefSig} {κ : Kind} {sp : Space} (v : View sg κ sp S64x128 .f32) (f : v.ty.Contents (Elt F)) :
    v.readAt (Elt F) r0.toLoadRect f = v.read (Elt F) f := View.ld_unit_zero (S := S64x128) hz2 _ _
theorem rd1 {sg : RefSig} {κ : Kind} {sp : Space} (v : View sg κ sp S64x256 .f32) (f : v.ty.Contents (Elt F)) :
    v.readAt (Elt F) r1.toLoadRect f = v.read (Elt F) f := View.ld_unit_zero (S := S64x256) hz2 _ _
theorem rd2 {sg : RefSig} {κ : Kind} {sp : Space} (v : View sg κ sp S128x3200 .f32) (f : v.ty.Contents (Elt F)) :
    v.readAt (Elt F) r2.toLoadRect f = v.read (Elt F) f := View.ld_unit_zero (S := S128x3200) hz2 _ _
theorem rd3 {sg : RefSig} {κ : Kind} {sp : Space} (v : View sg κ sp S256x3200 .f32) (f : v.ty.Contents (Elt F)) :
    v.readAt (Elt F) r3.toLoadRect f = v.read (Elt F) f := View.ld_unit_zero (S := S256x3200) hz2 _ _
theorem rdS {sg : RefSig} {κ : Kind} {sp : Space} (v : View sg κ sp S64x1 .f32) (f : v.ty.Contents (Elt F)) :
    v.readAt (Elt F) rs.toLoadRect f = v.read (Elt F) f := View.ld_unit_zero (S := S64x1) hz2 _ _

/-- The last store through the whole-buffer rectangle covers the buffer, whatever was stored before. -/
theorem cover4 (p : Vec F S64x3200 .f32) (L : List (View.Piece (Elt F) S64x3200 .f32)) (y : S64x3200.Idx) :
    ∃ pc ∈ ((⟨r4, p⟩ : View.Piece (Elt F) S64x3200 .f32) :: L), y ∈ pc.1.set :=
  ⟨⟨r4, p⟩, List.mem_cons_self, View.mem_set_unit_zero (S := S64x3200) hz2 inb_S64x3200_S64x3200_0_0 y⟩
theorem cover5 (p : Vec F S1x64x1 .f32) (L : List (View.Piece (Elt F) S1x64x1 .f32)) (y : S1x64x1.Idx) :
    ∃ pc ∈ ((⟨r5, p⟩ : View.Piece (Elt F) S1x64x1 .f32) :: L), y ∈ pc.1.set :=
  ⟨⟨r5, p⟩, List.mem_cons_self, View.mem_set_unit_zero (S := S1x64x1) hz3 inb_S1x64x1_S1x64x1_0_0_0 y⟩
theorem coverS (p : Vec F S64x1 .f32) (L : List (View.Piece (Elt F) S64x1 .f32)) (y : S64x1.Idx) :
    ∃ pc ∈ ((⟨rs, p⟩ : View.Piece (Elt F) S64x1 .f32) :: L), y ∈ pc.1.set :=
  ⟨⟨rs, p⟩, List.mem_cons_self, View.mem_set_unit_zero (S := S64x1) hz2 inb_S64x1_S64x1_0_0 y⟩
/-- What a view reads after stores the last of which went through the whole-buffer rectangle: that store's payload. -/
theorem read4 {sg : RefSig} {κ : Kind} {sp : Space} (v : View sg κ sp S64x3200 .f32) (f : v.ty.Contents (Elt F)) (p : Vec F S64x3200 .f32)
    (L : List (View.Piece (Elt F) S64x3200 .f32)) : v.read (Elt F) (v.writes (Elt F) f ((⟨r4, p⟩ : View.Piece (Elt F) S64x3200 .f32) :: L)) = p :=
  (View.read_writes_eq_canon v f _ (cover4 p L)).trans (View.canon_cons_unit_zero (S := S64x3200) hz2 inb_S64x3200_S64x3200_0_0 p L)
theorem read5 {sg : RefSig} {κ : Kind} {sp : Space} (v : View sg κ sp S1x64x1 .f32) (f : v.ty.Contents (Elt F)) (p : Vec F S1x64x1 .f32)
    (L : List (View.Piece (Elt F) S1x64x1 .f32)) : v.read (Elt F) (v.writes (Elt F) f ((⟨r5, p⟩ : View.Piece (Elt F) S1x64x1 .f32) :: L)) = p :=
  (View.read_writes_eq_canon v f _ (cover5 p L)).trans (View.canon_cons_unit_zero (S := S1x64x1) hz3 inb_S1x64x1_S1x64x1_0_0_0 p L)
theorem readS {sg : RefSig} {κ : Kind} {sp : Space} (v : View sg κ sp S64x1 .f32) (f : v.ty.Contents (Elt F)) (p : Vec F S64x1 .f32)
    (L : List (View.Piece (Elt F) S64x1 .f32)) : v.read (Elt F) (v.writes (Elt F) f ((⟨rs, p⟩ : View.Piece (Elt F) S64x1 .f32) :: L)) = p :=
  (View.read_writes_eq_canon v f _ (coverS p L)).trans (View.canon_cons_unit_zero (S := S64x1) hz2 inb_S64x1_S64x1_0_0 p L)
/-- A load through the whole-buffer rectangle after one store through it reads that store's payload. -/
theorem rcS {sg : RefSig} {κ : Kind} {sp : Space} (v : View sg κ sp S64x1 .f32) (p : Vec F S64x1 .f32) :
    v.readCov [(⟨rs, p⟩ : View.Piece (Elt F) S64x1 .f32)] rs.toLoadRect = p :=
  View.readCov_unit_zero (S := S64x1) v hz2 inb_S64x1_S64x1_0_0 p

set_option maxHeartbeats 1000000 in
/-- The body at a first point of a half (the accumulator zero-filled, then this point's row sums added; the half's sum
    not stored): the inputs' buffers as found, the exponentials' buffer at this point's block of exponentials, the
    half-sum window's buffer untouched, the accumulator at zero plus this point's row sums. -/
theorem runA (c : Dev nD) (E : Set ℕ) (i : grid2.Coords)
    (arg2 : Memref sig .tc .vmem S64x128 .f32) (harg2 : arg2.IsWhole) (arg3 : Memref sig .tc .vmem S64x256 .f32) (harg3 : arg3.IsWhole)
    (arg4 : Memref sig .tc .vmem S128x3200 .f32) (harg4 : arg4.IsWhole) (arg5 : Memref sig .tc .vmem S256x3200 .f32) (harg5 : arg5.IsWhole)
    (arg6 : Memref sig .tc .vmem S64x3200 .f32) (harg6 : arg6.IsWhole) (arg7 : Memref sig .tc .vmem S1x64x1 .f32) (harg7 : arg7.IsWhole)
    (arg8 : Memref sig .tc .vmem S64x1 .f32) (harg8 : arg8.IsWhole) (hc1 : cond1 i) (hc2 : ¬cond2 i)
    (x0 : Vec F S64x128 .f32) (x1 : Vec F S64x256 .f32) (x2 : Vec F S128x3200 .f32) (x3 : Vec F S256x3200 .f32) (xi5 : Vec F S1x64x1 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xi5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k2_pay2 x0 x2 x1 x3)
            ∗ owns (c : Thread nD τ) arg7 fullShare xi5
            ∗ owns (c : Thread nD τ) arg8 fullShare (k2_pay3 x0 x2 x1 x3 (k2_pay1 (F := F)))) -∗ K ⟨⟩))
      ⊢ wp frame (wpE (defs₀ (F := F)) Variants.none c none) E (cc2__out_kernel i arg2 harg2 arg3 harg3 arg4 harg4 arg5 harg5 arg6 harg6 arg7 harg7 arg8 harg8) K := by
  simp only [cc2__out_kernel_eq_skeleton]; unfold cc2__out_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds, %fs, -, HS⟩, Hk⟩
  subst hf0; subst hf1; subst hf2; subst hf3; subst hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    refine (read4 _ _ _ _).trans ?_
    rw [rd0, rd1, rd2, rd3]
  isplitl [H5]
  · iexists f5; isplitr; · ipureintro; rfl
    iexact H5
  iexists _; isplitr
  swap; · iexact HS
  ipureintro
  sl_unfold_run_names
  refine (readS _ _ _ _).trans ?_
  rw [rd0, rd1, rd2, rd3, rcS]

set_option maxHeartbeats 1000000 in
/-- The body at an inner point of a half (neither condition): as above, the accumulator at what it held plus this
    point's row sums. -/
theorem runB (c : Dev nD) (E : Set ℕ) (i : grid2.Coords)
    (arg2 : Memref sig .tc .vmem S64x128 .f32) (harg2 : arg2.IsWhole) (arg3 : Memref sig .tc .vmem S64x256 .f32) (harg3 : arg3.IsWhole)
    (arg4 : Memref sig .tc .vmem S128x3200 .f32) (harg4 : arg4.IsWhole) (arg5 : Memref sig .tc .vmem S256x3200 .f32) (harg5 : arg5.IsWhole)
    (arg6 : Memref sig .tc .vmem S64x3200 .f32) (harg6 : arg6.IsWhole) (arg7 : Memref sig .tc .vmem S1x64x1 .f32) (harg7 : arg7.IsWhole)
    (arg8 : Memref sig .tc .vmem S64x1 .f32) (harg8 : arg8.IsWhole) (hc1 : ¬cond1 i) (hc2 : ¬cond2 i)
    (x0 : Vec F S64x128 .f32) (x1 : Vec F S64x256 .f32) (x2 : Vec F S128x3200 .f32) (x3 : Vec F S256x3200 .f32) (xi5 : Vec F S1x64x1 .f32)
    (xs : Vec F S64x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xi5
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k2_pay2 x0 x2 x1 x3)
            ∗ owns (c : Thread nD τ) arg7 fullShare xi5
            ∗ owns (c : Thread nD τ) arg8 fullShare (k2_pay3 x0 x2 x1 x3 xs)) -∗ K ⟨⟩))
      ⊢ wp frame (wpE (defs₀ (F := F)) Variants.none c none) E (cc2__out_kernel i arg2 harg2 arg3 harg3 arg4 harg4 arg5 harg5 arg6 harg6 arg7 harg7 arg8 harg8) K := by
  simp only [cc2__out_kernel_eq_skeleton]; unfold cc2__out_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs, %hfs, HS⟩, Hk⟩
  subst hf0; subst hf1; subst hf2; subst hf3; subst hf5; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    refine (read4 _ _ _ _).trans ?_
    rw [rd0, rd1, rd2, rd3]
  isplitl [H5]
  · iexists f5; isplitr; · ipureintro; rfl
    iexact H5
  iexists _; isplitr
  swap; · iexact HS
  ipureintro
  sl_unfold_run_names
  refine (readS _ _ _ _).trans ?_
  rw [rd0, rd1, rd2, rd3, rdS]

set_option maxHeartbeats 1000000 in
/-- The body at the last point of a half (the second condition): as at an inner point, and the half-sum window's
    buffer at the accumulator's new contents, recast. -/
theorem runC (c : Dev nD) (E : Set ℕ) (i : grid2.Coords)
    (arg2 : Memref sig .tc .vmem S64x128 .f32) (harg2 : arg2.IsWhole) (arg3 : Memref sig .tc .vmem S64x256 .f32) (harg3 : arg3.IsWhole)
    (arg4 : Memref sig .tc .vmem S128x3200 .f32) (harg4 : arg4.IsWhole) (arg5 : Memref sig .tc .vmem S256x3200 .f32) (harg5 : arg5.IsWhole)
    (arg6 : Memref sig .tc .vmem S64x3200 .f32) (harg6 : arg6.IsWhole) (arg7 : Memref sig .tc .vmem S1x64x1 .f32) (harg7 : arg7.IsWhole)
    (arg8 : Memref sig .tc .vmem S64x1 .f32) (harg8 : arg8.IsWhole) (hc1 : ¬cond1 i) (hc2 : cond2 i)
    (x0 : Vec F S64x128 .f32) (x1 : Vec F S64x256 .f32) (x2 : Vec F S128x3200 .f32) (x3 : Vec F S256x3200 .f32)
    (xs : Vec F S64x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k2_pay2 x0 x2 x1 x3)
            ∗ owns (c : Thread nD τ) arg7 fullShare (k2_pay4 (k2_pay3 x0 x2 x1 x3 xs))
            ∗ owns (c : Thread nD τ) arg8 fullShare (k2_pay3 x0 x2 x1 x3 xs)) -∗ K ⟨⟩))
      ⊢ wp frame (wpE (defs₀ (F := F)) Variants.none c none) E (cc2__out_kernel i arg2 harg2 arg3 harg3 arg4 harg4 arg5 harg5 arg6 harg6 arg7 harg7 arg8 harg8) K := by
  simp only [cc2__out_kernel_eq_skeleton]; unfold cc2__out_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs, %hfs, HS⟩, Hk⟩
  subst hf0; subst hf1; subst hf2; subst hf3; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    refine (read4 _ _ _ _).trans ?_
    rw [rd0, rd1, rd2, rd3]
  isplitl [H5]
  · iexists _; isplitr
    swap; · iexact H5
    ipureintro
    sl_unfold_run_names
    refine (read5 _ _ _ _).trans ?_
    rw [rcS, rd0, rd1, rd2, rd3, rdS]
  iexists _; isplitr
  swap; · iexact HS
  ipureintro
  sl_unfold_run_names
  refine (readS _ _ _ _).trans ?_
  rw [rd0, rd1, rd2, rd3, rdS]

-- the TensorCore's buffer contents when the region is entered: a PARAMETER
variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof
    data whose array is the entry contents and whose body leaves the block in place. -/
theorem before0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What the body leaves, point by point -/

/-- The block of exponentials the body stores at point `t`, from the input blocks there. -/
def expBlk (c : Dev nD) (t : Fin cfg2.N) : Vec F S64x3200 .f32 :=
  k2_pay2 (iblk V c 0 t) (iblk V c 2 t) (iblk V c 1 t) (iblk V c 3 t)

/-- One step of the accumulation: the accumulator's contents `xs` plus the row sums of point `t`'s exponentials. -/
def accStep (c : Dev nD) (t : Fin cfg2.N) (xs : Vec F S64x1 .f32) : Vec F S64x1 .f32 :=
  k2_pay3 (iblk V c 0 t) (iblk V c 2 t) (iblk V c 1 t) (iblk V c 3 t) xs

/-- The accumulator after the body at position `n`: restarted from zero at the first point of each half, carried on
    from the point before otherwise. -/
def scrAt (c : Dev nD) : (n : ℕ) → n < cfg2.N → Vec F S64x1 .f32
  | 0, hn => accStep V c ⟨0, hn⟩ (k2_pay1 (F := F))
  | n + 1, hn => accStep V c ⟨n + 1, hn⟩ (if (n + 1) % 5 = 0 then (k2_pay1 (F := F)) else scrAt c n (Nat.lt_of_succ_lt hn))

/-- At the first point of a half the accumulation restarts. -/
theorem scrAt_first (c : Dev nD) (t : Fin cfg2.N) (h0 : t.val % 5 = 0) :
    scrAt V c t.val t.isLt = accStep V c t (k2_pay1 (F := F)) := by
  obtain ⟨n, hn⟩ := t
  cases n with
  | zero => rfl
  | succ n => show accStep V c ⟨n + 1, hn⟩ (if (n + 1) % 5 = 0 then _ else _) = _; rw [if_pos h0]

/-- At any other point it goes on from what the point before left. -/
theorem scrAt_next (c : Dev nD) (t : Fin cfg2.N) (h0 : ¬t.val % 5 = 0) :
    scrAt V c t.val t.isLt = accStep V c t (scrAt V c (t.val - 1) (Nat.lt_of_le_of_lt (Nat.sub_le _ _) t.isLt)) := by
  obtain ⟨n, hn⟩ := t
  cases n with
  | zero => exact absurd (Nat.zero_mod _) h0
  | succ n => show accStep V c ⟨n + 1, hn⟩ (if (n + 1) % 5 = 0 then _ else _) = _; rw [if_neg h0]; rfl

/-! ## The invariant -/

/-- The scratch operand: a whole scoped buffer of the kernel's own. -/
abbrev scM : Memref sig .tc .vmem S64x1 .f32 := Memref.whole cc2_scratch0

/-- The region invariant before position `n`: before the first point the class's (every scoped buffer that is no
    staging buffer at anything, the generator register at some state); afterwards the accumulator at what the point
    before left in it, the other such buffers at anything, and the generator register at some state. -/
def PhiS (c : Dev nD) : (n : ℕ) → n ≤ cfg2.N → sProp 𝕄
  | 0, _ => Pipeline.ΦA spec2 c
  | n + 1, hn => iprop(iprop(owns (c : Thread nD τ) scM fullShare (scrAt V c n hn)
      ∗ Pipeline.scopedRestBut (Ix := Unit) (Name := ℕ) (U := UR sig nD τ) (Lvl := ℕ) (Val := Elt F) spec2 c [cc2_scratch0]) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(owns (c : Thread nD τ) scM fullShare (scrAt V c n hn)
      ∗ Pipeline.scopedRestBut (Ix := Unit) (Name := ℕ) (U := UR sig nD τ) (Lvl := ℕ) (Val := Elt F) spec2 c [cc2_scratch0]) ∗ (∃ r, prngReg c r)) := rfl

theorem PhiS_pos (c : Dev nD) (n : ℕ) (h : n ≤ cfg2.N) (hz : n ≠ 0) :
    PhiS V c n h = iprop(iprop(owns (c : Thread nD τ) scM fullShare (scrAt V c (n - 1) (by omega))
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- The class's invariant with the accumulator split off as a memref owned at some contents. -/
theorem PhiA_eq (c : Dev nD) :
    (Pipeline.ΦA spec2 c : sProp 𝕄)
      = iprop(iprop((∃ d, owns (c : Thread nD τ) scM fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM, owns_whole]; try rfl

/-! ## The pipeline's proof data -/

/-- The proof data of the pipeline on core `c`: the arrays as the region finds them; after the body at point `t`
    each input's buffer at its block, the exponentials' buffer at that point's block of exponentials, the half-sum
    window's buffer at the accumulator's contents recast (consulted only where the body stores it); the invariant
    `PhiS`; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => expBlk V c t
    | ⟨5, _⟩ => k2_pay4 (scrAt V c t.val t.isLt)
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]
theorem q_eq (c : Dev nD) (w : Fin cfg2.W) : (dat V c).q w = fullShare := rfl
theorem owed_eq (c : Dev nD) (t : Fin (cfg2.N + 1)) : (dat V c).owed t = 0 := rfl
theorem rec_eq (c : Dev nD) (t : Fin (cfg2.N + 1)) : (dat V c).recorded t = Set.univ := rfl

theorem PhiS_castSucc (c : Dev nD) (t : Fin cfg2.N) :
    (dat V c).Φ t.castSucc = PhiS V c t.val (Nat.le_of_lt t.isLt) := by
  dsimp only [dat]; simp only [Fin.coe_castSucc]

theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = iblk V c 2 t := by dsimp only [dat]
theorem after3 (c : Dev nD) (t : Fin cfg2.N) : (dat V c).after 3 t = iblk V c 3 t := by dsimp only [dat]
theorem after4 (c : Dev nD) (t : Fin cfg2.N) : (dat V c).after 4 t = expBlk V c t := by dsimp only [dat]
theorem after5 (c : Dev nD) (t : Fin cfg2.N) : (dat V c).after 5 t = k2_pay4 (scrAt V c t.val t.isLt) := by dsimp only [dat]

theorem before0 (c : Dev nD) (t : Fin cfg2.N) (d) : (dat V c).before 0 t d = iblk V c 0 t :=
  before0_of V (dat V c) (A_eq V c 0) (after0 V c) t d
theorem before1 (c : Dev nD) (t : Fin cfg2.N) (d) : (dat V c).before 1 t d = iblk V c 1 t :=
  before1_of V (dat V c) (A_eq V c 1) (after1 V c) t d
theorem before2 (c : Dev nD) (t : Fin cfg2.N) (d) : (dat V c).before 2 t d = iblk V c 2 t :=
  before2_of V (dat V c) (A_eq V c 2) (after2 V c) t d
theorem before3 (c : Dev nD) (t : Fin cfg2.N) (d) : (dat V c).before 3 t d = iblk V c 3 t :=
  before3_of V (dat V c) (A_eq V c 3) (after3 V c) t d

/-- A window never idle hands its buffer back at what the body leaves. -/
theorem lv0 (c : Dev nD) (t : Fin cfg2.N) : (dat V c).leavesExact 0 t = owns (c : Thread nD τ) (st2_0 t) fullShare (iblk V c 0 t) := by
  rw [← after0 V c t]
theorem lv1 (c : Dev nD) (t : Fin cfg2.N) : (dat V c).leavesExact 1 t = owns (c : Thread nD τ) (st2_1 t) fullShare (iblk V c 1 t) := by
  rw [← after1 V c t]
theorem lv2 (c : Dev nD) (t : Fin cfg2.N) : (dat V c).leavesExact 2 t = owns (c : Thread nD τ) (st2_2 t) fullShare (iblk V c 2 t) := by
  rw [← after2 V c t]
theorem lv3 (c : Dev nD) (t : Fin cfg2.N) : (dat V c).leavesExact 3 t = owns (c : Thread nD τ) (st2_3 t) fullShare (iblk V c 3 t) := by
  rw [← after3 V c t]
theorem lv4 (c : Dev nD) (t : Fin cfg2.N) : (dat V c).leavesExact 4 t = owns (c : Thread nD τ) (st2_4 t) fullShare (expBlk V c t) := by
  rw [← after4 V c t]
/-- The half-sum window hands its buffer back at what the body stored where the body stores it, -/
theorem lv5_live (c : Dev nD) (t : Fin cfg2.N) (h : cond2 (grid2.coords t)) :
    (dat V c).leavesExact 5 t = owns (c : Thread nD τ) (st2_5 t) fullShare (k2_pay4 (scrAt V c t.val t.isLt)) := by
  rw [← after5 V c t]; unfold Dat.leavesExact; rw [live5_of t h]
/-- and untouched elsewhere. -/
theorem lv5_idle (c : Dev nD) (t : Fin cfg2.N) (h : ¬cond2 (grid2.coords t)) :
    (dat V c).leavesExact 5 t = iprop(∃ d, owns (c : Thread nD τ) (st2_5 t) fullShare ((dat V c).before 5 t d)) :=
  Dat.leavesExact_idle (dat V c) 5 t (idle5_of t h) (noFlush5_of t h)

/-! ## The body obligation, at a generic point -/

/-- What the body is called with at point `t` (the windows one by one), -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d)))

/-- and what it returns. -/
def bodyPost (c : Dev nD) (t : Fin cfg2.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t ∗ (dat V c).leavesExact 5 t)

set_option maxHeartbeats 4800000 in
/-- The body at any point: the inputs' buffers hold their blocks; the closed forms of the two conditions say which of
    the three cases the point is in; the invariant hands the body the accumulator at what the point before left (at
    anything before the first point) and takes it back at this point's contents; the core owes nothing throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1, before2, before3]
  rw [show (dat V c).owesAt () t.succ = (dat V c).owesAt () t.castSucc from rfl]
  rw [show (dat V c).Φ t.succ = PhiS V c (t.val + 1) t.isLt from rfl, PhiS_succ]
  rw [lv0, lv1, lv2, lv3, lv4]
  have hN : t.val < 10 := lt_of_lt_of_eq t.isLt (show cfg2.N = 10 from N_2)
  by_cases h0 : t.val % 5 = 0
  · have h4 : ¬t.val % 5 = 4 := by omega
    have hc1 : cond1 (grid2.coords t) := (hcond1 t).mpr h0
    have hc2 : ¬cond2 (grid2.coords t) := fun h => h4 ((hcond2 t).mp h)
    rw [lv5_idle V c t hc2, scrAt_first V c t h0]
    unfold expBlk accStep
    by_cases hz : t.val = 0
    · rw [PhiS_castSucc V c t, PhiS_zero V c _ _ hz, PhiA_eq]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply (runA c Set.univ (grid2.coords t) _ _ _ _ _ _ _ _ _ _ _ _ _ _ hc1 hc2 (iblk V c 0 t) (iblk V c 1 t) (iblk V c 2 t) (iblk V c 3 t) ((dat V c).before 5 t d5) _)
      isplitl [H0]; · iexact H0
      isplitl [H1]; · iexact H1
      isplitl [H2]; · iexact H2
      isplitl [H3]; · iexact H3
      isplitl [H4]; · iexists _; iexact H4
      isplitl [H5]; · iexact H5
      isplitl [HS]; · iexact HS
      iintro ⟨H0, H1, H2, H3, H4, H5, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5
    · rw [PhiS_castSucc V c t, PhiS_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply (runA c Set.univ (grid2.coords t) _ _ _ _ _ _ _ _ _ _ _ _ _ _ hc1 hc2 (iblk V c 0 t) (iblk V c 1 t) (iblk V c 2 t) (iblk V c 3 t) ((dat V c).before 5 t d5) _)
      isplitl [H0]; · iexact H0
      isplitl [H1]; · iexact H1
      isplitl [H2]; · iexact H2
      isplitl [H3]; · iexact H3
      isplitl [H4]; · iexists _; iexact H4
      isplitl [H5]; · iexact H5
      isplitl [HS]; · iexists _; iexact HS
      iintro ⟨H0, H1, H2, H3, H4, H5, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5
  · have hz : t.val ≠ 0 := fun h => h0 (by rw [h])
    have hc1 : ¬cond1 (grid2.coords t) := fun h => h0 ((hcond1 t).mp h)
    by_cases h4 : t.val % 5 = 4
    · have hc2 : cond2 (grid2.coords t) := (hcond2 t).mpr h4
      rw [lv5_live V c t hc2, scrAt_next V c t h0]
      unfold expBlk accStep
      rw [PhiS_castSucc V c t, PhiS_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply (runC c Set.univ (grid2.coords t) _ _ _ _ _ _ _ _ _ _ _ _ _ _ hc1 hc2 (iblk V c 0 t) (iblk V c 1 t) (iblk V c 2 t) (iblk V c 3 t) (scrAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [H5]; · iexists _; iexact H5
      isplitl [HS]; · iexact HS
      iintro ⟨H0, H1, H2, H3, H4, H5, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc2 : ¬cond2 (grid2.coords t) := fun h => h4 ((hcond2 t).mp h)
      rw [lv5_idle V c t hc2, scrAt_next V c t h0]
      unfold expBlk accStep
      rw [PhiS_castSucc V c t, PhiS_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply (runB c Set.univ (grid2.coords t) _ _ _ _ _ _ _ _ _ _ _ _ _ _ hc1 hc2 (iblk V c 0 t) (iblk V c 1 t) (iblk V c 2 t) (iblk V c 3 t) ((dat V c).before 5 t d5) (scrAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [H5]; · iexact H5
      isplitl [HS]; · iexact HS
      iintro ⟨H0, H1, H2, H3, H4, H5, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5

/-- The body's obligation at every point of the grid. -/
theorem body_obligation (c : Dev nD) : BodyObligation (dat (F := F) V c) (defs₀ (F := F)) Variants.none () Set.univ := fun t => by
  rw [bigSep_W2, bigSep_W2]
  exact sound_body V c t

/-- What the launch hands the region is the invariant before the first point. -/
theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After any point the invariant gives the class's back: the accumulator's named contents are forgotten. -/
theorem Phi_out (c : Dev nD) (t : Fin (cfg2.N + 1)) (ht : t.val ≠ 0) : (dat V c).Φ t ⊢ Pipeline.ΦA spec2 c := by
  rw [show (dat V c).Φ t = PhiS V c t.val (Nat.le_of_lt_succ t.isLt) from rfl, PhiS_pos V c _ _ ht, PhiA_eq]
  iintro ⟨⟨HS, Hr⟩, Hg⟩
  isplitl [HS Hr]
  · isplitl [HS]
    · iexists _; iexact HS
    iexact Hr
  iexact Hg

/-- The same after the last point. -/
theorem hout (c : Dev nD) : (dat V c).Φ (Fin.last cfg2.N) ⊢ Pipeline.ΦA spec2 c :=
  Phi_out V c _ (by rw [Fin.val_last]; have : cfg2.N = 10 := N_2; omega)

end Cert.Kernel.R2
end
-- ==== Proof.R3K.lean ====
import proofs.«122264_j82798379533062_2_alg».proof.Proof.Gen.Kernel.Launch
import proofs.«122264_j82798379533062_2_alg».proof.Proof.Gen.Kernel.Skeleton
import proofs.«122264_j82798379533062_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

/-! # Region 3: the normalising kernel, at the buffer contents the region is entered with

The fourth kernel divides each block of the unnormalised exponentials, row by row, by the row's total.
It runs over 5 grid points. Window 0 is the [64, 6400] block (0, k) of the exponentials, fetched at every
point; window 1 is the whole [64, 1] column of row totals, fetched at the first point only and left in
place afterwards; window 2 is the [64, 6400] block (0, k) of the result, stored whole at every point and
written back there. The kernel carries nothing from one point to the next, so the invariant between
points is the constant one: the scoped buffers that are no window's and the generator register, untouched.

Everything here is generic in the float interpretation. -/

set_option maxRecDepth 16384

noncomputable section

namespace Cert.Kernel.R3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! ## The windows' blocks -/

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (a new block at every point) holds its block at every point, for any proof data whose array
    is the entry contents and whose body leaves the block in place. -/
theorem before_0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1 (the whole column, brought in at the first point only) holds its block at every point: at a
    point where it is not fetched its block index has not moved, and the body left the block in place. -/
theorem before_1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole [64, 6400] buffer as a rectangle. -/
abbrev r_blk : Rect S64x6400 := Rect.unit (s := S64x6400) ![0, 0] S64x6400.size inb_S64x6400_S64x6400_0_0
/-- The whole [64, 1] buffer as a rectangle. -/
abbrev r_col : Rect S64x1 := Rect.unit (s := S64x1) ![0, 0] S64x1.size inb_S64x1_S64x1_0_0

/-! ## What the body leaves in the output window's buffer -/

/-- Window 2's buffer after the body, from the two input blocks: its single whole-buffer store, the quotient of the
    block by the broadcast column. -/
def out_2 (x0 : Vec F S64x6400 .f32) (x1 : Vec F S64x1 .f32) : Vec F S64x6400 .f32 :=
  View.canon [⟨r_blk, k3_pay1 (View.ld x0 r_blk) (View.ld x1 r_col)⟩]

/-- The single store is of the whole buffer, so it covers it. -/
theorem cover_2 (p0 : Vec F S64x6400 .f32) (y : S64x6400.Idx) :
    ∃ pc ∈ ([⟨r_blk, p0⟩] : List (View.Piece (Elt F) S64x6400 .f32)), y ∈ pc.1.set :=
  View.cover_of_tiled [⟨r_blk, p0⟩] S64x6400.size (by rfl) y

/-! ## The body's triple -/

set_option maxHeartbeats 1000000 in
/-- The kernel body on whole staging memrefs — the two inputs' at read contents `x0`, `x1`, the output's at anything —
    runs to the continuation holding the inputs' as they were and the output's at `out_2 x0 x1`. -/
theorem sound_kernel (c : Dev nD) (E : Set ℕ) (i : grid3.Coords)
    (arg1 : Memref sig .tc .vmem S64x6400 .f32) (harg1 : arg1.IsWhole) (arg2 : Memref sig .tc .vmem S64x1 .f32) (harg2 : arg2.IsWhole)
    (arg3 : Memref sig .tc .vmem S64x6400 .f32) (harg3 : arg3.IsWhole)
    (x0 : Vec F S64x6400 .f32) (x1 : Vec F S64x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out_2 x0 x1)) -∗ K ⟨⟩))
      ⊢ wp frame (wpE (defs₀ (F := F)) Variants.none c none) E (cc3__norm_kernel i arg1 harg1 arg2 harg2 arg3 harg3) K := by
  simp only [cc3__norm_kernel_eq_skeleton]; unfold cc3__norm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_2 _)

/-! ## The pipeline's proof data -/

/-- The proof data of the pipeline on core `c`: the arrays as the region finds them; after the body at point `t` each
    input's buffer at its block and the output's at `out_2` of the input blocks; the invariant constant (the scoped
    buffers that are no window's and the generator register, untouched); nothing owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => out_2 (iblk V c 0 t) (iblk V c 1 t)
  Φ _ := Pipeline.ΦA spec3 c
  q _ := fullShare
  owed _ := 0

/-- The proof data's arrays are the region-entry contents. -/
theorem A_eq (c : Dev nD) (w : Fin cfg3.W) : (dat V c).A w = V c (Pipeline.arrRef spec3 w) := by
  dsimp only [dat]

theorem q_eq (c : Dev nD) (w : Fin cfg3.W) : (dat V c).q w = fullShare := rfl
theorem owed_eq (c : Dev nD) (t) : (dat V c).owed t = 0 := rfl
theorem Φ_eq (c : Dev nD) (t) : (dat V c).Φ t = Pipeline.ΦA spec3 c := rfl
theorem rec_eq (c : Dev nD) (t) : (dat V c).recorded t = Set.univ := rfl

/-- What the body leaves, window by window. -/
theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = out_2 (iblk V c 0 t) (iblk V c 1 t) := by dsimp only [dat]

/-- Each input's current staging buffer holds its block at every point, fetched there or not. -/
theorem before_0 (c : Dev nD) (t : Fin cfg3.N) (d) : (dat V c).before 0 t d = iblk V c 0 t :=
  before_0_of V (dat V c) (A_eq V c 0) (after_0 V c) t d
theorem before_1 (c : Dev nD) (t : Fin cfg3.N) (d) : (dat V c).before 1 t d = iblk V c 1 t :=
  before_1_of V (dat V c) (A_eq V c 1) (after_1 V c) t d

/-! ## The body obligation, at a generic point -/

/-- What the body is called with at point `t`, the windows one by one, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d)))

/-- and what it returns. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t))

/-- The body at any point: the inputs' memrefs hold their blocks, so `sound_kernel` applies; the invariant and the
    core's debts pass through unread. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's specification at every point, in the form the pipeline's soundness theorem takes: the windows conjoined. -/
theorem body_obligation (c : Dev nD) : BodyObligation (dat (F := F) V c) (defs₀ (F := F)) Variants.none () Set.univ := fun t => by
  rw [bigSep_W3, bigSep_W3]
  exact sound_body V c t

/-! ## Entering and leaving -/

/-- The constant invariant is what the region is entered with, -/
theorem hin (c : Dev nD) : Pipeline.ΦA spec3 c ⊢ (dat V c).Φ 0 := by
  rw [Φ_eq]

/-- and what it is left with. -/
theorem hout (c : Dev nD) : (dat V c).Φ (Fin.last cfg3.N) ⊢ Pipeline.ΦA spec3 c := by
  rw [Φ_eq]

end Cert.Kernel.R3

end
-- ==== Proof.Frames.lean ====
/-
  The frames of the three programs.

  The kernel program, read at the word level and at the extended reals, runs as its four regions and the five host
  operations between the third and the fourth (the run of the regions' halves); the reference is a straight line of host
  operations, and its frame is its run with the results dropped.
-/
import proofs.«122264_j82798379533062_2_alg».proof.Defs
import proofs.«122264_j82798379533062_2_alg».proof.Proof.Gen.Kernel
import proofs.«122264_j82798379533062_2_alg».proof.Proof.Gen.KernelIdeal
import proofs.«122264_j82798379533062_2_alg».proof.Proof.Gen.ReferenceIdeal
import proofs.«122264_j82798379533062_2_alg».proof.Proof.Gen.Pre_finite_inputs
import proofs.«122264_j82798379533062_2_alg».proof.Proof.Asm
import proofs.«122264_j82798379533062_2_alg».proof.Proof.AsmK
import proofs.«122264_j82798379533062_2_alg».proof.Proof.R0
import proofs.«122264_j82798379533062_2_alg».proof.Proof.R1
import proofs.«122264_j82798379533062_2_alg».proof.Proof.R2
import proofs.«122264_j82798379533062_2_alg».proof.Proof.R3
import proofs.«122264_j82798379533062_2_alg».proof.Proof.R0K
import proofs.«122264_j82798379533062_2_alg».proof.Proof.R1K
import proofs.«122264_j82798379533062_2_alg».proof.Proof.R2K
import proofs.«122264_j82798379533062_2_alg».proof.Proof.R3K
import proofs.«122264_j82798379533062_2_alg».proof.Proof.RefRun

noncomputable section

namespace Cert.Proof.Frames

open Idealize.ShloMosaic Idealize.SL.Sem

/-- The kernel program at the word level. -/
theorem frame_k : Cert.frame_Kernel := fun m ρ _ =>
  Cert.Kernel.Asm.frame (F := Bits) Cert.Kernel.R0.dat Cert.Kernel.R1.dat Cert.Kernel.R2.dat Cert.Kernel.R3.dat m
      (A0 := Cert.Kernel.R0.A_eq) (q0 := Cert.Kernel.R0.q_eq) (o0 := Cert.Kernel.R0.owed_eq) (rec0 := Cert.Kernel.R0.rec_eq) (body0 := Cert.Kernel.R0.body_obligation) (hin0 := Cert.Kernel.R0.hin) (hout0 := Cert.Kernel.R0.hout)
      (A1 := Cert.Kernel.R1.A_eq) (q1 := Cert.Kernel.R1.q_eq) (o1 := Cert.Kernel.R1.owed_eq) (rec1 := Cert.Kernel.R1.rec_eq) (body1 := Cert.Kernel.R1.body_obligation) (hin1 := Cert.Kernel.R1.hin) (hout1 := Cert.Kernel.R1.hout)
      (A2 := Cert.Kernel.R2.A_eq) (q2 := Cert.Kernel.R2.q_eq) (o2 := Cert.Kernel.R2.owed_eq) (rec2 := Cert.Kernel.R2.rec_eq) (body2 := Cert.Kernel.R2.body_obligation) (hin2 := Cert.Kernel.R2.hin) (hout2 := Cert.Kernel.R2.hout)
      (A3 := Cert.Kernel.R3.A_eq) (q3 := Cert.Kernel.R3.q_eq) (o3 := Cert.Kernel.R3.owed_eq) (rec3 := Cert.Kernel.R3.rec_eq) (body3 := Cert.Kernel.R3.body_obligation) (hin3 := Cert.Kernel.R3.hin) (hout3 := Cert.Kernel.R3.hout) ρ

/-- The kernel program at the extended reals. -/
theorem frame_ki : Cert.frame_KernelIdeal := fun m ρ _ =>
  Cert.KernelIdeal.Asm.frame (F := Ideal) Cert.KernelIdeal.R0.dat Cert.KernelIdeal.R1.dat Cert.KernelIdeal.R2.dat Cert.KernelIdeal.R3.dat m
      (A0 := Cert.KernelIdeal.R0.A_eq) (q0 := Cert.KernelIdeal.R0.q_eq) (o0 := Cert.KernelIdeal.R0.owed_eq) (rec0 := Cert.KernelIdeal.R0.rec_eq) (body0 := Cert.KernelIdeal.R0.body_obligation) (hin0 := Cert.KernelIdeal.R0.hin) (hout0 := Cert.KernelIdeal.R0.hout)
      (A1 := Cert.KernelIdeal.R1.A_eq) (q1 := Cert.KernelIdeal.R1.q_eq) (o1 := Cert.KernelIdeal.R1.owed_eq) (rec1 := Cert.KernelIdeal.R1.rec_eq) (body1 := Cert.KernelIdeal.R1.body_obligation) (hin1 := Cert.KernelIdeal.R1.hin) (hout1 := Cert.KernelIdeal.R1.hout)
      (A2 := Cert.KernelIdeal.R2.A_eq) (q2 := Cert.KernelIdeal.R2.q_eq) (o2 := Cert.KernelIdeal.R2.owed_eq) (rec2 := Cert.KernelIdeal.R2.rec_eq) (body2 := Cert.KernelIdeal.R2.body_obligation) (hin2 := Cert.KernelIdeal.R2.hin) (hout2 := Cert.KernelIdeal.R2.hout)
      (A3 := Cert.KernelIdeal.R3.A_eq) (q3 := Cert.KernelIdeal.R3.q_eq) (o3 := Cert.KernelIdeal.R3.owed_eq) (rec3 := Cert.KernelIdeal.R3.rec_eq) (body3 := Cert.KernelIdeal.R3.body_obligation) (hin3 := Cert.KernelIdeal.R3.hin) (hout3 := Cert.KernelIdeal.R3.hout) ρ

/-- The reference: its run, the results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

end Cert.Proof.Frames

end
-- ==== Proof.Spec.lean ====
/-
  The mathematics of the decoder step, as functions of extended-real arrays.

  One LSTM cell step (no bias, gate order input, forget, candidate, output), additive attention over the time axis with
  one softmax per batch row and channel, and a softmax over the vocabulary. Every stage is a function of ITS OWN input
  arrays, so that a statement about one stage of a computation can cite it alone; the composition at the end of the file
  is the whole step as a function of the thirteen inputs.

  The two softmaxes are written WITHOUT subtracting the row maximum: weights exp(e) / ∑ exp(e). On real rows this is
  the same number as the max-subtracted form (exp(e - m) / ∑ exp(e - m)); the softmax over the vocabulary is moreover
  split the way a two-half computation produces it: the unnormalised exponentials, their sums over each half of the
  vocabulary, the total of the two halves, and the quotient.

  An array of shape [n0, n1] is a function on the rank-2 index set with those literal extents; an entry is read at
  `ix2 a b` (and `ix3 a b c` for rank 3). Each definition comes with its entry written out (`…_apply`, by `rfl`).
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- An extended-real array of shape `[n0, n1]`. -/
abbrev Arr2 (n0 n1 : Nat) : Type := (⟨2, ![n0, n1]⟩ : Shape).Idx → EReal
/-- An extended-real array of shape `[n0, n1, n2]`. -/
abbrev Arr3 (n0 n1 n2 : Nat) : Type := (⟨3, ![n0, n1, n2]⟩ : Shape).Idx → EReal

/-! ## The LSTM cell -/

/-- The cell's input: the previous character's embedding plus the previous context vector's,
    `prev_char · Wc + prev_cont_vec · Wct1`, shape [64, 64]. -/
def lstmIn (pc : Arr2 64 32000) (Wc : Arr2 32000 64) (pcv : Arr2 64 256) (Wct1 : Arr2 256 64) : Arr2 64 64 :=
  fun j => (∑ v : Fin 32000, pc (ix2 (j 0) v) * Wc (ix2 v (j 1))) + (∑ k : Fin 256, pcv (ix2 (j 0) k) * Wct1 (ix2 k (j 1)))

theorem lstmIn_apply (pc : Arr2 64 32000) (Wc : Arr2 32000 64) (pcv : Arr2 64 256) (Wct1 : Arr2 256 64) (b e : Fin 64) :
    lstmIn pc Wc pcv Wct1 (ix2 b e)
      = (∑ v : Fin 32000, pc (ix2 b v) * Wc (ix2 v e)) + (∑ k : Fin 256, pcv (ix2 b k) * Wct1 (ix2 k e)) := rfl

/-- The four gates' pre-activations side by side: `lstm_inp · lstm_kernel + state_h · lstm_recurrent`, shape [64, 512]
    (columns 0–127 input gate, 128–255 forget gate, 256–383 candidate, 384–511 output gate). -/
def gateZ (li : Arr2 64 64) (lk : Arr2 64 512) (h : Arr2 64 128) (lr : Arr2 128 512) : Arr2 64 512 :=
  fun j => (∑ e : Fin 64, li (ix2 (j 0) e) * lk (ix2 e (j 1))) + (∑ l : Fin 128, h (ix2 (j 0) l) * lr (ix2 l (j 1)))

theorem gateZ_apply (li : Arr2 64 64) (lk : Arr2 64 512) (h : Arr2 64 128) (lr : Arr2 128 512) (b : Fin 64) (j : Fin 512) :
    gateZ li lk h lr (ix2 b j)
      = (∑ e : Fin 64, li (ix2 b e) * lk (ix2 e j)) + (∑ l : Fin 128, h (ix2 b l) * lr (ix2 l j)) := rfl

/-- Column `l` of the input gate's block. -/
abbrev colI (l : Fin 128) : Fin 512 := ⟨l.val, by have := l.isLt; omega⟩
/-- Column `l` of the forget gate's block. -/
abbrev colF (l : Fin 128) : Fin 512 := ⟨128 + l.val, by have := l.isLt; omega⟩
/-- Column `l` of the candidate's block. -/
abbrev colG (l : Fin 128) : Fin 512 := ⟨256 + l.val, by have := l.isLt; omega⟩
/-- Column `l` of the output gate's block. -/
abbrev colO (l : Fin 128) : Fin 512 := ⟨384 + l.val, by have := l.isLt; omega⟩

/-- The new cell state before clipping: `σ(z_f) · c + σ(z_i) · tanh(z_g)`. -/
def newC (z : Arr2 64 512) (c : Arr2 64 128) : Arr2 64 128 :=
  fun j => Ideal.logistic (z (ix2 (j 0) (colF (j 1)))) * c (ix2 (j 0) (j 1))
    + Ideal.logistic (z (ix2 (j 0) (colI (j 1)))) * Ideal.tanh (z (ix2 (j 0) (colG (j 1))))

theorem newC_apply (z : Arr2 64 512) (c : Arr2 64 128) (b : Fin 64) (l : Fin 128) :
    newC z c (ix2 b l)
      = Ideal.logistic (z (ix2 b (colF l))) * c (ix2 b l) + Ideal.logistic (z (ix2 b (colI l))) * Ideal.tanh (z (ix2 b (colG l))) := rfl

/-- The new hidden state: `σ(z_o) · tanh(new_c)`. -/
def newH (z : Arr2 64 512) (c : Arr2 64 128) : Arr2 64 128 :=
  fun j => Ideal.logistic (z (ix2 (j 0) (colO (j 1)))) * Ideal.tanh (newC z c (ix2 (j 0) (j 1)))

theorem newH_apply (z : Arr2 64 512) (c : Arr2 64 128) (b : Fin 64) (l : Fin 128) :
    newH z c (ix2 b l) = Ideal.logistic (z (ix2 b (colO l))) * Ideal.tanh (newC z c (ix2 b l)) := rfl

/-- The lower clipping bound, the single-precision word of −10. -/
abbrev clipLo : EReal := Ideal.ofBits .f32 0xC1200000#32
/-- The upper clipping bound, the single-precision word of 10. -/
abbrev clipHi : EReal := Ideal.ofBits .f32 0x41200000#32

/-- The returned cell state: the new cell state clipped into [−10, 10], `min 10 (max (−10) new_c)`. -/
def newCout (z : Arr2 64 512) (c : Arr2 64 128) : Arr2 64 128 :=
  fun j => min clipHi (max clipLo (newC z c (ix2 (j 0) (j 1))))

theorem newCout_apply (z : Arr2 64 512) (c : Arr2 64 128) (b : Fin 64) (l : Fin 128) :
    newCout z c (ix2 b l) = min clipHi (max clipLo (newC z c (ix2 b l))) := rfl

/-! ## Additive attention over the time axis -/

/-- The hidden state's projection `new_h · W_h` at batch row `b`, channel `ch`. -/
def attnH (nh : Arr2 64 128) (Wh : Arr2 128 256) (b : Fin 64) (ch : Fin 256) : EReal :=
  ∑ l : Fin 128, nh (ix2 b l) * Wh (ix2 l ch)

/-- The attention score `V_attn · tanh(new_h · W_h + F)` at `(b, t, ch)`. -/
def attnE (nh : Arr2 64 128) (Fa : Arr3 64 1024 256) (Wh : Arr2 128 256) (Va : Arr3 1 1 256)
    (b : Fin 64) (t : Fin 1024) (ch : Fin 256) : EReal :=
  Va (ix3 (0 : Fin 1) (0 : Fin 1) ch) * Ideal.tanh (attnH nh Wh b ch + Fa (ix3 b t ch))

/-- The unnormalised attention weight, the exponential of the score. -/
def attnP (nh : Arr2 64 128) (Fa : Arr3 64 1024 256) (Wh : Arr2 128 256) (Va : Arr3 1 1 256)
    (b : Fin 64) (t : Fin 1024) (ch : Fin 256) : EReal :=
  Ideal.exp (attnE nh Fa Wh Va b t ch)

/-- The context vector, shape [64, 256]: per batch row and channel the weighted sum of `F` over time divided by the
    sum of the weights, `(∑ₜ pₜ · Fₜ) / (∑ₜ pₜ)`. -/
def ctx (nh : Arr2 64 128) (Fa : Arr3 64 1024 256) (Wh : Arr2 128 256) (Va : Arr3 1 1 256) : Arr2 64 256 :=
  fun j => Ideal.div (∑ t : Fin 1024, attnP nh Fa Wh Va (j 0) t (j 1) * Fa (ix3 (j 0) t (j 1)))
    (∑ t : Fin 1024, attnP nh Fa Wh Va (j 0) t (j 1))

theorem ctx_apply (nh : Arr2 64 128) (Fa : Arr3 64 1024 256) (Wh : Arr2 128 256) (Va : Arr3 1 1 256) (b : Fin 64) (ch : Fin 256) :
    ctx nh Fa Wh Va (ix2 b ch)
      = Ideal.div (∑ t : Fin 1024, attnP nh Fa Wh Va b t ch * Fa (ix3 b t ch)) (∑ t : Fin 1024, attnP nh Fa Wh Va b t ch) := rfl

/-- The unnormalised weight, every definition opened. -/
theorem attnP_eq (nh : Arr2 64 128) (Fa : Arr3 64 1024 256) (Wh : Arr2 128 256) (Va : Arr3 1 1 256)
    (b : Fin 64) (t : Fin 1024) (ch : Fin 256) :
    attnP nh Fa Wh Va b t ch
      = Ideal.exp (Va (ix3 (0 : Fin 1) (0 : Fin 1) ch) * Ideal.tanh ((∑ l : Fin 128, nh (ix2 b l) * Wh (ix2 l ch)) + Fa (ix3 b t ch))) := rfl

/-! ## The output distribution -/

/-- The output logits `new_h · Wo + c_t · Wct2` at batch row `b`, word `v`. -/
def logit (nh : Arr2 64 128) (cT : Arr2 64 256) (Wo : Arr2 128 32000) (Wct2 : Arr2 256 32000) (b : Fin 64) (v : Fin 32000) : EReal :=
  (∑ l : Fin 128, nh (ix2 b l) * Wo (ix2 l v)) + (∑ ch : Fin 256, cT (ix2 b ch) * Wct2 (ix2 ch v))

/-- The unnormalised output distribution, the exponential of the logits, shape [64, 32000]. -/
def rawExp (nh : Arr2 64 128) (cT : Arr2 64 256) (Wo : Arr2 128 32000) (Wct2 : Arr2 256 32000) : Arr2 64 32000 :=
  fun j => Ideal.exp (logit nh cT Wo Wct2 (j 0) (j 1))

theorem rawExp_apply (nh : Arr2 64 128) (cT : Arr2 64 256) (Wo : Arr2 128 32000) (Wct2 : Arr2 256 32000) (b : Fin 64) (v : Fin 32000) :
    rawExp nh cT Wo Wct2 (ix2 b v)
      = Ideal.exp ((∑ l : Fin 128, nh (ix2 b l) * Wo (ix2 l v)) + (∑ ch : Fin 256, cT (ix2 b ch) * Wct2 (ix2 ch v))) := rfl

/-- Word `j` of half `h` of the vocabulary: `h · 16000 + j`. -/
abbrev halfCol (h : Fin 2) (j : Fin 16000) : Fin 32000 := ⟨h.val * 16000 + j.val, by have := h.isLt; have := j.isLt; omega⟩

/-- The sums of the unnormalised distribution over each half of the vocabulary, shape [2, 64, 1]. -/
def halfSums (raw : Arr2 64 32000) : Arr3 2 64 1 :=
  fun i => ∑ j : Fin 16000, raw (ix2 (i 1) (halfCol (i 0) j))

theorem halfSums_apply (raw : Arr2 64 32000) (h : Fin 2) (b : Fin 64) (u : Fin 1) :
    halfSums raw (ix3 h b u) = ∑ j : Fin 16000, raw (ix2 b (halfCol h j)) := rfl

/-- The two halves' sums added, shape [64, 1]. -/
def total (hs : Arr3 2 64 1) : Arr2 64 1 :=
  fun j => hs (ix3 (0 : Fin 2) (j 0) (0 : Fin 1)) + hs (ix3 (1 : Fin 2) (j 0) (0 : Fin 1))

theorem total_apply (hs : Arr3 2 64 1) (b : Fin 64) (u : Fin 1) :
    total hs (ix2 b u) = hs (ix3 (0 : Fin 2) b (0 : Fin 1)) + hs (ix3 (1 : Fin 2) b (0 : Fin 1)) := rfl

/-- The normalised distribution: each unnormalised entry divided by its row's total, shape [64, 32000]. -/
def norm (raw : Arr2 64 32000) (s : Arr2 64 1) : Arr2 64 32000 :=
  fun j => Ideal.div (raw (ix2 (j 0) (j 1))) (s (ix2 (j 0) (0 : Fin 1)))

theorem norm_apply (raw : Arr2 64 32000) (s : Arr2 64 1) (b : Fin 64) (v : Fin 32000) :
    norm raw s (ix2 b v) = Ideal.div (raw (ix2 b v)) (s (ix2 b (0 : Fin 1))) := rfl

/-! ## The whole step, as a function of the thirteen inputs -/

section Whole
variable (pcv : Arr2 64 256) (Fa : Arr3 64 1024 256) (pc : Arr2 64 32000) (h c : Arr2 64 128)
  (Wc : Arr2 32000 64) (Wct1 : Arr2 256 64) (Wo : Arr2 128 32000) (Wct2 : Arr2 256 32000)
  (lk : Arr2 64 512) (lr : Arr2 128 512) (Wh : Arr2 128 256) (Va : Arr3 1 1 256)

/-- The gates' pre-activations of the step. -/
def stepZ : Arr2 64 512 := gateZ (lstmIn pc Wc pcv Wct1) lk h lr
/-- The step's new hidden state. -/
def stepH : Arr2 64 128 := newH (stepZ pcv pc h Wc Wct1 lk lr) c
/-- The step's returned (clipped) cell state. -/
def stepCout : Arr2 64 128 := newCout (stepZ pcv pc h Wc Wct1 lk lr) c
/-- The step's context vector. -/
def stepCtx : Arr2 64 256 := ctx (stepH pcv pc h c Wc Wct1 lk lr) Fa Wh Va
/-- The step's unnormalised output distribution. -/
def stepRaw : Arr2 64 32000 :=
  rawExp (stepH pcv pc h c Wc Wct1 lk lr) (stepCtx pcv Fa pc h c Wc Wct1 lk lr Wh Va) Wo Wct2
/-- The step's output distribution. -/
def stepOut : Arr2 64 32000 :=
  norm (stepRaw pcv Fa pc h c Wc Wct1 Wo Wct2 lk lr Wh Va) (total (halfSums (stepRaw pcv Fa pc h c Wc Wct1 Wo Wct2 lk lr Wh Va)))

end Whole

end Cert.Spec

end
-- ==== Proof.Bridge.lean ====
/-
  The four results of the kernel program as the specification's functions of the thirteen arguments.

  Each region's write-backs leave one stage of the specification applied to the buffers the region was entered with
  (hypotheses here: this module mentions no kernel body); following the buffers through the five items of @main composes
  the stages: the LSTM cell, the attention context, the exponentiated logits with their two half sums, the sum of the
  halves, the quotient.
-/
import proofs.«122264_j82798379533062_2_alg».proof.Proof.Asm
import proofs.«122264_j82798379533062_2_alg».proof.Proof.Spec

set_option maxRecDepth 16384

noncomputable section

namespace Cert.KernelIdeal.Asm

open Cert.KernelIdeal Cert.KernelIdeal.Gen
open Idealize.ShloMosaic Idealize.ShloMosaic.TcCoe
open Idealize.SL Idealize.SL.Sem
open Idealize.ShloMosaic.Pipeline (Dat Cfg)

section Bridge
variable (dat0 : VT Ideal → (c : Dev nD) → Dat τ (Elt Ideal) Unit ℕ (UR sig nD τ) ℕ cfg0 c) (dat1 : VT Ideal → (c : Dev nD) → Dat τ (Elt Ideal) Unit ℕ (UR sig nD τ) ℕ cfg1 c) (dat2 : VT Ideal → (c : Dev nD) → Dat τ (Elt Ideal) Unit ℕ (UR sig nD τ) ℕ cfg2 c) (dat3 : VT Ideal → (c : Dev nD) → Dat τ (Elt Ideal) Unit ℕ (UR sig nD τ) ℕ cfg3 c) (m : (ℓ : Loc nD τ sig) → Buf (Elt Ideal) ℓ)
variable (A0 : ∀ (V : VT Ideal) c w, (dat0 V c).A w = V c (Pipeline.arrRef spec0 w))
  (A1 : ∀ (V : VT Ideal) c w, (dat1 V c).A w = V c (Pipeline.arrRef spec1 w))
  (A2 : ∀ (V : VT Ideal) c w, (dat2 V c).A w = V c (Pipeline.arrRef spec2 w))
  (A3 : ∀ (V : VT Ideal) c w, (dat3 V c).A w = V c (Pipeline.arrRef spec3 w))
variable
  (val0h : ∀ (V : VT Ideal) c, ((dat0 V c).arrAt 8 cfg0.N : Spec.Arr2 64 128)
    = Spec.newH (Spec.gateZ (Spec.lstmIn (V c main_arg2) (V c main_arg5) (V c main_arg0) (V c main_arg6)) (V c main_arg9) (V c main_arg3) (V c main_arg10)) (V c main_arg4))
  (val0c : ∀ (V : VT Ideal) c, ((dat0 V c).arrAt 9 cfg0.N : Spec.Arr2 64 128)
    = Spec.newCout (Spec.gateZ (Spec.lstmIn (V c main_arg2) (V c main_arg5) (V c main_arg0) (V c main_arg6)) (V c main_arg9) (V c main_arg3) (V c main_arg10)) (V c main_arg4))
  (val1 : ∀ (V : VT Ideal) c, ((dat1 V c).arrAt 4 cfg1.N : Spec.Arr2 64 256)
    = Spec.ctx (V c main_v0_0) (V c main_arg1) (V c main_arg11) (V c main_arg12))
  (val2r : ∀ (V : VT Ideal) c, ((dat2 V c).arrAt 4 cfg2.N : Spec.Arr2 64 32000)
    = Spec.rawExp (V c main_v0_0) (V c main_v1) (V c main_arg7) (V c main_arg8))
  (val2s : ∀ (V : VT Ideal) c, ((dat2 V c).arrAt 5 cfg2.N : Spec.Arr3 2 64 1)
    = Spec.halfSums (Spec.rawExp (V c main_v0_0) (V c main_v1) (V c main_arg7) (V c main_arg8)))
  (val3 : ∀ (V : VT Ideal) c, ((dat3 V c).arrAt 2 cfg3.N : Spec.Arr2 64 32000)
    = Spec.norm (V c main_v2_0) (V c main_v7))
  (host : ∀ (W : Valuation τ sig (Elt Ideal)), (StableHlo.after hostOps3 W (Proc.devRef .tc main_v7) : Spec.Arr2 64 1)
    = Spec.total (W (Proc.devRef .tc main_v2_1)))
include A0 A1 A2 A3 val0h val0c val1 val2r val2s val3 host

/-- An argument is at its launch contents when region 0 is entered (nothing has run). -/
theorem W0_arg (c : Dev nD) (b : Ref sig .tc) : ofVal (W0 m) c b = m ((c : Thread nD τ).loc b) := rfl

/-- After region 0 its first result holds the new hidden state. -/
theorem W1_h (c : Dev nD) : (W1 dat0 m c (Proc.devRef .tc main_v0_0) : Spec.Arr2 64 128) = Spec.stepH (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) := by
  have e : W1 dat0 m c (Proc.devRef .tc main_v0_0) = (dat0 (ofVal (W0 m)) c).arrAt 8 cfg0.N := by
    unfold W1; exact Pipeline.withArrays_arr spec0 launch0.win.arr_inj c _ _ 8
  rw [e, val0h]; rfl
/-- After region 0 its second result holds the clipped cell state. -/
theorem W1_c (c : Dev nD) : (W1 dat0 m c (Proc.devRef .tc main_v0_1) : Spec.Arr2 64 128) = Spec.stepCout (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) := by
  have e : W1 dat0 m c (Proc.devRef .tc main_v0_1) = (dat0 (ofVal (W0 m)) c).arrAt 9 cfg0.N := by
    unfold W1; exact Pipeline.withArrays_arr spec0 launch0.win.arr_inj c _ _ 9
  rw [e, val0c]; rfl

/-- An argument is at its launch contents when region 1 is entered. -/
theorem W1_arg (c : Dev nD) (b : Ref sig .tc) (hb : ∀ w, (cfg0.win w).isOut = true → Pipeline.arrRef cfg0.spec w ≠ b) :
    W1 dat0 m c (Proc.devRef .tc b) = m ((c : Thread nD τ).loc b) := W1_keep dat0 dat1 dat2 dat3 m A0 A1 A2 A3 c b hb
/-- An argument is at its launch contents when region 2 is entered. -/
theorem W2_arg (c : Dev nD) (b : Ref sig .tc) (h0 : ∀ w, (cfg0.win w).isOut = true → Pipeline.arrRef cfg0.spec w ≠ b)
    (h1 : ∀ w, (cfg1.win w).isOut = true → Pipeline.arrRef cfg1.spec w ≠ b) :
    W2 dat0 dat1 m c (Proc.devRef .tc b) = m ((c : Thread nD τ).loc b) :=
  (W2_keep dat0 dat1 dat2 dat3 m A0 A1 A2 A3 c b h1).trans (W1_keep dat0 dat1 dat2 dat3 m A0 A1 A2 A3 c b h0)

/-- After region 1 its result holds the attention context of the new hidden state. -/
theorem W2_ctx (c : Dev nD) : (W2 dat0 dat1 m c (Proc.devRef .tc main_v1) : Spec.Arr2 64 256) = Spec.stepCtx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg11)) (m ((c : Thread nD τ).loc main_arg12)) := by
  have e : W2 dat0 dat1 m c (Proc.devRef .tc main_v1) = (dat1 (ofVal (W1 dat0 m)) c).arrAt 4 cfg1.N := by
    unfold W2; exact Pipeline.withArrays_arr spec1 launch1.win.arr_inj c _ _ 4
  rw [e, val1]
  show Spec.ctx (W1 dat0 m c (Proc.devRef .tc main_v0_0)) (W1 dat0 m c (Proc.devRef .tc main_arg1))
      (W1 dat0 m c (Proc.devRef .tc main_arg11)) (W1 dat0 m c (Proc.devRef .tc main_arg12)) = _
  rw [W1_h dat0 dat1 dat2 dat3 m A0 A1 A2 A3 val0h val0c val1 val2r val2s val3 host c,
    W1_arg dat0 dat1 dat2 dat3 m A0 A1 A2 A3 val0h val0c val1 val2r val2s val3 host c main_arg1 (by decide),
    W1_arg dat0 dat1 dat2 dat3 m A0 A1 A2 A3 val0h val0c val1 val2r val2s val3 host c main_arg11 (by decide),
    W1_arg dat0 dat1 dat2 dat3 m A0 A1 A2 A3 val0h val0c val1 val2r val2s val3 host c main_arg12 (by decide)]
  rfl
/-- Region 1 keeps the new hidden state. -/
theorem W2_h (c : Dev nD) : (W2 dat0 dat1 m c (Proc.devRef .tc main_v0_0) : Spec.Arr2 64 128) = Spec.stepH (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) :=
  (W2_keep dat0 dat1 dat2 dat3 m A0 A1 A2 A3 c main_v0_0 (by decide)).trans (W1_h dat0 dat1 dat2 dat3 m A0 A1 A2 A3 val0h val0c val1 val2r val2s val3 host c)

/-- After region 2 its first result holds the exponentiated logits. -/
theorem W3_raw (c : Dev nD) : (W3 dat0 dat1 dat2 m c (Proc.devRef .tc main_v2_0) : Spec.Arr2 64 32000) = Spec.stepRaw (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have e : W3 dat0 dat1 dat2 m c (Proc.devRef .tc main_v2_0) = (dat2 (ofVal (W2 dat0 dat1 m)) c).arrAt 4 cfg2.N := by
    unfold W3; exact Pipeline.withArrays_arr spec2 launch2.win.arr_inj c _ _ 4
  rw [e, val2r]
  show Spec.rawExp (W2 dat0 dat1 m c (Proc.devRef .tc main_v0_0)) (W2 dat0 dat1 m c (Proc.devRef .tc main_v1))
      (W2 dat0 dat1 m c (Proc.devRef .tc main_arg7)) (W2 dat0 dat1 m c (Proc.devRef .tc main_arg8)) = _
  rw [W2_h dat0 dat1 dat2 dat3 m A0 A1 A2 A3 val0h val0c val1 val2r val2s val3 host c, W2_ctx dat0 dat1 dat2 dat3 m A0 A1 A2 A3 val0h val0c val1 val2r val2s val3 host c,
    W2_arg dat0 dat1 dat2 dat3 m A0 A1 A2 A3 val0h val0c val1 val2r val2s val3 host c main_arg7 (by decide) (by decide),
    W2_arg dat0 dat1 dat2 dat3 m A0 A1 A2 A3 val0h val0c val1 val2r val2s val3 host c main_arg8 (by decide) (by decide)]
  rfl
/-- After region 2 its second result holds the two half sums of the exponentiated logits. -/
theorem W3_halves (c : Dev nD) : (W3 dat0 dat1 dat2 m c (Proc.devRef .tc main_v2_1) : Spec.Arr3 2 64 1)
    = Spec.halfSums (Spec.stepRaw (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) := by
  have e : W3 dat0 dat1 dat2 m c (Proc.devRef .tc main_v2_1) = (dat2 (ofVal (W2 dat0 dat1 m)) c).arrAt 5 cfg2.N := by
    unfold W3; exact Pipeline.withArrays_arr spec2 launch2.win.arr_inj c _ _ 5
  rw [e, val2s]
  show Spec.halfSums (Spec.rawExp (W2 dat0 dat1 m c (Proc.devRef .tc main_v0_0)) (W2 dat0 dat1 m c (Proc.devRef .tc main_v1))
      (W2 dat0 dat1 m c (Proc.devRef .tc main_arg7)) (W2 dat0 dat1 m c (Proc.devRef .tc main_arg8))) = _
  rw [W2_h dat0 dat1 dat2 dat3 m A0 A1 A2 A3 val0h val0c val1 val2r val2s val3 host c, W2_ctx dat0 dat1 dat2 dat3 m A0 A1 A2 A3 val0h val0c val1 val2r val2s val3 host c,
    W2_arg dat0 dat1 dat2 dat3 m A0 A1 A2 A3 val0h val0c val1 val2r val2s val3 host c main_arg7 (by decide) (by decide),
    W2_arg dat0 dat1 dat2 dat3 m A0 A1 A2 A3 val0h val0c val1 val2r val2s val3 host c main_arg8 (by decide) (by decide)]
  rfl

/-- THE FIRST RESULT: what region 3's write-backs leave is the specification's output distribution. -/
theorem out0 (c : Dev nD) : ((dat3 (ofVal (W4 dat0 dat1 dat2 m)) c).arrAt 2 cfg3.N : Spec.Arr2 64 32000) = Spec.stepOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [val3]
  show Spec.norm (W4 dat0 dat1 dat2 m c (Proc.devRef .tc main_v2_0)) (StableHlo.after hostOps3 (W3 dat0 dat1 dat2 m c) (Proc.devRef .tc main_v7)) = _
  rw [W4_keep dat0 dat1 dat2 dat3 m A0 A1 A2 A3 c main_v2_0 (by decide), host, W3_raw dat0 dat1 dat2 dat3 m A0 A1 A2 A3 val0h val0c val1 val2r val2s val3 host c,
    W3_halves dat0 dat1 dat2 dat3 m A0 A1 A2 A3 val0h val0c val1 val2r val2s val3 host c]
  rfl
/-- THE SECOND RESULT: the attention context. -/
theorem out1 (c : Dev nD) : ((dat1 (ofVal (W1 dat0 m)) c).arrAt 4 cfg1.N : Spec.Arr2 64 256) = Spec.stepCtx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg11)) (m ((c : Thread nD τ).loc main_arg12)) := by
  have e : W2 dat0 dat1 m c (Proc.devRef .tc main_v1) = (dat1 (ofVal (W1 dat0 m)) c).arrAt 4 cfg1.N := by
    unfold W2; exact Pipeline.withArrays_arr spec1 launch1.win.arr_inj c _ _ 4
  rw [← e]; exact W2_ctx dat0 dat1 dat2 dat3 m A0 A1 A2 A3 val0h val0c val1 val2r val2s val3 host c
/-- THE THIRD RESULT: the new hidden state. -/
theorem out2 (c : Dev nD) : ((dat0 (ofVal (W0 m)) c).arrAt 8 cfg0.N : Spec.Arr2 64 128) = Spec.stepH (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) := by
  rw [val0h]; rfl
/-- THE FOURTH RESULT: the clipped cell state. -/
theorem out3 (c : Dev nD) : ((dat0 (ofVal (W0 m)) c).arrAt 9 cfg0.N : Spec.Arr2 64 128) = Spec.stepCout (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) := by
  rw [val0c]; rfl

end Bridge

end Cert.KernelIdeal.Asm

end
-- ==== Proof.LibBlockedSum.lean ====
import Mathlib.Algebra.BigOperators.Fin
import Mathlib.Algebra.BigOperators.Intervals

/-!
# Sums over a long axis, taken block by block

A contraction over an axis of length `nb * tk` can be taken in `nb` consecutive blocks of `tk` terms, the partial
sums added one after the other into a running total. In a commutative additive monoid — the extended reals among
them, where `+` is associative and commutative although it does not cancel — the running total after the last
block is the starting value plus the whole sum. Nothing here needs the terms to be finite.
-/

namespace BlockedSum

open Finset

variable {M : Type*} [AddCommMonoid M]

/-- A sum over `nb * tk` consecutive terms is the sum, over the `nb` blocks, of each block's `tk` terms:
    term `k = b * tk + j` is the `j`-th term of block `b`. -/
theorem sum_range_mul (f : ℕ → M) (nb tk : ℕ) :
    ∑ k ∈ range (nb * tk), f k = ∑ b ∈ range nb, ∑ j ∈ range tk, f (b * tk + j) := by
  induction nb with
  | zero => simp
  | succ n ih =>
    rw [Nat.succ_mul, sum_range_add, ih, sum_range_succ]

/-- The same over `Fin`: the index types a contraction over a literal extent is written with. -/
theorem sum_fin_mul (f : ℕ → M) (nb tk : ℕ) :
    ∑ k : Fin (nb * tk), f k.val = ∑ b : Fin nb, ∑ j : Fin tk, f (b.val * tk + j.val) := by
  rw [Fin.sum_univ_eq_sum_range (fun k => f k) (nb * tk), sum_range_mul,
    ← Fin.sum_univ_eq_sum_range (fun b => ∑ j ∈ range tk, f (b * tk + j)) nb]
  refine sum_congr rfl fun b _ => ?_
  rw [← Fin.sum_univ_eq_sum_range (fun j => f (b.val * tk + j)) tk]

/-- A running total that starts at `a₀` and takes one more term at each step holds, after `n` steps, `a₀` plus the
    first `n` terms. -/
theorem running_total (acc : ℕ → M) (d : ℕ → M) (a₀ : M) (h0 : acc 0 = a₀) (hs : ∀ b, acc (b + 1) = acc b + d b) (n : ℕ) :
    acc n = a₀ + ∑ b ∈ range n, d b := by
  induction n with
  | zero => simp [h0]
  | succ n ih => rw [hs, ih, sum_range_succ, add_assoc]

/-- Accumulating a contraction block by block: starting from `a₀` and adding, at step `b`, the partial sum of block
    `b`, the total after all `nb` blocks is `a₀` plus the whole contraction. -/
theorem accumulate_blocks (acc : ℕ → M) (f : ℕ → M) (a₀ : M) (nb tk : ℕ) (h0 : acc 0 = a₀)
    (hs : ∀ b, acc (b + 1) = acc b + ∑ j ∈ range tk, f (b * tk + j)) :
    acc nb = a₀ + ∑ k ∈ range (nb * tk), f k := by
  rw [running_total acc _ a₀ h0 hs nb, sum_range_mul]

end BlockedSum
-- ==== Proof.LibPlainProduct.lean ====
import Idealize.ShloMosaic.Lib.StackMember
import Idealize.ShloMosaic.Lib.IdealHost
import Idealize.ShloMosaic.Lib.Pipeline.Value

/-!
# Plain matrix products, a transpose, and the logistic function spelled out, read at an index over the extended reals

A dot-dimensions record that contracts the first operand's second axis with the second operand's first axis and has
no batch axis is the plain product of an `m × k` by a `k × n` matrix, whatever proof of well-formedness it carries.
For such a record the host's `dot_general` at `(a, b)` is the sum over the contracted coordinate `c` of
`A (a, c) * B (c, b)`, and a kernel's `matmul` into an accumulator is the accumulator's entry plus that sum. A transposed
matrix at `(a, b)` is the matrix at `(b, a)`. And the reference's expansion of the logistic function into negate,
exponential, add and divide, with its two ones broadcast from a scalar constant, is `Ideal.logistic` of the element.
-/

namespace PlainProduct

open Idealize.ShloMosaic Idealize.ShloMosaic.ValueIdx

/-- The host's product, for any record that is the plain one. -/
theorem dotGeneral_at {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    Host.dotGeneral d prec A B (ix2 a b) = ∑ c : Fin k, A (ix2 a c) * B (ix2 c b) := by
  subst hd
  exact StackMember.dotGeneral_plain_apply prec A B a b

/-- A kernel's product into an accumulator, for any record that is the plain one: the accumulator's entry plus the
    sum. -/
theorem matmul_at {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (acc : FVec Ideal ⟨2, ![m, n]⟩ .f32) (a : Fin m) (b : Fin n) :
    matmul d prec A B acc (ix2 a b) = acc (ix2 a b) + ∑ c : Fin k, A (ix2 a c) * B (ix2 c b) := by
  have h := dotGeneral_at d hd prec A B a b
  show FloatOps.matmul d prec A B acc (ix2 a b) = _
  rw [Ideal.matmul_apply]
  refine congrArg (acc (ix2 a b) + ·) ?_
  rw [← h]
  show _ = FloatOps.dotGeneral d prec _ A B (ix2 a b)
  rw [Ideal.dotGeneral_apply]

/-- The reference's logistic function, spelled `1 / (1 + exp (-s))` with the ones broadcast from the scalar constant
    `1.0`, is the logistic function of the element. -/
theorem logistic_spelled_at {T : Shape} (h : (⟨0, ![]⟩ : Shape).BroadcastsInDim T ![]) (s : FVec Ideal T .f32) (i : T.Idx) :
    Host.divf (broadcastInDim T ![] h (constant (F := Ideal) ⟨0, ![]⟩ .f32 0x3F800000#32))
      (addf (broadcastInDim T ![] h (constant (F := Ideal) ⟨0, ![]⟩ .f32 0x3F800000#32)) (Host.exp (Host.negf s))) i
      = Ideal.logistic (s i) := by
  rw [hostDivf_apply, addf_apply, broadcastInDim_scalar_apply, constant_apply, Ideal.ofBits_one_f32]
  rfl

end PlainProduct
-- ==== Proof.Pay0.lean ====
import proofs.«122264_j82798379533062_2_alg».proof.Proof.Gen.KernelIdeal.Skeleton
import proofs.«122264_j82798379533062_2_alg».proof.Proof.Spec
import proofs.«122264_j82798379533062_2_alg».proof.Proof.LibPlainProduct
import proofs.«122264_j82798379533062_2_alg».proof.Proof.LibBlockedSum
import Idealize.ShloMosaic.Lib.ValueIdx
import Idealize.ShloMosaic.Lib.Pipeline.Value
import Idealize.ShloMosaic.PureOps.Ideal.Laws

/-! # The first kernel's payloads over the extended reals, read at an index

The first kernel accumulates the product of the previous character's one-hot row block with the embedding matrix
over five tiles of 6400 columns, then, at the last tile, runs one LSTM cell step on the accumulated product. Over the
extended reals the narrowing casts to bf16 are the identity, a product into a zero accumulator is the plain sum over
the contracted axis, and the gate slices read the four 128-column blocks of the pre-activations. Each payload is read
here at an index and identified with the corresponding stage of the specification. -/

set_option maxRecDepth 16384

noncomputable section

open scoped BigOperators

namespace Cert.KernelIdeal.Pay0

open Cert.KernelIdeal Cert.KernelIdeal.Gen
open Idealize.ShloMosaic Idealize.ShloMosaic.ValueIdx
open Cert.Spec (Arr2 colI colF colG colO)

/-! ## The accumulator: zeroed, then one tile's product added at each point -/

/-- The zero fill: every entry is the real number zero. -/
theorem pay1 : (k0_pay1 (F := Ideal) : Arr2 64 64) = fun _ => 0 := by
  unfold k0_pay1
  show shapeCast S64x64 (broadcast S64x64 (Scalar.ofBits (F := Ideal) .f32 0x00000000#32)) shapeCasts_S64x64_S64x64 = _
  rw [shapeCast_self]
  funext i
  rw [broadcast_apply]
  exact Ideal.ofBits_zero_f32

/-- One tile's step: the accumulator's entry plus the tile's 6400-term product. -/
theorem pay2_apply (v3 : Vec Ideal S64x64 .f32) (v4 : Vec Ideal S64x6400 .f32) (v6 : Vec Ideal S6400x64 .f32) (b e : Fin 64) :
    k0_pay2 v3 v4 v6 (ix2 b e) = v3 (ix2 b e) + ∑ k : Fin 6400, v4 (ix2 b k) * v6 (ix2 k e) := by
  have hm := PlainProduct.matmul_at (m := 64) (k := 6400) (n := 64) dot_S64x6400_S6400x64_S64x64_1_0_0_1_n_n rfl none
    (truncf .bf16 v4 bitsLt_bf16_f32) (truncf .bf16 v6 bitsLt_bf16_f32) (constant (F := Ideal) S64x64 .f32 0x00000000#32) b e
  rw [constant_apply, Ideal.ofBits_zero_f32, zero_add] at hm
  unfold k0_pay2
  show shapeCast S64x64 (addf v3 (matmul dot_S64x6400_S6400x64_S64x64_1_0_0_1_n_n none (truncf .bf16 v4 bitsLt_bf16_f32)
    (truncf .bf16 v6 bitsLt_bf16_f32) (constant (F := Ideal) S64x64 .f32 0x00000000#32))) shapeCasts_S64x64_S64x64 (ix2 b e) = _
  rw [shapeCast_self, addf_apply, hm]
  rfl

/-- Five tiles make the whole contraction: a running total that starts at zero and adds, at step t, the products of
    columns t·6400 … t·6400 + 6399, holds after five steps the sum over all 32000 columns. Addition of extended
    reals is associative and commutative, which is all the regrouping needs. -/
theorem tiles (pc : Arr2 64 32000) (Wc : Arr2 32000 64) (acc : ℕ → Arr2 64 64) (h0 : acc 0 = fun _ => 0)
    (hs : ∀ (t : ℕ) (ht : t < 5) (b e : Fin 64), acc (t + 1) (ix2 b e) = acc t (ix2 b e)
      + ∑ k : Fin 6400, pc (ix2 b ⟨t * 6400 + k.val, by have := k.isLt; omega⟩) * Wc (ix2 ⟨t * 6400 + k.val, by have := k.isLt; omega⟩ e))
    (b e : Fin 64) : acc 5 (ix2 b e) = ∑ v : Fin 32000, pc (ix2 b v) * Wc (ix2 v e) := by
  classical
  let f : ℕ → EReal := fun n => if h : n < 32000 then pc (ix2 b ⟨n, h⟩) * Wc (ix2 ⟨n, h⟩ e) else 0
  have hf : ∀ (t : ℕ) (ht : t < 5) (k : Fin 6400), f (t * 6400 + k.val)
      = pc (ix2 b ⟨t * 6400 + k.val, by have := k.isLt; omega⟩) * Wc (ix2 ⟨t * 6400 + k.val, by have := k.isLt; omega⟩ e) :=
    fun t ht k => dif_pos (by have := k.isLt; omega)
  have run : ∀ n, n ≤ 5 → acc n (ix2 b e) = ∑ t ∈ Finset.range n, ∑ j : Fin 6400, f (t * 6400 + j.val) := by
    intro n
    induction n with
    | zero => intro _; rw [h0]; simp
    | succ n ih =>
      intro hn
      rw [hs n (by omega) b e, ih (by omega), Finset.sum_range_succ]
      exact congrArg _ (Finset.sum_congr rfl fun k _ => (hf n (by omega) k).symm)
  rw [run 5 le_rfl, ← Fin.sum_univ_eq_sum_range (fun t => ∑ j : Fin 6400, f (t * 6400 + j.val)) 5, ← BlockedSum.sum_fin_mul f 5 6400]
  show ∑ k : Fin 32000, f k.val = _
  exact Finset.sum_congr rfl fun v _ => dif_pos v.isLt

/-! ## The cell step at the last tile -/

/-- The cell's input from the accumulated product: the product's entry plus the previous context vector's embedding. -/
def li (v16 : Arr2 64 64) (v17 : Arr2 64 256) (v19 : Arr2 256 64) : Arr2 64 64 :=
  fun i => v16 i + ∑ k : Fin 256, v17 (ix2 (i 0) k) * v19 (ix2 k (i 1))

theorem li_apply (v16 : Arr2 64 64) (v17 : Arr2 64 256) (v19 : Arr2 256 64) (b e : Fin 64) :
    li v16 v17 v19 (ix2 b e) = v16 (ix2 b e) + ∑ k : Fin 256, v17 (ix2 b k) * v19 (ix2 k e) := rfl

/-- When the accumulated product is the whole contraction, the cell's input is the specification's. -/
theorem li_eq_lstmIn (pc : Arr2 64 32000) (Wc : Arr2 32000 64) (v16 : Arr2 64 64) (pcv : Arr2 64 256) (Wct1 : Arr2 256 64)
    (h16 : ∀ b e : Fin 64, v16 (ix2 b e) = ∑ v : Fin 32000, pc (ix2 b v) * Wc (ix2 v e)) :
    li v16 pcv Wct1 = Cert.Spec.lstmIn pc Wc pcv Wct1 := by
  funext i
  obtain ⟨b, e, rfl⟩ : ∃ (b e : Fin 64), i = ix2 b e := ⟨i 0, i 1, eq_ix2 i⟩
  rw [li_apply, Cert.Spec.lstmIn_apply, h16]

/-- The four gates' pre-activations: the specification's, at the cell's input. -/
theorem pay3_apply (v16 : Vec Ideal S64x64 .f32) (v17 : Vec Ideal S64x256 .f32) (v19 : Vec Ideal S256x64 .f32) (v24 : Vec Ideal S64x512 .f32)
    (v27 : Vec Ideal S64x128 .f32) (v29 : Vec Ideal S128x512 .f32) (b : Fin 64) (j : Fin 512) :
    k0_pay3 v16 v17 v19 v24 v27 v29 (ix2 b j) = Cert.Spec.gateZ (li v16 v17 v19) v24 v27 v29 (ix2 b j) := by
  have h2 : ∀ e : Fin 64, matmul dot_S64x256_S256x64_S64x64_1_0_0_1_n_n none (truncf .bf16 v17 bitsLt_bf16_f32) (truncf .bf16 v19 bitsLt_bf16_f32)
      (constant (F := Ideal) S64x64 .f32 0x00000000#32) (ix2 b e) = ∑ k : Fin 256, v17 (ix2 b k) * v19 (ix2 k e) := fun e => by
    have hm := PlainProduct.matmul_at (m := 64) (k := 256) (n := 64) dot_S64x256_S256x64_S64x64_1_0_0_1_n_n rfl none
      (truncf .bf16 v17 bitsLt_bf16_f32) (truncf .bf16 v19 bitsLt_bf16_f32) (constant (F := Ideal) S64x64 .f32 0x00000000#32) b e
    rw [constant_apply, Ideal.ofBits_zero_f32, zero_add] at hm
    exact hm
  have h3 := PlainProduct.matmul_at (m := 64) (k := 64) (n := 512) dot_S64x64_S64x512_S64x512_1_0_0_1_n_n rfl none
    (truncf .bf16 (addf v16 (matmul dot_S64x256_S256x64_S64x64_1_0_0_1_n_n none (truncf .bf16 v17 bitsLt_bf16_f32) (truncf .bf16 v19 bitsLt_bf16_f32)
      (constant (F := Ideal) S64x64 .f32 0x00000000#32))) bitsLt_bf16_f32)
    (truncf .bf16 v24 bitsLt_bf16_f32) (constant (F := Ideal) S64x512 .f32 0x00000000#32) b j
  have h4 := PlainProduct.matmul_at (m := 64) (k := 128) (n := 512) dot_S64x128_S128x512_S64x512_1_0_0_1_n_n rfl none
    (truncf .bf16 v27 bitsLt_bf16_f32) (truncf .bf16 v29 bitsLt_bf16_f32) (constant (F := Ideal) S64x512 .f32 0x00000000#32) b j
  rw [constant_apply, Ideal.ofBits_zero_f32, zero_add] at h3 h4
  unfold k0_pay3
  show addf (matmul dot_S64x64_S64x512_S64x512_1_0_0_1_n_n none
      (truncf .bf16 (addf v16 (matmul dot_S64x256_S256x64_S64x64_1_0_0_1_n_n none (truncf .bf16 v17 bitsLt_bf16_f32) (truncf .bf16 v19 bitsLt_bf16_f32)
        (constant (F := Ideal) S64x64 .f32 0x00000000#32))) bitsLt_bf16_f32)
      (truncf .bf16 v24 bitsLt_bf16_f32) (constant (F := Ideal) S64x512 .f32 0x00000000#32))
    (matmul dot_S64x128_S128x512_S64x512_1_0_0_1_n_n none (truncf .bf16 v27 bitsLt_bf16_f32) (truncf .bf16 v29 bitsLt_bf16_f32)
      (constant (F := Ideal) S64x512 .f32 0x00000000#32)) (ix2 b j) = _
  rw [addf_apply, h3, h4, Cert.Spec.gateZ_apply]
  refine congrArg₂ (· + ·) (Finset.sum_congr rfl fun e _ => ?_) rfl
  refine congrArg (· * v24 (ix2 e j)) ?_
  show v16 (ix2 b e) + matmul dot_S64x256_S256x64_S64x64_1_0_0_1_n_n none (truncf .bf16 v17 bitsLt_bf16_f32) (truncf .bf16 v19 bitsLt_bf16_f32)
      (constant (F := Ideal) S64x64 .f32 0x00000000#32) (ix2 b e) = _
  rw [h2 e, li_apply]

/-- The same, as functions. -/
theorem pay3_eq (v16 : Vec Ideal S64x64 .f32) (v17 : Vec Ideal S64x256 .f32) (v19 : Vec Ideal S256x64 .f32) (v24 : Vec Ideal S64x512 .f32)
    (v27 : Vec Ideal S64x128 .f32) (v29 : Vec Ideal S128x512 .f32) :
    (k0_pay3 v16 v17 v19 v24 v27 v29 : Arr2 64 512) = Cert.Spec.gateZ (li v16 v17 v19) v24 v27 v29 := by
  funext i
  obtain ⟨b, j, rfl⟩ : ∃ (b : Fin 64) (j : Fin 512), i = ix2 b j := ⟨i 0, i 1, eq_ix2 i⟩
  exact pay3_apply v16 v17 v19 v24 v27 v29 b j

/-- The four gate slices of a [64, 512] array at (b, l): its columns l, 128 + l, 256 + l, 384 + l of row b. -/
theorem slices_apply (z : Arr2 64 512) (b : Fin 64) (l : Fin 128) :
    extractStridedSlice S64x128 ![0, 0] z slices_S64x512_o0_0_S64x128 (ix2 b l) = z (ix2 b (colI l))
    ∧ extractStridedSlice S64x128 ![0, 128] z slices_S64x512_o0_128_S64x128 (ix2 b l) = z (ix2 b (colF l))
    ∧ extractStridedSlice S64x128 ![0, 256] z slices_S64x512_o0_256_S64x128 (ix2 b l) = z (ix2 b (colG l))
    ∧ extractStridedSlice S64x128 ![0, 384] z slices_S64x512_o0_384_S64x128 (ix2 b l) = z (ix2 b (colO l)) := by
  refine ⟨?_, ?_, ?_, ?_⟩
  · exact extractStridedSlice_apply ![0, 0] z slices_S64x512_o0_0_S64x128 (ix2 b l) (ix2 b (colI l)) fun a => by
      match a with
      | ⟨0, _⟩ => show b.val = 0 + b.val; omega
      | ⟨1, _⟩ => show l.val = 0 + l.val; omega
  · exact extractStridedSlice_apply ![0, 128] z slices_S64x512_o0_128_S64x128 (ix2 b l) (ix2 b (colF l)) fun a => by
      match a with
      | ⟨0, _⟩ => show b.val = 0 + b.val; omega
      | ⟨1, _⟩ => show 128 + l.val = 128 + l.val; rfl
  · exact extractStridedSlice_apply ![0, 256] z slices_S64x512_o0_256_S64x128 (ix2 b l) (ix2 b (colG l)) fun a => by
      match a with
      | ⟨0, _⟩ => show b.val = 0 + b.val; omega
      | ⟨1, _⟩ => show 256 + l.val = 256 + l.val; rfl
  · exact extractStridedSlice_apply ![0, 384] z slices_S64x512_o0_384_S64x128 (ix2 b l) (ix2 b (colO l)) fun a => by
      match a with
      | ⟨0, _⟩ => show b.val = 0 + b.val; omega
      | ⟨1, _⟩ => show 384 + l.val = 384 + l.val; rfl

/-- The new cell state before clipping: the specification's. -/
theorem pay4_apply (v16 : Vec Ideal S64x64 .f32) (v17 : Vec Ideal S64x256 .f32) (v19 : Vec Ideal S256x64 .f32) (v24 : Vec Ideal S64x512 .f32)
    (v27 : Vec Ideal S64x128 .f32) (v29 : Vec Ideal S128x512 .f32) (v41 : Vec Ideal S64x128 .f32) (b : Fin 64) (l : Fin 128) :
    k0_pay4 v16 v17 v19 v24 v27 v29 v41 (ix2 b l) = Cert.Spec.newC (Cert.Spec.gateZ (li v16 v17 v19) v24 v27 v29) v41 (ix2 b l) := by
  obtain ⟨sI, sF, sG, -⟩ := slices_apply (Cert.Spec.gateZ (li v16 v17 v19) v24 v27 v29) b l
  unfold k0_pay4
  rw [pay3_eq]
  show Ideal.logistic (extractStridedSlice S64x128 ![0, 128] (Cert.Spec.gateZ (li v16 v17 v19) v24 v27 v29) slices_S64x512_o0_128_S64x128 (ix2 b l)) * v41 (ix2 b l)
      + Ideal.logistic (extractStridedSlice S64x128 ![0, 0] (Cert.Spec.gateZ (li v16 v17 v19) v24 v27 v29) slices_S64x512_o0_0_S64x128 (ix2 b l))
        * Ideal.tanh (extractStridedSlice S64x128 ![0, 256] (Cert.Spec.gateZ (li v16 v17 v19) v24 v27 v29) slices_S64x512_o0_256_S64x128 (ix2 b l)) = _
  rw [sI, sF, sG, Cert.Spec.newC_apply]

/-- The new hidden state, pointwise: the specification's. -/
theorem pay5_apply (v16 : Vec Ideal S64x64 .f32) (v17 : Vec Ideal S64x256 .f32) (v19 : Vec Ideal S256x64 .f32) (v24 : Vec Ideal S64x512 .f32)
    (v27 : Vec Ideal S64x128 .f32) (v29 : Vec Ideal S128x512 .f32) (v41 : Vec Ideal S64x128 .f32) (b : Fin 64) (l : Fin 128) :
    k0_pay5 v16 v17 v19 v24 v27 v29 v41 (ix2 b l) = Cert.Spec.newH (Cert.Spec.gateZ (li v16 v17 v19) v24 v27 v29) v41 (ix2 b l) := by
  obtain ⟨-, -, -, sO⟩ := slices_apply (Cert.Spec.gateZ (li v16 v17 v19) v24 v27 v29) b l
  unfold k0_pay5
  rw [pay3_eq]
  show Ideal.logistic (extractStridedSlice S64x128 ![0, 384] (Cert.Spec.gateZ (li v16 v17 v19) v24 v27 v29) slices_S64x512_o0_384_S64x128 (ix2 b l))
      * Ideal.tanh (k0_pay4 v16 v17 v19 v24 v27 v29 v41 (ix2 b l)) = _
  rw [sO, pay4_apply, Cert.Spec.newH_apply]

/-- The new hidden state, as functions. -/
theorem pay5 (v16 : Vec Ideal S64x64 .f32) (v17 : Vec Ideal S64x256 .f32) (v19 : Vec Ideal S256x64 .f32) (v24 : Vec Ideal S64x512 .f32)
    (v27 : Vec Ideal S64x128 .f32) (v29 : Vec Ideal S128x512 .f32) (v41 : Vec Ideal S64x128 .f32) :
    (k0_pay5 v16 v17 v19 v24 v27 v29 v41 : Arr2 64 128) = Cert.Spec.newH (Cert.Spec.gateZ (li v16 v17 v19) v24 v27 v29) v41 := by
  funext i
  obtain ⟨b, l, rfl⟩ : ∃ (b : Fin 64) (l : Fin 128), i = ix2 b l := ⟨i 0, i 1, eq_ix2 i⟩
  exact pay5_apply v16 v17 v19 v24 v27 v29 v41 b l

/-- The returned cell state, pointwise: the new cell state clipped into [−10, 10], the specification's. -/
theorem pay6_apply (v16 : Vec Ideal S64x64 .f32) (v17 : Vec Ideal S64x256 .f32) (v19 : Vec Ideal S256x64 .f32) (v24 : Vec Ideal S64x512 .f32)
    (v27 : Vec Ideal S64x128 .f32) (v29 : Vec Ideal S128x512 .f32) (v41 : Vec Ideal S64x128 .f32) (b : Fin 64) (l : Fin 128) :
    k0_pay6 v16 v17 v19 v24 v27 v29 v41 (ix2 b l) = Cert.Spec.newCout (Cert.Spec.gateZ (li v16 v17 v19) v24 v27 v29) v41 (ix2 b l) := by
  unfold k0_pay6
  show min (Ideal.ofBits .f32 0x41200000#32) (max (Ideal.ofBits .f32 0xC1200000#32) (k0_pay4 v16 v17 v19 v24 v27 v29 v41 (ix2 b l))) = _
  rw [pay4_apply, Cert.Spec.newCout_apply]

/-- The returned cell state, as functions. -/
theorem pay6 (v16 : Vec Ideal S64x64 .f32) (v17 : Vec Ideal S64x256 .f32) (v19 : Vec Ideal S256x64 .f32) (v24 : Vec Ideal S64x512 .f32)
    (v27 : Vec Ideal S64x128 .f32) (v29 : Vec Ideal S128x512 .f32) (v41 : Vec Ideal S64x128 .f32) :
    (k0_pay6 v16 v17 v19 v24 v27 v29 v41 : Arr2 64 128) = Cert.Spec.newCout (Cert.Spec.gateZ (li v16 v17 v19) v24 v27 v29) v41 := by
  funext i
  obtain ⟨b, l, rfl⟩ : ∃ (b : Fin 64) (l : Fin 128), i = ix2 b l := ⟨i 0, i 1, eq_ix2 i⟩
  exact pay6_apply v16 v17 v19 v24 v27 v29 v41 b l

end Cert.KernelIdeal.Pay0

end
-- ==== Proof.R0v.lean ====
import proofs.«122264_j82798379533062_2_alg».proof.Proof.R0
import Idealize.ShloMosaic.Lib.ValueIdx
import proofs.«122264_j82798379533062_2_alg».proof.Proof.LibBlockedSum
import proofs.«122264_j82798379533062_2_alg».proof.Proof.Pay0
set_option maxRecDepth 16384
noncomputable section
namespace Cert.KernelIdeal.R0
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
variable {F : FTy → Type} [FloatOps F]
local notation "𝕄" => MT nD τ sig Unit (Elt F) ℕ (UR sig nD τ) ℕ
-- the TensorCore's buffer contents when the region is entered: a parameter
variable (V : (c : Dev nD) → (b : Ref sig .tc) → Buf (Elt F) ((c : Thread nD τ).loc b))

/-- The last point is a point of the grid. -/
theorem h4 : 4 < cfg0.N := by rw [show cfg0.N = 5 from N_0]; decide

/-- What the last point leaves in output window 8's buffer, as contents of its array (the one block is the array). -/
abbrev res8 (c : Dev nD) : Buf (Elt F) ((c : Thread nD τ).loc main_v0_0) :=
  k0_pay5 (scr V c 4 h4) (iblk V c 2 t0_4) (iblk V c 3 t0_4) (iblk V c 6 t0_4) (iblk V c 4 t0_4) (iblk V c 7 t0_4) (iblk V c 5 t0_4)

/-- The one write-back, at the last point, writes it: block (0, 0) of the array read through zero offsets is the array. -/
theorem flushed8_eq (c : Dev nD) (t : Fin cfg0.N) (hf : (cfg0.win 8).flush t = true) :
    (dat V c).flushed 8 t = ((cfg0.win 8).blk t).view.read (Elt F) (res8 V c) := by
  have hN : cfg0.N = 5 := N_0
  have h4' : t.val = 4 := by have := (flush0_8 t).mp hf; have := t.isLt; omega
  obtain rfl : t = t0_4 := Fin.ext h4'
  show (cfg0.win 8).cut (grid0.coords t0_4) ((dat V c).after 8 t0_4) = _
  rw [after0_8]
  have hz' : (fun a => win0_8.index t0_4 a * main_v0_0.ty.shape.size a) = fun _ => 0 := funext fun a => by fin_cases a <;> decide +kernel
  exact (Memref.read_access_unit_zero (Elt F) main_v0_0 hz' (fun a => by rw [congrFun hz' a]; simp) (res8 V c)).symm

/-- So the array ends holding it: the last point's block covers the array. -/
theorem final8 (c : Dev nD) : (dat V c).arrAt 8 cfg0.N = res8 V c :=
  (dat V c).arrAt_eq_of_cover 8 (res8 V c) (flushed8_eq V c) fun i =>
    ⟨t0_4, (flush0_8 t0_4).mpr rfl, by
      show i ∈ ((View.whole main_v0_0).slice (win0_8.rect t0_4)).set
      rw [View.set_slice_whole, Rect.mem_set_unit]
      intro a
      have h0 : (i 0 : Nat) < 64 := (i 0).isLt
      have h1 : (i 1 : Nat) < 128 := (i 1).isLt
      match a with
      | ⟨0, _⟩ => show win0_8.index t0_4 0 * win0_8.size 0 ≤ (i 0 : Nat) ∧ (i 0 : Nat) < win0_8.index t0_4 0 * win0_8.size 0 + win0_8.xsize (grid0.coords t0_4) 0
                  rw [show win0_8.index t0_4 0 * win0_8.size 0 = 0 from by decide +kernel, show win0_8.xsize (grid0.coords t0_4) 0 = 64 from by decide +kernel]; omega
      | ⟨1, _⟩ => show win0_8.index t0_4 1 * win0_8.size 1 ≤ (i 1 : Nat) ∧ (i 1 : Nat) < win0_8.index t0_4 1 * win0_8.size 1 + win0_8.xsize (grid0.coords t0_4) 1
                  rw [show win0_8.index t0_4 1 * win0_8.size 1 = 0 from by decide +kernel, show win0_8.xsize (grid0.coords t0_4) 1 = 128 from by decide +kernel]; omega⟩

/-- What the last point leaves in output window 9's buffer, as contents of its array (the one block is the array). -/
abbrev res9 (c : Dev nD) : Buf (Elt F) ((c : Thread nD τ).loc main_v0_1) :=
  k0_pay6 (scr V c 4 h4) (iblk V c 2 t0_4) (iblk V c 3 t0_4) (iblk V c 6 t0_4) (iblk V c 4 t0_4) (iblk V c 7 t0_4) (iblk V c 5 t0_4)

/-- The one write-back, at the last point, writes it: block (0, 0) of the array read through zero offsets is the array. -/
theorem flushed9_eq (c : Dev nD) (t : Fin cfg0.N) (hf : (cfg0.win 9).flush t = true) :
    (dat V c).flushed 9 t = ((cfg0.win 9).blk t).view.read (Elt F) (res9 V c) := by
  have hN : cfg0.N = 5 := N_0
  have h4' : t.val = 4 := by have := (flush0_9 t).mp hf; have := t.isLt; omega
  obtain rfl : t = t0_4 := Fin.ext h4'
  show (cfg0.win 9).cut (grid0.coords t0_4) ((dat V c).after 9 t0_4) = _
  rw [after0_9]
  have hz' : (fun a => win0_9.index t0_4 a * main_v0_1.ty.shape.size a) = fun _ => 0 := funext fun a => by fin_cases a <;> decide +kernel
  exact (Memref.read_access_unit_zero (Elt F) main_v0_1 hz' (fun a => by rw [congrFun hz' a]; simp) (res9 V c)).symm

/-- So the array ends holding it: the last point's block covers the array. -/
theorem final9 (c : Dev nD) : (dat V c).arrAt 9 cfg0.N = res9 V c :=
  (dat V c).arrAt_eq_of_cover 9 (res9 V c) (flushed9_eq V c) fun i =>
    ⟨t0_4, (flush0_9 t0_4).mpr rfl, by
      show i ∈ ((View.whole main_v0_1).slice (win0_9.rect t0_4)).set
      rw [View.set_slice_whole, Rect.mem_set_unit]
      intro a
      have h0 : (i 0 : Nat) < 64 := (i 0).isLt
      have h1 : (i 1 : Nat) < 128 := (i 1).isLt
      match a with
      | ⟨0, _⟩ => show win0_9.index t0_4 0 * win0_9.size 0 ≤ (i 0 : Nat) ∧ (i 0 : Nat) < win0_9.index t0_4 0 * win0_9.size 0 + win0_9.xsize (grid0.coords t0_4) 0
                  rw [show win0_9.index t0_4 0 * win0_9.size 0 = 0 from by decide +kernel, show win0_9.xsize (grid0.coords t0_4) 0 = 64 from by decide +kernel]; omega
      | ⟨1, _⟩ => show win0_9.index t0_4 1 * win0_9.size 1 ≤ (i 1 : Nat) ∧ (i 1 : Nat) < win0_9.index t0_4 1 * win0_9.size 1 + win0_9.xsize (grid0.coords t0_4) 1
                  rw [show win0_9.index t0_4 1 * win0_9.size 1 = 0 from by decide +kernel, show win0_9.xsize (grid0.coords t0_4) 1 = 128 from by decide +kernel]; omega⟩

/-! ## The input blocks as pieces of the arrays -/

/-- Window 2's block is its whole array at every point. -/
theorem iblk2_eq (c : Dev nD) (t : Fin cfg0.N) : (iblk V c 2 t : Vec F S64x256 .f32) = V c main_arg0 := by
  unfold iblk
  have hz' : (fun a => win0_2.index t a * main_arg0.ty.shape.size a) = fun _ => 0 :=
    funext fun a => by rcases fin_N0 t with rfl | rfl | rfl | rfl | rfl <;> fin_cases a <;> decide +kernel
  exact Memref.read_access_unit_zero (Elt F) main_arg0 hz' (fun a => by rw [congrFun hz' a]; simp) (V c main_arg0)

/-- Window 3's block is its whole array at every point. -/
theorem iblk3_eq (c : Dev nD) (t : Fin cfg0.N) : (iblk V c 3 t : Vec F S256x64 .f32) = V c main_arg6 := by
  unfold iblk
  have hz' : (fun a => win0_3.index t a * main_arg6.ty.shape.size a) = fun _ => 0 :=
    funext fun a => by rcases fin_N0 t with rfl | rfl | rfl | rfl | rfl <;> fin_cases a <;> decide +kernel
  exact Memref.read_access_unit_zero (Elt F) main_arg6 hz' (fun a => by rw [congrFun hz' a]; simp) (V c main_arg6)

/-- Window 4's block is its whole array at every point. -/
theorem iblk4_eq (c : Dev nD) (t : Fin cfg0.N) : (iblk V c 4 t : Vec F S64x128 .f32) = V c main_arg3 := by
  unfold iblk
  have hz' : (fun a => win0_4.index t a * main_arg3.ty.shape.size a) = fun _ => 0 :=
    funext fun a => by rcases fin_N0 t with rfl | rfl | rfl | rfl | rfl <;> fin_cases a <;> decide +kernel
  exact Memref.read_access_unit_zero (Elt F) main_arg3 hz' (fun a => by rw [congrFun hz' a]; simp) (V c main_arg3)

/-- Window 5's block is its whole array at every point. -/
theorem iblk5_eq (c : Dev nD) (t : Fin cfg0.N) : (iblk V c 5 t : Vec F S64x128 .f32) = V c main_arg4 := by
  unfold iblk
  have hz' : (fun a => win0_5.index t a * main_arg4.ty.shape.size a) = fun _ => 0 :=
    funext fun a => by rcases fin_N0 t with rfl | rfl | rfl | rfl | rfl <;> fin_cases a <;> decide +kernel
  exact Memref.read_access_unit_zero (Elt F) main_arg4 hz' (fun a => by rw [congrFun hz' a]; simp) (V c main_arg4)

/-- Window 6's block is its whole array at every point. -/
theorem iblk6_eq (c : Dev nD) (t : Fin cfg0.N) : (iblk V c 6 t : Vec F S64x512 .f32) = V c main_arg9 := by
  unfold iblk
  have hz' : (fun a => win0_6.index t a * main_arg9.ty.shape.size a) = fun _ => 0 :=
    funext fun a => by rcases fin_N0 t with rfl | rfl | rfl | rfl | rfl <;> fin_cases a <;> decide +kernel
  exact Memref.read_access_unit_zero (Elt F) main_arg9 hz' (fun a => by rw [congrFun hz' a]; simp) (V c main_arg9)

/-- Window 7's block is its whole array at every point. -/
theorem iblk7_eq (c : Dev nD) (t : Fin cfg0.N) : (iblk V c 7 t : Vec F S128x512 .f32) = V c main_arg10 := by
  unfold iblk
  have hz' : (fun a => win0_7.index t a * main_arg10.ty.shape.size a) = fun _ => 0 :=
    funext fun a => by rcases fin_N0 t with rfl | rfl | rfl | rfl | rfl <;> fin_cases a <;> decide +kernel
  exact Memref.read_access_unit_zero (Elt F) main_arg10 hz' (fun a => by rw [congrFun hz' a]; simp) (V c main_arg10)

/-- Window 0's block at point `t` is columns `6400 t … 6400 t + 6399` of its array. -/
theorem iblk0_apply (c : Dev nD) (t : Fin cfg0.N) (b : Fin 64) (j : Fin 6400) :
    (iblk V c 0 t : Vec F S64x6400 .f32) (ix2 b j)
      = V c main_arg2 (ix2 b (⟨t.val * 6400 + j.val, by have := t.isLt; have : cfg0.N = 5 := N_0; have := j.isLt; omega⟩ : Fin 32000)) := by
  have hi : win0_0.index t 0 = 0 ∧ win0_0.index t 1 = t.val := by
    rcases fin_N0 t with rfl | rfl | rfl | rfl | rfl <;> decide +kernel
  unfold iblk
  rw [View.read_apply]
  show V c main_arg2 _ = V c main_arg2 _
  congr 1
  funext a
  apply Fin.ext
  match a with
  | ⟨0, _⟩ => show win0_0.index t 0 * 64 + 1 * b.val = b.val; rw [hi.1]; omega
  | ⟨1, _⟩ => show win0_0.index t 1 * 6400 + 1 * j.val = t.val * 6400 + j.val; rw [hi.2]; omega

/-- Window 1's block at point `t` is rows `6400 t … 6400 t + 6399` of its array. -/
theorem iblk1_apply (c : Dev nD) (t : Fin cfg0.N) (k : Fin 6400) (e : Fin 64) :
    (iblk V c 1 t : Vec F S6400x64 .f32) (ix2 k e)
      = V c main_arg5 (ix2 (⟨t.val * 6400 + k.val, by have := t.isLt; have : cfg0.N = 5 := N_0; have := k.isLt; omega⟩ : Fin 32000) e) := by
  have hi : win0_1.index t 0 = t.val ∧ win0_1.index t 1 = 0 := by
    rcases fin_N0 t with rfl | rfl | rfl | rfl | rfl <;> decide +kernel
  unfold iblk
  rw [View.read_apply]
  show V c main_arg5 _ = V c main_arg5 _
  congr 1
  funext a
  apply Fin.ext
  match a with
  | ⟨0, _⟩ => show win0_1.index t 0 * 6400 + 1 * k.val = t.val * 6400 + k.val; rw [hi.1]; omega
  | ⟨1, _⟩ => show win0_1.index t 1 * 64 + 1 * e.val = e.val; rw [hi.2]; omega

/-! ## The accumulator after the last point, unrolled -/

/-- Five tile products added one after the other onto the zero fill. -/
theorem scr4_eq (c : Dev nD) :
    scr V c 4 h4 = k0_pay2 (k0_pay2 (k0_pay2 (k0_pay2 (k0_pay2 k0_pay1 (iblk V c 0 t0_0) (iblk V c 1 t0_0))
      (iblk V c 0 t0_1) (iblk V c 1 t0_1)) (iblk V c 0 t0_2) (iblk V c 1 t0_2)) (iblk V c 0 t0_3) (iblk V c 1 t0_3))
      (iblk V c 0 t0_4) (iblk V c 1 t0_4) := rfl

/-- The two results over the whole input arrays. -/
theorem final8_whole (c : Dev nD) : (dat V c).arrAt 8 cfg0.N
    = k0_pay5 (scr V c 4 h4) (V c main_arg0) (V c main_arg6) (V c main_arg9) (V c main_arg3) (V c main_arg10) (V c main_arg4) := by
  rw [final8]; unfold res8; rw [iblk2_eq, iblk3_eq, iblk4_eq, iblk5_eq, iblk6_eq, iblk7_eq]
theorem final9_whole (c : Dev nD) : (dat V c).arrAt 9 cfg0.N
    = k0_pay6 (scr V c 4 h4) (V c main_arg0) (V c main_arg6) (V c main_arg9) (V c main_arg3) (V c main_arg10) (V c main_arg4) := by
  rw [final9]; unfold res9; rw [iblk2_eq, iblk3_eq, iblk4_eq, iblk5_eq, iblk6_eq, iblk7_eq]

/-! ## At the ideal instance: the accumulator is the sum over the long axis -/

section AtIdeal
open scoped BigOperators
variable (W : (c : Dev nD) → (b : Ref sig .tc) → Buf (Elt Ideal) ((c : Thread nD τ).loc b))

/-- The two operands of the sum over the long axis, as arrays of extended reals. -/
abbrev pcA (c : Dev nD) : (⟨2, ![64, 32000]⟩ : Shape).Idx → EReal := W c main_arg2
abbrev WcA (c : Dev nD) : (⟨2, ![32000, 64]⟩ : Shape).Idx → EReal := W c main_arg5

/-- One term of the sum over the 32000 columns, as a function of the position along that axis (zero past
    its end, where nothing reads it). -/
def term (c : Dev nD) (b e : Fin 64) (n : ℕ) : EReal :=
  if h : n < 32000 then pcA W c (ix2 b (⟨n, h⟩ : Fin 32000)) * WcA W c (ix2 (⟨n, h⟩ : Fin 32000) e) else 0

theorem term_of_lt (c : Dev nD) (b e : Fin 64) (n : ℕ) (hn : n < 32000) :
    term W c b e n = pcA W c (ix2 b (⟨n, hn⟩ : Fin 32000)) * WcA W c (ix2 (⟨n, hn⟩ : Fin 32000) e) := by
  unfold term; rw [dif_pos hn]

/-- The accumulator after the last point, at an entry: the five tiles' sums, added in order onto zero, are
    the whole sum over the 32000 columns (addition of extended reals is associative and commutative). Stated over the
    two facts about one point's stored values: the fill is zero, and a point adds its tile's sum. -/
theorem scr4_apply
    (hpay1 : ∀ (b e : Fin 64), (k0_pay1 (F := Ideal)) (ix2 b e) = 0)
    (hpay2 : ∀ (v3 : Vec Ideal S64x64 .f32) (v4 : Vec Ideal S64x6400 .f32) (v6 : Vec Ideal S6400x64 .f32) (b e : Fin 64),
      k0_pay2 v3 v4 v6 (ix2 b e) = v3 (ix2 b e) + ∑ k : Fin 6400, v4 (ix2 b k) * v6 (ix2 k e))
    (c : Dev nD) (b e : Fin 64) :
    scr W c 4 h4 (ix2 b e) = ∑ v : Fin 32000, pcA W c (ix2 b v) * WcA W c (ix2 v e) := by
  rw [scr4_eq]
  simp only [hpay2, hpay1, iblk0_apply, iblk1_apply, zero_add]
  have hR : (∑ v : Fin 32000, pcA W c (ix2 b v) * WcA W c (ix2 v e)) = ∑ k : Fin (5 * 6400), term W c b e k.val :=
    Finset.sum_congr rfl fun v _ => (term_of_lt W c b e v.val v.isLt).symm
  rw [hR, BlockedSum.sum_fin_mul (term W c b e) 5 6400, Fin.sum_univ_five]
  refine congrArg₂ (· + ·) (congrArg₂ (· + ·) (congrArg₂ (· + ·) (congrArg₂ (· + ·) ?_ ?_) ?_) ?_) ?_ <;>
    exact Finset.sum_congr rfl fun k _ => (term_of_lt W c b e _ _).symm

end AtIdeal

/-! ## The region's two results against the specification -/

section AgainstSpec
open scoped BigOperators
variable (W : (c : Dev nD) → (b : Ref sig .tc) → Buf (Elt Ideal) ((c : Thread nD τ).loc b))

/-- The other input arrays of the region, as arrays of extended reals. -/
abbrev pcvA (c : Dev nD) : Cert.Spec.Arr2 64 256 := W c main_arg0
abbrev Wct1A (c : Dev nD) : Cert.Spec.Arr2 256 64 := W c main_arg6
abbrev hstA (c : Dev nD) : Cert.Spec.Arr2 64 128 := W c main_arg3
abbrev cstA (c : Dev nD) : Cert.Spec.Arr2 64 128 := W c main_arg4
abbrev lkA (c : Dev nD) : Cert.Spec.Arr2 64 512 := W c main_arg9
abbrev lrA (c : Dev nD) : Cert.Spec.Arr2 128 512 := W c main_arg10

/-- The accumulator after the last point is the product of the two long operands, entry by entry. -/
theorem scr4_sum (c : Dev nD) (b e : Fin 64) :
    scr W c 4 h4 (ix2 b e) = ∑ v : Fin 32000, pcA W c (ix2 b v) * WcA W c (ix2 v e) :=
  scr4_apply W (fun b e => congrFun Cert.KernelIdeal.Pay0.pay1 (ix2 b e)) Cert.KernelIdeal.Pay0.pay2_apply c b e

/-- The gate pre-activations the last point computes are the specification's. -/
theorem li_scr4 (c : Dev nD) :
    Cert.KernelIdeal.Pay0.li (scr W c 4 h4) (pcvA W c) (Wct1A W c) = Cert.Spec.lstmIn (pcA W c) (WcA W c) (pcvA W c) (Wct1A W c) :=
  Cert.KernelIdeal.Pay0.li_eq_lstmIn (pcA W c) (WcA W c) (scr W c 4 h4) (pcvA W c) (Wct1A W c) (scr4_sum W c)

/-- After the region the first result array holds the new hidden state of the specification, -/
theorem arrAt8_eq (c : Dev nD) :
    ((dat W c).arrAt 8 cfg0.N : Cert.Spec.Arr2 64 128)
      = Cert.Spec.newH (Cert.Spec.gateZ (Cert.Spec.lstmIn (pcA W c) (WcA W c) (pcvA W c) (Wct1A W c)) (lkA W c) (hstA W c) (lrA W c)) (cstA W c) := by
  rw [final8_whole]
  exact (Cert.KernelIdeal.Pay0.pay5 (scr W c 4 h4) (pcvA W c) (Wct1A W c) (lkA W c) (hstA W c) (lrA W c) (cstA W c)).trans (by rw [li_scr4])

/-- and the second the clipped new cell state. -/
theorem arrAt9_eq (c : Dev nD) :
    ((dat W c).arrAt 9 cfg0.N : Cert.Spec.Arr2 64 128)
      = Cert.Spec.newCout (Cert.Spec.gateZ (Cert.Spec.lstmIn (pcA W c) (WcA W c) (pcvA W c) (Wct1A W c)) (lkA W c) (hstA W c) (lrA W c)) (cstA W c) := by
  rw [final9_whole]
  exact (Cert.KernelIdeal.Pay0.pay6 (scr W c 4 h4) (pcvA W c) (Wct1A W c) (lkA W c) (hstA W c) (lrA W c) (cstA W c)).trans (by rw [li_scr4])

end AgainstSpec

end Cert.KernelIdeal.R0
end
-- ==== Proof.R1v.lean ====
import proofs.«122264_j82798379533062_2_alg».proof.Proof.R1
import proofs.«122264_j82798379533062_2_alg».proof.Proof.Spec
import proofs.«122264_j82798379533062_2_alg».proof.Proof.LibPlainProduct
import proofs.«122264_j82798379533062_2_alg».proof.Proof.LibBlockedSum
import Idealize.ShloMosaic.Lib.Pipeline.Value
import Idealize.ShloMosaic.Lib.ValueIdx
import Idealize.ShloMosaic.PureOps.Ideal.Laws
set_option maxRecDepth 16384
noncomputable section
namespace Cert.KernelIdeal.R1v
open Cert.KernelIdeal Cert.KernelIdeal.Gen Cert.KernelIdeal.R1
open Idealize.ShloMosaic Idealize.ShloMosaic.TcCoe Idealize.ShloMosaic.ValueIdx
open Idealize.SL Idealize.SL.Sem
open Idealize.ShloMosaic.Pipeline (Dat Cfg Window)
open scoped BigOperators

/-! ## The payloads read at an index, over the extended reals -/

/-- The zero an accumulator is reset to. -/
theorem pay2_apply (i : S32x256.Idx) : (k1_pay2 (F := Ideal)) i = 0 := by
  unfold k1_pay2
  rw [shapeCast_self]
  exact Ideal.ofBits_zero_f32
theorem pay3_apply (i : S32x256.Idx) : (k1_pay3 (F := Ideal)) i = 0 := by
  unfold k1_pay3
  rw [shapeCast_self]
  exact Ideal.ofBits_zero_f32

/-- The stored quotient. -/
theorem pay1_apply (a s : Vec Ideal S32x256 .f32) (i : S32x256.Idx) : k1_pay1 a s i = Ideal.div (a i) (s i) := rfl

/-- The weight of one (row, time, channel) entry of a tile: the exponential of the attention vector's entry times the
    hyperbolic tangent of the transformed state plus the feature. -/
theorem pay4_apply (x1 : Vec Ideal S32x128 .f32) (x2 : Vec Ideal S128x256 .f32) (x0 : Vec Ideal S32x128x256 .f32)
    (x3 : Vec Ideal S1x1x256 .f32) (r : Fin 32) (j : Fin 128) (ch : Fin 256) :
    k1_pay4 x1 x2 x0 x3 (ix3 r j ch)
      = Ideal.exp (x3 (ix3 (0 : Fin 1) (0 : Fin 1) ch) * Ideal.tanh ((∑ l : Fin 128, x1 (ix2 r l) * x2 (ix2 l ch)) + x0 (ix3 r j ch))) := by
  unfold k1_pay4
  show Ideal.exp (_ * Ideal.tanh (_ + x0 (ix3 r j ch))) = _
  refine congrArg Ideal.exp (congrArg₂ (· * ·) ?_ (congrArg Ideal.tanh (congrArg (· + x0 (ix3 r j ch)) ?_)))
  · exact broadcastTo_apply _ _ (ix3 r j ch) (ix3 (0 : Fin 1) (0 : Fin 1) ch)
      (fun a => match a with | ⟨0, _⟩ => rfl | ⟨1, _⟩ => rfl | ⟨2, _⟩ => rfl)
  · refine (broadcastTo_apply _ _ (ix3 r j ch) (ix3 r (0 : Fin 1) ch)
      (fun a => match a with | ⟨0, _⟩ => rfl | ⟨1, _⟩ => rfl | ⟨2, _⟩ => rfl)).trans ?_
    refine (shapeCast_apply _ _ (ix3 r (0 : Fin 1) ch) (ix2 r ch) ?_).trans ?_
    · rw [Shape.rowMajor_val_two, Shape.rowMajor_val_three]
      show r.val * 256 + ch.val = (r.val * 1 + 0) * 256 + ch.val
      omega
    refine (PlainProduct.matmul_at _ rfl none _ _ _ r ch).trans ?_
    rw [constant_apply, Ideal.ofBits_zero_f32, zero_add]
    refine Finset.sum_congr rfl fun l _ => ?_
    rw [truncf_apply, truncf_apply, shapeCast_self]

/-- The weight-sum accumulator's step: this tile's weights, summed over the tile's times, added in. -/
theorem pay5_apply (x1 : Vec Ideal S32x128 .f32) (x2 : Vec Ideal S128x256 .f32) (x0 : Vec Ideal S32x128x256 .f32)
    (x3 : Vec Ideal S1x1x256 .f32) (s : Vec Ideal S32x256 .f32) (r : Fin 32) (ch : Fin 256) :
    k1_pay5 x1 x2 x0 x3 s (ix2 r ch) = s (ix2 r ch) + ∑ j : Fin 128, k1_pay4 x1 x2 x0 x3 (ix3 r j ch) := by
  unfold k1_pay5
  rw [shapeCast_self]
  show s (ix2 r ch) + _ = _
  refine congrArg (s (ix2 r ch) + ·) ?_
  refine (Ideal.multiReduction_add_single (k1_pay4 x1 x2 x0 x3) 0x00000000#32 reduces_S32x128x256_S32x256 (.inl rfl) rfl (ix2 r ch)).trans ?_
  refine Finset.sum_congr rfl fun j _ => congrArg _ ?_
  funext a
  match a with
  | ⟨0, _⟩ => rfl
  | ⟨1, _⟩ => rfl
  | ⟨2, _⟩ => rfl

/-- The weighted-sum accumulator's step: this tile's weights times its features, summed over the tile's times, added in. -/
theorem pay6_apply (x1 : Vec Ideal S32x128 .f32) (x2 : Vec Ideal S128x256 .f32) (x0 : Vec Ideal S32x128x256 .f32)
    (x3 : Vec Ideal S1x1x256 .f32) (a : Vec Ideal S32x256 .f32) (r : Fin 32) (ch : Fin 256) :
    k1_pay6 x1 x2 x0 x3 a (ix2 r ch)
      = a (ix2 r ch) + ∑ j : Fin 128, k1_pay4 x1 x2 x0 x3 (ix3 r j ch) * x0 (ix3 r j ch) := by
  unfold k1_pay6
  rw [shapeCast_self]
  show a (ix2 r ch) + _ = _
  refine congrArg (a (ix2 r ch) + ·) ?_
  refine (Ideal.multiReduction_add_single (mulf (k1_pay4 x1 x2 x0 x3) x0) 0x00000000#32 reduces_S32x128x256_S32x256 (.inl rfl) rfl (ix2 r ch)).trans ?_
  refine Finset.sum_congr rfl fun j _ => ?_
  rw [mulf_apply]
  have e : reduces_S32x128x256_S32x256.lift (ix2 r ch) j = ix3 r j ch := by
    funext a
    match a with
    | ⟨0, _⟩ => rfl
    | ⟨1, _⟩ => rfl
    | ⟨2, _⟩ => rfl
  rw [e]
  rfl

/-! ## The windows' blocks read at an index -/

variable (V : (c : Dev nD) → (b : Ref sig .tc) → Buf (Elt Ideal) ((c : Thread nD τ).loc b))

theorem lt16 (t : Fin cfg1.N) : t.val < 16 := lt_of_lt_of_eq t.isLt (show cfg1.N = 16 from N_1)

/-- The batch row of block row `r` at point `t`: the point's batch half, then the row. -/
def rowOf (t : Fin cfg1.N) (r : Fin 32) : Fin 64 :=
  ⟨(t.val / 8) * 32 + r.val, by have := lt16 t; have := r.isLt; omega⟩
/-- The time of tile time `j` at point `t`: the point's time tile, then the offset. -/
def timeOf (t : Fin cfg1.N) (j : Fin 128) : Fin 1024 :=
  ⟨(t.val % 8) * 128 + j.val, by have := j.isLt; omega⟩

/-- The windows' block indices, decided over the grid. -/
theorem idx0 : ∀ t : Fin cfg1.N, win1_0.index t 0 = t.val / 8 ∧ win1_0.index t 1 = t.val % 8 ∧ win1_0.index t 2 = 0 :=
  (by decide +kernel : ∀ t : Fin grid1.N, win1_0.index t 0 = t.val / 8 ∧ win1_0.index t 1 = t.val % 8 ∧ win1_0.index t 2 = 0)
theorem idx1 : ∀ t : Fin cfg1.N, win1_1.index t 0 = t.val / 8 ∧ win1_1.index t 1 = 0 :=
  (by decide +kernel : ∀ t : Fin grid1.N, win1_1.index t 0 = t.val / 8 ∧ win1_1.index t 1 = 0)
theorem idx2 : ∀ t : Fin cfg1.N, win1_2.index t 0 = 0 ∧ win1_2.index t 1 = 0 :=
  (by decide +kernel : ∀ t : Fin grid1.N, win1_2.index t 0 = 0 ∧ win1_2.index t 1 = 0)
theorem idx3 : ∀ t : Fin cfg1.N, win1_3.index t 0 = 0 ∧ win1_3.index t 1 = 0 ∧ win1_3.index t 2 = 0 :=
  (by decide +kernel : ∀ t : Fin grid1.N, win1_3.index t 0 = 0 ∧ win1_3.index t 1 = 0 ∧ win1_3.index t 2 = 0)
theorem idx4 : ∀ t : Fin cfg1.N, win1_4.index t 0 = t.val / 8 ∧ win1_4.index t 1 = 0 :=
  (by decide +kernel : ∀ t : Fin grid1.N, win1_4.index t 0 = t.val / 8 ∧ win1_4.index t 1 = 0)

/-- The feature tile at a point is the features at the point's batch half and time tile. -/
theorem iblk0_apply (c : Dev nD) (t : Fin cfg1.N) (r : Fin 32) (j : Fin 128) (ch : Fin 256) :
    (iblk V c 0 t : Vec Ideal S32x128x256 .f32) (ix3 r j ch) = V c main_arg1 (ix3 (rowOf t r) (timeOf t j) ch) := by
  obtain ⟨h0, h1, h2⟩ := idx0 t
  unfold iblk
  rw [View.read_apply]
  show V c main_arg1 _ = V c main_arg1 _
  refine congrArg (V c main_arg1) ?_
  funext a
  apply Fin.ext
  match a with
  | ⟨0, _⟩ => show win1_0.index t 0 * 32 + 1 * r.val = (t.val / 8) * 32 + r.val; rw [h0]; omega
  | ⟨1, _⟩ => show win1_0.index t 1 * 128 + 1 * j.val = (t.val % 8) * 128 + j.val; rw [h1]; omega
  | ⟨2, _⟩ => show win1_0.index t 2 * 256 + 1 * ch.val = ch.val; rw [h2]; omega

/-- The state block at a point is the state at the point's batch half. -/
theorem iblk1_apply (c : Dev nD) (t : Fin cfg1.N) (r : Fin 32) (l : Fin 128) :
    (iblk V c 1 t : Vec Ideal S32x128 .f32) (ix2 r l) = V c main_v0_0 (ix2 (rowOf t r) l) := by
  obtain ⟨h0, h1⟩ := idx1 t
  unfold iblk
  rw [View.read_apply]
  show V c main_v0_0 _ = V c main_v0_0 _
  refine congrArg (V c main_v0_0) ?_
  funext a
  apply Fin.ext
  match a with
  | ⟨0, _⟩ => show win1_1.index t 0 * 32 + 1 * r.val = (t.val / 8) * 32 + r.val; rw [h0]; omega
  | ⟨1, _⟩ => show win1_1.index t 1 * 128 + 1 * l.val = l.val; rw [h1]; omega

/-- The transform's block is the whole transform, -/
theorem iblk2_apply (c : Dev nD) (t : Fin cfg1.N) (l : Fin 128) (ch : Fin 256) :
    (iblk V c 2 t : Vec Ideal S128x256 .f32) (ix2 l ch) = V c main_arg11 (ix2 l ch) := by
  obtain ⟨h0, h1⟩ := idx2 t
  unfold iblk
  rw [View.read_apply]
  show V c main_arg11 _ = V c main_arg11 _
  refine congrArg (V c main_arg11) ?_
  funext a
  apply Fin.ext
  match a with
  | ⟨0, _⟩ => show win1_2.index t 0 * 128 + 1 * l.val = l.val; rw [h0]; omega
  | ⟨1, _⟩ => show win1_2.index t 1 * 256 + 1 * ch.val = ch.val; rw [h1]; omega

/-- and the attention vector's the whole vector. -/
theorem iblk3_apply (c : Dev nD) (t : Fin cfg1.N) (ch : Fin 256) :
    (iblk V c 3 t : Vec Ideal S1x1x256 .f32) (ix3 (0 : Fin 1) (0 : Fin 1) ch) = V c main_arg12 (ix3 (0 : Fin 1) (0 : Fin 1) ch) := by
  obtain ⟨h0, h1, h2⟩ := idx3 t
  unfold iblk
  rw [View.read_apply]
  show V c main_arg12 _ = V c main_arg12 _
  refine congrArg (V c main_arg12) ?_
  funext a
  apply Fin.ext
  match a with
  | ⟨0, _⟩ => show win1_3.index t 0 * 1 + 1 * 0 = 0; rw [h0]
  | ⟨1, _⟩ => show win1_3.index t 1 * 1 + 1 * 0 = 0; rw [h1]
  | ⟨2, _⟩ => show win1_3.index t 2 * 256 + 1 * ch.val = ch.val; rw [h2]; omega

/-! ## The accumulators as sums over the points of a run -/

/-- Point `n`'s term of the weighted sum at block entry `(r, ch)`: over the tile's times, the weight times the feature. -/
def addA (c : Dev nD) (n : ℕ) (p : Fin 32 × Fin 256) : EReal :=
  if h : n < cfg1.N then
    ∑ j : Fin 128, k1_pay4 (iblk V c 1 ⟨n, h⟩) (iblk V c 2 ⟨n, h⟩) (iblk V c 0 ⟨n, h⟩) (iblk V c 3 ⟨n, h⟩) (ix3 p.1 j p.2)
      * (iblk V c 0 ⟨n, h⟩ : Vec Ideal S32x128x256 .f32) (ix3 p.1 j p.2)
  else 0

/-- Point `n`'s term of the weight sum at block entry `(r, ch)`: over the tile's times, the weight. -/
def addS (c : Dev nD) (n : ℕ) (p : Fin 32 × Fin 256) : EReal :=
  if h : n < cfg1.N then
    ∑ j : Fin 128, k1_pay4 (iblk V c 1 ⟨n, h⟩) (iblk V c 2 ⟨n, h⟩) (iblk V c 0 ⟨n, h⟩) (iblk V c 3 ⟨n, h⟩) (ix3 p.1 j p.2)
  else 0

/-- The weighted-sum accumulator after point `t`: zero plus the terms of the run's points up to `t`. -/
theorem accA_eq (c : Dev nD) (t : Fin cfg1.N) (p : Fin 32 × Fin 256) :
    (scr V c t.val t.isLt).1 (ix2 p.1 p.2) = 0 + ∑ s ∈ Finset.range (t.val % 8 + 1), addA V c (8 * (t.val / 8) + s) p := by
  have h' : 8 * (t.val / 8) + t.val % 8 < cfg1.N := by rw [Nat.div_add_mod]; exact t.isLt
  have e1 := Pipeline.eq_accAt_of_mod (N := cfg1.N) (fun n h (p : Fin 32 × Fin 256) => (scr V c n h).1 (ix2 p.1 p.2)) 8
      (fun n h p => 0 + addA V c n p) (fun n h acc p => acc p + addA V c n p)
      (fun n h hn => by
        funext p
        refine (congrFun (congrArg Prod.fst (scr_first V c ⟨n, h⟩ hn)) (ix2 p.1 p.2)).trans ?_
        dsimp only
        rw [pay6_apply, pay2_apply]
        unfold addA; rw [dif_pos h])
      (fun n h hn => by
        funext p
        refine (congrFun (congrArg Prod.fst (if_neg hn : scr V c (n + 1) h = _)) (ix2 p.1 p.2)).trans ?_
        dsimp only
        rw [pay6_apply]
        unfold addA; rw [dif_pos h])
      (by decide) t.val t.isLt h'
  have e2 := Pipeline.accAt_add_apply (N := cfg1.N) (fun n h p => 0 + addA V c n p) (fun n h acc p => acc p + addA V c n p)
      (fun _ => 0) (addA V c) (8 * (t.val / 8)) (t.val % 8) (fun _ _ => rfl) (fun _ _ _ _ _ _ => rfl) (t.val % 8) le_rfl h' p
  exact (congrFun e1 p).trans e2

/-- The weight-sum accumulator after point `t`, likewise. -/
theorem accS_eq (c : Dev nD) (t : Fin cfg1.N) (p : Fin 32 × Fin 256) :
    (scr V c t.val t.isLt).2 (ix2 p.1 p.2) = 0 + ∑ s ∈ Finset.range (t.val % 8 + 1), addS V c (8 * (t.val / 8) + s) p := by
  have h' : 8 * (t.val / 8) + t.val % 8 < cfg1.N := by rw [Nat.div_add_mod]; exact t.isLt
  have e1 := Pipeline.eq_accAt_of_mod (N := cfg1.N) (fun n h (p : Fin 32 × Fin 256) => (scr V c n h).2 (ix2 p.1 p.2)) 8
      (fun n h p => 0 + addS V c n p) (fun n h acc p => acc p + addS V c n p)
      (fun n h hn => by
        funext p
        refine (congrFun (congrArg Prod.snd (scr_first V c ⟨n, h⟩ hn)) (ix2 p.1 p.2)).trans ?_
        dsimp only
        rw [pay5_apply, pay3_apply]
        unfold addS; rw [dif_pos h])
      (fun n h hn => by
        funext p
        refine (congrFun (congrArg Prod.snd (if_neg hn : scr V c (n + 1) h = _)) (ix2 p.1 p.2)).trans ?_
        dsimp only
        rw [pay5_apply]
        unfold addS; rw [dif_pos h])
      (by decide) t.val t.isLt h'
  have e2 := Pipeline.accAt_add_apply (N := cfg1.N) (fun n h p => 0 + addS V c n p) (fun n h acc p => acc p + addS V c n p)
      (fun _ => 0) (addS V c) (8 * (t.val / 8)) (t.val % 8) (fun _ _ => rfl) (fun _ _ _ _ _ _ => rfl) (t.val % 8) le_rfl h' p
  exact (congrFun e1 p).trans e2

/-! ## A point's terms over the arrays, and a run's terms as one sum over the times -/

/-- The transformed state at a point's block row, over the region's input arrays. -/
theorem hT_apply (c : Dev nD) (u : Fin cfg1.N) (r : Fin 32) (ch : Fin 256)
    (x1 : Vec Ideal S32x128 .f32) (x2 : Vec Ideal S128x256 .f32) (h1 : x1 = iblk V c 1 u) (h2 : x2 = iblk V c 2 u) :
    (∑ l : Fin 128, x1 (ix2 r l) * x2 (ix2 l ch)) = Spec.attnH (V c main_v0_0) (V c main_arg11) (rowOf u r) ch := by
  subst h1 h2
  unfold Spec.attnH
  exact Finset.sum_congr rfl fun l _ => by rw [iblk1_apply, iblk2_apply]

/-- Point `t`'s term of the weighted sum, over the region's input arrays: the run's batch row, the tile's times. -/
theorem addA_apply (c : Dev nD) (t : Fin cfg1.N) (r : Fin 32) (ch : Fin 256) :
    addA V c t.val (r, ch)
      = ∑ j : Fin 128, Spec.attnP (V c main_v0_0) (V c main_arg1) (V c main_arg11) (V c main_arg12) (rowOf t r) (timeOf t j) ch
          * V c main_arg1 (ix3 (rowOf t r) (timeOf t j) ch) := by
  unfold addA
  rw [dif_pos t.isLt]
  refine Finset.sum_congr rfl fun j _ => ?_
  dsimp only
  rw [pay4_apply, hT_apply V c _ r ch _ _ rfl rfl, iblk0_apply, iblk3_apply]
  rfl

/-- Point `t`'s term of the weight sum, likewise. -/
theorem addS_apply (c : Dev nD) (t : Fin cfg1.N) (r : Fin 32) (ch : Fin 256) :
    addS V c t.val (r, ch)
      = ∑ j : Fin 128, Spec.attnP (V c main_v0_0) (V c main_arg1) (V c main_arg11) (V c main_arg12) (rowOf t r) (timeOf t j) ch := by
  unfold addS
  rw [dif_pos t.isLt]
  refine Finset.sum_congr rfl fun j _ => ?_
  dsimp only
  rw [pay4_apply, hT_apply V c _ r ch _ _ rfl rfl, iblk0_apply, iblk3_apply]
  rfl

/-- A function of the 1024 times, extended by zero to every natural. -/
def ext (f : Fin 1024 → EReal) (k : ℕ) : EReal := if h : k < 1024 then f ⟨k, h⟩ else 0

/-- Eight tiles of 128 times are the 1024 times. -/
theorem sum_tiles (f : Fin 1024 → EReal) :
    ∑ s ∈ Finset.range 8, ∑ j : Fin 128, ext f (s * 128 + j.val) = ∑ k : Fin 1024, f k := by
  rw [← Fin.sum_univ_eq_sum_range (fun s => ∑ j : Fin 128, ext f (s * 128 + j.val)) 8]
  rw [← BlockedSum.sum_fin_mul (ext f) 8 128]
  show ∑ k : Fin 1024, ext f k.val = _
  refine Finset.sum_congr rfl fun k _ => ?_
  unfold ext; rw [dif_pos k.isLt]

/-- The points of the run that ends at `t`: the same batch rows, the time tiles in order. -/
theorem run_point (t : Fin cfg1.N) (h7 : t.val % 8 = 7) (s : ℕ) (hs : s < 8) :
    ∃ u : Fin cfg1.N, u.val = 8 * (t.val / 8) + s ∧ (∀ r, rowOf u r = rowOf t r)
      ∧ ∀ j : Fin 128, (timeOf u j).val = s * 128 + j.val := by
  have hN := lt16 t
  refine ⟨⟨8 * (t.val / 8) + s, Nat.lt_of_lt_of_eq (by omega : 8 * (t.val / 8) + s < 16) (show (16 : ℕ) = cfg1.N from N_1.symm)⟩, rfl, fun r => ?_, fun j => ?_⟩
  · apply Fin.ext
    show (8 * (t.val / 8) + s) / 8 * 32 + r.val = t.val / 8 * 32 + r.val
    have : (8 * (t.val / 8) + s) / 8 = t.val / 8 := by omega
    rw [this]
  · show (8 * (t.val / 8) + s) % 8 * 128 + j.val = s * 128 + j.val
    have : (8 * (t.val / 8) + s) % 8 = s := by omega
    rw [this]

/-- The weighted-sum accumulator after the last point of a run: the sum over all 1024 times. -/
theorem accA_last (c : Dev nD) (t : Fin cfg1.N) (h7 : t.val % 8 = 7) (r : Fin 32) (ch : Fin 256) :
    (scr V c t.val t.isLt).1 (ix2 r ch)
      = ∑ k : Fin 1024, Spec.attnP (V c main_v0_0) (V c main_arg1) (V c main_arg11) (V c main_arg12) (rowOf t r) k ch
          * V c main_arg1 (ix3 (rowOf t r) k ch) := by
  rw [show ix2 r ch = ix2 ((r, ch) : Fin 32 × Fin 256).1 ((r, ch) : Fin 32 × Fin 256).2 from rfl, accA_eq V c t (r, ch), h7, zero_add,
    ← sum_tiles]
  refine Finset.sum_congr rfl fun s hs => ?_
  obtain ⟨u, hu, hrow, htime⟩ := run_point t h7 s (Finset.mem_range.mp hs)
  rw [← hu, addA_apply V c u r ch]
  refine Finset.sum_congr rfl fun j _ => ?_
  have e : timeOf u j = ⟨s * 128 + j.val, by have := j.isLt; have := Finset.mem_range.mp hs; omega⟩ := Fin.ext (htime j)
  rw [hrow r, e]
  unfold ext; rw [dif_pos]

/-- The weight-sum accumulator after the last point of a run, likewise. -/
theorem accS_last (c : Dev nD) (t : Fin cfg1.N) (h7 : t.val % 8 = 7) (r : Fin 32) (ch : Fin 256) :
    (scr V c t.val t.isLt).2 (ix2 r ch)
      = ∑ k : Fin 1024, Spec.attnP (V c main_v0_0) (V c main_arg1) (V c main_arg11) (V c main_arg12) (rowOf t r) k ch := by
  rw [show ix2 r ch = ix2 ((r, ch) : Fin 32 × Fin 256).1 ((r, ch) : Fin 32 × Fin 256).2 from rfl, accS_eq V c t (r, ch), h7, zero_add,
    ← sum_tiles]
  refine Finset.sum_congr rfl fun s hs => ?_
  obtain ⟨u, hu, hrow, htime⟩ := run_point t h7 s (Finset.mem_range.mp hs)
  rw [← hu, addS_apply V c u r ch]
  refine Finset.sum_congr rfl fun j _ => ?_
  have e : timeOf u j = ⟨s * 128 + j.val, by have := j.isLt; have := Finset.mem_range.mp hs; omega⟩ := Fin.ext (htime j)
  rw [hrow r, e]
  unfold ext; rw [dif_pos]

/-! ## The result array -/

/-- The output's block at a point, read off a whole array: the point's batch half. -/
theorem read_blk4 (t : Fin cfg1.N) (G : Spec.Arr2 64 256) (r : Fin 32) (ch : Fin 256) :
    ((cfg1.win 4).blk t).view.read (Elt Ideal) G (ix2 r ch) = G (ix2 (rowOf t r) ch) := by
  obtain ⟨h0, h1⟩ := idx4 t
  rw [View.read_apply]
  show G _ = G _
  refine congrArg G ?_
  funext a
  apply Fin.ext
  match a with
  | ⟨0, _⟩ => show win1_4.index t 0 * 32 + 1 * r.val = (t.val / 8) * 32 + r.val; rw [h0]; omega
  | ⟨1, _⟩ => show win1_4.index t 1 * 256 + 1 * ch.val = ch.val; rw [h1]; omega

/-- What a point that writes the output back writes is its block of the attention context of the region's inputs. -/
theorem flushed_eq (c : Dev nD) (t : Fin cfg1.N) (hf : (cfg1.win 4).flush t = true) :
    (dat V c).flushed 4 t
      = ((cfg1.win 4).blk t).view.read (Elt Ideal) (Spec.ctx (V c main_v0_0) (V c main_arg1) (V c main_arg11) (V c main_arg12)) := by
  have h7 : t.val % 8 = 7 := (flush1_4 t).mp hf
  funext y
  obtain ⟨r, ch, rfl⟩ : ∃ (r : Fin 32) (ch : Fin 256), y = ix2 r ch := ⟨y 0, y 1, eq_ix2 y⟩
  rw [read_blk4, Spec.ctx_apply]
  show (dat V c).after 4 t (ix2 r ch) = _
  rw [after_4, pay1_apply, accA_last V c t h7, accS_last V c t h7]

/-- The output's blocks on the grid, decided. -/
theorem blk4_extent : ∀ t : Fin cfg1.N, win1_4.index t 0 * win1_4.size 0 = (t.val / 8) * 32 ∧ win1_4.xsize (grid1.coords t) 0 = 32
    ∧ win1_4.index t 1 * win1_4.size 1 = 0 ∧ win1_4.xsize (grid1.coords t) 1 = 256 :=
  (by decide +kernel : ∀ t : Fin grid1.N, win1_4.index t 0 * win1_4.size 0 = (t.val / 8) * 32 ∧ win1_4.xsize (grid1.coords t) 0 = 32
    ∧ win1_4.index t 1 * win1_4.size 1 = 0 ∧ win1_4.xsize (grid1.coords t) 1 = 256)

/-- An index of the result array is in a point's block when its row is in the point's batch half. -/
theorem mem_blk4 (t : Fin cfg1.N) (i : S64x256.Idx) :
    i ∈ ((cfg1.win 4).blk t).view.set ↔ (t.val / 8) * 32 ≤ (i 0 : Nat) ∧ (i 0 : Nat) < (t.val / 8) * 32 + 32 := by
  show i ∈ ((View.whole main_v1).slice (win1_4.rect t)).set ↔ _
  rw [View.set_slice_whole, Rect.mem_set_unit]
  have h1 : (i 1 : Nat) < 256 := (i 1).isLt
  have e := blk4_extent t
  refine ⟨fun h => ?_, fun h a => ?_⟩
  · have := h 0; rw [e.1, e.2.1] at this; exact this
  · match a with
    | ⟨0, _⟩ => show win1_4.index t 0 * win1_4.size 0 ≤ (i 0 : Nat) ∧ (i 0 : Nat) < win1_4.index t 0 * win1_4.size 0 + win1_4.xsize (grid1.coords t) 0
                rw [e.1, e.2.1]; exact h
    | ⟨1, _⟩ => show win1_4.index t 1 * win1_4.size 1 ≤ (i 1 : Nat) ∧ (i 1 : Nat) < win1_4.index t 1 * win1_4.size 1 + win1_4.xsize (grid1.coords t) 1
                rw [e.2.2.1, e.2.2.2]; omega

/-- The two written-back blocks cover the result array: a row is in the block of its batch half's last point. -/
theorem cover (i : S64x256.Idx) :
    ∃ t : Fin cfg1.N, (cfg1.win 4).flush t = true ∧ i ∈ ((cfg1.win 4).blk t).view.set := by
  have h0 : (i 0 : Nat) < 64 := (i 0).isLt
  refine ⟨⟨8 * ((i 0 : Nat) / 32) + 7, Nat.lt_of_lt_of_eq (by omega : 8 * ((i 0 : Nat) / 32) + 7 < 16) (show (16 : ℕ) = cfg1.N from N_1.symm)⟩, ?_, ?_⟩
  · refine (flush1_4 _).mpr ?_
    show (8 * ((i 0 : Nat) / 32) + 7) % 8 = 7
    omega
  · rw [mem_blk4]
    show (8 * ((i 0 : Nat) / 32) + 7) / 8 * 32 ≤ (i 0 : Nat) ∧ (i 0 : Nat) < (8 * ((i 0 : Nat) / 32) + 7) / 8 * 32 + 32
    have : (8 * ((i 0 : Nat) / 32) + 7) / 8 = (i 0 : Nat) / 32 := by omega
    rw [this]
    omega

/-- THE VALUE. After the region the context array holds the attention context of the region's inputs: at each batch row
    and channel, the weighted sum of the features over all the times divided by the sum of the weights. -/
theorem value (c : Dev nD) :
    (dat V c).arrAt 4 cfg1.N = Spec.ctx (V c main_v0_0) (V c main_arg1) (V c main_arg11) (V c main_arg12) :=
  (dat V c).arrAt_eq_of_cover 4 _ (flushed_eq V c) cover

/-- The same at an index. -/
theorem value_apply (c : Dev nD) (b : Fin 64) (ch : Fin 256) :
    (dat V c).arrAt 4 cfg1.N (ix2 b ch) = Spec.ctx (V c main_v0_0) (V c main_arg1) (V c main_arg11) (V c main_arg12) (ix2 b ch) :=
  congrFun (value V c) _

end Cert.KernelIdeal.R1v
end
-- ==== Proof.LibColumn.lean ====
/-
  Column-shaped layout operations read at an index: a column [a, 1] flattened to [a] and back, a column
  broadcast along its rows to [a, b], and a lane reduction of an [a, b] array read at a row as a sum or a
  maximum over the row. Each says which single element (or which row) of the operand an element of the result reads.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.ColumnIdx

open Idealize.ShloMosaic ValueIdx

variable {α : Type}

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of an `[a, b]` array (a `multi_reduction <add>` over axis 1 from the zero word), read at row `p`
    at the ideal instance: the sum of the row. -/
theorem rowSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src (funext fun ax => Fin.ext (by
      match ax with
      | ⟨0, _⟩ => rfl
      | ⟨1, _⟩ => rfl)))

/-- A lane maximum of an `[a, b]` array (a `multi_reduction <maximumf>` over axis 1 from the word of -∞), read at row
    `p` at the ideal instance: the fold of `max` over the row, from -∞. -/
theorem rowMax_apply {a b : ℕ} (src : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) :=
  (Ideal.multiReduction_maximumf_single src _ h hφ hacc (ix1 p)).trans
    (congrArg ((Finset.univ : Finset (Fin b)).fold max (Ideal.ofBits .f32 0xFF800000#32)) (funext fun k =>
      congrArg src (funext fun ax => Fin.ext (by
        match ax with
        | ⟨0, _⟩ => rfl
        | ⟨1, _⟩ => rfl))))

/-- Seven columns `[a, 1]` joined side by side into `[a, 7]`: entry `(p, k)` is column `k`'s entry of row `p`. -/
theorem concat7_apply {a : ℕ} (x0 x1 x2 x3 x4 x5 x6 : (⟨2, ![a, 1]⟩ : Shape).Idx → α)
    (h : Shape.Concatenates (([⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩,
      ⟨⟨2, ![a, 1]⟩, x5⟩, ⟨⟨2, ![a, 1]⟩, x6⟩] : List ((s : Shape) × (s.Idx → α))).map (·.1)) ⟨2, ![a, 7]⟩ 1)
    (p : Fin a) (k : Fin 7) :
    concatenate ⟨2, ![a, 7]⟩ 1 [⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩,
      ⟨⟨2, ![a, 1]⟩, x5⟩, ⟨⟨2, ![a, 1]⟩, x6⟩] h (ix2 p k) = (![x0, x1, x2, x3, x4, x5, x6] k) (ix2 p (0 : Fin 1)) := by
  have hi : ∀ (n : Fin 7) (b : Fin (⟨2, ![a, 1]⟩ : Shape).rank), b.cast (rfl : (2 : ℕ) = 2) ≠ (1 : Fin 2) →
      ((ix2 p (0 : Fin 1) : (⟨2, ![a, 1]⟩ : Shape).Idx) b).val = ((ix2 p n : (⟨2, ![a, 7]⟩ : Shape).Idx) (b.cast rfl)).val := by
    intro n b hb
    match b with
    | ⟨0, _⟩ => rfl
    | ⟨1, _⟩ => exact absurd rfl hb
  match k with
  | ⟨0, _⟩ => exact concatenate_apply_piece 1 _ h _ 0 (by simp) _ x0 rfl rfl 0 rfl (ix2 p (0 : Fin 1)) (hi 0) rfl
  | ⟨1, _⟩ => exact concatenate_apply_piece 1 _ h _ 1 (by simp) _ x1 rfl rfl 1 rfl (ix2 p (0 : Fin 1)) (hi 1) rfl
  | ⟨2, _⟩ => exact concatenate_apply_piece 1 _ h _ 2 (by simp) _ x2 rfl rfl 2 rfl (ix2 p (0 : Fin 1)) (hi 2) rfl
  | ⟨3, _⟩ => exact concatenate_apply_piece 1 _ h _ 3 (by simp) _ x3 rfl rfl 3 rfl (ix2 p (0 : Fin 1)) (hi 3) rfl
  | ⟨4, _⟩ => exact concatenate_apply_piece 1 _ h _ 4 (by simp) _ x4 rfl rfl 4 rfl (ix2 p (0 : Fin 1)) (hi 4) rfl
  | ⟨5, _⟩ => exact concatenate_apply_piece 1 _ h _ 5 (by simp) _ x5 rfl rfl 5 rfl (ix2 p (0 : Fin 1)) (hi 5) rfl
  | ⟨6, _⟩ => exact concatenate_apply_piece 1 _ h _ 6 (by simp) _ x6 rfl rfl 6 rfl (ix2 p (0 : Fin 1)) (hi 6) rfl

end Idealize.ShloMosaic.ColumnIdx

end
-- ==== Proof.R2v.lean ====
import proofs.«122264_j82798379533062_2_alg».proof.Proof.R2
import proofs.«122264_j82798379533062_2_alg».proof.Proof.LibPlainProduct
import proofs.«122264_j82798379533062_2_alg».proof.Proof.LibColumn
import proofs.«122264_j82798379533062_2_alg».proof.Proof.LibBlockedSum
import proofs.«122264_j82798379533062_2_alg».proof.Proof.Spec
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

/-! # Region 2, the value: the array of exponentials and the two halves' row sums

After the region the first result array holds, at (b, v), the exponential of the logit at (b, v): every grid point
writes back its [64, 3200] block of that one whole-array function of the four input arrays, and the ten blocks tile
the [64, 32000] array. The second result array holds, at (h, b, 0), the sum of row b of that array over half h of the
columns: within a half the accumulator starts from zero and takes the row sums of the half's five blocks one after the
other, and a sum over 16000 consecutive terms taken in five blocks of 3200 is the whole sum, the extended reals'
addition being associative and commutative. Nothing here needs the entries to be finite. -/

set_option maxRecDepth 16384

noncomputable section

namespace Cert.KernelIdeal.R2

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The body's payloads at an index, at the ideal interpretation -/

/-- The block of exponentials at (b, j): the exponential of the two products' sum there (the format changes and the
    shape casts are the identity; each product starts from a zero accumulator). -/
theorem pay2_apply (x0 : FVec Ideal S64x128 .f32) (x2 : FVec Ideal S128x3200 .f32) (x1 : FVec Ideal S64x256 .f32) (x3 : FVec Ideal S256x3200 .f32)
    (b : Fin 64) (j : Fin 3200) :
    k2_pay2 (F := Ideal) x0 x2 x1 x3 (ix2 b j)
      = Ideal.exp ((∑ l : Fin 128, x0 (ix2 b l) * x2 (ix2 l j)) + (∑ ch : Fin 256, x1 (ix2 b ch) * x3 (ix2 ch j))) := by
  unfold k2_pay2
  show Ideal.exp (matmul dot_S64x128_S128x3200_S64x3200_1_0_0_1_n_n none
        (truncf .bf16 (shapeCast S64x128 x0 shapeCasts_S64x128_S64x128) bitsLt_bf16_f32) (truncf .bf16 x2 bitsLt_bf16_f32)
        (constant S64x3200 .f32 0x00000000#32) (ix2 b j)
      + matmul dot_S64x256_S256x3200_S64x3200_1_0_0_1_n_n none
        (truncf .bf16 (shapeCast S64x256 x1 shapeCasts_S64x256_S64x256) bitsLt_bf16_f32) (truncf .bf16 x3 bitsLt_bf16_f32)
        (constant S64x3200 .f32 0x00000000#32) (ix2 b j)) = _
  refine congrArg Ideal.exp ?_
  refine congrArg₂ (· + ·) ?_ ?_
  · refine (PlainProduct.matmul_at dot_S64x128_S128x3200_S64x3200_1_0_0_1_n_n rfl none _ _ _ b j).trans ?_
    simp only [constant_apply, Ideal.ofBits_zero_f32, zero_add, truncf_apply, shapeCast_self]
  · refine (PlainProduct.matmul_at dot_S64x256_S256x3200_S64x3200_1_0_0_1_n_n rfl none _ _ _ b j).trans ?_
    simp only [constant_apply, Ideal.ofBits_zero_f32, zero_add, truncf_apply, shapeCast_self]

/-- The accumulator's new contents at (b, u): what it held at (b, 0) plus the row sum of the block of exponentials. -/
theorem pay3_apply (x0 : FVec Ideal S64x128 .f32) (x2 : FVec Ideal S128x3200 .f32) (x1 : FVec Ideal S64x256 .f32) (x3 : FVec Ideal S256x3200 .f32)
    (xs : FVec Ideal S64x1 .f32) (b : Fin 64) (u : Fin 1) :
    k2_pay3 (F := Ideal) x0 x2 x1 x3 xs (ix2 b u)
      = xs (ix2 b (0 : Fin 1)) + ∑ j : Fin 3200, k2_pay2 (F := Ideal) x0 x2 x1 x3 (ix2 b j) := by
  have hu : u = 0 := Fin.ext (by omega)
  subst hu
  unfold k2_pay3
  show shapeCast S64x1 (addf xs (shapeCast S64x1 (multiReduction .add [1] S64 (k2_pay2 (F := Ideal) x0 x2 x1 x3) 0x00000000#32 reduces_S64x3200_S64 (.inl rfl) rfl) shapeCasts_S64_S64x1)) shapeCasts_S64x1_S64x1 (ix2 b (0 : Fin 1)) = _
  rw [shapeCast_self, addf_apply, ColumnIdx.shapeCast_a_a1_apply]
  exact congrArg (xs (ix2 b (0 : Fin 1)) + ·)
    (ColumnIdx.rowSum_apply (k2_pay2 (F := Ideal) x0 x2 x1 x3) reduces_S64x3200_S64 (.inl rfl) rfl b)

/-- The zero column. -/
theorem pay1_apply (i : S64x1.Idx) : k2_pay1 (F := Ideal) i = 0 := by
  unfold k2_pay1
  show shapeCast S64x1 (broadcast S64x1 (Scalar.ofBits (F := Ideal) .f32 0x00000000#32)) shapeCasts_S64x1_S64x1 i = _
  rw [shapeCast_self, broadcast_apply]
  exact Ideal.ofBits_zero_f32

/-- The accumulator recast to [1, 64, 1] reads, at (0, b, 0), the accumulator at (b, 0). -/
theorem pay4_apply (xs : FVec Ideal S64x1 .f32) (h : Fin 1) (b : Fin 64) (u : Fin 1) :
    k2_pay4 (F := Ideal) xs (ix3 h b u) = xs (ix2 b (0 : Fin 1)) := by
  unfold k2_pay4
  exact shapeCast_apply xs shapeCasts_S64x1_S1x64x1 _ _ (by
    have hh : h.val = 0 := by omega
    have hu : u.val = 0 := by omega
    rw [Shape.rowMajor_val_three, Shape.rowMajor_val_two]
    show b.val * 1 + 0 = (h.val * 64 + b.val) * 1 + u.val
    omega)

/-! ## Where the blocks sit -/

section AtIdeal

variable (V : (c : Dev nD) → (b : Ref sig .tc) → Buf (Elt Ideal) ((c : Thread nD τ).loc b))

/-- The index maps at every point of the grid: the two whole-array inputs never move; the two weight windows
    and the exponentials' window are all at column block `t`; the half-sum window is at half `t / 5`. -/
theorem idx_facts : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = t.val
    ∧ win2_3.index t (0 : Fin 2) = 0 ∧ win2_3.index t (1 : Fin 2) = t.val
    ∧ win2_4.index t (0 : Fin 2) = 0 ∧ win2_4.index t (1 : Fin 2) = t.val
    ∧ win2_5.index t (0 : Fin 3) = t.val / 5 ∧ win2_5.index t (1 : Fin 3) = 0 ∧ win2_5.index t (2 : Fin 3) = 0 :=
  (by decide +kernel : ∀ t : Fin grid2.N, _)

/-- Column `j` of column block `t`. -/
abbrev col (t : Fin cfg2.N) (j : Fin 3200) : Fin 32000 :=
  ⟨t.val * 3200 + j.val, by have := lt_of_lt_of_eq t.isLt (show cfg2.N = 10 from N_2); have := j.isLt; omega⟩

/-- The input blocks read at an index: the whole-array inputs as they are, the weights at column block `t`. -/
theorem iblk0_apply (c : Dev nD) (t : Fin cfg2.N) (b : Fin 64) (l : Fin 128) :
    iblk V c 0 t (ix2 b l) = V c main_v0_0 (ix2 b l) := by
  obtain ⟨e0, e1, -⟩ := idx_facts t
  show V c main_v0_0 (((cfg2.win 0).blk t).view.emb (ix2 b l)) = _
  refine congrArg (V c main_v0_0) ?_
  funext a; apply Fin.ext
  match a with
  | ⟨0, _⟩ => show win2_0.index t (0 : Fin 2) * 64 + 1 * b.val = b.val; omega
  | ⟨1, _⟩ => show win2_0.index t (1 : Fin 2) * 128 + 1 * l.val = l.val; omega
theorem iblk1_apply (c : Dev nD) (t : Fin cfg2.N) (b : Fin 64) (ch : Fin 256) :
    iblk V c 1 t (ix2 b ch) = V c main_v1 (ix2 b ch) := by
  obtain ⟨-, -, e0, e1, -⟩ := idx_facts t
  show V c main_v1 (((cfg2.win 1).blk t).view.emb (ix2 b ch)) = _
  refine congrArg (V c main_v1) ?_
  funext a; apply Fin.ext
  match a with
  | ⟨0, _⟩ => show win2_1.index t (0 : Fin 2) * 64 + 1 * b.val = b.val; omega
  | ⟨1, _⟩ => show win2_1.index t (1 : Fin 2) * 256 + 1 * ch.val = ch.val; omega
theorem iblk2_apply (c : Dev nD) (t : Fin cfg2.N) (l : Fin 128) (j : Fin 3200) :
    iblk V c 2 t (ix2 l j) = V c main_arg7 (ix2 l (col t j)) := by
  obtain ⟨-, -, -, -, e0, e1, -⟩ := idx_facts t
  show V c main_arg7 (((cfg2.win 2).blk t).view.emb (ix2 l j)) = _
  refine congrArg (V c main_arg7) ?_
  funext a; apply Fin.ext
  match a with
  | ⟨0, _⟩ => show win2_2.index t (0 : Fin 2) * 128 + 1 * l.val = l.val; omega
  | ⟨1, _⟩ => show win2_2.index t (1 : Fin 2) * 3200 + 1 * j.val = t.val * 3200 + j.val; omega
theorem iblk3_apply (c : Dev nD) (t : Fin cfg2.N) (ch : Fin 256) (j : Fin 3200) :
    iblk V c 3 t (ix2 ch j) = V c main_arg8 (ix2 ch (col t j)) := by
  obtain ⟨-, -, -, -, -, -, e0, e1, -⟩ := idx_facts t
  show V c main_arg8 (((cfg2.win 3).blk t).view.emb (ix2 ch j)) = _
  refine congrArg (V c main_arg8) ?_
  funext a; apply Fin.ext
  match a with
  | ⟨0, _⟩ => show win2_3.index t (0 : Fin 2) * 256 + 1 * ch.val = ch.val; omega
  | ⟨1, _⟩ => show win2_3.index t (1 : Fin 2) * 3200 + 1 * j.val = t.val * 3200 + j.val; omega

/-- Where an element of the exponentials' block at `t` sits in the array. -/
theorem emb4 (t : Fin cfg2.N) (b : Fin 64) (j : Fin 3200) :
    ((cfg2.win 4).blk t).view.emb (ix2 b j) = (ix2 b (col t j) : S64x32000.Idx) := by
  obtain ⟨-, -, -, -, -, -, -, -, e0, e1, -⟩ := idx_facts t
  funext a; apply Fin.ext
  match a with
  | ⟨0, _⟩ => show win2_4.index t (0 : Fin 2) * 64 + 1 * b.val = b.val; omega
  | ⟨1, _⟩ => show win2_4.index t (1 : Fin 2) * 3200 + 1 * j.val = t.val * 3200 + j.val; omega

/-! ## The exponentials' array -/

/-- The specification's array of exponentials, of the four arrays as the region finds them. -/
abbrev rawV (c : Dev nD) : Cert.Spec.Arr2 64 32000 :=
  Cert.Spec.rawExp (V c main_v0_0) (V c main_v1) (V c main_arg7) (V c main_arg8)

/-- The block of exponentials stored at point `t`, at (b, j): the specification's exponential at (b, column j of block t). -/
theorem expBlk_apply (c : Dev nD) (t : Fin cfg2.N) (b : Fin 64) (j : Fin 3200) :
    expBlk V c t (ix2 b j) = rawV V c (ix2 b (col t j)) := by
  unfold expBlk
  rw [pay2_apply]
  refine Eq.trans ?_ (Cert.Spec.rawExp_apply (V c main_v0_0) (V c main_v1) (V c main_arg7) (V c main_arg8) b (col t j)).symm
  simp only [iblk0_apply, iblk1_apply, iblk2_apply, iblk3_apply]

/-- What point `t` writes back is block `t` of the specification's array. -/
theorem flushed4_eq (c : Dev nD) (t : Fin cfg2.N) :
    (dat V c).flushed 4 t = ((cfg2.win 4).blk t).view.read (Elt Ideal) (rawV V c) := by
  show (cfg2.win 4).cut (grid2.coords t) ((dat V c).after 4 t) = _
  rw [after4]
  funext j
  obtain ⟨b, jj, rfl⟩ : ∃ (b : Fin 64) (jj : Fin 3200), j = ix2 b jj := ⟨j 0, j 1, eq_ix2 j⟩
  show expBlk V c t (ix2 b jj) = rawV V c (((cfg2.win 4).blk t).view.emb (ix2 b jj))
  rw [emb4, expBlk_apply]

/-- An index of the array is in point `t`'s block iff each coordinate is in the block's range on its axis. -/
theorem mem_blk4 (t : Fin cfg2.N) (i : S64x32000.Idx) :
    i ∈ ((cfg2.win 4).blk t).view.set ↔ ∀ a : Fin 2, win2_4.index t a * S64x3200.size a ≤ (i a).val ∧ (i a).val < win2_4.index t a * S64x3200.size a + S64x3200.size a := by
  show i ∈ ((View.whole main_v2_0).slice (win2_4.rect t)).set ↔ _
  rw [View.set_slice_whole, Rect.mem_set_unit]
  exact Iff.rfl

/-- The ten blocks tile the array: column v is in the block of point v / 3200. -/
theorem covered4 (i : S64x32000.Idx) :
    ∃ t : Fin cfg2.N, (cfg2.win 4).flush t = true ∧ i ∈ ((cfg2.win 4).blk t).view.set := by
  have hi0 : (i 0).val < 64 := (i 0).isLt
  have hi1 : (i 1).val < 32000 := (i 1).isLt
  let t : Fin cfg2.N := ⟨(i 1).val / 3200, by rw [show cfg2.N = 10 from N_2]; omega⟩
  obtain ⟨-, -, -, -, -, -, -, -, e0, e1, -⟩ := idx_facts t
  have e1' : win2_4.index t (1 : Fin 2) = (i 1).val / 3200 := e1
  refine ⟨t, flush2_4 t, ?_⟩
  rw [mem_blk4]
  intro a
  match a with
  | ⟨0, _⟩ => show win2_4.index t (0 : Fin 2) * 64 ≤ (i 0).val ∧ (i 0).val < win2_4.index t (0 : Fin 2) * 64 + 64; omega
  | ⟨1, _⟩ => show win2_4.index t (1 : Fin 2) * 3200 ≤ (i 1).val ∧ (i 1).val < win2_4.index t (1 : Fin 2) * 3200 + 3200; omega

/-- THE VALUE of the exponentials' window: after the region its array is the specification's array of exponentials
    of the four input arrays as the region finds them. -/
theorem final4 (c : Dev nD) : (dat V c).arrAt 4 cfg2.N = rawV V c :=
  (dat V c).arrAt_eq_of_cover 4 _ (fun t _ => flushed4_eq V c t) covered4

/-- The input arrays are as the region found them. -/
theorem final_in0 (c : Dev nD) : (dat V c).arrAt 0 cfg2.N = V c main_v0_0 := ((dat V c).arrAt_in 0 rfl cfg2.N).trans (A_eq V c 0)
theorem final_in1 (c : Dev nD) : (dat V c).arrAt 1 cfg2.N = V c main_v1 := ((dat V c).arrAt_in 1 rfl cfg2.N).trans (A_eq V c 1)
theorem final_in2 (c : Dev nD) : (dat V c).arrAt 2 cfg2.N = V c main_arg7 := ((dat V c).arrAt_in 2 rfl cfg2.N).trans (A_eq V c 2)
theorem final_in3 (c : Dev nD) : (dat V c).arrAt 3 cfg2.N = V c main_arg8 := ((dat V c).arrAt_in 3 rfl cfg2.N).trans (A_eq V c 3)

/-! ## The half sums -/

/-- Row `b`'s sum of the block of exponentials of point `n` (zero past the grid). -/
def rowS (c : Dev nD) (n : ℕ) (b : Fin 64) : EReal :=
  if h : n < cfg2.N then ∑ j : Fin 3200, expBlk V c ⟨n, h⟩ (ix2 b j) else 0

theorem rowS_of_lt (c : Dev nD) (t : Fin cfg2.N) (b : Fin 64) :
    rowS V c t.val b = ∑ j : Fin 3200, expBlk V c t (ix2 b j) := by
  unfold rowS; rw [dif_pos t.isLt]

/-- One step of the accumulation at an index: what the accumulator held at (b, 0) plus the point's row sum. -/
theorem accStep_apply (c : Dev nD) (t : Fin cfg2.N) (xs : FVec Ideal S64x1 .f32) (b : Fin 64) (u : Fin 1) :
    accStep V c t xs (ix2 b u) = xs (ix2 b (0 : Fin 1)) + rowS V c t.val b := by
  unfold accStep; rw [pay3_apply, rowS_of_lt]; rfl

theorem scrAt_congr (c : Dev nD) {n m : ℕ} (e : n = m) (hn : n < cfg2.N) (hm : m < cfg2.N) :
    scrAt V c n hn = scrAt V c m hm := by subst e; rfl

/-- The accumulator after point `5 q + k` of half `q`, at (b, 0): the row sums of the half's first `k + 1` blocks. -/
theorem scrAt_run (c : Dev nD) (q : ℕ) (b : Fin 64) :
    ∀ k, k < 5 → ∀ h : 5 * q + k < cfg2.N,
      scrAt V c (5 * q + k) h (ix2 b (0 : Fin 1)) = ∑ k' ∈ Finset.range (k + 1), rowS V c (5 * q + k') b := by
  intro k
  induction k with
  | zero =>
    intro _ h
    have h0 : (⟨5 * q + 0, h⟩ : Fin cfg2.N).val % 5 = 0 := by show (5 * q + 0) % 5 = 0; omega
    rw [show scrAt V c (5 * q + 0) h = accStep V c ⟨5 * q + 0, h⟩ (k2_pay1 (F := Ideal)) from scrAt_first V c ⟨5 * q + 0, h⟩ h0]
    rw [accStep_apply, pay1_apply, zero_add, Finset.sum_range_one]
  | succ k ih =>
    intro hk h
    have hlt : 5 * q + k < cfg2.N := by omega
    have h0 : ¬(⟨5 * q + (k + 1), h⟩ : Fin cfg2.N).val % 5 = 0 := by show ¬(5 * q + (k + 1)) % 5 = 0; omega
    rw [show scrAt V c (5 * q + (k + 1)) h = accStep V c ⟨5 * q + (k + 1), h⟩ (scrAt V c (5 * q + (k + 1) - 1) (Nat.lt_of_le_of_lt (Nat.sub_le _ _) h))
      from scrAt_next V c ⟨5 * q + (k + 1), h⟩ h0]
    rw [accStep_apply, Finset.sum_range_succ (n := k + 1),
      scrAt_congr V c (show 5 * q + (k + 1) - 1 = 5 * q + k by omega) _ hlt, ih (by omega) hlt]

/-- The specification's exponential at row `b` and column `q · 16000 + n` (zero past the array). -/
def rawAt (c : Dev nD) (q : ℕ) (b : Fin 64) (n : ℕ) : EReal :=
  if h : q * 16000 + n < 32000 then rawV V c (ix2 b ⟨q * 16000 + n, h⟩) else 0

/-- A point's row sum, in the half's own column numbering. -/
theorem rowS_eq (c : Dev nD) (q k : ℕ) (hk : k < 5) (h : 5 * q + k < cfg2.N) (b : Fin 64) :
    rowS V c (5 * q + k) b = ∑ j : Fin 3200, rawAt V c q b (k * 3200 + j.val) := by
  have hN : 5 * q + k < 10 := lt_of_lt_of_eq h (show cfg2.N = 10 from N_2)
  rw [rowS_of_lt V c ⟨5 * q + k, h⟩ b]
  refine Finset.sum_congr rfl fun j _ => ?_
  have hj := j.isLt
  have hlt : q * 16000 + (k * 3200 + j.val) < 32000 := by omega
  rw [expBlk_apply]
  unfold rawAt; rw [dif_pos hlt]
  refine congrArg (rawV V c) (congrArg (ix2 b) (Fin.ext ?_))
  show (5 * q + k) * 3200 + j.val = q * 16000 + (k * 3200 + j.val)
  omega

/-- The accumulator after the last point of half `q`, at (b, 0): the sum of row `b` of the specification's array
    over the half's 16000 columns — five consecutive blocks of 3200 terms added one after the other. -/
theorem scrAt_half (c : Dev nD) (q : Fin 2) (h : 5 * q.val + 4 < cfg2.N) (b : Fin 64) :
    scrAt V c (5 * q.val + 4) h (ix2 b (0 : Fin 1)) = ∑ j : Fin 16000, rawV V c (ix2 b (Cert.Spec.halfCol q j)) := by
  have hq := q.isLt
  rw [scrAt_run V c q.val b 4 (by omega) h]
  have e1 : ∀ k' ∈ Finset.range (4 + 1), rowS V c (5 * q.val + k') b = ∑ j : Fin 3200, rawAt V c q.val b (k' * 3200 + j.val) := by
    intro k' hk'
    have hk5 : k' < 5 := Finset.mem_range.mp hk'
    exact rowS_eq V c q.val k' hk5 (by rw [show cfg2.N = 10 from N_2]; omega) b
  rw [Finset.sum_congr rfl e1, ← Fin.sum_univ_eq_sum_range (fun k' => ∑ j : Fin 3200, rawAt V c q.val b (k' * 3200 + j.val)) 5,
    ← BlockedSum.sum_fin_mul (rawAt V c q.val b) 5 3200]
  refine Finset.sum_congr rfl fun j _ => ?_
  have hj : j.val < 16000 := j.isLt
  have hlt : q.val * 16000 + j.val < 32000 := by omega
  unfold rawAt; rw [dif_pos hlt]

/-- Where an element of the half-sum block at `t` sits in the array. -/
theorem emb5 (t : Fin cfg2.N) (h : Fin 1) (b : Fin 64) (u : Fin 1) (q : Fin 2) (hq : q.val = t.val / 5) :
    ((cfg2.win 5).blk t).view.emb (ix3 h b u) = (ix3 q b (0 : Fin 1) : S2x64x1.Idx) := by
  obtain ⟨-, -, -, -, -, -, -, -, -, -, e0, e1, e2⟩ := idx_facts t
  have hh : h.val = 0 := by omega
  have hu : u.val = 0 := by omega
  funext a; apply Fin.ext
  match a with
  | ⟨0, _⟩ => show win2_5.index t (0 : Fin 3) * 1 + 1 * h.val = q.val; omega
  | ⟨1, _⟩ => show win2_5.index t (1 : Fin 3) * 64 + 1 * b.val = b.val; omega
  | ⟨2, _⟩ => show win2_5.index t (2 : Fin 3) * 1 + 1 * u.val = 0; omega

/-- What the last point of a half writes back is that half's block of the specification's half sums. -/
theorem flushed5_eq (c : Dev nD) (t : Fin cfg2.N) (h4 : t.val % 5 = 4) :
    (dat V c).flushed 5 t = ((cfg2.win 5).blk t).view.read (Elt Ideal) (Cert.Spec.halfSums (rawV V c)) := by
  have hN : t.val < 10 := lt_of_lt_of_eq t.isLt (show cfg2.N = 10 from N_2)
  show (cfg2.win 5).cut (grid2.coords t) ((dat V c).after 5 t) = _
  rw [after5]
  funext j
  obtain ⟨h, b, u, rfl⟩ : ∃ (h : Fin 1) (b : Fin 64) (u : Fin 1), j = ix3 h b u := ⟨j 0, j 1, j 2, eq_ix3 j⟩
  show k2_pay4 (F := Ideal) (scrAt V c t.val t.isLt) (ix3 h b u)
    = Cert.Spec.halfSums (rawV V c) (((cfg2.win 5).blk t).view.emb (ix3 h b u))
  let q : Fin 2 := ⟨t.val / 5, by omega⟩
  rw [emb5 t h b u q rfl, pay4_apply, Cert.Spec.halfSums_apply]
  have e : t.val = 5 * q.val + 4 := by show t.val = 5 * (t.val / 5) + 4; omega
  rw [scrAt_congr V c e t.isLt (by rw [← e]; exact t.isLt)]
  exact scrAt_half V c q _ b

/-- An index of the half-sum array is in point `t`'s block iff each coordinate is in the block's range on its axis. -/
theorem mem_blk5 (t : Fin cfg2.N) (i : S2x64x1.Idx) :
    i ∈ ((cfg2.win 5).blk t).view.set ↔ ∀ a : Fin 3, win2_5.index t a * S1x64x1.size a ≤ (i a).val ∧ (i a).val < win2_5.index t a * S1x64x1.size a + S1x64x1.size a := by
  show i ∈ ((View.whole main_v2_1).slice (win2_5.rect t)).set ↔ _
  rw [View.set_slice_whole, Rect.mem_set_unit]
  exact Iff.rfl

/-- The two halves' blocks tile the half-sum array: half `h` is written back at point `5 h + 4`. -/
theorem covered5 (i : S2x64x1.Idx) :
    ∃ t : Fin cfg2.N, (cfg2.win 5).flush t = true ∧ i ∈ ((cfg2.win 5).blk t).view.set := by
  have hi0 : (i 0).val < 2 := (i 0).isLt
  have hi1 : (i 1).val < 64 := (i 1).isLt
  have hi2 : (i 2).val < 1 := (i 2).isLt
  let t : Fin cfg2.N := ⟨5 * (i 0).val + 4, by rw [show cfg2.N = 10 from N_2]; omega⟩
  obtain ⟨-, -, -, -, -, -, -, -, -, -, e0, e1, e2⟩ := idx_facts t
  have e0' : win2_5.index t (0 : Fin 3) = (5 * (i 0).val + 4) / 5 := e0
  refine ⟨t, (flush2_5 t).mpr (by show (5 * (i 0).val + 4) % 5 = 4; omega), ?_⟩
  rw [mem_blk5]
  intro a
  match a with
  | ⟨0, _⟩ => show win2_5.index t (0 : Fin 3) * 1 ≤ (i 0).val ∧ (i 0).val < win2_5.index t (0 : Fin 3) * 1 + 1; omega
  | ⟨1, _⟩ => show win2_5.index t (1 : Fin 3) * 64 ≤ (i 1).val ∧ (i 1).val < win2_5.index t (1 : Fin 3) * 64 + 64; omega
  | ⟨2, _⟩ => show win2_5.index t (2 : Fin 3) * 1 ≤ (i 2).val ∧ (i 2).val < win2_5.index t (2 : Fin 3) * 1 + 1; omega

/-- THE VALUE of the half-sum window: after the region its array is the specification's half sums of the
    specification's array of exponentials. -/
theorem final5 (c : Dev nD) : (dat V c).arrAt 5 cfg2.N = Cert.Spec.halfSums (rawV V c) :=
  (dat V c).arrAt_eq_of_cover 5 _ (fun t hf => flushed5_eq V c t ((flush2_5 t).mp hf)) covered5

end AtIdeal

end Cert.KernelIdeal.R2

end
-- ==== Proof.R3v.lean ====
import proofs.«122264_j82798379533062_2_alg».proof.Proof.R3
import proofs.«122264_j82798379533062_2_alg».proof.Proof.LibColumn
import proofs.«122264_j82798379533062_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal
import Idealize.ShloMosaic.PureOps.Ideal.Laws

/-! # Region 3, the value: the normalised array, and the row totals the host computes before it

After the region the result array holds, at (b, v), the unnormalised exponential at (b, v) divided by the
total of row b: every grid point writes back its [64, 6400] block of that one whole-array function, and the
five blocks tile the [64, 32000] array. The row total itself is the sum of the two half-row sums, which the
host forms between the third and fourth kernels by slicing the [2, 64, 1] array of half sums into its two
[1, 64, 1] halves, reshaping each to [64, 1], and adding them. -/

set_option maxRecDepth 16384

noncomputable section

namespace Cert.KernelIdeal.R3

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Generic

variable {F : FTy → Type} [FloatOps F]
variable (V : (c : Dev nD) → (b : Ref sig .tc) → Buf (Elt F) ((c : Thread nD τ).loc b))

/-! ## The whole-array function, generic in the float interpretation -/

theorem hz : (![0, 0] : Fin 2 → Nat) = fun _ => 0 := funext fun a => by fin_cases a <;> rfl

/-- What the result array ends holding: entry (b, v) of the first array divided by entry (b, 0) of the column. -/
def G (raw : S64x32000.Idx → Elt F .f32) (s : S64x1.Idx → Elt F .f32) : S64x32000.Idx → Elt F .f32 :=
  fun i => FloatOps.divf (raw i) (s (ix2 (i 0 : Fin 64) (0 : Fin 1)))

/-- The body's payload at an index of the block: the block's entry divided by the column's entry of the same row
    (the two shape casts are the identity; the broadcast reads the column at the row). -/
theorem pay_apply (x0 : Vec F S64x6400 .f32) (x1 : Vec F S64x1 .f32) (j : S64x6400.Idx) :
    k3_pay1 x0 x1 j = FloatOps.divf (x0 j) (x1 (ix2 (j 0 : Fin 64) (0 : Fin 1))) := by
  have hj : j = ix2 (j 0 : Fin 64) (j 1 : Fin 6400) := eq_ix2 j
  have hb : broadcastTo S64x6400 x1 broadcasts_S64x1_S64x6400 j = x1 (ix2 (j 0 : Fin 64) (0 : Fin 1)) :=
    (congrArg (broadcastTo S64x6400 x1 broadcasts_S64x1_S64x6400) hj).trans
      (ColumnIdx.broadcastTo_a1_ab_apply x1 broadcasts_S64x1_S64x6400 (j 0) (j 1))
  unfold k3_pay1
  show FloatOps.divf (shapeCast S64x6400 x0 shapeCasts_S64x6400_S64x6400 j)
      (broadcastTo S64x6400 (shapeCast S64x1 x1 shapeCasts_S64x1_S64x1) broadcasts_S64x1_S64x6400 j) = _
  rw [shapeCast_self, shapeCast_self, hb]

/-- The windows' block indices at each of the five grid points: the input block moves with the output block, the column
    never moves, and the output's block index is (0, k) with k at most 4. -/
theorem idx_facts : ∀ t : Fin cfg3.N, win3_0.index t (0 : Fin 2) = win3_2.index t (0 : Fin 2)
    ∧ win3_0.index t (1 : Fin 2) = win3_2.index t (1 : Fin 2)
    ∧ win3_1.index t (0 : Fin 2) = 0
    ∧ win3_1.index t (1 : Fin 2) = 0
    ∧ win3_2.index t (0 : Fin 2) = 0
    ∧ win3_2.index t (1 : Fin 2) ≤ 4 :=
  (by decide +kernel : ∀ t : Fin grid3.N, _)

/-- Every block of the result array is some point's. -/
theorem idx_onto : ∀ (q1 : Fin 5), ∃ t : Fin cfg3.N, win3_2.index t = ![0, q1.val] :=
  (by decide +kernel : ∀ (q1 : Fin 5), ∃ t : Fin grid3.N, win3_2.index t = ![0, q1.val])

/-- What point `t` writes back is block `t` of `G` of the two input arrays as the region finds them. -/
theorem flushed_eq (c : Dev nD) (t : Fin cfg3.N) :
    (dat V c).flushed 2 t = ((cfg3.win 2).blk t).view.read (Elt F) (G (V c main_v2_0) (V c main_v7)) := by
  show (cfg3.win 2).cut (grid3.coords t) ((dat V c).after 2 t) = _
  rw [after_2]
  unfold out_2
  rw [View.canon_unit_zero hz]
  simp only [View.ld_unit_zero (S := S64x6400) hz, View.ld_unit_zero (S := S64x1) hz]
  obtain ⟨e0, e1, e2, e3, e4, e5⟩ := idx_facts t
  funext j
  show k3_pay1 (iblk V c 0 t) (iblk V c 1 t) j = G (V c main_v2_0) (V c main_v7) (((cfg3.win 2).blk t).view.emb j)
  rw [pay_apply]
  unfold G
  show FloatOps.divf (V c main_v2_0 (((cfg3.win 0).blk t).view.emb j))
        (V c main_v7 (((cfg3.win 1).blk t).view.emb (ix2 (j 0 : Fin 64) (0 : Fin 1))))
      = FloatOps.divf (V c main_v2_0 (((cfg3.win 2).blk t).view.emb j))
        (V c main_v7 (ix2 ((((cfg3.win 2).blk t).view.emb j) 0 : Fin 64) (0 : Fin 1)))
  have h0 : ((cfg3.win 0).blk t).view.emb j = ((cfg3.win 2).blk t).view.emb j := by
    funext a; apply Fin.ext
    match a with
    | ⟨0, _⟩ => show win3_0.index t (0 : Fin 2) * 64 + 1 * (j 0).val = win3_2.index t (0 : Fin 2) * 64 + 1 * (j 0).val; omega
    | ⟨1, _⟩ => show win3_0.index t (1 : Fin 2) * 6400 + 1 * (j 1).val = win3_2.index t (1 : Fin 2) * 6400 + 1 * (j 1).val; omega
  have h1 : ((cfg3.win 1).blk t).view.emb (ix2 (j 0 : Fin 64) (0 : Fin 1))
      = ix2 ((((cfg3.win 2).blk t).view.emb j) 0 : Fin 64) (0 : Fin 1) := by
    funext a; apply Fin.ext
    match a with
    | ⟨0, _⟩ => show win3_1.index t (0 : Fin 2) * 64 + 1 * (j 0).val = win3_2.index t (0 : Fin 2) * 64 + 1 * (j 0).val; omega
    | ⟨1, _⟩ => show win3_1.index t (1 : Fin 2) * 1 + 1 * 0 = 0; omega
  rw [h0, h1]
  rfl

/-- An index of the array is in point `t`'s block iff each coordinate is in the block's range on its axis. -/
theorem mem_blk (t : Fin cfg3.N) (i : S64x32000.Idx) :
    i ∈ ((cfg3.win 2).blk t).view.set ↔ ∀ a : Fin 2, win3_2.index t a * S64x6400.size a ≤ (i a).val ∧ (i a).val < win3_2.index t a * S64x6400.size a + S64x6400.size a := by
  show i ∈ ((View.whole main_v8).slice (win3_2.rect t)).set ↔ _
  rw [View.set_slice_whole, Rect.mem_set_unit]
  exact Iff.rfl

/-- The five blocks tile the array: column v is in the block of point v / 6400. -/
theorem covered (i : S64x32000.Idx) :
    ∃ t : Fin cfg3.N, (cfg3.win 2).flush t = true ∧ i ∈ ((cfg3.win 2).blk t).view.set := by
  have hi0 : (i 0).val < 64 := (i 0).isLt
  have hi1 : (i 1).val < 32000 := (i 1).isLt
  obtain ⟨t, ht⟩ := idx_onto ⟨(i 1).val / 6400, by omega⟩
  have q0 : win3_2.index t (0 : Fin 2) = 0 := congrFun ht 0
  have q1 : win3_2.index t (1 : Fin 2) = (i 1).val / 6400 := congrFun ht 1
  refine ⟨t, flush3_2 t, ?_⟩
  rw [mem_blk]
  intro a
  match a with
  | ⟨0, _⟩ => show win3_2.index t (0 : Fin 2) * 64 ≤ (i 0).val ∧ (i 0).val < win3_2.index t (0 : Fin 2) * 64 + 64; omega
  | ⟨1, _⟩ => show win3_2.index t (1 : Fin 2) * 6400 ≤ (i 1).val ∧ (i 1).val < win3_2.index t (1 : Fin 2) * 6400 + 6400; omega

/-- The result array after the region: `G` of the two input arrays as the region finds them. -/
theorem final (c : Dev nD) : (dat V c).arrAt 2 cfg3.N = G (V c main_v2_0) (V c main_v7) :=
  (dat V c).arrAt_eq_of_cover 2 _ (fun t _ => flushed_eq V c t) covered

/-- The input arrays are as the region found them. -/
theorem final_in0 (c : Dev nD) : (dat V c).arrAt 0 cfg3.N = V c main_v2_0 :=
  ((dat V c).arrAt_in 0 rfl cfg3.N).trans (A_eq V c 0)
theorem final_in1 (c : Dev nD) : (dat V c).arrAt 1 cfg3.N = V c main_v7 :=
  ((dat V c).arrAt_in 1 rfl cfg3.N).trans (A_eq V c 1)

/-! ## The host stretch before the region, generic -/

/-- The column of row totals after the five host operations: the two halves of the half-sum array, each reshaped to a
    column, added. -/
theorem host_v7 (W : Valuation τ sig (Elt F)) :
    (StableHlo.after hostOps3 W (Proc.devRef .tc main_v7) : S64x1.Idx → Elt F .f32)
      = addf (shapeCast S64x1 (extractStridedSlice S1x64x1 ![0, 0, 0] (W (Proc.devRef .tc main_v2_1) : S2x64x1.Idx → Elt F .f32) slices_S2x64x1_S1x64x1_0_0_0) shapeCasts_S1x64x1_S64x1)
          (shapeCast S64x1 (extractStridedSlice S1x64x1 ![1, 0, 0] (W (Proc.devRef .tc main_v2_1) : S2x64x1.Idx → Elt F .f32) slices_S2x64x1_S1x64x1_1_0_0) shapeCasts_S1x64x1_S64x1) := by
  after_results
  rfl

end Generic

/-! ## At the ideal interpretation, against the specification -/

section AtIdeal

variable (V : (c : Dev nD) → (b : Ref sig .tc) → Buf (Elt Ideal) ((c : Thread nD τ).loc b))

/-- At the ideal interpretation `G` is the specification's normalisation. -/
theorem G_eq_norm (raw : Cert.Spec.Arr2 64 32000) (s : Cert.Spec.Arr2 64 1) : G (F := Ideal) raw s = Cert.Spec.norm raw s := by
  funext i
  obtain ⟨b, v, rfl⟩ : ∃ (b : Fin 64) (v : Fin 32000), i = ix2 b v := ⟨i 0, i 1, eq_ix2 i⟩
  rw [Cert.Spec.norm_apply]
  rfl

/-- THE VALUE of region 3: the result array is the first input array normalised by the column. -/
theorem final_norm (c : Dev nD) :
    (dat V c).arrAt 2 cfg3.N = Cert.Spec.norm (V c main_v2_0) (V c main_v7) :=
  (final V c).trans (G_eq_norm _ _)

/-- A half of the half-sum array, reshaped to a column, read at (b, u): the half's entry of row b. -/
theorem half_apply (hs : S2x64x1.Idx → EReal) (b : Fin 64) (u : Fin 1) :
    shapeCast S64x1 (extractStridedSlice S1x64x1 ![0, 0, 0] hs slices_S2x64x1_S1x64x1_0_0_0) shapeCasts_S1x64x1_S64x1 (ix2 b u)
      = hs (ix3 (0 : Fin 2) b (0 : Fin 1))
    ∧ shapeCast S64x1 (extractStridedSlice S1x64x1 ![1, 0, 0] hs slices_S2x64x1_S1x64x1_1_0_0) shapeCasts_S1x64x1_S64x1 (ix2 b u)
      = hs (ix3 (1 : Fin 2) b (0 : Fin 1)) := by
  have hu : u.val = 0 := by omega
  have hc : ∀ (x : S1x64x1.Idx → EReal), shapeCast S64x1 x shapeCasts_S1x64x1_S64x1 (ix2 b u) = x (ix3 (0 : Fin 1) b (0 : Fin 1)) := fun x =>
    shapeCast_apply x shapeCasts_S1x64x1_S64x1 _ _ (by
      rw [Shape.rowMajor_val_three, Shape.rowMajor_val_two]
      show (0 * 64 + b.val) * 1 + 0 = b.val * 1 + u.val
      omega)
  constructor
  · rw [hc]
    exact extractStridedSlice_apply ![0, 0, 0] hs slices_S2x64x1_S1x64x1_0_0_0 (ix3 (0 : Fin 1) b (0 : Fin 1)) (ix3 (0 : Fin 2) b (0 : Fin 1)) fun a => by
      match a with
      | ⟨0, _⟩ => rfl
      | ⟨1, _⟩ => show b.val = 0 + b.val; omega
      | ⟨2, _⟩ => rfl
  · rw [hc]
    exact extractStridedSlice_apply ![1, 0, 0] hs slices_S2x64x1_S1x64x1_1_0_0 (ix3 (0 : Fin 1) b (0 : Fin 1)) (ix3 (1 : Fin 2) b (0 : Fin 1)) fun a => by
      match a with
      | ⟨0, _⟩ => rfl
      | ⟨1, _⟩ => show b.val = 0 + b.val; omega
      | ⟨2, _⟩ => rfl

/-- THE VALUE of the host stretch before region 3: the column of row totals is the specification's total of the
    half sums, whatever the buffers held when the stretch was entered. -/
theorem host_total (W : Valuation τ sig (Elt Ideal)) :
    StableHlo.after hostOps3 W (Proc.devRef .tc main_v7) = Cert.Spec.total (W (Proc.devRef .tc main_v2_1)) := by
  refine (host_v7 (F := Ideal) W).trans ?_
  funext i
  obtain ⟨b, u, rfl⟩ : ∃ (b : Fin 64) (u : Fin 1), i = ix2 b u := ⟨i 0, i 1, eq_ix2 i⟩
  obtain ⟨h0, h1⟩ := half_apply (W (Proc.devRef .tc main_v2_1)) b u
  rw [Cert.Spec.total_apply, addf_apply, h0, h1]

end AtIdeal

end Cert.KernelIdeal.R3

end
-- ==== Proof.KernelValue.lean ====
/-
  The kernel program's run at the extended reals, with its four results named: the specification's output
  distribution, attention context, new hidden state and clipped cell state of the thirteen arguments.
-/
import proofs.«122264_j82798379533062_2_alg».proof.Proof.Bridge
import proofs.«122264_j82798379533062_2_alg».proof.Proof.R0v
import proofs.«122264_j82798379533062_2_alg».proof.Proof.R1v
import proofs.«122264_j82798379533062_2_alg».proof.Proof.R2v
import proofs.«122264_j82798379533062_2_alg».proof.Proof.R3v

set_option maxRecDepth 16384

noncomputable section

namespace Cert.Proof.KernelValue

open Cert.KernelIdeal Cert.KernelIdeal.Gen Cert.KernelIdeal.Asm
open Idealize.ShloMosaic Idealize.ShloMosaic.TcCoe Idealize.SL.Sem

/-- Every weakly fair execution of the kernel program at the extended reals terminates with its results at the
    specification's four functions of the arguments, and the arguments as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v8) = Spec.stepOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      ∧ r.2.mem ((c.tc : Thread nD τ).loc main_v1) = Spec.stepCtx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg11)) (m ((c : Thread nD τ).loc main_arg12))
      ∧ r.2.mem ((c.tc : Thread nD τ).loc main_v0_0) = Spec.stepH (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))
      ∧ r.2.mem ((c.tc : Thread nD τ).loc main_v0_1) = Spec.stepCout (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  have hv := Asm.value (F := Ideal) R0.dat R1.dat R2.dat R3.dat m
      (A0 := R0.A_eq) (q0 := R0.q_eq) (o0 := R0.owed_eq) (rec0 := R0.rec_eq) (body0 := R0.body_obligation) (hin0 := R0.hin) (hout0 := R0.hout)
      (A1 := R1.A_eq) (q1 := R1.q_eq) (o1 := R1.owed_eq) (rec1 := R1.rec_eq) (body1 := R1.body_obligation) (hin1 := R1.hin) (hout1 := R1.hout)
      (A2 := R2.A_eq) (q2 := R2.q_eq) (o2 := R2.owed_eq) (rec2 := R2.rec_eq) (body2 := R2.body_obligation) (hin2 := R2.hin) (hout2 := R2.hout)
      (A3 := R3.A_eq) (q3 := R3.q_eq) (o3 := R3.owed_eq) (rec3 := R3.rec_eq) (body3 := R3.body_obligation) (hin3 := R3.hin) (hout3 := R3.hout) ρ
  refine (θ_run (defs (F := Ideal)) _ _).mono (fun r h c => ?_) hv
  have B0 := Asm.out0 R0.dat R1.dat R2.dat R3.dat m R0.A_eq R1.A_eq R2.A_eq R3.A_eq
    R0.arrAt8_eq R0.arrAt9_eq R1v.value R2.final4 R2.final5 R3.final_norm R3.host_total c
  have B1 := Asm.out1 R0.dat R1.dat R2.dat R3.dat m R0.A_eq R1.A_eq R2.A_eq R3.A_eq
    R0.arrAt8_eq R0.arrAt9_eq R1v.value R2.final4 R2.final5 R3.final_norm R3.host_total c
  have B2 := Asm.out2 R0.dat R1.dat R2.dat R3.dat m R0.A_eq R1.A_eq R2.A_eq R3.A_eq
    R0.arrAt8_eq R0.arrAt9_eq R1v.value R2.final4 R2.final5 R3.final_norm R3.host_total c
  have B3 := Asm.out3 R0.dat R1.dat R2.dat R3.dat m R0.A_eq R1.A_eq R2.A_eq R3.A_eq
    R0.arrAt8_eq R0.arrAt9_eq R1v.value R2.final4 R2.final5 R3.final_norm R3.host_total c
  exact ⟨(h c).1.trans B0, (h c).2.1.trans B1, (h c).2.2.1.trans B2, (h c).2.2.2.1.trans B3, (h c).2.2.2.2⟩

end Cert.Proof.KernelValue

end
-- ==== Proof.LibFiniteReal.lean ====
/-
  From "every entry's absolute value compares below +∞" to "every entry is a real number", at the ideal instance.

  A printed finiteness precondition asks, array by array, `jnp.all(jnp.abs(x) < inf)`: a host `abs`, a comparison against the
  broadcast word of +∞, and an all-reduce by `and` into a scalar. `posInf`: that word denotes ⊤. `real_of_abs_lt`: an
  extended real whose absolute value `max x (-x)` compares below ⊤ is neither infinity, hence a real. `all_real`: if the
  and-reduce of the comparisons over the whole array is 1, every entry of the array is real — for any shape and any list
  of reduced axes, the result a scalar. A certificate opens its own precondition's conjunction (`IntOp.andi_eq_one`) and
  hands each conjunct to `all_real`.
-/
import Idealize.ShloMosaic.Lib.ReduceAll
import Idealize.ShloMosaic.Lib.Affine
import Idealize.ShloMosaic.Lib.ValueIdx
import Idealize.ShloMosaic.PureOps.Ideal.Laws

noncomputable section

namespace FiniteReal

open Idealize.ShloMosaic Idealize.ShloMosaic.ValueIdx

/-- A scalar has one index. -/
instance scalarIdx_subsingleton : Subsingleton (⟨0, ![]⟩ : Shape).Idx := ⟨fun _ _ => funext fun d => d.elim0⟩

/-- The word of +∞ denotes the top of the extended reals. -/
theorem posInf : Ideal.ofBits .f32 0x7F800000#32 = (⊤ : EReal) := by simp [Ideal.ofBits, Ideal.ieee]

/-- An extended real whose absolute value compares below +∞ is a real number. -/
theorem real_of_abs_lt (x : EReal) (h : Ideal.cmp .olt (max x (-x)) (Ideal.ofBits .f32 0x7F800000#32) = 1#1) :
    ∃ r : ℝ, x = (r : EReal) := by
  rw [posInf] at h
  have hlt : max x (-x) < ⊤ := by
    by_contra hn
    have : Ideal.cmp .olt (max x (-x)) ⊤ = 0#1 := by
      unfold Ideal.cmp
      simp [hn]
    rw [this] at h
    exact absurd h (by decide)
  have h1 : x ≠ ⊤ := fun e => by rw [e] at hlt; simp at hlt
  have h2 : x ≠ ⊥ := fun e => by rw [e] at hlt; simp at hlt
  exact ⟨x.toReal, (EReal.coe_toReal h1 h2).symm⟩

/-- One array's answer: if all its entries' absolute values compare below +∞, every entry is real. -/
theorem all_real {s : Shape} {axes : List (Fin s.rank)} (x : FVec Ideal s .f32)
    (hb : (⟨0, ![]⟩ : Shape).BroadcastsInDim s (![] : Fin 0 → Fin s.rank))
    (h : s.ReducesTo axes (⟨0, ![]⟩ : Shape)) (hu : 0 < (⟨0, ![]⟩ : Shape).numel) (init : IVec (⟨0, ![]⟩ : Shape) 1)
    (e : Host.reduce IntOp.andi (cmpf .olt (Host.absf x)
      (broadcastInDim s ![] hb (constant (F := Ideal) (⟨0, ![]⟩ : Shape) .f32 0x7F800000#32))) init h hu ix0 = 1#1)
    (i : s.Idx) : ∃ r : ℝ, x i = (r : EReal) :=
  real_of_abs_lt (x i) (Host.reduce_andi_all _ init h hu ix0 e i)

end FiniteReal

end
-- ==== Proof.Finite.lean ====
/-
  From the printed finiteness precondition to "every entry of every input array is a real number".

  The precondition asks of each of the thirteen input arrays that every entry's absolute value compare below +∞, and
  joins the thirteen answers by `and`. If the joined answer is 1 then each array's answer is 1, and an array whose
  answer is 1 has only real entries (neither infinity has an absolute value below +∞).

  Then: sums, products, exponentials, hyperbolic tangents and logistic functions of reals are reals, and a real divided
  by a positive real is real, so every stage of the step maps real arrays to real arrays.
-/
import proofs.«122264_j82798379533062_2_alg».proof.Pre_finite_inputs
import proofs.«122264_j82798379533062_2_alg».proof.Proof.LibFiniteReal
import Idealize.ShloMosaic.Lib.ReduceAll
import Idealize.ShloMosaic.Lib.Affine
import proofs.«122264_j82798379533062_2_alg».proof.Proof.Spec

noncomputable section

open scoped BigOperators

namespace Cert.Finite

open Idealize.ShloMosaic Idealize.ShloMosaic.ValueIdx Cert.Pre_finite_inputs

/-- Every entry of the array is a real number. -/
abbrev AllReal {s : Shape} (x : s.Idx → EReal) : Prop := ∀ i : s.Idx, ∃ r : ℝ, x i = (r : EReal)

/-- A real array is the coercion of an array of reals. -/
theorem AllReal.exists_real {s : Shape} {x : s.Idx → EReal} (h : AllReal x) : ∃ ρ : s.Idx → ℝ, ∀ i, x i = (ρ i : EReal) :=
  ⟨fun i => (h i).choose, fun i => (h i).choose_spec⟩

/-- The coercion of an array of reals is a real array. -/
theorem allReal_coe {s : Shape} (ρ : s.Idx → ℝ) : AllReal (fun i => ((ρ i : ℝ) : EReal)) := fun i => ⟨ρ i, rfl⟩

/-- Under the precondition every entry of every input array is real. -/
theorem of_pre [Facts]
    (a0 : FVec Ideal S64x256 .f32) (a1 : FVec Ideal S64x1024x256 .f32) (a2 : FVec Ideal S64x32000 .f32)
    (a3 a4 : FVec Ideal S64x128 .f32) (a5 : FVec Ideal S32000x64 .f32) (a6 : FVec Ideal S256x64 .f32)
    (a7 : FVec Ideal S128x32000 .f32) (a8 : FVec Ideal S256x32000 .f32) (a9 : FVec Ideal S64x512 .f32)
    (a10 : FVec Ideal S128x512 .f32) (a11 : FVec Ideal S128x256 .f32) (a12 : FVec Ideal S1x1x256 .f32)
    (h : fn (F := Ideal) a0 a1 a2 a3 a4 a5 a6 a7 a8 a9 a10 a11 a12 = fun _ => 1#1) :
    AllReal a0 ∧ AllReal a1 ∧ AllReal a2 ∧ AllReal a3 ∧ AllReal a4 ∧ AllReal a5 ∧ AllReal a6 ∧ AllReal a7 ∧ AllReal a8
      ∧ AllReal a9 ∧ AllReal a10 ∧ AllReal a11 ∧ AllReal a12 := by
  have h0 := congrFun h ix0
  dsimp only [fn, fn_part1, fn_part2, fn_part3] at h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨FiniteReal.all_real a0 _ _ _ _ e0, FiniteReal.all_real a1 _ _ _ _ e1, FiniteReal.all_real a2 _ _ _ _ e2,
    FiniteReal.all_real a3 _ _ _ _ e3, FiniteReal.all_real a4 _ _ _ _ e4, FiniteReal.all_real a5 _ _ _ _ e5,
    FiniteReal.all_real a6 _ _ _ _ e6, FiniteReal.all_real a7 _ _ _ _ e7, FiniteReal.all_real a8 _ _ _ _ e8,
    FiniteReal.all_real a9 _ _ _ _ e9, FiniteReal.all_real a10 _ _ _ _ e10, FiniteReal.all_real a11 _ _ _ _ e11,
    FiniteReal.all_real a12 _ _ _ _ e12⟩

/-! ## Real numbers among the extended reals: closure under the step's operations -/

/-- The extended real is a real number. -/
abbrev IsReal (x : EReal) : Prop := ∃ r : ℝ, x = (r : EReal)

/-- The extended real is a positive real number. -/
abbrev IsPos (x : EReal) : Prop := ∃ r : ℝ, 0 < r ∧ x = (r : EReal)

theorem isReal_zero : IsReal 0 := ⟨0, EReal.coe_zero.symm⟩

theorem isReal_add {x y : EReal} (hx : IsReal x) (hy : IsReal y) : IsReal (x + y) := by
  obtain ⟨a, rfl⟩ := hx; obtain ⟨b, rfl⟩ := hy; exact ⟨a + b, (EReal.coe_add a b).symm⟩

theorem isReal_mul {x y : EReal} (hx : IsReal x) (hy : IsReal y) : IsReal (x * y) := by
  obtain ⟨a, rfl⟩ := hx; obtain ⟨b, rfl⟩ := hy; exact ⟨a * b, (EReal.coe_mul a b).symm⟩

theorem isReal_sum {ι : Type*} (s : Finset ι) (f : ι → EReal) (h : ∀ i ∈ s, IsReal (f i)) : IsReal (∑ i ∈ s, f i) :=
  Finset.sum_induction f IsReal (fun _ _ => isReal_add) isReal_zero h

theorem isReal_exp {x : EReal} (hx : IsReal x) : IsReal (Ideal.exp x) := by
  obtain ⟨a, rfl⟩ := hx; exact ⟨Real.exp a, rfl⟩

theorem isReal_tanh {x : EReal} (hx : IsReal x) : IsReal (Ideal.tanh x) := by
  obtain ⟨a, rfl⟩ := hx; exact ⟨Real.tanh a, rfl⟩

theorem isReal_logistic {x : EReal} (hx : IsReal x) : IsReal (Ideal.logistic x) := by
  obtain ⟨a, rfl⟩ := hx; exact ⟨_, Ideal.logistic_coe a⟩

theorem IsPos.isReal {x : EReal} (hx : IsPos x) : IsReal x := by
  obtain ⟨a, _, rfl⟩ := hx; exact ⟨a, rfl⟩

theorem isPos_exp {x : EReal} (hx : IsReal x) : IsPos (Ideal.exp x) := by
  obtain ⟨a, rfl⟩ := hx; exact ⟨Real.exp a, Real.exp_pos a, rfl⟩

theorem isPos_add {x y : EReal} (hx : IsPos x) (hy : IsPos y) : IsPos (x + y) := by
  obtain ⟨a, ha, rfl⟩ := hx; obtain ⟨b, hb, rfl⟩ := hy; exact ⟨a + b, add_pos ha hb, (EReal.coe_add a b).symm⟩

theorem isPos_sum {ι : Type*} (s : Finset ι) (hs : s.Nonempty) (f : ι → EReal) (h : ∀ i ∈ s, IsPos (f i)) :
    IsPos (∑ i ∈ s, f i) :=
  Finset.sum_induction_nonempty f IsPos (fun _ _ => isPos_add) hs h

/-- A real divided by a positive real is real. -/
theorem isReal_div {x y : EReal} (hx : IsReal x) (hy : IsPos y) : IsReal (Ideal.div x y) := by
  obtain ⟨a, rfl⟩ := hx; obtain ⟨b, hb, rfl⟩ := hy
  rw [Ideal.div_coe hb.ne']
  exact ⟨a * (1 / b), (EReal.coe_mul _ _).symm⟩

/-! ## Every stage of the step maps real arrays to real arrays -/

section Stages
open Cert.Spec

theorem lstmIn_real {pc : Arr2 64 32000} {Wc : Arr2 32000 64} {pcv : Arr2 64 256} {Wct1 : Arr2 256 64}
    (h1 : AllReal pc) (h2 : AllReal Wc) (h3 : AllReal pcv) (h4 : AllReal Wct1) : AllReal (lstmIn pc Wc pcv Wct1) :=
  fun _ => isReal_add (isReal_sum _ _ fun _ _ => isReal_mul (h1 _) (h2 _)) (isReal_sum _ _ fun _ _ => isReal_mul (h3 _) (h4 _))

theorem gateZ_real {li : Arr2 64 64} {lk : Arr2 64 512} {h : Arr2 64 128} {lr : Arr2 128 512}
    (h1 : AllReal li) (h2 : AllReal lk) (h3 : AllReal h) (h4 : AllReal lr) : AllReal (gateZ li lk h lr) :=
  fun _ => isReal_add (isReal_sum _ _ fun _ _ => isReal_mul (h1 _) (h2 _)) (isReal_sum _ _ fun _ _ => isReal_mul (h3 _) (h4 _))

theorem newC_real {z : Arr2 64 512} {c : Arr2 64 128} (hz : AllReal z) (hc : AllReal c) : AllReal (newC z c) :=
  fun _ => isReal_add (isReal_mul (isReal_logistic (hz _)) (hc _)) (isReal_mul (isReal_logistic (hz _)) (isReal_tanh (hz _)))

theorem newH_real {z : Arr2 64 512} {c : Arr2 64 128} (hz : AllReal z) (hc : AllReal c) : AllReal (newH z c) :=
  fun _ => isReal_mul (isReal_logistic (hz _)) (isReal_tanh (newC_real hz hc _))

theorem attnH_real {nh : Arr2 64 128} {Wh : Arr2 128 256} (h1 : AllReal nh) (h2 : AllReal Wh) (b : Fin 64) (ch : Fin 256) :
    IsReal (attnH nh Wh b ch) :=
  isReal_sum _ _ fun _ _ => isReal_mul (h1 _) (h2 _)

theorem attnE_real {nh : Arr2 64 128} {Fa : Arr3 64 1024 256} {Wh : Arr2 128 256} {Va : Arr3 1 1 256}
    (h1 : AllReal nh) (h2 : AllReal Fa) (h3 : AllReal Wh) (h4 : AllReal Va) (b : Fin 64) (t : Fin 1024) (ch : Fin 256) :
    IsReal (attnE nh Fa Wh Va b t ch) :=
  isReal_mul (h4 _) (isReal_tanh (isReal_add (attnH_real h1 h3 b ch) (h2 _)))

theorem attnP_pos {nh : Arr2 64 128} {Fa : Arr3 64 1024 256} {Wh : Arr2 128 256} {Va : Arr3 1 1 256}
    (h1 : AllReal nh) (h2 : AllReal Fa) (h3 : AllReal Wh) (h4 : AllReal Va) (b : Fin 64) (t : Fin 1024) (ch : Fin 256) :
    IsPos (attnP nh Fa Wh Va b t ch) :=
  isPos_exp (attnE_real h1 h2 h3 h4 b t ch)

theorem ctx_real {nh : Arr2 64 128} {Fa : Arr3 64 1024 256} {Wh : Arr2 128 256} {Va : Arr3 1 1 256}
    (h1 : AllReal nh) (h2 : AllReal Fa) (h3 : AllReal Wh) (h4 : AllReal Va) : AllReal (ctx nh Fa Wh Va) :=
  fun _ => isReal_div (isReal_sum _ _ fun _ _ => isReal_mul (attnP_pos h1 h2 h3 h4 _ _ _).isReal (h2 _))
    (isPos_sum _ ⟨⟨0, by decide⟩, Finset.mem_univ _⟩ _ fun _ _ => attnP_pos h1 h2 h3 h4 _ _ _)

theorem logit_real {nh : Arr2 64 128} {cT : Arr2 64 256} {Wo : Arr2 128 32000} {Wct2 : Arr2 256 32000}
    (h1 : AllReal nh) (h2 : AllReal cT) (h3 : AllReal Wo) (h4 : AllReal Wct2) (b : Fin 64) (v : Fin 32000) :
    IsReal (logit nh cT Wo Wct2 b v) :=
  isReal_add (isReal_sum _ _ fun _ _ => isReal_mul (h1 _) (h3 _)) (isReal_sum _ _ fun _ _ => isReal_mul (h2 _) (h4 _))

variable {pcv : Arr2 64 256} {Fa : Arr3 64 1024 256} {pc : Arr2 64 32000} {h c : Arr2 64 128}
  {Wc : Arr2 32000 64} {Wct1 : Arr2 256 64} {Wo : Arr2 128 32000} {Wct2 : Arr2 256 32000}
  {lk : Arr2 64 512} {lr : Arr2 128 512} {Wh : Arr2 128 256} {Va : Arr3 1 1 256}

/-- On real inputs the step's new hidden state is real. -/
theorem stepH_real (h0 : AllReal pcv) (h2 : AllReal pc) (h3 : AllReal h) (h4 : AllReal c) (h5 : AllReal Wc) (h6 : AllReal Wct1)
    (h9 : AllReal lk) (h10 : AllReal lr) : AllReal (stepH pcv pc h c Wc Wct1 lk lr) :=
  newH_real (gateZ_real (lstmIn_real h2 h5 h0 h6) h9 h3 h10) h4

/-- On real inputs the step's context vector is real. -/
theorem stepCtx_real (h0 : AllReal pcv) (h1 : AllReal Fa) (h2 : AllReal pc) (h3 : AllReal h) (h4 : AllReal c) (h5 : AllReal Wc)
    (h6 : AllReal Wct1) (h9 : AllReal lk) (h10 : AllReal lr) (h11 : AllReal Wh) (h12 : AllReal Va) :
    AllReal (stepCtx pcv Fa pc h c Wc Wct1 lk lr Wh Va) :=
  ctx_real (stepH_real h0 h2 h3 h4 h5 h6 h9 h10) h1 h11 h12

end Stages

end Cert.Finite

end
-- ==== Proof.LibSoftmaxRow.lean ====
/-
  A row of scores turned into softmax weights, over the extended reals, and what real rows give.

  For a row `s : Fin n → EReal`: `rowMax s` is the fold of `max` from -∞, `rowExp s t = exp (s t - rowMax s)`, and
  `rowWt s t = rowExp s t / ∑ u, rowExp s u` — the shape both a kernel's lane reductions and a host softmax take when read
  at an index. `rowWt_real`: for a nonempty row of REAL scores the weights are real numbers that sum to one (the maximum
  of finitely many reals is real, the exponentials are positive reals, the divisor is a positive real). `mix`: for real
  weights that sum to one, mixing affinely projected rows is projecting the mixed rows, `∑ t, w t · ((∑ d, κ t d · ω d) + β)
  = (∑ d, (∑ t, w t · κ t d) · ω d) + β` — the identity that lets a value projection and its bias be applied after the
  attention matmul instead of before. `coe_sum`: the coercion ℝ → EReal commutes with finite sums. `negInf`: the f32 word
  of -∞ denotes ⊥.
-/
import Mathlib
import Idealize.ShloMosaic.PureOps.Ideal
import Idealize.ShloMosaic.PureOps.Ideal.Laws

noncomputable section

namespace SoftmaxRow

open Idealize.ShloMosaic

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The word of -∞ denotes the bottom of the extended reals. -/
theorem negInf : Ideal.ofBits .f32 0xFF800000#32 = (⊥ : EReal) := by simp [Ideal.ofBits, Ideal.ieee]

/-! ## A row of scores turned into weights -/

/-- The row's maximum, folded from -∞. -/
def rowMax {n : ℕ} (s : Fin n → EReal) : EReal :=
  (Finset.univ : Finset (Fin n)).fold max (Ideal.ofBits .f32 0xFF800000#32) s

/-- The exponential of an entry's distance below the row's maximum. -/
def rowExp {n : ℕ} (s : Fin n → EReal) (t : Fin n) : EReal := Ideal.exp (s t - rowMax s)

/-- The entry's weight: its exponential over the sum of the row's exponentials. -/
def rowWt {n : ℕ} (s : Fin n → EReal) (t : Fin n) : EReal := Ideal.div (rowExp s t) (∑ u : Fin n, rowExp s u)

/-- The weights of a nonempty real row are real numbers that sum to one: the maximum of finitely many reals is real,
    each exponential is a positive real, so the divisor is a positive real. -/
theorem rowWt_real {n : ℕ} (hn : 0 < n) (σ : Fin n → ℝ) :
    ∃ w : Fin n → ℝ, (∀ t, rowWt (fun t => (σ t : EReal)) t = (w t : EReal)) ∧ ∑ t, w t = 1 := by
  have hlt : rowMax (fun t => (σ t : EReal)) < ⊤ := by
    unfold rowMax
    rw [Finset.fold_max_lt]
    exact ⟨by rw [negInf]; exact bot_lt_top, fun x _ => EReal.coe_lt_top _⟩
  have hgt : ⊥ < rowMax (fun t => (σ t : EReal)) := by
    unfold rowMax
    rw [Finset.lt_fold_max]
    exact Or.inr ⟨⟨0, hn⟩, Finset.mem_univ _, EReal.bot_lt_coe _⟩
  obtain ⟨μ, hμ⟩ : ∃ μ : ℝ, rowMax (fun t => (σ t : EReal)) = (μ : EReal) :=
    ⟨_, (EReal.coe_toReal hlt.ne hgt.ne').symm⟩
  have hex : ∀ t, rowExp (fun t => (σ t : EReal)) t = ((Real.exp (σ t - μ) : ℝ) : EReal) := fun t => by
    unfold rowExp
    rw [hμ, ← EReal.coe_sub]
    rfl
  have hL : 0 < ∑ u : Fin n, Real.exp (σ u - μ) :=
    Finset.sum_pos (fun u _ => Real.exp_pos _) ⟨⟨0, hn⟩, Finset.mem_univ _⟩
  refine ⟨fun t => Real.exp (σ t - μ) / ∑ u : Fin n, Real.exp (σ u - μ), fun t => ?_, ?_⟩
  · unfold rowWt
    simp only [hex]
    rw [← coe_sum, Ideal.div_coe hL.ne', ← EReal.coe_mul]
    congr 1
    ring
  · rw [← Finset.sum_div]
    exact div_self hL.ne'

/-- Mixing projected rows is projecting the mixed rows, for real weights that sum to one: the bias is weighted by
    the weights' sum, which is one, and the two finite sums are exchanged. -/
theorem mix {T D : ℕ} (w : Fin T → ℝ) (hw : ∑ t, w t = 1) (κ : Fin T → Fin D → ℝ) (ω : Fin D → ℝ) (β : ℝ) :
    (∑ t : Fin T, (w t : EReal) * ((∑ d : Fin D, (κ t d : EReal) * (ω d : EReal)) + (β : EReal)))
      = (∑ d : Fin D, (∑ t : Fin T, (w t : EReal) * (κ t d : EReal)) * (ω d : EReal)) + (β : EReal) := by
  have hreal : ∑ t : Fin T, w t * (∑ d : Fin D, κ t d * ω d + β) = ∑ d : Fin D, (∑ t : Fin T, w t * κ t d) * ω d + β := by
    calc ∑ t : Fin T, w t * (∑ d : Fin D, κ t d * ω d + β)
        = ∑ t : Fin T, ∑ d : Fin D, w t * κ t d * ω d + (∑ t : Fin T, w t) * β := by
          rw [Finset.sum_mul, ← Finset.sum_add_distrib]
          refine Finset.sum_congr rfl fun t _ => ?_
          rw [mul_add, Finset.mul_sum]
          simp only [mul_assoc]
      _ = ∑ d : Fin D, (∑ t : Fin T, w t * κ t d) * ω d + β := by
          rw [hw, one_mul, Finset.sum_comm]
          simp only [Finset.sum_mul]
  have hl : (∑ t : Fin T, (w t : EReal) * ((∑ d : Fin D, (κ t d : EReal) * (ω d : EReal)) + (β : EReal)))
      = ((∑ t : Fin T, w t * (∑ d : Fin D, κ t d * ω d + β) : ℝ) : EReal) := by
    rw [coe_sum]
    refine Finset.sum_congr rfl fun t _ => ?_
    rw [EReal.coe_mul, EReal.coe_add, coe_sum]
    simp only [EReal.coe_mul]
  have hr : (∑ d : Fin D, (∑ t : Fin T, (w t : EReal) * (κ t d : EReal)) * (ω d : EReal)) + (β : EReal)
      = ((∑ d : Fin D, (∑ t : Fin T, w t * κ t d) * ω d + β : ℝ) : EReal) := by
    rw [EReal.coe_add, coe_sum]
    refine congrArg (· + (β : EReal)) (Finset.sum_congr rfl fun d _ => ?_)
    rw [EReal.coe_mul, coe_sum]
    simp only [EReal.coe_mul]
  rw [hl, hr, hreal]

end SoftmaxRow

end
-- ==== Proof.RefSpec.lean ====
/-
  The reference computation, read operation by operation, is the step of Spec.lean.

  The LSTM cell needs no hypothesis: the reference spells the logistic function as 1 / (1 + exp(−x)) with ones broadcast
  from a constant, which is the logistic function of the element, and its clip is a maximum followed by a minimum. The
  two softmaxes subtract the row maximum before exponentiating; on REAL rows exp(e − m) / ∑ exp(e − m) = exp(e) / ∑ exp(e),
  the weighted sum of a row by its weights is the quotient of the weighted sum by the sum of the weights, and the sum
  over the vocabulary is the sum of the sums over its two halves — so the context vector and the output distribution are
  the step's under the hypothesis that every input entry is real.
-/
import proofs.«122264_j82798379533062_2_alg».proof.Proof.RefRead
import proofs.«122264_j82798379533062_2_alg».proof.Proof.Spec
import proofs.«122264_j82798379533062_2_alg».proof.Proof.Finite
import proofs.«122264_j82798379533062_2_alg».proof.Proof.LibSoftmaxRow
import proofs.«122264_j82798379533062_2_alg».proof.Proof.LibBlockedSum
import Idealize.ShloMosaic.Lib.IdealHost

set_option maxRecDepth 16384

noncomputable section

open scoped BigOperators

namespace Cert.RefSpec

open Cert.ReferenceIdeal Cert.ReferenceIdeal.Gen Cert.ReferenceIdeal.Read Idealize.ShloMosaic Idealize.ShloMosaic.ValueIdx Cert.Spec

/-! ## Indices -/

/-- A rank-1 index with the coordinate of `ix1 a` is `ix1 a`. -/
theorem ix1_of_val {n : Nat} (f : (⟨1, ![n]⟩ : Shape).Idx) (a : Fin n) (h0 : (f 0).val = a.val) : f = ix1 a := by
  funext d
  match d with
  | ⟨0, _⟩ => exact Fin.ext h0

/-- A rank-2 index with the coordinates of `ix2 a b` is `ix2 a b`. -/
theorem ix2_of_val {n0 n1 : Nat} (f : (⟨2, ![n0, n1]⟩ : Shape).Idx) (a : Fin n0) (b : Fin n1)
    (h0 : (f 0).val = a.val) (h1 : (f 1).val = b.val) : f = ix2 a b := by
  funext d
  match d with
  | ⟨0, _⟩ => exact Fin.ext h0
  | ⟨1, _⟩ => exact Fin.ext h1

/-- A rank-3 index with the coordinates of `ix3 a b c` is `ix3 a b c`. -/
theorem ix3_of_val {n0 n1 n2 : Nat} (f : (⟨3, ![n0, n1, n2]⟩ : Shape).Idx) (a : Fin n0) (b : Fin n1) (c : Fin n2)
    (h0 : (f 0).val = a.val) (h1 : (f 1).val = b.val) (h2 : (f 2).val = c.val) : f = ix3 a b c := by
  funext d
  match d with
  | ⟨0, _⟩ => exact Fin.ext h0
  | ⟨1, _⟩ => exact Fin.ext h1
  | ⟨2, _⟩ => exact Fin.ext h2

/-- The logistic function spelled as a quotient with two ones. -/
theorem logistic_spelled (u v x : EReal) (hu : u = 1) (hv : v = 1) : Ideal.div u (v + Ideal.exp (-x)) = Ideal.logistic x := by
  subst hu hv; rfl

/-! ## Softmax weights of a real row, with and without subtracting the maximum -/

section Rows
open SoftmaxRow Cert.Finite

/-- A row of real extended reals is the coercion of a row of reals. -/
theorem exists_real_row {n : ℕ} (e : Fin n → EReal) (he : ∀ t, IsReal (e t)) : ∃ σ : Fin n → ℝ, e = fun t => (σ t : EReal) :=
  ⟨fun t => (he t).choose, funext fun t => (he t).choose_spec⟩

/-- The maximum of a nonempty real row is real. -/
theorem rowMax_real {n : ℕ} (hn : 0 < n) (σ : Fin n → ℝ) : ∃ μ : ℝ, rowMax (fun t => (σ t : EReal)) = (μ : EReal) := by
  have hlt : rowMax (fun t => (σ t : EReal)) < ⊤ := by
    unfold rowMax
    rw [Finset.fold_max_lt]
    exact ⟨by rw [negInf]; exact bot_lt_top, fun x _ => EReal.coe_lt_top _⟩
  have hgt : ⊥ < rowMax (fun t => (σ t : EReal)) := by
    unfold rowMax
    rw [Finset.lt_fold_max]
    exact Or.inr ⟨⟨0, hn⟩, Finset.mem_univ _, EReal.bot_lt_coe _⟩
  exact ⟨_, (EReal.coe_toReal hlt.ne hgt.ne').symm⟩

/-- The sum of the exponentials of a nonempty real row is positive. -/
theorem sum_exp_pos {n : ℕ} (hn : 0 < n) (σ : Fin n → ℝ) : 0 < ∑ u : Fin n, Real.exp (σ u) :=
  Finset.sum_pos (fun u _ => Real.exp_pos _) ⟨⟨0, hn⟩, Finset.mem_univ _⟩

/-- The max-subtracted weight of an entry of a nonempty real row is the real number exp(σ t) / ∑ exp(σ u): the common
    factor exp(−μ) cancels. -/
theorem rowWt_coe {n : ℕ} (hn : 0 < n) (σ : Fin n → ℝ) (t : Fin n) :
    rowWt (fun t => (σ t : EReal)) t = ((Real.exp (σ t) / ∑ u : Fin n, Real.exp (σ u) : ℝ) : EReal) := by
  obtain ⟨μ, hμ⟩ := rowMax_real hn σ
  have hex : ∀ t, rowExp (fun t => (σ t : EReal)) t = ((Real.exp (σ t - μ) : ℝ) : EReal) := fun t => by
    unfold rowExp
    rw [hμ, ← EReal.coe_sub]
    rfl
  have hL : 0 < ∑ u : Fin n, Real.exp (σ u - μ) := sum_exp_pos hn fun u => σ u - μ
  unfold rowWt
  simp only [hex]
  rw [← coe_sum, Ideal.div_coe hL.ne', ← EReal.coe_mul]
  congr 1
  have h1 : ∀ u, Real.exp (σ u - μ) = Real.exp (σ u) * Real.exp (-μ) := fun u => by rw [sub_eq_add_neg, Real.exp_add]
  simp only [h1]
  rw [← Finset.sum_mul]
  have hE : Real.exp (-μ) ≠ 0 := (Real.exp_pos _).ne'
  have hS : (∑ u : Fin n, Real.exp (σ u)) ≠ 0 := (sum_exp_pos hn σ).ne'
  field_simp

/-- The weight without subtracting the maximum is the same real number. -/
theorem plainWt_coe {n : ℕ} (hn : 0 < n) (σ : Fin n → ℝ) (t : Fin n) :
    Ideal.div (Ideal.exp (σ t : EReal)) (∑ u : Fin n, Ideal.exp (σ u : EReal))
      = ((Real.exp (σ t) / ∑ u : Fin n, Real.exp (σ u) : ℝ) : EReal) := by
  simp only [Ideal.exp_coe]
  rw [← coe_sum, Ideal.div_coe (sum_exp_pos hn σ).ne', ← EReal.coe_mul, mul_one_div]

/-- On a nonempty real row the max-subtracted softmax weight is exp(e t) / ∑ exp(e u). -/
theorem rowWt_eq_plain {n : ℕ} (hn : 0 < n) (e : Fin n → EReal) (he : ∀ t, IsReal (e t)) (t : Fin n) :
    rowWt e t = Ideal.div (Ideal.exp (e t)) (∑ u : Fin n, Ideal.exp (e u)) := by
  obtain ⟨σ, rfl⟩ := exists_real_row e he
  rw [rowWt_coe hn, plainWt_coe hn]

/-- On nonempty real rows the weighted sum of `φ` by the softmax weights of `e` is the quotient of the sum of
    exp(e t) · φ t by the sum of the exp(e t). -/
theorem weighted_sum_eq {n : ℕ} (hn : 0 < n) (e φ : Fin n → EReal) (he : ∀ t, IsReal (e t)) (hφ : ∀ t, IsReal (φ t)) :
    ∑ t : Fin n, rowWt e t * φ t = Ideal.div (∑ t : Fin n, Ideal.exp (e t) * φ t) (∑ t : Fin n, Ideal.exp (e t)) := by
  obtain ⟨σ, rfl⟩ := exists_real_row e he
  obtain ⟨f, rfl⟩ := exists_real_row φ hφ
  have hS := sum_exp_pos hn σ
  simp only [rowWt_coe hn, Ideal.exp_coe, ← EReal.coe_mul]
  rw [← coe_sum, ← coe_sum, ← coe_sum, Ideal.div_coe hS.ne', ← EReal.coe_mul]
  congr 1
  rw [Finset.sum_mul]
  refine Finset.sum_congr rfl fun t _ => ?_
  field_simp

/-- A sum over the vocabulary is the sum of the sums over its two halves. -/
theorem sum_halves {M : Type*} [AddCommMonoid M] (f : Fin 32000 → M) :
    ∑ u : Fin 32000, f u = (∑ j : Fin 16000, f (halfCol 0 j)) + ∑ j : Fin 16000, f (halfCol 1 j) := by
  let g : ℕ → M := fun n => if h : n < 32000 then f ⟨n, h⟩ else 0
  have hg : ∀ u : Fin 32000, g u.val = f u := fun u => dif_pos u.isLt
  have hh : ∀ (b : Fin 2) (j : Fin 16000), g (b.val * 16000 + j.val) = f (halfCol b j) := fun b j =>
    dif_pos (halfCol b j).isLt
  calc ∑ u : Fin 32000, f u = ∑ u : Fin 32000, g u.val := Finset.sum_congr rfl fun u _ => (hg u).symm
    _ = ∑ k ∈ Finset.range (2 * 16000), g k := Fin.sum_univ_eq_sum_range g 32000
    _ = ∑ b ∈ Finset.range 2, ∑ j ∈ Finset.range 16000, g (b * 16000 + j) := BlockedSum.sum_range_mul g 2 16000
    _ = ∑ b : Fin 2, ∑ j : Fin 16000, g (b.val * 16000 + j.val) := by
        rw [← Fin.sum_univ_eq_sum_range (fun b => ∑ j ∈ Finset.range 16000, g (b * 16000 + j)) 2]
        refine Finset.sum_congr rfl fun b _ => ?_
        rw [← Fin.sum_univ_eq_sum_range (fun j => g (b.val * 16000 + j)) 16000]
    _ = (∑ j : Fin 16000, f (halfCol 0 j)) + ∑ j : Fin 16000, f (halfCol 1 j) := by
        rw [Fin.sum_univ_two]
        exact congrArg₂ (· + ·) (Finset.sum_congr rfl fun j _ => hh 0 j) (Finset.sum_congr rfl fun j _ => hh 1 j)

end Rows

/-! ## The LSTM cell -/

section LSTM
variable (x0 : (⟨S64x256, .f32⟩ : BufTy).Contents (Elt Ideal)) (x2 : (⟨S64x32000, .f32⟩ : BufTy).Contents (Elt Ideal))
  (x3 x4 : (⟨S64x128, .f32⟩ : BufTy).Contents (Elt Ideal)) (x5 : (⟨S32000x64, .f32⟩ : BufTy).Contents (Elt Ideal))
  (x6 : (⟨S256x64, .f32⟩ : BufTy).Contents (Elt Ideal)) (x9 : (⟨S64x512, .f32⟩ : BufTy).Contents (Elt Ideal))
  (x10 : (⟨S128x512, .f32⟩ : BufTy).Contents (Elt Ideal))

/-- The sum of the two embeddings is the cell's input. -/
theorem v2_eq : val_main_v2 (F := Ideal) x0 x2 x5 x6 = lstmIn x2 x5 x0 x6 := by
  funext i
  obtain ⟨b, e, rfl⟩ : ∃ b e, i = ix2 b e := ⟨i 0, i 1, eq_ix2 i⟩
  rw [val_main_v2_apply, val_main_v0_apply, val_main_v1_apply, lstmIn_apply]
  refine congrArg₂ (· + ·) (Finset.sum_congr rfl fun k _ => ?_) (Finset.sum_congr rfl fun k _ => ?_)
  · rw [ix2_of_val (lidx_main_v0 (ix2 b e) k) b k rfl rfl, ix2_of_val (ridx_main_v0 (ix2 b e) k) k e rfl rfl]
  · rw [ix2_of_val (lidx_main_v1 (ix2 b e) k) b k rfl rfl, ix2_of_val (ridx_main_v1 (ix2 b e) k) k e rfl rfl]

/-- The gates' pre-activations. -/
theorem v5_eq : val_main_v5 (F := Ideal) x0 x2 x3 x5 x6 x9 x10 = stepZ x0 x2 x3 x5 x6 x9 x10 := by
  funext i
  obtain ⟨b, j, rfl⟩ : ∃ b j, i = ix2 b j := ⟨i 0, i 1, eq_ix2 i⟩
  unfold stepZ
  rw [val_main_v5_apply, val_main_v3_apply, val_main_v4_apply, gateZ_apply, v2_eq]
  refine congrArg₂ (· + ·) (Finset.sum_congr rfl fun k _ => ?_) (Finset.sum_congr rfl fun k _ => ?_)
  · rw [ix2_of_val (lidx_main_v3 (ix2 b j) k) b k rfl rfl, ix2_of_val (ridx_main_v3 (ix2 b j) k) k j rfl rfl]
  · rw [ix2_of_val (lidx_main_v4 (ix2 b j) k) b k rfl rfl, ix2_of_val (ridx_main_v4 (ix2 b j) k) k j rfl rfl]

/-- The input gate: the logistic function of the first block of columns. -/
theorem v15_at (b : Fin 64) (l : Fin 128) :
    val_main_v15 (F := Ideal) x0 x2 x3 x5 x6 x9 x10 (ix2 b l) = Ideal.logistic (val_main_v5 (F := Ideal) x0 x2 x3 x5 x6 x9 x10 (ix2 b (colI l))) := by
  rw [val_main_v15_apply, val_main_v13_apply, val_main_v11_apply, val_main_v10_apply, val_main_v6_apply, val_main_v14_apply,
    val_main_v12_apply, val_main_cst_0_apply, val_main_cst_apply, ix2_of_val (idx_main_v6 (ix2 b l)) b (colI l) rfl rfl]
  rw [Ideal.hostDivf_def, Ideal.addf_def, Ideal.hostUnary_exp_def, Ideal.hostNegf_def, Ideal.negf_def, Ideal.ofBits_def, Ideal.ofBits_one_f32]
  rfl

/-- The forget gate: the logistic function of the second block of columns. -/
theorem v21_at (b : Fin 64) (l : Fin 128) :
    val_main_v21 (F := Ideal) x0 x2 x3 x5 x6 x9 x10 (ix2 b l) = Ideal.logistic (val_main_v5 (F := Ideal) x0 x2 x3 x5 x6 x9 x10 (ix2 b (colF l))) := by
  rw [val_main_v21_apply, val_main_v19_apply, val_main_v17_apply, val_main_v16_apply, val_main_v7_apply, val_main_v20_apply,
    val_main_v18_apply, val_main_cst_2_apply, val_main_cst_1_apply, ix2_of_val (idx_main_v7 (ix2 b l)) b (colF l) rfl rfl]
  rw [Ideal.hostDivf_def, Ideal.addf_def, Ideal.hostUnary_exp_def, Ideal.hostNegf_def, Ideal.negf_def, Ideal.ofBits_def, Ideal.ofBits_one_f32]
  rfl

/-- The candidate: the hyperbolic tangent of the third block of columns. -/
theorem v22_at (b : Fin 64) (l : Fin 128) :
    val_main_v22 (F := Ideal) x0 x2 x3 x5 x6 x9 x10 (ix2 b l) = Ideal.tanh (val_main_v5 (F := Ideal) x0 x2 x3 x5 x6 x9 x10 (ix2 b (colG l))) := by
  rw [val_main_v22_apply, val_main_v8_apply, ix2_of_val (idx_main_v8 (ix2 b l)) b (colG l) rfl rfl, Ideal.hostUnary_tanh_def]

/-- The output gate: the logistic function of the fourth block of columns. -/
theorem v28_at (b : Fin 64) (l : Fin 128) :
    val_main_v28 (F := Ideal) x0 x2 x3 x5 x6 x9 x10 (ix2 b l) = Ideal.logistic (val_main_v5 (F := Ideal) x0 x2 x3 x5 x6 x9 x10 (ix2 b (colO l))) := by
  rw [val_main_v28_apply, val_main_v26_apply, val_main_v24_apply, val_main_v23_apply, val_main_v9_apply, val_main_v27_apply,
    val_main_v25_apply, val_main_cst_4_apply, val_main_cst_3_apply, ix2_of_val (idx_main_v9 (ix2 b l)) b (colO l) rfl rfl]
  rw [Ideal.hostDivf_def, Ideal.addf_def, Ideal.hostUnary_exp_def, Ideal.hostNegf_def, Ideal.negf_def, Ideal.ofBits_def, Ideal.ofBits_one_f32]
  rfl

/-- The new cell state before clipping. -/
theorem v31_eq : val_main_v31 (F := Ideal) x0 x2 x3 x4 x5 x6 x9 x10 = newC (stepZ x0 x2 x3 x5 x6 x9 x10) x4 := by
  funext i
  obtain ⟨b, l, rfl⟩ : ∃ b l, i = ix2 b l := ⟨i 0, i 1, eq_ix2 i⟩
  rw [val_main_v31_apply, val_main_v29_apply, val_main_v30_apply, v21_at, v15_at, v22_at, newC_apply, v5_eq]
  rfl

/-- The reference's new hidden state is the step's. -/
theorem v33_eq : val_main_v33 (F := Ideal) x0 x2 x3 x4 x5 x6 x9 x10 = stepH x0 x2 x3 x4 x5 x6 x9 x10 := by
  funext i
  obtain ⟨b, l, rfl⟩ : ∃ b l, i = ix2 b l := ⟨i 0, i 1, eq_ix2 i⟩
  unfold stepH
  rw [val_main_v33_apply, val_main_v32_apply, v28_at, v31_eq, newH_apply, v5_eq, Ideal.mulf_def, Ideal.hostUnary_tanh_def]

/-- The reference's returned cell state is the step's: the clip is a maximum with −10 followed by a minimum with 10. -/
theorem v34_eq : val_main_v34 (F := Ideal) x0 x2 x3 x4 x5 x6 x9 x10 = stepCout x0 x2 x3 x4 x5 x6 x9 x10 := by
  funext i
  obtain ⟨b, l, rfl⟩ : ∃ b l, i = ix2 b l := ⟨i 0, i 1, eq_ix2 i⟩
  unfold stepCout
  rw [val_main_v34_apply, val_main_call0_v2_apply, val_main_call0_v4_apply, val_main_call0_v1_apply, val_main_call0_v3_apply,
    val_main_call0_v0_apply, val_main_cst_6_apply, val_main_cst_5_apply, v31_eq, newCout_apply]
  rfl

end LSTM

/-! ## Additive attention: the reference's softmax over time, read at a batch row and channel -/

section Attn
open SoftmaxRow Cert.Finite
variable (x0 : (⟨S64x256, .f32⟩ : BufTy).Contents (Elt Ideal)) (x1 : (⟨S64x1024x256, .f32⟩ : BufTy).Contents (Elt Ideal))
  (x2 : (⟨S64x32000, .f32⟩ : BufTy).Contents (Elt Ideal)) (x3 x4 : (⟨S64x128, .f32⟩ : BufTy).Contents (Elt Ideal))
  (x5 : (⟨S32000x64, .f32⟩ : BufTy).Contents (Elt Ideal)) (x6 : (⟨S256x64, .f32⟩ : BufTy).Contents (Elt Ideal))
  (x9 : (⟨S64x512, .f32⟩ : BufTy).Contents (Elt Ideal)) (x10 : (⟨S128x512, .f32⟩ : BufTy).Contents (Elt Ideal))
  (x11 : (⟨S128x256, .f32⟩ : BufTy).Contents (Elt Ideal)) (x12 : (⟨S1x1x256, .f32⟩ : BufTy).Contents (Elt Ideal))

/-- The attention score at `(b, t, ch)`. -/
theorem v41_at (b : Fin 64) (t : Fin 1024) (ch : Fin 256) :
    val_main_v41 (F := Ideal) x0 x1 x2 x3 x4 x5 x6 x9 x10 x11 x12 (ix3 b t ch)
      = attnE (val_main_v33 (F := Ideal) x0 x2 x3 x4 x5 x6 x9 x10) x1 x11 x12 b t ch := by
  rw [val_main_v41_apply, val_main_v40_apply, val_main_v39_apply, val_main_v38_apply, val_main_v37_apply, val_main_v36_apply,
    val_main_v35_apply, ix3_of_val (idx_main_v40 (ix3 b t ch)) 0 0 ch rfl rfl rfl]
  unfold attnE attnH
  rw [Ideal.mulf_def, Ideal.hostUnary_tanh_def, Ideal.addf_def]
  refine congrArg (fun s => x12 (ix3 0 0 ch) * Ideal.tanh (s + x1 (ix3 b t ch))) (Finset.sum_congr rfl fun k _ => ?_)
  rw [ix2_of_val (lidx_main_v35 (idx_main_v36 (idx_main_v37 (ix3 b t ch))) k) b k rfl rfl,
    ix2_of_val (ridx_main_v35 (idx_main_v36 (idx_main_v37 (ix3 b t ch))) k) k ch rfl rfl]

/-- The row maximum the reference subtracts, at `(b, ch)`: the maximum over time of the scores, folded from −∞. -/
theorem v44_at (b : Fin 64) (ch : Fin 256) :
    val_main_v44 (F := Ideal) x0 x1 x2 x3 x4 x5 x6 x9 x10 x11 x12 (ix2 b ch)
      = rowMax (fun t => attnE (val_main_v33 (F := Ideal) x0 x2 x3 x4 x5 x6 x9 x10) x1 x11 x12 b t ch) := by
  have hR : S64x1024x256.Reduces [1] S64x256 := by decide
  rw [val_main_v44_apply, val_main_v43_apply, val_main_cst_8_apply]
  unfold val_main_v42
  rw [Host.reduce_eq_fold_single FloatOps.maximumf _ _ reducesTo_S64x1024x256_S64x256_d1 hR h_S_, val_main_cst_7_apply]
  have hrow : ∀ t : Fin 1024, val_main_v41 (F := Ideal) x0 x1 x2 x3 x4 x5 x6 x9 x10 x11 x12 (hR.lift (ix2 b ch) t)
      = attnE (val_main_v33 (F := Ideal) x0 x2 x3 x4 x5 x6 x9 x10) x1 x11 x12 b t ch := fun t => by
    rw [ix3_of_val (hR.lift (ix2 b ch) t) b t ch rfl rfl rfl, v41_at]
  rw [Ideal.maximumf_def, Ideal.ofBits_def]
  refine Eq.trans (b := max (Ideal.ofBits .f32 0xFF800000#32)
    (rowMax (fun t => attnE (val_main_v33 (F := Ideal) x0 x2 x3 x4 x5 x6 x9 x10) x1 x11 x12 b t ch))) ?_
    (max_eq_right (by rw [negInf]; exact bot_le))
  exact congrArg (fun f => max (Ideal.ofBits .f32 0xFF800000#32)
    (Finset.fold max (Ideal.ofBits .f32 0xFF800000#32) f (Finset.univ : Finset (Fin 1024)))) (funext hrow)

/-- The reference's exponential at `(b, t, ch)`: of the score's distance below the row maximum. -/
theorem v48_at (b : Fin 64) (t : Fin 1024) (ch : Fin 256) :
    val_main_v48 (F := Ideal) x0 x1 x2 x3 x4 x5 x6 x9 x10 x11 x12 (ix3 b t ch)
      = rowExp (fun t => attnE (val_main_v33 (F := Ideal) x0 x2 x3 x4 x5 x6 x9 x10) x1 x11 x12 b t ch) t := by
  rw [val_main_v48_apply, val_main_v47_apply, val_main_v46_apply, val_main_v45_apply, v41_at,
    ix2_of_val (idx_main_v45 (idx_main_v46 (ix3 b t ch))) b ch rfl rfl, v44_at, Ideal.hostUnary_exp_def, Ideal.subf_def]
  rfl

/-- The reference's sum of exponentials at `(b, ch)`. -/
theorem v49_at (b : Fin 64) (ch : Fin 256) :
    val_main_v49 (F := Ideal) x0 x1 x2 x3 x4 x5 x6 x9 x10 x11 x12 (ix2 b ch)
      = ∑ t : Fin 1024, rowExp (fun t => attnE (val_main_v33 (F := Ideal) x0 x2 x3 x4 x5 x6 x9 x10) x1 x11 x12 b t ch) t := by
  rw [val_main_v49_apply, val_main_cst_9_apply, Ideal.ofBits_def, Ideal.ofBits_zero_f32, zero_add]
  refine Finset.sum_congr rfl fun t _ => ?_
  rw [ix3_of_val (idx_main_v49 (ix2 b ch) t) b t ch rfl rfl rfl, v48_at]

/-- The reference's attention weight at `(b, t, ch)`. -/
theorem v52_at (b : Fin 64) (t : Fin 1024) (ch : Fin 256) :
    val_main_v52 (F := Ideal) x0 x1 x2 x3 x4 x5 x6 x9 x10 x11 x12 (ix3 b t ch)
      = rowWt (fun t => attnE (val_main_v33 (F := Ideal) x0 x2 x3 x4 x5 x6 x9 x10) x1 x11 x12 b t ch) t := by
  rw [val_main_v52_apply, val_main_v51_apply, val_main_v50_apply, v48_at,
    ix2_of_val (idx_main_v50 (idx_main_v51 (ix3 b t ch))) b ch rfl rfl, v49_at, Ideal.hostDivf_def]
  rfl

/-- The reference's context vector at `(b, ch)`: the weighted sum of `F` over time. -/
theorem v54_at (b : Fin 64) (ch : Fin 256) :
    val_main_v54 (F := Ideal) x0 x1 x2 x3 x4 x5 x6 x9 x10 x11 x12 (ix2 b ch)
      = ∑ t : Fin 1024, rowWt (fun t => attnE (val_main_v33 (F := Ideal) x0 x2 x3 x4 x5 x6 x9 x10) x1 x11 x12 b t ch) t
          * x1 (ix3 b t ch) := by
  rw [val_main_v54_apply, val_main_cst_10_apply, Ideal.ofBits_def, Ideal.ofBits_zero_f32, zero_add]
  refine Finset.sum_congr rfl fun t _ => ?_
  rw [ix3_of_val (idx_main_v54 (ix2 b ch) t) b t ch rfl rfl rfl, val_main_v53_apply, v52_at, Ideal.mulf_def]

/-- On real inputs the reference's context vector is the step's. -/
theorem v54_eq (h0 : AllReal (s := S64x256) x0) (h1 : AllReal (s := S64x1024x256) x1) (h2 : AllReal (s := S64x32000) x2)
    (h3 : AllReal (s := S64x128) x3) (h4 : AllReal (s := S64x128) x4) (h5 : AllReal (s := S32000x64) x5)
    (h6 : AllReal (s := S256x64) x6) (h9 : AllReal (s := S64x512) x9) (h10 : AllReal (s := S128x512) x10)
    (h11 : AllReal (s := S128x256) x11) (h12 : AllReal (s := S1x1x256) x12) :
    val_main_v54 (F := Ideal) x0 x1 x2 x3 x4 x5 x6 x9 x10 x11 x12 = stepCtx x0 x1 x2 x3 x4 x5 x6 x9 x10 x11 x12 := by
  funext i
  obtain ⟨b, ch, rfl⟩ : ∃ b ch, i = ix2 b ch := ⟨i 0, i 1, eq_ix2 i⟩
  have hnh : AllReal (s := S64x128) (val_main_v33 (F := Ideal) x0 x2 x3 x4 x5 x6 x9 x10) := by
    rw [v33_eq]; exact stepH_real h0 h2 h3 h4 h5 h6 h9 h10
  unfold stepCtx
  rw [v54_at, ctx_apply, ← v33_eq]
  exact weighted_sum_eq (by decide) _ _ (fun t => attnE_real hnh h1 h11 h12 b t ch) (fun t => h1 _)

end Attn

/-! ## The output distribution: the reference's softmax over the vocabulary, read at a batch row and word -/

section Out
open SoftmaxRow Cert.Finite
variable (x0 : (⟨S64x256, .f32⟩ : BufTy).Contents (Elt Ideal)) (x1 : (⟨S64x1024x256, .f32⟩ : BufTy).Contents (Elt Ideal))
  (x2 : (⟨S64x32000, .f32⟩ : BufTy).Contents (Elt Ideal)) (x3 x4 : (⟨S64x128, .f32⟩ : BufTy).Contents (Elt Ideal))
  (x5 : (⟨S32000x64, .f32⟩ : BufTy).Contents (Elt Ideal)) (x6 : (⟨S256x64, .f32⟩ : BufTy).Contents (Elt Ideal))
  (x7 : (⟨S128x32000, .f32⟩ : BufTy).Contents (Elt Ideal)) (x8 : (⟨S256x32000, .f32⟩ : BufTy).Contents (Elt Ideal))
  (x9 : (⟨S64x512, .f32⟩ : BufTy).Contents (Elt Ideal)) (x10 : (⟨S128x512, .f32⟩ : BufTy).Contents (Elt Ideal))
  (x11 : (⟨S128x256, .f32⟩ : BufTy).Contents (Elt Ideal)) (x12 : (⟨S1x1x256, .f32⟩ : BufTy).Contents (Elt Ideal))

/-- The output logit at `(b, v)`. -/
theorem v57_at (b : Fin 64) (v : Fin 32000) :
    val_main_v57 (F := Ideal) x0 x1 x2 x3 x4 x5 x6 x7 x8 x9 x10 x11 x12 (ix2 b v)
      = logit (val_main_v33 (F := Ideal) x0 x2 x3 x4 x5 x6 x9 x10) (val_main_v54 (F := Ideal) x0 x1 x2 x3 x4 x5 x6 x9 x10 x11 x12)
          x7 x8 b v := by
  rw [val_main_v57_apply, val_main_v55_apply, val_main_v56_apply, Ideal.addf_def]
  unfold logit
  refine congrArg₂ (· + ·) (Finset.sum_congr rfl fun k _ => ?_) (Finset.sum_congr rfl fun k _ => ?_)
  · rw [ix2_of_val (lidx_main_v55 (ix2 b v) k) b k rfl rfl, ix2_of_val (ridx_main_v55 (ix2 b v) k) k v rfl rfl]
  · rw [ix2_of_val (lidx_main_v56 (ix2 b v) k) b k rfl rfl, ix2_of_val (ridx_main_v56 (ix2 b v) k) k v rfl rfl]

/-- The row maximum the reference subtracts, at batch row `b`: the maximum over the vocabulary, folded from −∞. -/
theorem v60_at (b : Fin 64) :
    val_main_v60 (F := Ideal) x0 x1 x2 x3 x4 x5 x6 x7 x8 x9 x10 x11 x12 (ix1 b)
      = rowMax (fun v => logit (val_main_v33 (F := Ideal) x0 x2 x3 x4 x5 x6 x9 x10)
          (val_main_v54 (F := Ideal) x0 x1 x2 x3 x4 x5 x6 x9 x10 x11 x12) x7 x8 b v) := by
  have hR : S64x32000.Reduces [1] S64 := by decide
  rw [val_main_v60_apply, val_main_v59_apply, val_main_cst_12_apply]
  unfold val_main_v58
  rw [Host.reduce_eq_fold_single FloatOps.maximumf _ _ reducesTo_S64x32000_S64_d1 hR h_S_, val_main_cst_11_apply]
  have hrow : ∀ v : Fin 32000, val_main_v57 (F := Ideal) x0 x1 x2 x3 x4 x5 x6 x7 x8 x9 x10 x11 x12 (hR.lift (ix1 b) v)
      = logit (val_main_v33 (F := Ideal) x0 x2 x3 x4 x5 x6 x9 x10) (val_main_v54 (F := Ideal) x0 x1 x2 x3 x4 x5 x6 x9 x10 x11 x12)
          x7 x8 b v := fun v => by
    rw [ix2_of_val (hR.lift (ix1 b) v) b v rfl rfl, v57_at]
  rw [Ideal.maximumf_def, Ideal.ofBits_def]
  refine Eq.trans (b := max (Ideal.ofBits .f32 0xFF800000#32)
    (rowMax (fun v => logit (val_main_v33 (F := Ideal) x0 x2 x3 x4 x5 x6 x9 x10)
      (val_main_v54 (F := Ideal) x0 x1 x2 x3 x4 x5 x6 x9 x10 x11 x12) x7 x8 b v))) ?_
    (max_eq_right (by rw [negInf]; exact bot_le))
  exact congrArg (fun f => max (Ideal.ofBits .f32 0xFF800000#32)
    (Finset.fold max (Ideal.ofBits .f32 0xFF800000#32) f (Finset.univ : Finset (Fin 32000)))) (funext hrow)

/-- The reference's exponential at `(b, v)`. -/
theorem v64_at (b : Fin 64) (v : Fin 32000) :
    val_main_v64 (F := Ideal) x0 x1 x2 x3 x4 x5 x6 x7 x8 x9 x10 x11 x12 (ix2 b v)
      = rowExp (fun v => logit (val_main_v33 (F := Ideal) x0 x2 x3 x4 x5 x6 x9 x10)
          (val_main_v54 (F := Ideal) x0 x1 x2 x3 x4 x5 x6 x9 x10 x11 x12) x7 x8 b v) v := by
  rw [val_main_v64_apply, val_main_v63_apply, val_main_v62_apply, val_main_v61_apply, v57_at,
    ix1_of_val (idx_main_v61 (idx_main_v62 (ix2 b v))) b rfl, v60_at, Ideal.hostUnary_exp_def, Ideal.subf_def]
  rfl

/-- The reference's sum of exponentials at batch row `b`. -/
theorem v65_at (b : Fin 64) :
    val_main_v65 (F := Ideal) x0 x1 x2 x3 x4 x5 x6 x7 x8 x9 x10 x11 x12 (ix1 b)
      = ∑ v : Fin 32000, rowExp (fun v => logit (val_main_v33 (F := Ideal) x0 x2 x3 x4 x5 x6 x9 x10)
          (val_main_v54 (F := Ideal) x0 x1 x2 x3 x4 x5 x6 x9 x10 x11 x12) x7 x8 b v) v := by
  rw [val_main_v65_apply, val_main_cst_13_apply, Ideal.ofBits_def, Ideal.ofBits_zero_f32, zero_add]
  refine Finset.sum_congr rfl fun v _ => ?_
  rw [ix2_of_val (idx_main_v65 (ix1 b) v) b v rfl rfl, v64_at]

/-- The reference's output distribution at `(b, v)`: the softmax weight of the logit in its row. -/
theorem v68_at (b : Fin 64) (v : Fin 32000) :
    val_main_v68 (F := Ideal) x0 x1 x2 x3 x4 x5 x6 x7 x8 x9 x10 x11 x12 (ix2 b v)
      = rowWt (fun v => logit (val_main_v33 (F := Ideal) x0 x2 x3 x4 x5 x6 x9 x10)
          (val_main_v54 (F := Ideal) x0 x1 x2 x3 x4 x5 x6 x9 x10 x11 x12) x7 x8 b v) v := by
  rw [val_main_v68_apply, val_main_v67_apply, val_main_v66_apply, v64_at,
    ix1_of_val (idx_main_v66 (idx_main_v67 (ix2 b v))) b rfl, v65_at, Ideal.hostDivf_def]
  rfl

/-- On real inputs the reference's output distribution is the step's. -/
theorem v68_eq (h0 : AllReal (s := S64x256) x0) (h1 : AllReal (s := S64x1024x256) x1) (h2 : AllReal (s := S64x32000) x2)
    (h3 : AllReal (s := S64x128) x3) (h4 : AllReal (s := S64x128) x4) (h5 : AllReal (s := S32000x64) x5)
    (h6 : AllReal (s := S256x64) x6) (h7 : AllReal (s := S128x32000) x7) (h8 : AllReal (s := S256x32000) x8)
    (h9 : AllReal (s := S64x512) x9) (h10 : AllReal (s := S128x512) x10)
    (h11 : AllReal (s := S128x256) x11) (h12 : AllReal (s := S1x1x256) x12) :
    val_main_v68 (F := Ideal) x0 x1 x2 x3 x4 x5 x6 x7 x8 x9 x10 x11 x12 = stepOut x0 x1 x2 x3 x4 x5 x6 x7 x8 x9 x10 x11 x12 := by
  funext i
  obtain ⟨b, v, rfl⟩ : ∃ b v, i = ix2 b v := ⟨i 0, i 1, eq_ix2 i⟩
  have hrow : ∀ u : Fin 32000, IsReal (logit (stepH x0 x2 x3 x4 x5 x6 x9 x10) (stepCtx x0 x1 x2 x3 x4 x5 x6 x9 x10 x11 x12) x7 x8 b u) :=
    fun u => logit_real (stepH_real h0 h2 h3 h4 h5 h6 h9 h10) (stepCtx_real h0 h1 h2 h3 h4 h5 h6 h9 h10 h11 h12) h7 h8 b u
  rw [v68_at, v33_eq, v54_eq x0 x1 x2 x3 x4 x5 x6 x9 x10 x11 x12 h0 h1 h2 h3 h4 h5 h6 h9 h10 h11 h12,
    rowWt_eq_plain (by decide) _ hrow v, sum_halves]
  unfold stepOut stepRaw
  rw [norm_apply, total_apply, halfSums_apply, halfSums_apply]
  rfl

end Out

/-! ## The reference's four results, for a launch memory and a device -/

section Final
open Cert.Finite Cert.ReferenceIdeal.Value
variable (m' : (ℓ : Loc nD τ sig) → Buf (Elt Ideal) ℓ) (c : Dev nD)

/-- Every entry of each of the thirteen argument arrays of the launch memory, on device `c`, is real. -/
def ArgsReal : Prop :=
  AllReal (s := S64x256) (m' ((c.tc : Thread nD τ).loc main_arg0)) ∧ AllReal (s := S64x1024x256) (m' ((c.tc : Thread nD τ).loc main_arg1))
    ∧ AllReal (s := S64x32000) (m' ((c.tc : Thread nD τ).loc main_arg2)) ∧ AllReal (s := S64x128) (m' ((c.tc : Thread nD τ).loc main_arg3))
    ∧ AllReal (s := S64x128) (m' ((c.tc : Thread nD τ).loc main_arg4)) ∧ AllReal (s := S32000x64) (m' ((c.tc : Thread nD τ).loc main_arg5))
    ∧ AllReal (s := S256x64) (m' ((c.tc : Thread nD τ).loc main_arg6)) ∧ AllReal (s := S128x32000) (m' ((c.tc : Thread nD τ).loc main_arg7))
    ∧ AllReal (s := S256x32000) (m' ((c.tc : Thread nD τ).loc main_arg8)) ∧ AllReal (s := S64x512) (m' ((c.tc : Thread nD τ).loc main_arg9))
    ∧ AllReal (s := S128x512) (m' ((c.tc : Thread nD τ).loc main_arg10)) ∧ AllReal (s := S128x256) (m' ((c.tc : Thread nD τ).loc main_arg11))
    ∧ AllReal (s := S1x1x256) (m' ((c.tc : Thread nD τ).loc main_arg12))

/-- The printed finiteness precondition of the launch memory (the body of the claim's precondition on the reference's
    memory) makes every argument entry real. -/
theorem argsReal_of_pre [Cert.Pre_finite_inputs.Facts]
    (hfin : ∀ c : Dev nD, Cert.Pre_finite_inputs.fn (F := Ideal) (m' ((c.tc : Thread nD τ).loc main_arg0))
      (m' ((c.tc : Thread nD τ).loc main_arg1)) (m' ((c.tc : Thread nD τ).loc main_arg2)) (m' ((c.tc : Thread nD τ).loc main_arg3))
      (m' ((c.tc : Thread nD τ).loc main_arg4)) (m' ((c.tc : Thread nD τ).loc main_arg5)) (m' ((c.tc : Thread nD τ).loc main_arg6))
      (m' ((c.tc : Thread nD τ).loc main_arg7)) (m' ((c.tc : Thread nD τ).loc main_arg8)) (m' ((c.tc : Thread nD τ).loc main_arg9))
      (m' ((c.tc : Thread nD τ).loc main_arg10)) (m' ((c.tc : Thread nD τ).loc main_arg11)) (m' ((c.tc : Thread nD τ).loc main_arg12))
      = fun _ => 1#1) : ArgsReal m' c :=
  Cert.Finite.of_pre _ _ _ _ _ _ _ _ _ _ _ _ _ (hfin c)

/-- Result 0, the output distribution: on real arguments the reference's is the step's. -/
theorem ref_out0 (hr : ArgsReal m' c) :
    res_main_v68 m' c = stepOut (m' ((c.tc : Thread nD τ).loc main_arg0)) (m' ((c.tc : Thread nD τ).loc main_arg1))
      (m' ((c.tc : Thread nD τ).loc main_arg2)) (m' ((c.tc : Thread nD τ).loc main_arg3)) (m' ((c.tc : Thread nD τ).loc main_arg4))
      (m' ((c.tc : Thread nD τ).loc main_arg5)) (m' ((c.tc : Thread nD τ).loc main_arg6)) (m' ((c.tc : Thread nD τ).loc main_arg7))
      (m' ((c.tc : Thread nD τ).loc main_arg8)) (m' ((c.tc : Thread nD τ).loc main_arg9)) (m' ((c.tc : Thread nD τ).loc main_arg10))
      (m' ((c.tc : Thread nD τ).loc main_arg11)) (m' ((c.tc : Thread nD τ).loc main_arg12)) := by
  obtain ⟨h0, h1, h2, h3, h4, h5, h6, h7, h8, h9, h10, h11, h12⟩ := hr
  exact (val_main_v68_eq m' c).trans (v68_eq _ _ _ _ _ _ _ _ _ _ _ _ _ h0 h1 h2 h3 h4 h5 h6 h7 h8 h9 h10 h11 h12)

/-- Result 1, the context vector: on real arguments the reference's is the step's. -/
theorem ref_out1 (hr : ArgsReal m' c) :
    res_main_v54 m' c = stepCtx (m' ((c.tc : Thread nD τ).loc main_arg0)) (m' ((c.tc : Thread nD τ).loc main_arg1))
      (m' ((c.tc : Thread nD τ).loc main_arg2)) (m' ((c.tc : Thread nD τ).loc main_arg3)) (m' ((c.tc : Thread nD τ).loc main_arg4))
      (m' ((c.tc : Thread nD τ).loc main_arg5)) (m' ((c.tc : Thread nD τ).loc main_arg6)) (m' ((c.tc : Thread nD τ).loc main_arg9))
      (m' ((c.tc : Thread nD τ).loc main_arg10)) (m' ((c.tc : Thread nD τ).loc main_arg11)) (m' ((c.tc : Thread nD τ).loc main_arg12)) := by
  obtain ⟨h0, h1, h2, h3, h4, h5, h6, h7, h8, h9, h10, h11, h12⟩ := hr
  exact (val_main_v54_eq m' c).trans (v54_eq _ _ _ _ _ _ _ _ _ _ _ h0 h1 h2 h3 h4 h5 h6 h9 h10 h11 h12)

/-- Result 2, the new hidden state: the reference's is the step's (no hypothesis). -/
theorem ref_out2 :
    val_main_v33 (F := Ideal) (m' ((c.tc : Thread nD τ).loc main_arg0)) (m' ((c.tc : Thread nD τ).loc main_arg2))
        (m' ((c.tc : Thread nD τ).loc main_arg3)) (m' ((c.tc : Thread nD τ).loc main_arg4)) (m' ((c.tc : Thread nD τ).loc main_arg5))
        (m' ((c.tc : Thread nD τ).loc main_arg6)) (m' ((c.tc : Thread nD τ).loc main_arg9)) (m' ((c.tc : Thread nD τ).loc main_arg10))
      = stepH (m' ((c.tc : Thread nD τ).loc main_arg0)) (m' ((c.tc : Thread nD τ).loc main_arg2))
        (m' ((c.tc : Thread nD τ).loc main_arg3)) (m' ((c.tc : Thread nD τ).loc main_arg4)) (m' ((c.tc : Thread nD τ).loc main_arg5))
        (m' ((c.tc : Thread nD τ).loc main_arg6)) (m' ((c.tc : Thread nD τ).loc main_arg9)) (m' ((c.tc : Thread nD τ).loc main_arg10)) :=
  v33_eq _ _ _ _ _ _ _ _

/-- Result 3, the returned cell state: the reference's is the step's (no hypothesis). -/
theorem ref_out3 :
    val_main_v34 (F := Ideal) (m' ((c.tc : Thread nD τ).loc main_arg0)) (m' ((c.tc : Thread nD τ).loc main_arg2))
        (m' ((c.tc : Thread nD τ).loc main_arg3)) (m' ((c.tc : Thread nD τ).loc main_arg4)) (m' ((c.tc : Thread nD τ).loc main_arg5))
        (m' ((c.tc : Thread nD τ).loc main_arg6)) (m' ((c.tc : Thread nD τ).loc main_arg9)) (m' ((c.tc : Thread nD τ).loc main_arg10))
      = stepCout (m' ((c.tc : Thread nD τ).loc main_arg0)) (m' ((c.tc : Thread nD τ).loc main_arg2))
        (m' ((c.tc : Thread nD τ).loc main_arg3)) (m' ((c.tc : Thread nD τ).loc main_arg4)) (m' ((c.tc : Thread nD τ).loc main_arg5))
        (m' ((c.tc : Thread nD τ).loc main_arg6)) (m' ((c.tc : Thread nD τ).loc main_arg9)) (m' ((c.tc : Thread nD τ).loc main_arg10)) :=
  v34_eq _ _ _ _ _ _ _ _

end Final

end Cert.RefSpec

end
-- ==== Proof.Algebraic.lean ====
/-
  The two idealized programs compute one function of the arguments.

  The kernel program's four results are the specification's functions of the thirteen arguments (the run of its four
  regions); the reference's four results are the same functions when every argument entry is a real number, which the
  precondition says: its softmaxes subtract a row maximum that cancels between numerator and denominator, and its
  sigmoids are spelled out as quotients.
-/
import proofs.«122264_j82798379533062_2_alg».proof.Defs
import proofs.«122264_j82798379533062_2_alg».proof.Proof.Gen.Pre_finite_inputs
import proofs.«122264_j82798379533062_2_alg».proof.Proof.KernelValue
import proofs.«122264_j82798379533062_2_alg».proof.Proof.RefSpec
import proofs.«122264_j82798379533062_2_alg».proof.Proof.Finite

set_option maxRecDepth 16384

noncomputable section

namespace Cert.Proof.Algebraic

open Idealize.ShloMosaic Idealize.SL.Sem

set_option maxHeartbeats 2000000 in
theorem algebraic : Cert.algebraic_KernelIdeal_ReferenceIdeal := by
  intro m ρ m' ρ' hpre hagree
  refine ⟨_, _, _, _, Cert.Proof.KernelValue.run m ρ, ?_⟩
  refine (θ_run (Cert.ReferenceIdeal.defs (F := Ideal)) _ _).mono (fun r h c => ?_)
    (Cert.ReferenceIdeal.Value.run (F := Ideal) m' ρ')
  obtain ⟨e0, e1, e2, e3, e4, e5, e6, e7, e8, e9, e10, e11, e12⟩ := hagree c
  obtain ⟨r0, r1, r2, r3, r4, r5, r6, r7, r8, r9, r10, r11, r12⟩ := Cert.Finite.of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (hpre c)
  refine ⟨(h c).1.trans ?_, (h c).2.1.trans ?_, (h c).2.2.1.trans ?_, (h c).2.2.2.1.trans ?_, (h c).2.2.2.2⟩
  · rw [Cert.ReferenceIdeal.Read.val_main_v68_eq, e0, e1, e2, e3, e4, e5, e6, e7, e8, e9, e10, e11, e12]
    exact Cert.RefSpec.v68_eq _ _ _ _ _ _ _ _ _ _ _ _ _ r0 r1 r2 r3 r4 r5 r6 r7 r8 r9 r10 r11 r12
  · rw [Cert.ReferenceIdeal.Read.val_main_v54_eq, e0, e1, e2, e3, e4, e5, e6, e9, e10, e11, e12]
    exact Cert.RefSpec.v54_eq _ _ _ _ _ _ _ _ _ _ _ r0 r1 r2 r3 r4 r5 r6 r9 r10 r11 r12
  · refine (Cert.ReferenceIdeal.Read.val_main_v33_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))).trans ?_
    refine (Cert.RefSpec.v33_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))).trans ?_
    rw [e0, e2, e3, e4, e5, e6, e9, e10]
  · refine (Cert.ReferenceIdeal.Read.val_main_v34_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))).trans ?_
    refine (Cert.RefSpec.v34_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))).trans ?_
    rw [e0, e2, e3, e4, e5, e6, e9, e10]

end Cert.Proof.Algebraic

end
-- ==== Proof.lean ====
/-
  One step of an attention decoder — an LSTM cell, additive attention over the encoder's time axis, a softmax over the
  vocabulary — computed by four kernel regions against its plain reference.

  The three frames: each program runs to the end without a fault and leaves its thirteen argument arrays as launched
  (the kernel program through its four regions and the host operations that add the two half sums; the reference as one
  line of host operations).  The idealization rewrote nothing.  At the extended reals both programs end with the same
  four arrays: the specification's output distribution, attention context, new hidden state and clipped cell state.
-/
import proofs.«122264_j82798379533062_2_alg».proof.Defs
import proofs.«122264_j82798379533062_2_alg».proof.Proof.Gen.Kernel
import proofs.«122264_j82798379533062_2_alg».proof.Proof.Gen.KernelIdeal
import proofs.«122264_j82798379533062_2_alg».proof.Proof.Gen.ReferenceIdeal
import proofs.«122264_j82798379533062_2_alg».proof.Proof.Gen.Pre_finite_inputs
import proofs.«122264_j82798379533062_2_alg».proof.Proof.Frames
import proofs.«122264_j82798379533062_2_alg».proof.Proof.Algebraic

noncomputable section

namespace Cert.Proof

theorem claim : Cert.Claim :=
  ⟨Cert.Kernel.Gen.facts, Cert.KernelIdeal.Gen.facts, Cert.ReferenceIdeal.Gen.facts, Cert.Pre_finite_inputs.Gen.facts,
    Frames.frame_k, Frames.frame_ki, Frames.frame_ri, trivial, Algebraic.algebraic⟩

end Cert.Proof

end
